-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v35) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S2048x256 : Shape := ⟨2, ![2048, 256]⟩
abbrev S256x256 : Shape := ⟨2, ![256, 256]⟩
abbrev S256 : Shape := ⟨1, ![256]⟩
abbrev S8192x192 : Shape := ⟨2, ![8192, 192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S8192x192 : S_.BroadcastsInDim S8192x192 (![] : Fin 0 → Fin S8192x192.rank)
  reducesTo_S8192x192_S_d0_1 : S8192x192.ReducesTo [0, 1] S_

variable [Facts]

def fn_part1 {F : FTy → Type} [FloatOps F] (main_arg4 : FVec F S8192x192 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S8192x192 .f32 := Host.absf main_arg4
  let main_cst_6 : FVec F S_ .f32 := constant S_ .f32 0x7F800000#32
  let main_v20 : FVec F S8192x192 .f32 := broadcastInDim S8192x192 ![] bcast_S_S8192x192 main_cst_6
  let main_v21 : IVec S8192x192 1 := cmpf .olt main_v19 main_v20
  let main_c_7 : IVec S_ 1 := constantI S_ 1 1#1
  let main_v22 : IVec S_ 1 := (fun x v => Host.reduce IntOp.andi x v reducesTo_S8192x192_S_d0_1 h_S_) main_v21 main_c_7
  let main_v23 : IVec S_ 1 := andi main_v18 main_v22
  main_v23

def fn {F : FTy → Type} [FloatOps F] (main_arg0 : FVec F S8192x256 .f32) (main_arg1 : FVec F S2048x256 .f32) (main_arg2 : FVec F S256x256 .f32) (main_arg3 : FVec F S256 .f32) (main_arg4 : FVec F S8192x192 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_v13 main_v16
-- ==== Kernel.lean ====
abbrev S8192x256 : Shape := ⟨2, ![8192, 256]⟩
abbrev S2048x256 : Shape := ⟨2, ![2048, 256]⟩
abbrev S256x256 : Shape := ⟨2, ![256, 256]⟩
abbrev S256 : Shape := ⟨1, ![256]⟩
abbrev S8192x192 : Shape := ⟨2, ![8192, 192]⟩
abbrev S512x256 : Shape := ⟨2, ![512, 256]⟩
abbrev S1x256 : Shape := ⟨2, ![1, 256]⟩
abbrev S8192x64 : Shape := ⟨2, ![8192, 64]⟩
abbrev S2048x64 : Shape := ⟨2, ![2048, 64]⟩
abbrev S_ : Shape := ⟨0, ![]⟩
abbrev S128x64 : Shape := ⟨2, ![128, 64]⟩
abbrev S128 : Shape := ⟨1, ![128]⟩
abbrev S128x1 : Shape := ⟨2, ![128, 1]⟩
abbrev S8192 : Shape := ⟨1, ![8192]⟩
abbrev S8192x1 : Shape := ⟨2, ![8192, 1]⟩
abbrev S64x8192 : Shape := ⟨2, ![64, 8192]⟩
abbrev S128x8192 : Shape := ⟨2, ![128, 8192]⟩
abbrev S1x8192 : Shape := ⟨2, ![1, 8192]⟩

abbrev nBuf : Space → Nat
  | .hbm => 67
  | .vmem => 90
  | .smem => 0
  | _ => 0

abbrev bufTy : (tb : Table) → Fin (tcTables nBuf tb) → BufTy
  | .hbm, ⟨0, _⟩ => ⟨S8192x256, .f32⟩
  | .hbm, ⟨1, _⟩ => ⟨S2048x256, .f32⟩
  | .hbm, ⟨2, _⟩ => ⟨S256x256, .f32⟩
  | .hbm, ⟨3, _⟩ => ⟨S256, .f32⟩
  | .hbm, ⟨4, _⟩ => ⟨S8192x192, .f32⟩
  | .hbm, ⟨5, _⟩ => ⟨S8192x256, .f32⟩
  | .hbm, ⟨6, _⟩ => ⟨S2048x256, .f32⟩
  | .hbm, ⟨7, _⟩ => ⟨S8192x64, .f32⟩
  | .hbm, ⟨8, _⟩ => ⟨S8192x64, .f32⟩
  | .hbm, ⟨9, _⟩ => ⟨S8192x64, .f32⟩
  | .hbm, ⟨10, _⟩ => ⟨S8192x64, .f32⟩
  | .hbm, ⟨11, _⟩ => ⟨S2048x64, .f32⟩
  | .hbm, ⟨12, _⟩ => ⟨S2048x64, .f32⟩
  | .hbm, ⟨13, _⟩ => ⟨S2048x64, .f32⟩
  | .hbm, ⟨14, _⟩ => ⟨S2048x64, .f32⟩
  | .hbm, ⟨15, _⟩ => ⟨S8192x64, .f32⟩
  | .hbm, ⟨16, _⟩ => ⟨S8192x64, .f32⟩
  | .hbm, ⟨17, _⟩ => ⟨S8192x64, .f32⟩
  | .hbm, ⟨18, _⟩ => ⟨S_, .f32⟩
  | .hbm, ⟨19, _⟩ => ⟨S8192x64, .f32⟩
  | .hbm, ⟨20, _⟩ => ⟨S_, .f32⟩
  | .hbm, ⟨21, _⟩ => ⟨S8192x64, .f32⟩
  | .hbm, ⟨22, _⟩ => ⟨S_, .f32⟩
  | .hbm, ⟨23, _⟩ => ⟨S8192x64, .f32⟩
  | .hbm, ⟨24, _⟩ => ⟨S8192x64, .f32⟩
  | .hbm, ⟨25, _⟩ => ⟨S8192x64, .f32⟩
  | .hbm, ⟨26, _⟩ => ⟨S8192x64, .f32⟩
  | .hbm, ⟨27, _⟩ => ⟨S8192x64, .f32⟩
  | .hbm, ⟨28, _⟩ => ⟨S8192x64, .f32⟩
  | .hbm, ⟨29, _⟩ => ⟨S8192x64, .f32⟩
  | .hbm, ⟨30, _⟩ => ⟨S8192x64, .f32⟩
  | .hbm, ⟨31, _⟩ => ⟨S8192x64, .f32⟩
  | .hbm, ⟨32, _⟩ => ⟨S8192x64, .f32⟩
  | .hbm, ⟨33, _⟩ => ⟨S256x256, .f32⟩
  | .hbm, ⟨34, _⟩ => ⟨S_, .f32⟩
  | .hbm, ⟨35, _⟩ => ⟨S_, .f32⟩
  | .hbm, ⟨36, _⟩ => ⟨S256, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192x64, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8192x64, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S8192x64, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S2048x64, .f32⟩
  | .hbm, ⟨54, _⟩ => ⟨S_, .f32⟩
  | .hbm, ⟨55, _⟩ => ⟨S2048x64, .f32⟩
  | .hbm, ⟨56, _⟩ => ⟨S_, .f32⟩
  | .hbm, ⟨57, _⟩ => ⟨S2048x64, .f32⟩
  | .hbm, ⟨58, _⟩ => ⟨S2048x64, .f32⟩
  | .hbm, ⟨59, _⟩ => ⟨S2048x64, .f32⟩
  | .hbm, ⟨60, _⟩ => ⟨S2048x64, .f32⟩
  | .hbm, ⟨61, _⟩ => ⟨S2048x64, .f32⟩
  | .hbm, ⟨62, _⟩ => ⟨S2048x64, .f32⟩
  | .hbm, ⟨63, _⟩ => ⟨S2048x64, .f32⟩
  | .hbm, ⟨64, _⟩ => ⟨S2048x64, .f32⟩
  | .hbm, ⟨65, _⟩ => ⟨S2048x64, .f32⟩
  | .hbm, ⟨66, _⟩ => ⟨S2048x64, .f32⟩
  | .local _ .vmem, ⟨0, _⟩ => ⟨S512x256, .f32⟩
  | .local _ .vmem, ⟨1, _⟩ => ⟨S512x256, .f32⟩
  | .local _ .vmem, ⟨2, _⟩ => ⟨S256x256, .f32⟩
  | .local _ .vmem, ⟨3, _⟩ => ⟨S256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S256x256, .f32⟩
  | .local _ .vmem, ⟨9, _⟩ => ⟨S256, .f32⟩
  | .local _ .vmem, ⟨10, _⟩ => ⟨S512x256, .f32⟩
  | .local _ .vmem, ⟨11, _⟩ => ⟨S512x256, .f32⟩
  | .local _ .vmem, ⟨12, _⟩ => ⟨S128x64, .f32⟩
  | .local _ .vmem, ⟨13, _⟩ => ⟨S128x64, .f32⟩
  | .local _ .vmem, ⟨14, _⟩ => ⟨S8192x64, .f32⟩
  | .local _ .vmem, ⟨15, _⟩ => ⟨S8192x64, .f32⟩
  | .local _ .vmem, ⟨16, _⟩ => ⟨S8192x64, .f32⟩
  | .local _ .vmem, ⟨17, _⟩ => ⟨S8192x64, .f32⟩
  | .local _ .vmem, ⟨18, _⟩ => ⟨S128x64, .f32⟩
  | .local _ .vmem, ⟨19, _⟩ => ⟨S128x64, .f32⟩
  | .local _ .vmem, ⟨20, _⟩ => ⟨S128x64, .f32⟩
  | .local _ .vmem, ⟨21, _⟩ => ⟨S128x64, .f32⟩
  | .local _ .vmem, ⟨22, _⟩ => ⟨S128x64, .f32⟩
  | .local _ .vmem, ⟨23, _⟩ => ⟨S128x64, .f32⟩
  | .local _ .vmem, ⟨24, _⟩ => ⟨S128x64, .f32⟩
  | .local _ .vmem, ⟨25, _⟩ => ⟨S128x64, .f32⟩
  | .local _ .vmem, ⟨26, _⟩ => ⟨S128x64, .f32⟩
  | .local _ .vmem, ⟨27, _⟩ => ⟨S128x64, .f32⟩
  | .local _ .vmem, ⟨28, _⟩ => ⟨S128x64, .f32⟩
  | .local _ .vmem, ⟨29, _⟩ => ⟨S128x64, .f32⟩
  | .local _ .vmem, ⟨30, _⟩ => ⟨S128x64, .f32⟩
  | .local _ .vmem, ⟨31, _⟩ => ⟨S128x64, .f32⟩
  | .local _ .vmem, ⟨32, _⟩ => ⟨S8192x64, .f32⟩
  | .local _ .vmem, ⟨33, _⟩ => ⟨S8192x64, .f32⟩
  | .local _ .vmem, ⟨34, _⟩ => ⟨S8192x64, .f32⟩
  | .local _ .vmem, ⟨35, _⟩ => ⟨S128x64, .f32⟩
  | .local _ .vmem, ⟨36, _⟩ => ⟨S128x64, .f32⟩
  | .local _ .vmem, ⟨37, _⟩ => ⟨S128x64, .f32⟩
  | .local _ .vmem, ⟨38, _⟩ => ⟨S128x64, .f32⟩
  | .local _ .vmem, ⟨39, _⟩ => ⟨S128x64, .f32⟩
  | .local _ .vmem, ⟨40, _⟩ => ⟨S128x64, .f32⟩
  | .local _ .vmem, ⟨41, _⟩ => ⟨S128x64, .f32⟩
  | .local _ .vmem, ⟨42, _⟩ => ⟨S128x64, .f32⟩
  | .local _ .vmem, ⟨43, _⟩ => ⟨S128x64, .f32⟩
  | .local _ .vmem, ⟨44, _⟩ => ⟨S128x64, .f32⟩
  | .local _ .vmem, ⟨45, _⟩ => ⟨S8192x64, .f32⟩
  | .local _ .vmem, ⟨46, _⟩ => ⟨S8192x64, .f32⟩
  | .local _ .vmem, ⟨47, _⟩ => ⟨S128x64, .f32⟩
  | .local _ .vmem, ⟨48, _⟩ => ⟨S128x64, .f32⟩
  | .local _ .vmem, ⟨49, _⟩ => ⟨S128x64, .f32⟩
  | .local _ .vmem, ⟨50, _⟩ => ⟨S128x64, .f32⟩
  | .local _ .vmem, ⟨51, _⟩ => ⟨S128x64, .f32⟩
  | .local _ .vmem, ⟨52, _⟩ => ⟨S128x64, .f32⟩
  | .local _ .vmem, ⟨53, _⟩ => ⟨S8192x64, .f32⟩
  | .local _ .vmem, ⟨54, _⟩ => ⟨S8192x64, .f32⟩
  | .local _ .vmem, ⟨55, _⟩ => ⟨S8192x64, .f32⟩
  | .local _ .vmem, ⟨56, _⟩ => ⟨S8192x64, .f32⟩
  | .local _ .vmem, ⟨57, _⟩ => ⟨S128x64, .f32⟩
  | .local _ .vmem, ⟨58, _⟩ => ⟨S128x64, .f32⟩
  | .local _ .vmem, ⟨59, _⟩ => ⟨S128x64, .f32⟩
  | .local _ .vmem, ⟨60, _⟩ => ⟨S128x64, .f32⟩
  | .local _ .vmem, ⟨61, _⟩ => ⟨S128x64, .f32⟩
  | .local _ .vmem, ⟨62, _⟩ => ⟨S128x64, .f32⟩
  | .local _ .vmem, ⟨63, _⟩ => ⟨S128x64, .f32⟩
  | .local _ .vmem, ⟨64, _⟩ => ⟨S128x64, .f32⟩
  | .local _ .vmem, ⟨65, _⟩ => ⟨S128x64, .f32⟩
  | .local _ .vmem, ⟨66, _⟩ => ⟨S128x64, .f32⟩
  | .local _ .vmem, ⟨67, _⟩ => ⟨S128x64, .f32⟩
  | .local _ .vmem, ⟨68, _⟩ => ⟨S128x64, .f32⟩
  | .local _ .vmem, ⟨69, _⟩ => ⟨S128x64, .f32⟩
  | .local _ .vmem, ⟨70, _⟩ => ⟨S128x64, .f32⟩
  | .local _ .vmem, ⟨71, _⟩ => ⟨S8192x64, .f32⟩
  | .local _ .vmem, ⟨72, _⟩ => ⟨S8192x64, .f32⟩
  | .local _ .vmem, ⟨73, _⟩ => ⟨S8192x64, .f32⟩
  | .local _ .vmem, ⟨74, _⟩ => ⟨S128x64, .f32⟩
  | .local _ .vmem, ⟨75, _⟩ => ⟨S128x64, .f32⟩
  | .local _ .vmem, ⟨76, _⟩ => ⟨S128x64, .f32⟩
  | .local _ .vmem, ⟨77, _⟩ => ⟨S128x64, .f32⟩
  | .local _ .vmem, ⟨78, _⟩ => ⟨S128x64, .f32⟩
  | .local _ .vmem, ⟨79, _⟩ => ⟨S128x64, .f32⟩
  | .local _ .vmem, ⟨80, _⟩ => ⟨S128x64, .f32⟩
  | .local _ .vmem, ⟨81, _⟩ => ⟨S128x64, .f32⟩
  | .local _ .vmem, ⟨82, _⟩ => ⟨S128x64, .f32⟩
  | .local _ .vmem, ⟨83, _⟩ => ⟨S128x64, .f32⟩
  | .local _ .vmem, ⟨84, _⟩ => ⟨S8192x64, .f32⟩
  | .local _ .vmem, ⟨85, _⟩ => ⟨S8192x64, .f32⟩
  | .local _ .vmem, ⟨86, _⟩ => ⟨S128x64, .f32⟩
  | .local _ .vmem, ⟨87, _⟩ => ⟨S128x64, .f32⟩
  | .local _ .vmem, ⟨88, _⟩ => ⟨S128x64, .f32⟩
  | .local _ .vmem, ⟨89, _⟩ => ⟨S128x64, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39_0 : Ref sig .tc := ⟨.hbm, 58, rfl⟩
abbrev main_v39_1 : Ref sig .tc := ⟨.hbm, 59, rfl⟩
abbrev main_v39_2 : Ref sig .tc := ⟨.hbm, 60, rfl⟩
abbrev main_v40 : Ref sig .tc := ⟨.hbm, 61, rfl⟩
abbrev main_v41_0 : Ref sig .tc := ⟨.hbm, 62, rfl⟩
abbrev main_v41_1 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc2_stg6_0 : Ref sig .tc := ⟨.vmem, 20, rfl⟩
abbrev cc2_stg6_1 : Ref sig .tc := ⟨.vmem, 21, rfl⟩
abbrev cc2_stg7_0 : Ref sig .tc := ⟨.vmem, 22, rfl⟩
abbrev cc2_stg7_1 : Ref sig .tc := ⟨.vmem, 23, rfl⟩
abbrev cc2_stg8_0 : Ref sig .tc := ⟨.vmem, 24, rfl⟩
abbrev cc2_stg8_1 : Ref sig .tc := ⟨.vmem, 25, rfl⟩
abbrev cc2_stg9_0 : Ref sig .tc := ⟨.vmem, 26, rfl⟩
abbrev cc2_stg9_1 : Ref sig .tc := ⟨.vmem, 27, rfl⟩
abbrev cc2_stg10_0 : Ref sig .tc := ⟨.vmem, 28, rfl⟩
abbrev cc2_stg10_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg4_1 : Ref sig .tc := ⟨.vmem, 36, rfl⟩
abbrev cc3_stg5_0 : Ref sig .tc := ⟨.vmem, 37, rfl⟩
abbrev cc3_stg5_1 : Ref sig .tc := ⟨.vmem, 38, rfl⟩
abbrev cc3_stg6_0 : Ref sig .tc := ⟨.vmem, 39, rfl⟩
abbrev cc3_stg6_1 : Ref sig .tc := ⟨.vmem, 40, rfl⟩
abbrev cc3_stg7_0 : Ref sig .tc := ⟨.vmem, 41, rfl⟩
abbrev cc3_stg7_1 : Ref sig .tc := ⟨.vmem, 42, rfl⟩
abbrev cc4_stg0_0 : Ref sig .tc := ⟨.vmem, 43, rfl⟩
abbrev cc4_stg0_1 : Ref sig .tc := ⟨.vmem, 44, rfl⟩
abbrev cc4_stg1_0 : Ref sig .tc := ⟨.vmem, 45, rfl⟩
abbrev cc4_stg2_0 : Ref sig .tc := ⟨.vmem, 46, rfl⟩
abbrev cc4_stg3_0 : Ref sig .tc := ⟨.vmem, 47, rfl⟩
abbrev cc4_stg3_1 : Ref sig .tc := ⟨.vmem, 48, rfl⟩
abbrev cc4_stg4_0 : Ref sig .tc := ⟨.vmem, 49, rfl⟩
abbrev cc4_stg4_1 : Ref sig .tc := ⟨.vmem, 50, rfl⟩
abbrev cc5_stg0_0 : Ref sig .tc := ⟨.vmem, 51, rfl⟩
abbrev cc5_stg0_1 : Ref sig .tc := ⟨.vmem, 52, rfl⟩
abbrev cc5_stg1_0 : Ref sig .tc := ⟨.vmem, 53, rfl⟩
abbrev cc5_stg2_0 : Ref sig .tc := ⟨.vmem, 54, rfl⟩
abbrev cc5_stg3_0 : Ref sig .tc := ⟨.vmem, 55, rfl⟩
abbrev cc5_stg4_0 : Ref sig .tc := ⟨.vmem, 56, rfl⟩
abbrev cc5_stg5_0 : Ref sig .tc := ⟨.vmem, 57, rfl⟩
abbrev cc5_stg5_1 : Ref sig .tc := ⟨.vmem, 58, rfl⟩
abbrev cc5_stg6_0 : Ref sig .tc := ⟨.vmem, 59, rfl⟩
abbrev cc5_stg6_1 : Ref sig .tc := ⟨.vmem, 60, rfl⟩
abbrev cc5_stg7_0 : Ref sig .tc := ⟨.vmem, 61, rfl⟩
abbrev cc5_stg7_1 : Ref sig .tc := ⟨.vmem, 62, rfl⟩
abbrev cc5_stg8_0 : Ref sig .tc := ⟨.vmem, 63, rfl⟩
abbrev cc5_stg8_1 : Ref sig .tc := ⟨.vmem, 64, rfl⟩
abbrev cc5_stg9_0 : Ref sig .tc := ⟨.vmem, 65, rfl⟩
abbrev cc5_stg9_1 : Ref sig .tc := ⟨.vmem, 66, rfl⟩
abbrev cc5_stg10_0 : Ref sig .tc := ⟨.vmem, 67, rfl⟩
abbrev cc5_stg10_1 : Ref sig .tc := ⟨.vmem, 68, rfl⟩
abbrev cc6_stg0_0 : Ref sig .tc := ⟨.vmem, 69, rfl⟩
abbrev cc6_stg0_1 : Ref sig .tc := ⟨.vmem, 70, rfl⟩
abbrev cc6_stg1_0 : Ref sig .tc := ⟨.vmem, 71, rfl⟩
abbrev cc6_stg2_0 : Ref sig .tc := ⟨.vmem, 72, rfl⟩
abbrev cc6_stg3_0 : Ref sig .tc := ⟨.vmem, 73, rfl⟩
abbrev cc6_stg4_0 : Ref sig .tc := ⟨.vmem, 74, rfl⟩
abbrev cc6_stg4_1 : Ref sig .tc := ⟨.vmem, 75, rfl⟩
abbrev cc6_stg5_0 : Ref sig .tc := ⟨.vmem, 76, rfl⟩
abbrev cc6_stg5_1 : Ref sig .tc := ⟨.vmem, 77, rfl⟩
abbrev cc6_stg6_0 : Ref sig .tc := ⟨.vmem, 78, rfl⟩
abbrev cc6_stg6_1 : Ref sig .tc := ⟨.vmem, 79, rfl⟩
abbrev cc6_stg7_0 : Ref sig .tc := ⟨.vmem, 80, rfl⟩
abbrev cc6_stg7_1 : Ref sig .tc := ⟨.vmem, 81, rfl⟩
abbrev cc7_stg0_0 : Ref sig .tc := ⟨.vmem, 82, rfl⟩
abbrev cc7_stg0_1 : Ref sig .tc := ⟨.vmem, 83, rfl⟩
abbrev cc7_stg1_0 : Ref sig .tc := ⟨.vmem, 84, rfl⟩
abbrev cc7_stg2_0 : Ref sig .tc := ⟨.vmem, 85, rfl⟩
abbrev cc7_stg3_0 : Ref sig .tc := ⟨.vmem, 86, rfl⟩
abbrev cc7_stg3_1 : Ref sig .tc := ⟨.vmem, 87, rfl⟩
abbrev cc7_stg4_0 : Ref sig .tc := ⟨.vmem, 88, rfl⟩
abbrev cc7_stg4_1 : Ref sig .tc := ⟨.vmem, 89, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19
abbrev cc2_sem6_0 : DmaSem sig := 20
abbrev cc2_sem6_1 : DmaSem sig := 21
abbrev cc2_sem7_0 : DmaSem sig := 22
abbrev cc2_sem7_1 : DmaSem sig := 23
abbrev cc2_sem8_0 : DmaSem sig := 24
abbrev cc2_sem8_1 : DmaSem sig := 25
abbrev cc2_sem9_0 : DmaSem sig := 26
abbrev cc2_sem9_1 : DmaSem sig := 27
abbrev cc2_sem10_0 : DmaSem sig := 28
abbrev cc2_sem10_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem4_1 : DmaSem sig := 36
abbrev cc3_sem5_0 : DmaSem sig := 37
abbrev cc3_sem5_1 : DmaSem sig := 38
abbrev cc3_sem6_0 : DmaSem sig := 39
abbrev cc3_sem6_1 : DmaSem sig := 40
abbrev cc3_sem7_0 : DmaSem sig := 41
abbrev cc3_sem7_1 : DmaSem sig := 42
abbrev cc4_sem0_0 : DmaSem sig := 43
abbrev cc4_sem0_1 : DmaSem sig := 44
abbrev cc4_sem1_0 : DmaSem sig := 45
abbrev cc4_sem2_0 : DmaSem sig := 46
abbrev cc4_sem3_0 : DmaSem sig := 47
abbrev cc4_sem3_1 : DmaSem sig := 48
abbrev cc4_sem4_0 : DmaSem sig := 49
abbrev cc4_sem4_1 : DmaSem sig := 50
abbrev cc5_sem0_0 : DmaSem sig := 51
abbrev cc5_sem0_1 : DmaSem sig := 52
abbrev cc5_sem1_0 : DmaSem sig := 53
abbrev cc5_sem2_0 : DmaSem sig := 54
abbrev cc5_sem3_0 : DmaSem sig := 55
abbrev cc5_sem4_0 : DmaSem sig := 56
abbrev cc5_sem5_0 : DmaSem sig := 57
abbrev cc5_sem5_1 : DmaSem sig := 58
abbrev cc5_sem6_0 : DmaSem sig := 59
abbrev cc5_sem6_1 : DmaSem sig := 60
abbrev cc5_sem7_0 : DmaSem sig := 61
abbrev cc5_sem7_1 : DmaSem sig := 62
abbrev cc5_sem8_0 : DmaSem sig := 63
abbrev cc5_sem8_1 : DmaSem sig := 64
abbrev cc5_sem9_0 : DmaSem sig := 65
abbrev cc5_sem9_1 : DmaSem sig := 66
abbrev cc5_sem10_0 : DmaSem sig := 67
abbrev cc5_sem10_1 : DmaSem sig := 68
abbrev cc6_sem0_0 : DmaSem sig := 69
abbrev cc6_sem0_1 : DmaSem sig := 70
abbrev cc6_sem1_0 : DmaSem sig := 71
abbrev cc6_sem2_0 : DmaSem sig := 72
abbrev cc6_sem3_0 : DmaSem sig := 73
abbrev cc6_sem4_0 : DmaSem sig := 74
abbrev cc6_sem4_1 : DmaSem sig := 75
abbrev cc6_sem5_0 : DmaSem sig := 76
abbrev cc6_sem5_1 : DmaSem sig := 77
abbrev cc6_sem6_0 : DmaSem sig := 78
abbrev cc6_sem6_1 : DmaSem sig := 79
abbrev cc6_sem7_0 : DmaSem sig := 80
abbrev cc6_sem7_1 : DmaSem sig := 81
abbrev cc7_sem0_0 : DmaSem sig := 82
abbrev cc7_sem0_1 : DmaSem sig := 83
abbrev cc7_sem1_0 : DmaSem sig := 84
abbrev cc7_sem2_0 : DmaSem sig := 85
abbrev cc7_sem3_0 : DmaSem sig := 86
abbrev cc7_sem3_1 : DmaSem sig := 87
abbrev cc7_sem4_0 : DmaSem sig := 88
abbrev cc7_sem4_1 : DmaSem sig := 89

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S8192x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S8192x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S8192x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S128x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S128x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S128x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S128x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S128x64 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S128x64 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S128x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8192x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S8192x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S8192x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S128x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S128x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S128x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S128x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![64], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S128x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S8192x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S8192x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S128x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S128x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![16], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_10 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S128x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S8192x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S8192x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S8192x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S8192x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S128x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S128x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S128x64 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 2 → Memref sig .tc .vmem S128x64 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev stage5_9 : Fin 2 → Memref sig .tc .vmem S128x64 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev stage5_10 : Fin 2 → Memref sig .tc .vmem S128x64 .f32 := fun | 0 => Memref.whole cc5_stg10_0 | 1 => Memref.whole cc5_stg10_1 | ⟨_ + 2, h⟩ => absurd h (Nat.not_lt.2 (Nat.le_add_left _ _))
abbrev sem5_10 : Fin 2 → DmaSem sig := fun | 0 => cc5_sem10_0 | 1 => cc5_sem10_1 | ⟨_ + 2, h⟩ => absurd h (Nat.not_lt.2 (Nat.le_add_left _ _))
abbrev reads5_10 : Fin grid5.rank → Bool := ![true]

abbrev grid6 : Pipeline.Grid := ⟨1, ![16], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S128x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S8192x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S8192x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S8192x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S128x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S128x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S128x64 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S128x64 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![16], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S128x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S8192x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S8192x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S128x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S128x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

class Facts₀ : Prop where
  inb_S512x256_S512x256_0_0 : ∀ a, (![0, 0] : Fin 2 → Nat) a + S512x256.size a ≤ S512x256.size a
  h_S512x256 : 0 < S512x256.numel
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  bitsLt_bf16_f32 : FTy.bits .bf16 < FTy.bits .f32
  transposes_S256x256_p1_0_S256x256 : S256x256.Transposes [1, 0] S256x256
  shapeCasts_S256_S1x256 : S256.ShapeCasts S1x256
  broadcasts_S1x256_S512x256 : S1x256.Broadcasts S512x256
  slices_S8192x256_S8192x64_0_0 : S8192x256.Slices ![0, 0] S8192x64
  slices_S8192x256_S8192x64_0_64 : S8192x256.Slices ![0, 64] S8192x64
  slices_S8192x256_S8192x64_0_128 : S8192x256.Slices ![0, 128] S8192x64
  slices_S8192x256_S8192x64_0_192 : S8192x256.Slices ![0, 192] S8192x64
  slices_S2048x256_S2048x64_0_0 : S2048x256.Slices ![0, 0] S2048x64
  slices_S2048x256_S2048x64_0_64 : S2048x256.Slices ![0, 64] S2048x64
  slices_S2048x256_S2048x64_0_128 : S2048x256.Slices ![0, 128] S2048x64
  slices_S2048x256_S2048x64_0_192 : S2048x256.Slices ![0, 192] S2048x64
  slices_S8192x192_S8192x64_0_0 : S8192x192.Slices ![0, 0] S8192x64
  slices_S8192x192_S8192x64_0_64 : S8192x192.Slices ![0, 64] S8192x64
  slices_S8192x192_S8192x64_0_128 : S8192x192.Slices ![0, 128] S8192x64
  bcast_S_S8192x64 : S_.BroadcastsInDim S8192x64 (![] : Fin 0 → Fin S8192x64.rank)
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  reduces_S128x64_S128 : S128x64.Reduces [1] S128
  shapeCasts_S128_S128x1 : S128.ShapeCasts S128x1
  reduces_S8192x64_S8192 : S8192x64.Reduces [1] S8192
  shapeCasts_S8192_S8192x1 : S8192.ShapeCasts S8192x1
  transposes_S8192x64_p1_0_S64x8192 : S8192x64.Transposes [1, 0] S64x8192
  broadcasts_S128x1_S128x8192 : S128x1.Broadcasts S128x8192
  transposes_S8192x1_p1_0_S1x8192 : S8192x1.Transposes [1, 0] S1x8192
  broadcasts_S1x8192_S128x8192 : S1x8192.Broadcasts S128x8192
  reducesTo_S256x256_S_d0_1 : S256x256.ReducesTo [0, 1] S_
  h_S_ : 0 < S_.numel
  reducesTo_S256_S_d0 : S256.ReducesTo [0] S_
  reducesTo_S8192x64_S_d0_1 : S8192x64.ReducesTo [0, 1] S_
  bcast_S_S2048x64 : S_.BroadcastsInDim S2048x64 (![] : Fin 0 → Fin S2048x64.rank)
  dot_S512x256_S256x256_S512x256_1_0_0_1_n_n_wf : DotDims.WF S512x256 S256x256 S512x256 [1] [0] [0] [1] [] []
  dot_S128x64_S64x8192_S128x8192_1_0_0_1_n_n_wf : DotDims.WF S128x64 S64x8192 S128x8192 [1] [0] [0] [1] [] []
  dot_S128x8192_S8192x64_S128x64_1_0_0_1_n_n_wf : DotDims.WF S128x8192 S8192x64 S128x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .f32 = 32 ∨ (Rect.block (s := S8192x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S8192x256.size a
  hwx0_3 : ∀ i : grid0.Coords, EltTy.bits .f32 = 32 ∨ (Rect.block (s := S8192x256) S512x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S2048x256.size a
  hwx1_0 : ∀ i : grid1.Coords, EltTy.bits .f32 = 32 ∨ (Rect.block (s := S2048x256) S512x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S2048x256.size a
  hwx1_3 : ∀ i : grid1.Coords, EltTy.bits .f32 = 32 ∨ (Rect.block (s := S2048x256) S512x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x64.size a ≤ S8192x64.size a
  hwx2_0 : ∀ i : grid2.Coords, EltTy.bits .f32 = 32 ∨ (Rect.block (s := S8192x64) S128x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x64.size a ≤ S8192x64.size a
  hwx2_1 : ∀ i : grid2.Coords, EltTy.bits .f32 = 32 ∨ (Rect.block (s := S8192x64) S8192x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S8192x64.size a ≤ S8192x64.size a
  hwx2_2 : ∀ i : grid2.Coords, EltTy.bits .f32 = 32 ∨ (Rect.block (s := S8192x64) S8192x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S8192x64.size a ≤ S8192x64.size a
  hwx2_3 : ∀ i : grid2.Coords, EltTy.bits .f32 = 32 ∨ (Rect.block (s := S8192x64) S8192x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S8192x64.size a ≤ S8192x64.size a
  hwx2_4 : ∀ i : grid2.Coords, EltTy.bits .f32 = 32 ∨ (Rect.block (s := S8192x64) S8192x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S128x64.size a ≤ S8192x64.size a
  hwx2_5 : ∀ i : grid2.Coords, EltTy.bits .f32 = 32 ∨ (Rect.block (s := S8192x64) S128x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S128x64.size a ≤ S8192x64.size a
  hwx2_6 : ∀ i : grid2.Coords, EltTy.bits .f32 = 32 ∨ (Rect.block (s := S8192x64) S128x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S128x64.size a ≤ S8192x64.size a
  hwx2_7 : ∀ i : grid2.Coords, EltTy.bits .f32 = 32 ∨ (Rect.block (s := S8192x64) S128x64.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S128x64.size a ≤ S8192x64.size a
  hwx2_8 : ∀ i : grid2.Coords, EltTy.bits .f32 = 32 ∨ (Rect.block (s := S8192x64) S128x64.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S128x64.size a ≤ S8192x64.size a
  hwx2_9 : ∀ i : grid2.Coords, EltTy.bits .f32 = 32 ∨ (Rect.block (s := S8192x64) S128x64.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S128x64.size a ≤ S8192x64.size a
  hwx2_10 : ∀ i : grid2.Coords, EltTy.bits .f32 = 32 ∨ (Rect.block (s := S8192x64) S128x64.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S128x64.size a ≤ S8192x64.size a
  hwx3_0 : ∀ i : grid3.Coords, EltTy.bits .f32 = 32 ∨ (Rect.block (s := S8192x64) S128x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8192x64.size a ≤ S8192x64.size a
  hwx3_1 : ∀ i : grid3.Coords, EltTy.bits .f32 = 32 ∨ (Rect.block (s := S8192x64) S8192x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S8192x64.size a ≤ S8192x64.size a
  hwx3_2 : ∀ i : grid3.Coords, EltTy.bits .f32 = 32 ∨ (Rect.block (s := S8192x64) S8192x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S8192x64.size a ≤ S8192x64.size a
  hwx3_3 : ∀ i : grid3.Coords, EltTy.bits .f32 = 32 ∨ (Rect.block (s := S8192x64) S8192x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S128x64.size a ≤ S8192x64.size a
  hwx3_4 : ∀ i : grid3.Coords, EltTy.bits .f32 = 32 ∨ (Rect.block (s := S8192x64) S128x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S128x64.size a ≤ S8192x64.size a
  hwx3_5 : ∀ i : grid3.Coords, EltTy.bits .f32 = 32 ∨ (Rect.block (s := S8192x64) S128x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S128x64.size a ≤ S8192x64.size a
  hwx3_6 : ∀ i : grid3.Coords, EltTy.bits .f32 = 32 ∨ (Rect.block (s := S8192x64) S128x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S128x64.size a ≤ S8192x64.size a
  hwx3_7 : ∀ i : grid3.Coords, EltTy.bits .f32 = 32 ∨ (Rect.block (s := S8192x64) S128x64.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S128x64.size a ≤ S8192x64.size a
  hwx4_0 : ∀ i : grid4.Coords, EltTy.bits .f32 = 32 ∨ (Rect.block (s := S8192x64) S128x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S8192x64.size a ≤ S8192x64.size a
  hwx4_1 : ∀ i : grid4.Coords, EltTy.bits .f32 = 32 ∨ (Rect.block (s := S8192x64) S8192x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S8192x64.size a ≤ S8192x64.size a
  hwx4_2 : ∀ i : grid4.Coords, EltTy.bits .f32 = 32 ∨ (Rect.block (s := S8192x64) S8192x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S128x64.size a ≤ S8192x64.size a
  hwx4_3 : ∀ i : grid4.Coords, EltTy.bits .f32 = 32 ∨ (Rect.block (s := S8192x64) S128x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S128x64.size a ≤ S8192x64.size a
  hwx4_4 : ∀ i : grid4.Coords, EltTy.bits .f32 = 32 ∨ (Rect.block (s := S8192x64) S128x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S128x64.size a ≤ S2048x64.size a
  hwx5_0 : ∀ i : grid5.Coords, EltTy.bits .f32 = 32 ∨ (Rect.block (s := S2048x64) S128x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S8192x64.size a ≤ S8192x64.size a
  hwx5_1 : ∀ i : grid5.Coords, EltTy.bits .f32 = 32 ∨ (Rect.block (s := S8192x64) S8192x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S8192x64.size a ≤ S8192x64.size a
  hwx5_2 : ∀ i : grid5.Coords, EltTy.bits .f32 = 32 ∨ (Rect.block (s := S8192x64) S8192x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S8192x64.size a ≤ S8192x64.size a
  hwx5_3 : ∀ i : grid5.Coords, EltTy.bits .f32 = 32 ∨ (Rect.block (s := S8192x64) S8192x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S8192x64.size a ≤ S8192x64.size a
  hwx5_4 : ∀ i : grid5.Coords, EltTy.bits .f32 = 32 ∨ (Rect.block (s := S8192x64) S8192x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S128x64.size a ≤ S2048x64.size a
  hwx5_5 : ∀ i : grid5.Coords, EltTy.bits .f32 = 32 ∨ (Rect.block (s := S2048x64) S128x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S128x64.size a ≤ S2048x64.size a
  hwx5_6 : ∀ i : grid5.Coords, EltTy.bits .f32 = 32 ∨ (Rect.block (s := S2048x64) S128x64.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S128x64.size a ≤ S2048x64.size a
  hwx5_7 : ∀ i : grid5.Coords, EltTy.bits .f32 = 32 ∨ (Rect.block (s := S2048x64) S128x64.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S128x64.size a ≤ S2048x64.size a
  hwx5_8 : ∀ i : grid5.Coords, EltTy.bits .f32 = 32 ∨ (Rect.block (s := S2048x64) S128x64.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S128x64.size a ≤ S2048x64.size a
  hwx5_9 : ∀ i : grid5.Coords, EltTy.bits .f32 = 32 ∨ (Rect.block (s := S2048x64) S128x64.size (cc5_transform_9 i) (hinb5_9 i)).WholeWords (EltTy.packing .f32)
  hstage5_10 : ∀ j, (stage5_10 j).IsWhole
  nbuf5_10 : grid5.bufCount reads5_10 false = 2
  hreads5_10 : ∀ i i' : grid5.Coords, (∀ a, reads5_10 a = true → i a = i' a) → cc5_transform_10 i = cc5_transform_10 i'
  hinb5_10 : ∀ (i : grid5.Coords) a, (cc5_transform_10 i a + 1) * S128x64.size a ≤ S2048x64.size a
  hwx5_10 : ∀ i : grid5.Coords, EltTy.bits .f32 = 32 ∨ (Rect.block (s := S2048x64) S128x64.size (cc5_transform_10 i) (hinb5_10 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S128x64.size a ≤ S2048x64.size a
  hwx6_0 : ∀ i : grid6.Coords, EltTy.bits .f32 = 32 ∨ (Rect.block (s := S2048x64) S128x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S8192x64.size a ≤ S8192x64.size a
  hwx6_1 : ∀ i : grid6.Coords, EltTy.bits .f32 = 32 ∨ (Rect.block (s := S8192x64) S8192x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S8192x64.size a ≤ S8192x64.size a
  hwx6_2 : ∀ i : grid6.Coords, EltTy.bits .f32 = 32 ∨ (Rect.block (s := S8192x64) S8192x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S8192x64.size a ≤ S8192x64.size a
  hwx6_3 : ∀ i : grid6.Coords, EltTy.bits .f32 = 32 ∨ (Rect.block (s := S8192x64) S8192x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S128x64.size a ≤ S2048x64.size a
  hwx6_4 : ∀ i : grid6.Coords, EltTy.bits .f32 = 32 ∨ (Rect.block (s := S2048x64) S128x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S128x64.size a ≤ S2048x64.size a
  hwx6_5 : ∀ i : grid6.Coords, EltTy.bits .f32 = 32 ∨ (Rect.block (s := S2048x64) S128x64.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S128x64.size a ≤ S2048x64.size a
  hwx6_6 : ∀ i : grid6.Coords, EltTy.bits .f32 = 32 ∨ (Rect.block (s := S2048x64) S128x64.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S128x64.size a ≤ S2048x64.size a
  hwx6_7 : ∀ i : grid6.Coords, EltTy.bits .f32 = 32 ∨ (Rect.block (s := S2048x64) S128x64.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S128x64.size a ≤ S2048x64.size a
  hwx7_0 : ∀ i : grid7.Coords, EltTy.bits .f32 = 32 ∨ (Rect.block (s := S2048x64) S128x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S8192x64.size a ≤ S8192x64.size a
  hwx7_1 : ∀ i : grid7.Coords, EltTy.bits .f32 = 32 ∨ (Rect.block (s := S8192x64) S8192x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S8192x64.size a ≤ S8192x64.size a
  hwx7_2 : ∀ i : grid7.Coords, EltTy.bits .f32 = 32 ∨ (Rect.block (s := S8192x64) S8192x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S128x64.size a ≤ S2048x64.size a
  hwx7_3 : ∀ i : grid7.Coords, EltTy.bits .f32 = 32 ∨ (Rect.block (s := S2048x64) S128x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S128x64.size a ≤ S2048x64.size a
  hwx7_4 : ∀ i : grid7.Coords, EltTy.bits .f32 = 32 ∨ (Rect.block (s := S2048x64) S128x64.size (cc7_transform_4 i) (hinb7_4 i)).WholeWords (EltTy.packing .f32)

variable [Facts₀]

def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S128x64_S64x8192_S128x8192_1_0_0_1_n_n : DotDims S128x64 S64x8192 S128x8192 where
  lhsContracting := [1]
  rhsContracting := [0]
  lhsNonContracting := [0]
  rhsNonContracting := [1]
  lhsBatch := []
  rhsBatch := []
  wf := dot_S128x64_S64x8192_S128x8192_1_0_0_1_n_n_wf
def dot_S128x8192_S8192x64_S128x64_1_0_0_1_n_n : DotDims S128x8192 S8192x64 S128x64 where
  lhsContracting := [1]
  rhsContracting := [0]
  lhsNonContracting := [0]
  rhsNonContracting := [1]
  lhsBatch := []
  rhsBatch := []
  wf := dot_S128x8192_S8192x64_S128x64_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S512x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S128x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S8192x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S8192x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v11) S8192x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v12) S8192x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v13) S128x64.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v14) S128x64.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v15) S128x64.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_v16_0) S128x64.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v16_1) S128x64.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v16_2) S128x64.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v17) S128x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S8192x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v11) S8192x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v12) S8192x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v16_1) S128x64.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v16_2) S128x64.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v18_0) S128x64.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v18_1) S128x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v19) S128x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v19) S8192x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v12) S8192x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v18_1) S128x64.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v20) S128x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v6) S128x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v2) S8192x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v10) S8192x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v11) S8192x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v12) S8192x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v36) S128x64.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v37) S128x64.size cc5_transform_6 reads5_6 false false 2 stage5_6 sem5_6
    hrank5 hreads5_6 hinb5_6 nbuf5_6 (Memref.isWhole_whole _) hwx5_6 hstage5_6

abbrev win5_7 : Pipeline.Window sig grid5 :=
  Pipeline.Window.ofSpec (Memref.whole main_v38) S128x64.size cc5_transform_7 reads5_7 false false 2 stage5_7 sem5_7
    hrank5 hreads5_7 hinb5_7 nbuf5_7 (Memref.isWhole_whole _) hwx5_7 hstage5_7

abbrev win5_8 : Pipeline.Window sig grid5 :=
  Pipeline.Window.ofSpec (Memref.whole main_v39_0) S128x64.size cc5_transform_8 reads5_8 true false 2 stage5_8 sem5_8
    hrank5 hreads5_8 hinb5_8 nbuf5_8 (Memref.isWhole_whole _) hwx5_8 hstage5_8

abbrev win5_9 : Pipeline.Window sig grid5 :=
  Pipeline.Window.ofSpec (Memref.whole main_v39_1) S128x64.size cc5_transform_9 reads5_9 true false 2 stage5_9 sem5_9
    hrank5 hreads5_9 hinb5_9 nbuf5_9 (Memref.isWhole_whole _) hwx5_9 hstage5_9

abbrev win5_10 : Pipeline.Window sig grid5 :=
  Pipeline.Window.ofSpec (Memref.whole main_v39_2) S128x64.size cc5_transform_10 reads5_10 true false 2 stage5_10 sem5_10
    hrank5 hreads5_10 hinb5_10 nbuf5_10 (Memref.isWhole_whole _) hwx5_10 hstage5_10

abbrev win5 : Fin 11 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | ⟨_ + 11, h⟩ => absurd h (Nat.not_lt.2 (Nat.le_add_left _ _))
abbrev spec5 : Fin 11 → Pipeline.WinSpec sig grid5.rank := fun w => (win5 w).toWinSpec

abbrev win6_0 : Pipeline.Window sig grid6 :=
  Pipeline.Window.ofSpec (Memref.whole main_v40) S128x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v17) S8192x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v11) S8192x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v12) S8192x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v39_1) S128x64.size cc6_transform_4 reads6_4 false false 2 stage6_4 sem6_4
    hrank6 hreads6_4 hinb6_4 nbuf6_4 (Memref.isWhole_whole _) hwx6_4 hstage6_4

abbrev win6_5 : Pipeline.Window sig grid6 :=
  Pipeline.Window.ofSpec (Memref.whole main_v39_2) S128x64.size cc6_transform_5 reads6_5 false false 2 stage6_5 sem6_5
    hrank6 hreads6_5 hinb6_5 nbuf6_5 (Memref.isWhole_whole _) hwx6_5 hstage6_5

abbrev win6_6 : Pipeline.Window sig grid6 :=
  Pipeline.Window.ofSpec (Memref.whole main_v41_0) S128x64.size cc6_transform_6 reads6_6 true false 2 stage6_6 sem6_6
    hrank6 hreads6_6 hinb6_6 nbuf6_6 (Memref.isWhole_whole _) hwx6_6 hstage6_6

abbrev win6_7 : Pipeline.Window sig grid6 :=
  Pipeline.Window.ofSpec (Memref.whole main_v41_1) S128x64.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v42) S128x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v19) S8192x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v12) S8192x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v41_1) S128x64.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v43) S128x64.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S8192x256 : Shape := ⟨2, ![8192, 256]⟩
abbrev S2048x256 : Shape := ⟨2, ![2048, 256]⟩
abbrev S256x256 : Shape := ⟨2, ![256, 256]⟩
abbrev S256 : Shape := ⟨1, ![256]⟩
abbrev S8192x192 : Shape := ⟨2, ![8192, 192]⟩
abbrev S10240x256 : Shape := ⟨2, ![10240, 256]⟩
abbrev S1x256 : Shape := ⟨2, ![1, 256]⟩
abbrev S_ : Shape := ⟨0, ![]⟩
abbrev S10240x64 : Shape := ⟨2, ![10240, 64]⟩
abbrev S8192x64 : Shape := ⟨2, ![8192, 64]⟩
abbrev S10240x8192 : Shape := ⟨2, ![10240, 8192]⟩
abbrev S10240 : Shape := ⟨1, ![10240]⟩
abbrev S10240x1 : Shape := ⟨2, ![10240, 1]⟩
abbrev S8192 : Shape := ⟨1, ![8192]⟩
abbrev S8192x1 : Shape := ⟨2, ![8192, 1]⟩
abbrev S64x8192 : Shape := ⟨2, ![64, 8192]⟩
abbrev S1x8192 : Shape := ⟨2, ![1, 8192]⟩
abbrev S2048x64 : Shape := ⟨2, ![2048, 64]⟩

abbrev nBuf : Space → Nat
  | .hbm => 121
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S2048x256, .f32⟩
  | .hbm, ⟨2, _⟩ => ⟨S256x256, .f32⟩
  | .hbm, ⟨3, _⟩ => ⟨S256, .f32⟩
  | .hbm, ⟨4, _⟩ => ⟨S8192x192, .f32⟩
  | .hbm, ⟨5, _⟩ => ⟨S10240x256, .f32⟩
  | .hbm, ⟨6, _⟩ => ⟨S256x256, .f32⟩
  | .hbm, ⟨7, _⟩ => ⟨S10240x256, .f32⟩
  | .hbm, ⟨8, _⟩ => ⟨S1x256, .f32⟩
  | .hbm, ⟨9, _⟩ => ⟨S10240x256, .f32⟩
  | .hbm, ⟨10, _⟩ => ⟨S10240x256, .f32⟩
  | .hbm, ⟨11, _⟩ => ⟨S256x256, .f32⟩
  | .hbm, ⟨12, _⟩ => ⟨S_, .f32⟩
  | .hbm, ⟨13, _⟩ => ⟨S_, .f32⟩
  | .hbm, ⟨14, _⟩ => ⟨S256, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S10240x64, .f32⟩
  | .hbm, ⟨19, _⟩ => ⟨S10240x64, .f32⟩
  | .hbm, ⟨20, _⟩ => ⟨S10240x64, .f32⟩
  | .hbm, ⟨21, _⟩ => ⟨S10240x64, .f32⟩
  | .hbm, ⟨22, _⟩ => ⟨S8192x64, .f32⟩
  | .hbm, ⟨23, _⟩ => ⟨S8192x64, .f32⟩
  | .hbm, ⟨24, _⟩ => ⟨S8192x64, .f32⟩
  | .hbm, ⟨25, _⟩ => ⟨S_, .f32⟩
  | .hbm, ⟨26, _⟩ => ⟨S10240x8192, .f32⟩
  | .hbm, ⟨27, _⟩ => ⟨S8192x64, .f32⟩
  | .hbm, ⟨28, _⟩ => ⟨S10240x64, .f32⟩
  | .hbm, ⟨29, _⟩ => ⟨S_, .f32⟩
  | .hbm, ⟨30, _⟩ => ⟨S10240, .f32⟩
  | .hbm, ⟨31, _⟩ => ⟨S10240x1, .f32⟩
  | .hbm, ⟨32, _⟩ => ⟨S8192x64, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S64x8192, .f32⟩
  | .hbm, ⟨37, _⟩ => ⟨S10240x8192, .f32⟩
  | .hbm, ⟨38, _⟩ => ⟨S_, .f32⟩
  | .hbm, ⟨39, _⟩ => ⟨S10240x1, .f32⟩
  | .hbm, ⟨40, _⟩ => ⟨S10240x1, .f32⟩
  | .hbm, ⟨41, _⟩ => ⟨S10240x8192, .f32⟩
  | .hbm, ⟨42, _⟩ => ⟨S10240x8192, .f32⟩
  | .hbm, ⟨43, _⟩ => ⟨S1x8192, .f32⟩
  | .hbm, ⟨44, _⟩ => ⟨S_, .f32⟩
  | .hbm, ⟨45, _⟩ => ⟨S1x8192, .f32⟩
  | .hbm, ⟨46, _⟩ => ⟨S1x8192, .f32⟩
  | .hbm, ⟨47, _⟩ => ⟨S10240x8192, .f32⟩
  | .hbm, ⟨48, _⟩ => ⟨S10240x8192, .f32⟩
  | .hbm, ⟨49, _⟩ => ⟨S10240x8192, .f32⟩
  | .hbm, ⟨50, _⟩ => ⟨S10240x8192, .f32⟩
  | .hbm, ⟨51, _⟩ => ⟨S10240x64, .f32⟩
  | .hbm, ⟨52, _⟩ => ⟨S10240x64, .f32⟩
  | .hbm, ⟨53, _⟩ => ⟨S8192x64, .f32⟩
  | .hbm, ⟨54, _⟩ => ⟨S8192x64, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S8192x64, .f32⟩
  | .hbm, ⟨59, _⟩ => ⟨S10240x64, .f32⟩
  | .hbm, ⟨60, _⟩ => ⟨S_, .f32⟩
  | .hbm, ⟨61, _⟩ => ⟨S10240, .f32⟩
  | .hbm, ⟨62, _⟩ => ⟨S10240x1, .f32⟩
  | .hbm, ⟨63, _⟩ => ⟨S8192x64, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S64x8192, .f32⟩
  | .hbm, ⟨68, _⟩ => ⟨S10240x8192, .f32⟩
  | .hbm, ⟨69, _⟩ => ⟨S_, .f32⟩
  | .hbm, ⟨70, _⟩ => ⟨S10240x1, .f32⟩
  | .hbm, ⟨71, _⟩ => ⟨S10240x1, .f32⟩
  | .hbm, ⟨72, _⟩ => ⟨S10240x8192, .f32⟩
  | .hbm, ⟨73, _⟩ => ⟨S10240x8192, .f32⟩
  | .hbm, ⟨74, _⟩ => ⟨S1x8192, .f32⟩
  | .hbm, ⟨75, _⟩ => ⟨S_, .f32⟩
  | .hbm, ⟨76, _⟩ => ⟨S1x8192, .f32⟩
  | .hbm, ⟨77, _⟩ => ⟨S1x8192, .f32⟩
  | .hbm, ⟨78, _⟩ => ⟨S10240x8192, .f32⟩
  | .hbm, ⟨79, _⟩ => ⟨S10240x8192, .f32⟩
  | .hbm, ⟨80, _⟩ => ⟨S10240x8192, .f32⟩
  | .hbm, ⟨81, _⟩ => ⟨S10240x8192, .f32⟩
  | .hbm, ⟨82, _⟩ => ⟨S10240x64, .f32⟩
  | .hbm, ⟨83, _⟩ => ⟨S10240x64, .f32⟩
  | .hbm, ⟨84, _⟩ => ⟨S8192x64, .f32⟩
  | .hbm, ⟨85, _⟩ => ⟨S8192x64, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S8192x64, .f32⟩
  | .hbm, ⟨90, _⟩ => ⟨S10240x64, .f32⟩
  | .hbm, ⟨91, _⟩ => ⟨S_, .f32⟩
  | .hbm, ⟨92, _⟩ => ⟨S10240, .f32⟩
  | .hbm, ⟨93, _⟩ => ⟨S10240x1, .f32⟩
  | .hbm, ⟨94, _⟩ => ⟨S8192x64, .f32⟩
  | .hbm, ⟨95, _⟩ => ⟨S_, .f32⟩
  | .hbm, ⟨96, _⟩ => ⟨S8192, .f32⟩
  | .hbm, ⟨97, _⟩ => ⟨S8192x1, .f32⟩
  | .hbm, ⟨98, _⟩ => ⟨S64x8192, .f32⟩
  | .hbm, ⟨99, _⟩ => ⟨S10240x8192, .f32⟩
  | .hbm, ⟨100, _⟩ => ⟨S_, .f32⟩
  | .hbm, ⟨101, _⟩ => ⟨S10240x1, .f32⟩
  | .hbm, ⟨102, _⟩ => ⟨S10240x1, .f32⟩
  | .hbm, ⟨103, _⟩ => ⟨S10240x8192, .f32⟩
  | .hbm, ⟨104, _⟩ => ⟨S10240x8192, .f32⟩
  | .hbm, ⟨105, _⟩ => ⟨S1x8192, .f32⟩
  | .hbm, ⟨106, _⟩ => ⟨S_, .f32⟩
  | .hbm, ⟨107, _⟩ => ⟨S1x8192, .f32⟩
  | .hbm, ⟨108, _⟩ => ⟨S1x8192, .f32⟩
  | .hbm, ⟨109, _⟩ => ⟨S10240x8192, .f32⟩
  | .hbm, ⟨110, _⟩ => ⟨S10240x8192, .f32⟩
  | .hbm, ⟨111, _⟩ => ⟨S10240x8192, .f32⟩
  | .hbm, ⟨112, _⟩ => ⟨S10240x8192, .f32⟩
  | .hbm, ⟨113, _⟩ => ⟨S10240x64, .f32⟩
  | .hbm, ⟨114, _⟩ => ⟨S10240x64, .f32⟩
  | .hbm, ⟨115, _⟩ => ⟨S8192x64, .f32⟩
  | .hbm, ⟨116, _⟩ => ⟨S8192x64, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S2048x64, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_8 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_9 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_10 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_11 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_12 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_13 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_14 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_cst_15 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_cst_16 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩

abbrev nD : Nat := 1
abbrev τ : Topo := Topo.v7x

variable {F : FTy → Type} [FloatOps F]

class Facts₀ : Prop where
  concatenates_S8192x256_S2048x256_S10240x256_d0 : Shape.Concatenates [S8192x256, S2048x256] S10240x256 0
  transposes_S256x256_S256x256_1_0 : S256x256.Transposes [1, 0] S256x256
  bcast_S256_S1x256_1 : S256.BroadcastsInDim S1x256 (![1] : Fin 1 → Fin S1x256.rank)
  bcast_S1x256_S10240x256_0_1 : S1x256.BroadcastsInDim S10240x256 (![0, 1] : Fin 2 → Fin S10240x256.rank)
  reducesTo_S256x256_S_d0_1 : S256x256.ReducesTo [0, 1] S_
  h_S_ : 0 < S_.numel
  reducesTo_S256_S_d0 : S256.ReducesTo [0] S_
  slices_S10240x256_S10240x64_0_0 : S10240x256.Slices ![0, 0] S10240x64
  slices_S10240x256_S10240x64_0_64 : S10240x256.Slices ![0, 64] S10240x64
  slices_S10240x256_S10240x64_0_128 : S10240x256.Slices ![0, 128] S10240x64
  slices_S10240x256_S10240x64_0_192 : S10240x256.Slices ![0, 192] S10240x64
  slices_S8192x192_S8192x64_0_0 : S8192x192.Slices ![0, 0] S8192x64
  slices_S8192x192_S8192x64_0_64 : S8192x192.Slices ![0, 64] S8192x64
  slices_S8192x192_S8192x64_0_128 : S8192x192.Slices ![0, 128] S8192x64
  bcast_S_S10240x8192 : S_.BroadcastsInDim S10240x8192 (![] : Fin 0 → Fin S10240x8192.rank)
  slices_S10240x64_S8192x64_0_0 : S10240x64.Slices ![0, 0] S8192x64
  reducesTo_S10240x64_S10240_d1 : S10240x64.ReducesTo [1] S10240
  bcast_S10240_S10240x1_0 : S10240.BroadcastsInDim S10240x1 (![0] : Fin 1 → Fin S10240x1.rank)
  reducesTo_S8192x64_S8192_d1 : S8192x64.ReducesTo [1] S8192
  bcast_S8192_S8192x1_0 : S8192.BroadcastsInDim S8192x1 (![0] : Fin 1 → Fin S8192x1.rank)
  transposes_S8192x64_S64x8192_1_0 : S8192x64.Transposes [1, 0] S64x8192
  bcast_S_S10240x1 : S_.BroadcastsInDim S10240x1 (![] : Fin 0 → Fin S10240x1.rank)
  bcast_S10240x1_S10240x8192_0_1 : S10240x1.BroadcastsInDim S10240x8192 (![0, 1] : Fin 2 → Fin S10240x8192.rank)
  transposes_S8192x1_S1x8192_1_0 : S8192x1.Transposes [1, 0] S1x8192
  bcast_S_S1x8192 : S_.BroadcastsInDim S1x8192 (![] : Fin 0 → Fin S1x8192.rank)
  bcast_S1x8192_S10240x8192_0_1 : S1x8192.BroadcastsInDim S10240x8192 (![0, 1] : Fin 2 → Fin S10240x8192.rank)
  reducesTo_S8192x64_S_d0_1 : S8192x64.ReducesTo [0, 1] S_
  slices_S10240x64_S2048x64_8192_0 : S10240x64.Slices ![8192, 0] S2048x64
  dot_S10240x256_S256x256_S10240x256_1_0_0_1_n_n_wf : DotDims.WF S10240x256 S256x256 S10240x256 [1] [0] [0] [1] [] []
  dot_S10240x64_S64x8192_S10240x8192_1_0_0_1_n_n_wf : DotDims.WF S10240x64 S64x8192 S10240x8192 [1] [0] [0] [1] [] []
  dot_S10240x8192_S8192x64_S10240x64_1_0_0_1_n_n_wf : DotDims.WF S10240x8192 S8192x64 S10240x64 [1] [0] [0] [1] [] []

variable [Facts₀]

def dot_S10240x256_S256x256_S10240x256_1_0_0_1_n_n : DotDims S10240x256 S256x256 S10240x256 where
  lhsContracting := [1]
  rhsContracting := [0]
  lhsNonContracting := [0]
  rhsNonContracting := [1]
  lhsBatch := []
  rhsBatch := []
  wf := dot_S10240x256_S256x256_S10240x256_1_0_0_1_n_n_wf
def dot_S10240x64_S64x8192_S10240x8192_1_0_0_1_n_n : DotDims S10240x64 S64x8192 S10240x8192 where
  lhsContracting := [1]
  rhsContracting := [0]
  lhsNonContracting := [0]
  rhsNonContracting := [1]
  lhsBatch := []
  rhsBatch := []
  wf := dot_S10240x64_S64x8192_S10240x8192_1_0_0_1_n_n_wf
def dot_S10240x8192_S8192x64_S10240x64_1_0_0_1_n_n : DotDims S10240x8192 S8192x64 S10240x64 where
  lhsContracting := [1]
  rhsContracting := [0]
  lhsNonContracting := [0]
  rhsNonContracting := [1]
  lhsBatch := []
  rhsBatch := []
  wf := dot_S10240x8192_S8192x64_S10240x64_1_0_0_1_n_n_wf

class Facts : Prop extends Facts₀ where

variable [Facts]
-- ==== Proof.BitsRegion0.lean ====
/-
  Region 0 of the program, at any float instance: what one grid point's body leaves in each output block as a
  function of the input blocks it was handed, the body's Hoare triple, the per-point proof data of the pipeline
  (every input block stays as fetched, every output block is the stored value), and the body obligation at a
  generic grid point. Everything is stated at a parameter `V`, the contents of the core's buffers when the
  region is entered.
-/
import proofs.«117133_j29008209117207_1_alg».proof.Proof.Gen.Kernel.Launch
import proofs.«117133_j29008209117207_1_alg».proof.Proof.Gen.Kernel.Skeleton
import proofs.«117133_j29008209117207_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`: the window's rectangle at that point read off its array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds the window's block at every point, whether the pipeline fetched it there or
    the block index has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds the window's block at every point, whether the pipeline fetched it there or
    the block index has not moved since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds the window's block at every point, whether the pipeline fetched it there or
    the block index has not moved since the last fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The whole-block rectangles the body loads and stores through -/

abbrev r0_0 : Rect S512x256 := Rect.unit (s := S512x256) ![0, 0] S512x256.size inb_S512x256_S512x256_0_0
abbrev r0_1 : Rect S256x256 := Rect.unit (s := S256x256) ![0, 0] S256x256.size inb_S256x256_S256x256_0_0
abbrev r0_2 : Rect S256 := Rect.unit (s := S256) ![0] S256.size inb_S256_S256_0
abbrev r0_3 : Rect S512x256 := Rect.unit (s := S512x256) ![0, 0] S512x256.size inb_S512x256_S512x256_0_0

/-! ## What the body leaves in each output block -/

/-- Output window 3's block after the body: its one whole-block store, as a function of the input blocks. -/
def out0_3 (x0 : Vec F S512x256 .f32) (x1 : Vec F S256x256 .f32) (x2 : Vec F S256 .f32) : Vec F S512x256 .f32 :=
  View.canon [⟨r0_3, k0_pay1 (View.ld x0 r0_0) (View.ld x1 r0_1) (View.ld x2 r0_2)⟩]

/-- The one store covers the block. -/
theorem cover0_3 (p0 : Vec F S512x256 .f32) (y : S512x256.Idx) :
    ∃ pc ∈ ([⟨r0_3, p0⟩] : List (View.Piece (Elt F) S512x256 .f32)), y ∈ pc.1.set :=
  View.cover_of_tiled [⟨r0_3, p0⟩] S512x256.size (by rfl) y

/-! ## The body's triple -/

set_option maxHeartbeats 4000000 in
/-- The body run on whole staging buffers: the inputs hold `xW` and keep them, every output ends at `out0_W` of the inputs. -/
theorem sound_kernel0 (c : Dev nD) (E : Set ℕ) (i : grid0.Coords) (arg0 : Memref sig .tc .vmem S512x256 .f32) (harg0 : arg0.IsWhole) (arg1 : Memref sig .tc .vmem S256x256 .f32) (harg1 : arg1.IsWhole) (arg2 : Memref sig .tc .vmem S256 .f32) (harg2 : arg2.IsWhole) (arg3 : Memref sig .tc .vmem S512x256 .f32) (harg3 : arg3.IsWhole)
    (x0 : Vec F S512x256 .f32) (x1 : Vec F S256x256 .f32) (x2 : Vec F S256 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__affine_kernel i arg0 harg0 arg1 harg1 arg2 harg2 arg3 harg3) K := by
  simp only [cc0__affine_kernel_eq_skeleton]; unfold cc0__affine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- Per core: the arrays are the entry contents; after the body at point `t` every input's buffer holds its block and
    every output's holds `out0_W` of the input blocks; the invariant is the untouched rest; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 2000000 in
/-- At any point the inputs' buffers hold their blocks, so the body's triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Gen

end
-- ==== Proof.BitsRegion1.lean ====
/-
  Region 1 of the program, at any float instance: what one grid point's body leaves in each output block as a
  function of the input blocks it was handed, the body's Hoare triple, the per-point proof data of the pipeline
  (every input block stays as fetched, every output block is the stored value), and the body obligation at a
  generic grid point. Everything is stated at a parameter `V`, the contents of the core's buffers when the
  region is entered.
-/
import proofs.«117133_j29008209117207_1_alg».proof.Proof.Gen.Kernel.Launch
import proofs.«117133_j29008209117207_1_alg».proof.Proof.Gen.Kernel.Skeleton
import proofs.«117133_j29008209117207_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`: the window's rectangle at that point read off its array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds the window's block at every point, whether the pipeline fetched it there or
    the block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds the window's block at every point, whether the pipeline fetched it there or
    the block index has not moved since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds the window's block at every point, whether the pipeline fetched it there or
    the block index has not moved since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The whole-block rectangles the body loads and stores through -/

abbrev r1_0 : Rect S512x256 := Rect.unit (s := S512x256) ![0, 0] S512x256.size inb_S512x256_S512x256_0_0
abbrev r1_1 : Rect S256x256 := Rect.unit (s := S256x256) ![0, 0] S256x256.size inb_S256x256_S256x256_0_0
abbrev r1_2 : Rect S256 := Rect.unit (s := S256) ![0] S256.size inb_S256_S256_0
abbrev r1_3 : Rect S512x256 := Rect.unit (s := S512x256) ![0, 0] S512x256.size inb_S512x256_S512x256_0_0

/-! ## What the body leaves in each output block -/

/-- Output window 3's block after the body: its one whole-block store, as a function of the input blocks. -/
def out1_3 (x0 : Vec F S512x256 .f32) (x1 : Vec F S256x256 .f32) (x2 : Vec F S256 .f32) : Vec F S512x256 .f32 :=
  View.canon [⟨r1_3, k1_pay1 (View.ld x0 r1_0) (View.ld x1 r1_1) (View.ld x2 r1_2)⟩]

/-- The one store covers the block. -/
theorem cover1_3 (p0 : Vec F S512x256 .f32) (y : S512x256.Idx) :
    ∃ pc ∈ ([⟨r1_3, p0⟩] : List (View.Piece (Elt F) S512x256 .f32)), y ∈ pc.1.set :=
  View.cover_of_tiled [⟨r1_3, p0⟩] S512x256.size (by rfl) y

/-! ## The body's triple -/

set_option maxHeartbeats 4000000 in
/-- The body run on whole staging buffers: the inputs hold `xW` and keep them, every output ends at `out1_W` of the inputs. -/
theorem sound_kernel1 (c : Dev nD) (E : Set ℕ) (i : grid1.Coords) (arg0 : Memref sig .tc .vmem S512x256 .f32) (harg0 : arg0.IsWhole) (arg1 : Memref sig .tc .vmem S256x256 .f32) (harg1 : arg1.IsWhole) (arg2 : Memref sig .tc .vmem S256 .f32) (harg2 : arg2.IsWhole) (arg3 : Memref sig .tc .vmem S512x256 .f32) (harg3 : arg3.IsWhole)
    (x0 : Vec F S512x256 .f32) (x1 : Vec F S256x256 .f32) (x2 : Vec F S256 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__affine_kernel i arg0 harg0 arg1 harg1 arg2 harg2 arg3 harg3) K := by
  simp only [cc1__affine_kernel_eq_skeleton]; unfold cc1__affine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- Per core: the arrays are the entry contents; after the body at point `t` every input's buffer holds its block and
    every output's holds `out1_W` of the input blocks; the invariant is the untouched rest; nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 2000000 in
/-- At any point the inputs' buffers hold their blocks, so the body's triple applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Gen

end
-- ==== Proof.BitsRegion2.lean ====
/-
  Region 2 of the program, at any float instance: what one grid point's body leaves in each output block as a
  function of the input blocks it was handed, the body's Hoare triple, the per-point proof data of the pipeline
  (every input block stays as fetched, every output block is the stored value), and the body obligation at a
  generic grid point. Everything is stated at a parameter `V`, the contents of the core's buffers when the
  region is entered.
-/
import proofs.«117133_j29008209117207_1_alg».proof.Proof.Gen.Kernel.Launch
import proofs.«117133_j29008209117207_1_alg».proof.Proof.Gen.Kernel.Skeleton
import proofs.«117133_j29008209117207_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`: the window's rectangle at that point read off its array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds the window's block at every point, whether the pipeline fetched it there or
    the block index has not moved since the last fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds the window's block at every point, whether the pipeline fetched it there or
    the block index has not moved since the last fetch. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds the window's block at every point, whether the pipeline fetched it there or
    the block index has not moved since the last fetch. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds the window's block at every point, whether the pipeline fetched it there or
    the block index has not moved since the last fetch. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds the window's block at every point, whether the pipeline fetched it there or
    the block index has not moved since the last fetch. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's staging buffer holds the window's block at every point, whether the pipeline fetched it there or
    the block index has not moved since the last fetch. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's staging buffer holds the window's block at every point, whether the pipeline fetched it there or
    the block index has not moved since the last fetch. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's staging buffer holds the window's block at every point, whether the pipeline fetched it there or
    the block index has not moved since the last fetch. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The whole-block rectangles the body loads and stores through -/

abbrev r2_0 : Rect S128x64 := Rect.unit (s := S128x64) ![0, 0] S128x64.size inb_S128x64_S128x64_0_0
abbrev r2_1 : Rect S8192x64 := Rect.unit (s := S8192x64) ![0, 0] S8192x64.size inb_S8192x64_S8192x64_0_0
abbrev r2_2 : Rect S8192x64 := Rect.unit (s := S8192x64) ![0, 0] S8192x64.size inb_S8192x64_S8192x64_0_0
abbrev r2_3 : Rect S8192x64 := Rect.unit (s := S8192x64) ![0, 0] S8192x64.size inb_S8192x64_S8192x64_0_0
abbrev r2_4 : Rect S8192x64 := Rect.unit (s := S8192x64) ![0, 0] S8192x64.size inb_S8192x64_S8192x64_0_0
abbrev r2_5 : Rect S128x64 := Rect.unit (s := S128x64) ![0, 0] S128x64.size inb_S128x64_S128x64_0_0
abbrev r2_6 : Rect S128x64 := Rect.unit (s := S128x64) ![0, 0] S128x64.size inb_S128x64_S128x64_0_0
abbrev r2_7 : Rect S128x64 := Rect.unit (s := S128x64) ![0, 0] S128x64.size inb_S128x64_S128x64_0_0
abbrev r2_8 : Rect S128x64 := Rect.unit (s := S128x64) ![0, 0] S128x64.size inb_S128x64_S128x64_0_0
abbrev r2_9 : Rect S128x64 := Rect.unit (s := S128x64) ![0, 0] S128x64.size inb_S128x64_S128x64_0_0
abbrev r2_10 : Rect S128x64 := Rect.unit (s := S128x64) ![0, 0] S128x64.size inb_S128x64_S128x64_0_0

/-! ## What the body leaves in each output block -/

/-- Output window 8's block after the body: its one whole-block store, as a function of the input blocks. -/
def out2_8 (x0 : Vec F S128x64 .f32) (x1 : Vec F S8192x64 .f32) (x2 : Vec F S8192x64 .f32) (x3 : Vec F S8192x64 .f32) (x4 : Vec F S8192x64 .f32) (x5 : Vec F S128x64 .f32) (x6 : Vec F S128x64 .f32) (x7 : Vec F S128x64 .f32) : Vec F S128x64 .f32 :=
  View.canon [⟨r2_8, k2_pay4 (View.ld x0 r2_0) (View.ld x1 r2_1) (View.ld x2 r2_2) (View.ld x5 r2_5)⟩]

/-- The one store covers the block. -/
theorem cover2_8 (p0 : Vec F S128x64 .f32) (y : S128x64.Idx) :
    ∃ pc ∈ ([⟨r2_8, p0⟩] : List (View.Piece (Elt F) S128x64 .f32)), y ∈ pc.1.set :=
  View.cover_of_tiled [⟨r2_8, p0⟩] S128x64.size (by rfl) y

/-- Output window 9's block after the body: its one whole-block store, as a function of the input blocks. -/
def out2_9 (x0 : Vec F S128x64 .f32) (x1 : Vec F S8192x64 .f32) (x2 : Vec F S8192x64 .f32) (x3 : Vec F S8192x64 .f32) (x4 : Vec F S8192x64 .f32) (x5 : Vec F S128x64 .f32) (x6 : Vec F S128x64 .f32) (x7 : Vec F S128x64 .f32) : Vec F S128x64 .f32 :=
  View.canon [⟨r2_9, k2_pay1 (k2_pay5 (View.ld x0 r2_0) (View.ld x1 r2_1) (View.ld x3 r2_3)) (View.ld x6 r2_6)⟩]

/-- The one store covers the block. -/
theorem cover2_9 (p0 : Vec F S128x64 .f32) (y : S128x64.Idx) :
    ∃ pc ∈ ([⟨r2_9, p0⟩] : List (View.Piece (Elt F) S128x64 .f32)), y ∈ pc.1.set :=
  View.cover_of_tiled [⟨r2_9, p0⟩] S128x64.size (by rfl) y

/-- Output window 10's block after the body: its one whole-block store, as a function of the input blocks. -/
def out2_10 (x0 : Vec F S128x64 .f32) (x1 : Vec F S8192x64 .f32) (x2 : Vec F S8192x64 .f32) (x3 : Vec F S8192x64 .f32) (x4 : Vec F S8192x64 .f32) (x5 : Vec F S128x64 .f32) (x6 : Vec F S128x64 .f32) (x7 : Vec F S128x64 .f32) : Vec F S128x64 .f32 :=
  View.canon [⟨r2_10, k2_pay2 (k2_pay3 (View.ld x0 r2_0) (View.ld x1 r2_1)) (View.ld x4 r2_4) (View.ld x7 r2_7)⟩]

/-- The one store covers the block. -/
theorem cover2_10 (p0 : Vec F S128x64 .f32) (y : S128x64.Idx) :
    ∃ pc ∈ ([⟨r2_10, p0⟩] : List (View.Piece (Elt F) S128x64 .f32)), y ∈ pc.1.set :=
  View.cover_of_tiled [⟨r2_10, p0⟩] S128x64.size (by rfl) y

/-! ## The body's triple -/

set_option maxHeartbeats 4000000 in
/-- The body run on whole staging buffers: the inputs hold `xW` and keep them, every output ends at `out2_W` of the inputs. -/
theorem sound_kernel2 (c : Dev nD) (E : Set ℕ) (i : grid2.Coords) (arg0 : Memref sig .tc .vmem S128x64 .f32) (harg0 : arg0.IsWhole) (arg1 : Memref sig .tc .vmem S8192x64 .f32) (harg1 : arg1.IsWhole) (arg2 : Memref sig .tc .vmem S8192x64 .f32) (harg2 : arg2.IsWhole) (arg3 : Memref sig .tc .vmem S8192x64 .f32) (harg3 : arg3.IsWhole) (arg4 : Memref sig .tc .vmem S8192x64 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S128x64 .f32) (harg7 : arg7.IsWhole) (arg8 : Memref sig .tc .vmem S128x64 .f32) (harg8 : arg8.IsWhole) (arg9 : Memref sig .tc .vmem S128x64 .f32) (harg9 : arg9.IsWhole) (arg10 : Memref sig .tc .vmem S128x64 .f32) (harg10 : arg10.IsWhole)
    (x0 : Vec F S128x64 .f32) (x1 : Vec F S8192x64 .f32) (x2 : Vec F S8192x64 .f32) (x3 : Vec F S8192x64 .f32) (x4 : Vec F S8192x64 .f32) (x5 : Vec F S128x64 .f32) (x6 : Vec F S128x64 .f32) (x7 : Vec F S128x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out2_8 x0 x1 x2 x3 x4 x5 x6 x7) ∗ owns (c : Thread nD τ) arg9 fullShare (out2_9 x0 x1 x2 x3 x4 x5 x6 x7) ∗ owns (c : Thread nD τ) arg10 fullShare (out2_10 x0 x1 x2 x3 x4 x5 x6 x7)) -∗ K ⟨⟩))
      ⊢ wp frame (wpE (defs₀ (F := F)) Variants.none c none) E (cc2_kernel i arg0 harg0 arg1 harg1 arg2 harg2 arg3 harg3 arg4 harg4 arg5 harg5 arg6 harg6 arg7 harg7 arg8 harg8 arg9 harg9 arg10 harg10) K := by
  simp only [cc2_kernel_eq_skeleton]; unfold cc2_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover2_8 _)
  isplitl [H9]
  · iexists _; isplitr
    swap; · iexact H9
    ipureintro
    exact View.read_writes_eq_canon _ _ _ (cover2_9 _)
  iexists _; isplitr
  swap; · iexact H10
  ipureintro
  exact View.read_writes_eq_canon _ _ _ (cover2_10 _)

/-! ## The pipeline's proof data -/

/-- Per core: the arrays are the entry contents; after the body at point `t` every input's buffer holds its block and
    every output's holds `out2_W` of the input blocks; the invariant is the untouched rest; nothing is owed. Windows 0 and 1
    read ONE array: each holds it at one half of the full share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
    | ⟨9, _⟩ => out2_9 (iblk2 V c 0 t) (iblk2 V c 1 t) (iblk2 V c 2 t) (iblk2 V c 3 t) (iblk2 V c 4 t) (iblk2 V c 5 t) (iblk2 V c 6 t) (iblk2 V c 7 t)
    | ⟨10, _⟩ => out2_10 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q w := match w with
    | ⟨0, _⟩ => fullShare.left
    | ⟨1, _⟩ => fullShare.right
    | _ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) := by dsimp only [dat2]
theorem after2_10 (c : Dev nD) (t : Fin cfg2.N) : (dat2 V c).after 10 t = out2_10 (iblk2 V c 0 t) (iblk2 V c 1 t) (iblk2 V c 2 t) (iblk2 V c 3 t) (iblk2 V c 4 t) (iblk2 V c 5 t) (iblk2 V c 6 t) (iblk2 V c 7 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-! ## The body obligation at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t))

set_option maxHeartbeats 2000000 in
/-- At any point the inputs' buffers hold their blocks, so the body's triple applies; the invariant and what the core
    owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel2 c Set.univ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation2 (c : Dev nD) : BodyObligation (dat2 (F := F) V c) (defs₀ (F := F)) Variants.none () Set.univ := fun t => by
  rw [bigSep_W2, bigSep_W2]
  exact sound_body2 V c t

end Cert.Kernel.Gen

end
-- ==== Proof.BitsRegion3.lean ====
/-
  Region 3 of the program, at any float instance: what one grid point's body leaves in each output block as a
  function of the input blocks it was handed, the body's Hoare triple, the per-point proof data of the pipeline
  (every input block stays as fetched, every output block is the stored value), and the body obligation at a
  generic grid point. Everything is stated at a parameter `V`, the contents of the core's buffers when the
  region is entered.
-/
import proofs.«117133_j29008209117207_1_alg».proof.Proof.Gen.Kernel.Launch
import proofs.«117133_j29008209117207_1_alg».proof.Proof.Gen.Kernel.Skeleton
import proofs.«117133_j29008209117207_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`: the window's rectangle at that point read off its array. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds the window's block at every point, whether the pipeline fetched it there or
    the block index has not moved since the last fetch. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds the window's block at every point, whether the pipeline fetched it there or
    the block index has not moved since the last fetch. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds the window's block at every point, whether the pipeline fetched it there or
    the block index has not moved since the last fetch. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds the window's block at every point, whether the pipeline fetched it there or
    the block index has not moved since the last fetch. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds the window's block at every point, whether the pipeline fetched it there or
    the block index has not moved since the last fetch. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's staging buffer holds the window's block at every point, whether the pipeline fetched it there or
    the block index has not moved since the last fetch. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The whole-block rectangles the body loads and stores through -/

abbrev r3_0 : Rect S128x64 := Rect.unit (s := S128x64) ![0, 0] S128x64.size inb_S128x64_S128x64_0_0
abbrev r3_1 : Rect S8192x64 := Rect.unit (s := S8192x64) ![0, 0] S8192x64.size inb_S8192x64_S8192x64_0_0
abbrev r3_2 : Rect S8192x64 := Rect.unit (s := S8192x64) ![0, 0] S8192x64.size inb_S8192x64_S8192x64_0_0
abbrev r3_3 : Rect S8192x64 := Rect.unit (s := S8192x64) ![0, 0] S8192x64.size inb_S8192x64_S8192x64_0_0
abbrev r3_4 : Rect S128x64 := Rect.unit (s := S128x64) ![0, 0] S128x64.size inb_S128x64_S128x64_0_0
abbrev r3_5 : Rect S128x64 := Rect.unit (s := S128x64) ![0, 0] S128x64.size inb_S128x64_S128x64_0_0
abbrev r3_6 : Rect S128x64 := Rect.unit (s := S128x64) ![0, 0] S128x64.size inb_S128x64_S128x64_0_0
abbrev r3_7 : Rect S128x64 := Rect.unit (s := S128x64) ![0, 0] S128x64.size inb_S128x64_S128x64_0_0

/-! ## What the body leaves in each output block -/

/-- Output window 6's block after the body: its one whole-block store, as a function of the input blocks. -/
def out3_6 (x0 : Vec F S128x64 .f32) (x1 : Vec F S8192x64 .f32) (x2 : Vec F S8192x64 .f32) (x3 : Vec F S8192x64 .f32) (x4 : Vec F S128x64 .f32) (x5 : Vec F S128x64 .f32) : Vec F S128x64 .f32 :=
  View.canon [⟨r3_6, k3_pay3 (View.ld x0 r3_0) (View.ld x1 r3_1) (View.ld x2 r3_2) (View.ld x4 r3_4)⟩]

/-- The one store covers the block. -/
theorem cover3_6 (p0 : Vec F S128x64 .f32) (y : S128x64.Idx) :
    ∃ pc ∈ ([⟨r3_6, p0⟩] : List (View.Piece (Elt F) S128x64 .f32)), y ∈ pc.1.set :=
  View.cover_of_tiled [⟨r3_6, p0⟩] S128x64.size (by rfl) y

/-- Output window 7's block after the body: its one whole-block store, as a function of the input blocks. -/
def out3_7 (x0 : Vec F S128x64 .f32) (x1 : Vec F S8192x64 .f32) (x2 : Vec F S8192x64 .f32) (x3 : Vec F S8192x64 .f32) (x4 : Vec F S128x64 .f32) (x5 : Vec F S128x64 .f32) : Vec F S128x64 .f32 :=
  View.canon [⟨r3_7, k3_pay1 (k3_pay4 (View.ld x0 r3_0) (View.ld x1 r3_1) (View.ld x3 r3_3)) (View.ld x5 r3_5)⟩]

/-- The one store covers the block. -/
theorem cover3_7 (p0 : Vec F S128x64 .f32) (y : S128x64.Idx) :
    ∃ pc ∈ ([⟨r3_7, p0⟩] : List (View.Piece (Elt F) S128x64 .f32)), y ∈ pc.1.set :=
  View.cover_of_tiled [⟨r3_7, p0⟩] S128x64.size (by rfl) y

/-! ## The body's triple -/

set_option maxHeartbeats 4000000 in
/-- The body run on whole staging buffers: the inputs hold `xW` and keep them, every output ends at `out3_W` of the inputs. -/
theorem sound_kernel3 (c : Dev nD) (E : Set ℕ) (i : grid3.Coords) (arg0 : Memref sig .tc .vmem S128x64 .f32) (harg0 : arg0.IsWhole) (arg1 : Memref sig .tc .vmem S8192x64 .f32) (harg1 : arg1.IsWhole) (arg2 : Memref sig .tc .vmem S8192x64 .f32) (harg2 : arg2.IsWhole) (arg3 : Memref sig .tc .vmem S8192x64 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S128x64 .f32) (harg7 : arg7.IsWhole)
    (x0 : Vec F S128x64 .f32) (x1 : Vec F S8192x64 .f32) (x2 : Vec F S8192x64 .f32) (x3 : Vec F S8192x64 .f32) (x4 : Vec F S128x64 .f32) (x5 : Vec F S128x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out3_6 x0 x1 x2 x3 x4 x5) ∗ owns (c : Thread nD τ) arg7 fullShare (out3_7 x0 x1 x2 x3 x4 x5)) -∗ K ⟨⟩))
      ⊢ wp frame (wpE (defs₀ (F := F)) Variants.none c none) E (cc3_kernel i arg0 harg0 arg1 harg1 arg2 harg2 arg3 harg3 arg4 harg4 arg5 harg5 arg6 harg6 arg7 harg7) K := by
  simp only [cc3_kernel_eq_skeleton]; unfold cc3_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover3_6 _)
  iexists _; isplitr
  swap; · iexact H7
  ipureintro
  exact View.read_writes_eq_canon _ _ _ (cover3_7 _)

/-! ## The pipeline's proof data -/

/-- Per core: the arrays are the entry contents; after the body at point `t` every input's buffer holds its block and
    every output's holds `out3_W` of the input blocks; the invariant is the untouched rest; nothing is owed. Windows 0 and 1
    read ONE array: each holds it at one half of the full share. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
    | ⟨7, _⟩ => out3_7 (iblk3 V c 0 t) (iblk3 V c 1 t) (iblk3 V c 2 t) (iblk3 V c 3 t) (iblk3 V c 4 t) (iblk3 V c 5 t)
  Φ _ := Pipeline.ΦA spec3 c
  q w := match w with
    | ⟨0, _⟩ => fullShare.left
    | ⟨1, _⟩ => fullShare.right
    | _ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

set_option maxHeartbeats 2000000 in
/-- At any point the inputs' buffers hold their blocks, so the body's triple applies; the invariant and what the core
    owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation3 (c : Dev nD) : BodyObligation (dat3 (F := F) V c) (defs₀ (F := F)) Variants.none () Set.univ := fun t => by
  rw [bigSep_W3, bigSep_W3]
  exact sound_body3 V c t

end Cert.Kernel.Gen

end
-- ==== Proof.BitsRegion4.lean ====
/-
  Region 4 of the program, at any float instance: what one grid point's body leaves in each output block as a
  function of the input blocks it was handed, the body's Hoare triple, the per-point proof data of the pipeline
  (every input block stays as fetched, every output block is the stored value), and the body obligation at a
  generic grid point. Everything is stated at a parameter `V`, the contents of the core's buffers when the
  region is entered.
-/
import proofs.«117133_j29008209117207_1_alg».proof.Proof.Gen.Kernel.Launch
import proofs.«117133_j29008209117207_1_alg».proof.Proof.Gen.Kernel.Skeleton
import proofs.«117133_j29008209117207_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`: the window's rectangle at that point read off its array. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds the window's block at every point, whether the pipeline fetched it there or
    the block index has not moved since the last fetch. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds the window's block at every point, whether the pipeline fetched it there or
    the block index has not moved since the last fetch. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds the window's block at every point, whether the pipeline fetched it there or
    the block index has not moved since the last fetch. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds the window's block at every point, whether the pipeline fetched it there or
    the block index has not moved since the last fetch. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The whole-block rectangles the body loads and stores through -/

abbrev r4_0 : Rect S128x64 := Rect.unit (s := S128x64) ![0, 0] S128x64.size inb_S128x64_S128x64_0_0
abbrev r4_1 : Rect S8192x64 := Rect.unit (s := S8192x64) ![0, 0] S8192x64.size inb_S8192x64_S8192x64_0_0
abbrev r4_2 : Rect S8192x64 := Rect.unit (s := S8192x64) ![0, 0] S8192x64.size inb_S8192x64_S8192x64_0_0
abbrev r4_3 : Rect S128x64 := Rect.unit (s := S128x64) ![0, 0] S128x64.size inb_S128x64_S128x64_0_0
abbrev r4_4 : Rect S128x64 := Rect.unit (s := S128x64) ![0, 0] S128x64.size inb_S128x64_S128x64_0_0

/-! ## What the body leaves in each output block -/

/-- Output window 4's block after the body: its one whole-block store, as a function of the input blocks. -/
def out4_4 (x0 : Vec F S128x64 .f32) (x1 : Vec F S8192x64 .f32) (x2 : Vec F S8192x64 .f32) (x3 : Vec F S128x64 .f32) : Vec F S128x64 .f32 :=
  View.canon [⟨r4_4, k4_pay1 (View.ld x0 r4_0) (View.ld x1 r4_1) (View.ld x2 r4_2) (View.ld x3 r4_3)⟩]

/-- The one store covers the block. -/
theorem cover4_4 (p0 : Vec F S128x64 .f32) (y : S128x64.Idx) :
    ∃ pc ∈ ([⟨r4_4, p0⟩] : List (View.Piece (Elt F) S128x64 .f32)), y ∈ pc.1.set :=
  View.cover_of_tiled [⟨r4_4, p0⟩] S128x64.size (by rfl) y

/-! ## The body's triple -/

set_option maxHeartbeats 4000000 in
/-- The body run on whole staging buffers: the inputs hold `xW` and keep them, every output ends at `out4_W` of the inputs. -/
theorem sound_kernel4 (c : Dev nD) (E : Set ℕ) (i : grid4.Coords) (arg0 : Memref sig .tc .vmem S128x64 .f32) (harg0 : arg0.IsWhole) (arg1 : Memref sig .tc .vmem S8192x64 .f32) (harg1 : arg1.IsWhole) (arg2 : Memref sig .tc .vmem S8192x64 .f32) (harg2 : arg2.IsWhole) (arg3 : Memref sig .tc .vmem S128x64 .f32) (harg3 : arg3.IsWhole) (arg4 : Memref sig .tc .vmem S128x64 .f32) (harg4 : arg4.IsWhole)
    (x0 : Vec F S128x64 .f32) (x1 : Vec F S8192x64 .f32) (x2 : Vec F S8192x64 .f32) (x3 : Vec F S128x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out4_4 x0 x1 x2 x3)) -∗ K ⟨⟩))
      ⊢ wp frame (wpE (defs₀ (F := F)) Variants.none c none) E (cc4_kernel i arg0 harg0 arg1 harg1 arg2 harg2 arg3 harg3 arg4 harg4) K := by
  simp only [cc4_kernel_eq_skeleton]; unfold cc4_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-! ## The pipeline's proof data -/

/-- Per core: the arrays are the entry contents; after the body at point `t` every input's buffer holds its block and
    every output's holds `out4_W` of the input blocks; the invariant is the untouched rest; nothing is owed. Windows 0 and 1
    read ONE array: each holds it at one half of the full share. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q w := match w with
    | ⟨0, _⟩ => fullShare.left
    | ⟨1, _⟩ => fullShare.right
    | _ => fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

set_option maxHeartbeats 2000000 in
/-- At any point the inputs' buffers hold their blocks, so the body's triple applies; the invariant and what the core
    owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation4 (c : Dev nD) : BodyObligation (dat4 (F := F) V c) (defs₀ (F := F)) Variants.none () Set.univ := fun t => by
  rw [bigSep_W4, bigSep_W4]
  exact sound_body4 V c t

end Cert.Kernel.Gen

end
-- ==== Proof.BitsRegion5.lean ====
/-
  Region 5 of the program, at any float instance: what one grid point's body leaves in each output block as a
  function of the input blocks it was handed, the body's Hoare triple, the per-point proof data of the pipeline
  (every input block stays as fetched, every output block is the stored value), and the body obligation at a
  generic grid point. Everything is stated at a parameter `V`, the contents of the core's buffers when the
  region is entered.
-/
import proofs.«117133_j29008209117207_1_alg».proof.Proof.Gen.Kernel.Launch
import proofs.«117133_j29008209117207_1_alg».proof.Proof.Gen.Kernel.Skeleton
import proofs.«117133_j29008209117207_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`: the window's rectangle at that point read off its array. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds the window's block at every point, whether the pipeline fetched it there or
    the block index has not moved since the last fetch. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds the window's block at every point, whether the pipeline fetched it there or
    the block index has not moved since the last fetch. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds the window's block at every point, whether the pipeline fetched it there or
    the block index has not moved since the last fetch. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds the window's block at every point, whether the pipeline fetched it there or
    the block index has not moved since the last fetch. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's staging buffer holds the window's block at every point, whether the pipeline fetched it there or
    the block index has not moved since the last fetch. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's staging buffer holds the window's block at every point, whether the pipeline fetched it there or
    the block index has not moved since the last fetch. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's staging buffer holds the window's block at every point, whether the pipeline fetched it there or
    the block index has not moved since the last fetch. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-- Input window 7's staging buffer holds the window's block at every point, whether the pipeline fetched it there or
    the block index has not moved since the last fetch. -/
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

/-! ## The whole-block rectangles the body loads and stores through -/

abbrev r5_0 : Rect S128x64 := Rect.unit (s := S128x64) ![0, 0] S128x64.size inb_S128x64_S128x64_0_0
abbrev r5_1 : Rect S8192x64 := Rect.unit (s := S8192x64) ![0, 0] S8192x64.size inb_S8192x64_S8192x64_0_0
abbrev r5_2 : Rect S8192x64 := Rect.unit (s := S8192x64) ![0, 0] S8192x64.size inb_S8192x64_S8192x64_0_0
abbrev r5_3 : Rect S8192x64 := Rect.unit (s := S8192x64) ![0, 0] S8192x64.size inb_S8192x64_S8192x64_0_0
abbrev r5_4 : Rect S8192x64 := Rect.unit (s := S8192x64) ![0, 0] S8192x64.size inb_S8192x64_S8192x64_0_0
abbrev r5_5 : Rect S128x64 := Rect.unit (s := S128x64) ![0, 0] S128x64.size inb_S128x64_S128x64_0_0
abbrev r5_6 : Rect S128x64 := Rect.unit (s := S128x64) ![0, 0] S128x64.size inb_S128x64_S128x64_0_0
abbrev r5_7 : Rect S128x64 := Rect.unit (s := S128x64) ![0, 0] S128x64.size inb_S128x64_S128x64_0_0
abbrev r5_8 : Rect S128x64 := Rect.unit (s := S128x64) ![0, 0] S128x64.size inb_S128x64_S128x64_0_0
abbrev r5_9 : Rect S128x64 := Rect.unit (s := S128x64) ![0, 0] S128x64.size inb_S128x64_S128x64_0_0
abbrev r5_10 : Rect S128x64 := Rect.unit (s := S128x64) ![0, 0] S128x64.size inb_S128x64_S128x64_0_0

/-! ## What the body leaves in each output block -/

/-- Output window 8's block after the body: its one whole-block store, as a function of the input blocks. -/
def out5_8 (x0 : Vec F S128x64 .f32) (x1 : Vec F S8192x64 .f32) (x2 : Vec F S8192x64 .f32) (x3 : Vec F S8192x64 .f32) (x4 : Vec F S8192x64 .f32) (x5 : Vec F S128x64 .f32) (x6 : Vec F S128x64 .f32) (x7 : Vec F S128x64 .f32) : Vec F S128x64 .f32 :=
  View.canon [⟨r5_8, k5_pay4 (View.ld x0 r5_0) (View.ld x1 r5_1) (View.ld x2 r5_2) (View.ld x5 r5_5)⟩]

/-- The one store covers the block. -/
theorem cover5_8 (p0 : Vec F S128x64 .f32) (y : S128x64.Idx) :
    ∃ pc ∈ ([⟨r5_8, p0⟩] : List (View.Piece (Elt F) S128x64 .f32)), y ∈ pc.1.set :=
  View.cover_of_tiled [⟨r5_8, p0⟩] S128x64.size (by rfl) y

/-- Output window 9's block after the body: its one whole-block store, as a function of the input blocks. -/
def out5_9 (x0 : Vec F S128x64 .f32) (x1 : Vec F S8192x64 .f32) (x2 : Vec F S8192x64 .f32) (x3 : Vec F S8192x64 .f32) (x4 : Vec F S8192x64 .f32) (x5 : Vec F S128x64 .f32) (x6 : Vec F S128x64 .f32) (x7 : Vec F S128x64 .f32) : Vec F S128x64 .f32 :=
  View.canon [⟨r5_9, k5_pay1 (k5_pay5 (View.ld x0 r5_0) (View.ld x1 r5_1) (View.ld x3 r5_3)) (View.ld x6 r5_6)⟩]

/-- The one store covers the block. -/
theorem cover5_9 (p0 : Vec F S128x64 .f32) (y : S128x64.Idx) :
    ∃ pc ∈ ([⟨r5_9, p0⟩] : List (View.Piece (Elt F) S128x64 .f32)), y ∈ pc.1.set :=
  View.cover_of_tiled [⟨r5_9, p0⟩] S128x64.size (by rfl) y

/-- Output window 10's block after the body: its one whole-block store, as a function of the input blocks. -/
def out5_10 (x0 : Vec F S128x64 .f32) (x1 : Vec F S8192x64 .f32) (x2 : Vec F S8192x64 .f32) (x3 : Vec F S8192x64 .f32) (x4 : Vec F S8192x64 .f32) (x5 : Vec F S128x64 .f32) (x6 : Vec F S128x64 .f32) (x7 : Vec F S128x64 .f32) : Vec F S128x64 .f32 :=
  View.canon [⟨r5_10, k5_pay2 (k5_pay3 (View.ld x0 r5_0) (View.ld x1 r5_1)) (View.ld x4 r5_4) (View.ld x7 r5_7)⟩]

/-- The one store covers the block. -/
theorem cover5_10 (p0 : Vec F S128x64 .f32) (y : S128x64.Idx) :
    ∃ pc ∈ ([⟨r5_10, p0⟩] : List (View.Piece (Elt F) S128x64 .f32)), y ∈ pc.1.set :=
  View.cover_of_tiled [⟨r5_10, p0⟩] S128x64.size (by rfl) y

/-! ## The body's triple -/

set_option maxHeartbeats 4000000 in
/-- The body run on whole staging buffers: the inputs hold `xW` and keep them, every output ends at `out5_W` of the inputs. -/
theorem sound_kernel5 (c : Dev nD) (E : Set ℕ) (i : grid5.Coords) (arg0 : Memref sig .tc .vmem S128x64 .f32) (harg0 : arg0.IsWhole) (arg1 : Memref sig .tc .vmem S8192x64 .f32) (harg1 : arg1.IsWhole) (arg2 : Memref sig .tc .vmem S8192x64 .f32) (harg2 : arg2.IsWhole) (arg3 : Memref sig .tc .vmem S8192x64 .f32) (harg3 : arg3.IsWhole) (arg4 : Memref sig .tc .vmem S8192x64 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S128x64 .f32) (harg7 : arg7.IsWhole) (arg8 : Memref sig .tc .vmem S128x64 .f32) (harg8 : arg8.IsWhole) (arg9 : Memref sig .tc .vmem S128x64 .f32) (harg9 : arg9.IsWhole) (arg10 : Memref sig .tc .vmem S128x64 .f32) (harg10 : arg10.IsWhole)
    (x0 : Vec F S128x64 .f32) (x1 : Vec F S8192x64 .f32) (x2 : Vec F S8192x64 .f32) (x3 : Vec F S8192x64 .f32) (x4 : Vec F S8192x64 .f32) (x5 : Vec F S128x64 .f32) (x6 : Vec F S128x64 .f32) (x7 : Vec F S128x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out5_8 x0 x1 x2 x3 x4 x5 x6 x7) ∗ owns (c : Thread nD τ) arg9 fullShare (out5_9 x0 x1 x2 x3 x4 x5 x6 x7) ∗ owns (c : Thread nD τ) arg10 fullShare (out5_10 x0 x1 x2 x3 x4 x5 x6 x7)) -∗ K ⟨⟩))
      ⊢ wp frame (wpE (defs₀ (F := F)) Variants.none c none) E (cc5_kernel i arg0 harg0 arg1 harg1 arg2 harg2 arg3 harg3 arg4 harg4 arg5 harg5 arg6 harg6 arg7 harg7 arg8 harg8 arg9 harg9 arg10 harg10) K := by
  simp only [cc5_kernel_eq_skeleton]; unfold cc5_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover5_8 _)
  isplitl [H9]
  · iexists _; isplitr
    swap; · iexact H9
    ipureintro
    exact View.read_writes_eq_canon _ _ _ (cover5_9 _)
  iexists _; isplitr
  swap; · iexact H10
  ipureintro
  exact View.read_writes_eq_canon _ _ _ (cover5_10 _)

/-! ## The pipeline's proof data -/

/-- Per core: the arrays are the entry contents; after the body at point `t` every input's buffer holds its block and
    every output's holds `out5_W` of the input blocks; the invariant is the untouched rest; nothing is owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => out5_8 (iblk5 V c 0 t) (iblk5 V c 1 t) (iblk5 V c 2 t) (iblk5 V c 3 t) (iblk5 V c 4 t) (iblk5 V c 5 t) (iblk5 V c 6 t) (iblk5 V c 7 t)
    | ⟨9, _⟩ => out5_9 (iblk5 V c 0 t) (iblk5 V c 1 t) (iblk5 V c 2 t) (iblk5 V c 3 t) (iblk5 V c 4 t) (iblk5 V c 5 t) (iblk5 V c 6 t) (iblk5 V c 7 t)
    | ⟨10, _⟩ => out5_10 (iblk5 V c 0 t) (iblk5 V c 1 t) (iblk5 V c 2 t) (iblk5 V c 3 t) (iblk5 V c 4 t) (iblk5 V c 5 t) (iblk5 V c 6 t) (iblk5 V c 7 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = out5_8 (iblk5 V c 0 t) (iblk5 V c 1 t) (iblk5 V c 2 t) (iblk5 V c 3 t) (iblk5 V c 4 t) (iblk5 V c 5 t) (iblk5 V c 6 t) (iblk5 V c 7 t) := by dsimp only [dat5]
theorem after5_9 (c : Dev nD) (t : Fin cfg5.N) : (dat5 V c).after 9 t = out5_9 (iblk5 V c 0 t) (iblk5 V c 1 t) (iblk5 V c 2 t) (iblk5 V c 3 t) (iblk5 V c 4 t) (iblk5 V c 5 t) (iblk5 V c 6 t) (iblk5 V c 7 t) := by dsimp only [dat5]
theorem after5_10 (c : Dev nD) (t : Fin cfg5.N) : (dat5 V c).after 10 t = out5_10 (iblk5 V c 0 t) (iblk5 V c 1 t) (iblk5 V c 2 t) (iblk5 V c 3 t) (iblk5 V c 4 t) (iblk5 V c 5 t) (iblk5 V c 6 t) (iblk5 V c 7 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d

/-! ## The body obligation at a generic point -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d))
    ∗ (∃ d, owns (c : Thread nD τ) (st5_10 t) fullShare ((dat5 V c).before 10 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t)
    ∗ owns (c : Thread nD τ) (st5_10 t) fullShare ((dat5 V c).after 10 t))

set_option maxHeartbeats 2000000 in
/-- At any point the inputs' buffers hold their blocks, so the body's triple applies; the invariant and what the core
    owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9, after5_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel5 c Set.univ _ _ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation5 (c : Dev nD) : BodyObligation (dat5 (F := F) V c) (defs₀ (F := F)) Variants.none () Set.univ := fun t => by
  rw [bigSep_W5, bigSep_W5]
  exact sound_body5 V c t

end Cert.Kernel.Gen

end
-- ==== Proof.BitsRegion6.lean ====
/-
  Region 6 of the program, at any float instance: what one grid point's body leaves in each output block as a
  function of the input blocks it was handed, the body's Hoare triple, the per-point proof data of the pipeline
  (every input block stays as fetched, every output block is the stored value), and the body obligation at a
  generic grid point. Everything is stated at a parameter `V`, the contents of the core's buffers when the
  region is entered.
-/
import proofs.«117133_j29008209117207_1_alg».proof.Proof.Gen.Kernel.Launch
import proofs.«117133_j29008209117207_1_alg».proof.Proof.Gen.Kernel.Skeleton
import proofs.«117133_j29008209117207_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`: the window's rectangle at that point read off its array. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds the window's block at every point, whether the pipeline fetched it there or
    the block index has not moved since the last fetch. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds the window's block at every point, whether the pipeline fetched it there or
    the block index has not moved since the last fetch. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds the window's block at every point, whether the pipeline fetched it there or
    the block index has not moved since the last fetch. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's staging buffer holds the window's block at every point, whether the pipeline fetched it there or
    the block index has not moved since the last fetch. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's staging buffer holds the window's block at every point, whether the pipeline fetched it there or
    the block index has not moved since the last fetch. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5's staging buffer holds the window's block at every point, whether the pipeline fetched it there or
    the block index has not moved since the last fetch. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-! ## The whole-block rectangles the body loads and stores through -/

abbrev r6_0 : Rect S128x64 := Rect.unit (s := S128x64) ![0, 0] S128x64.size inb_S128x64_S128x64_0_0
abbrev r6_1 : Rect S8192x64 := Rect.unit (s := S8192x64) ![0, 0] S8192x64.size inb_S8192x64_S8192x64_0_0
abbrev r6_2 : Rect S8192x64 := Rect.unit (s := S8192x64) ![0, 0] S8192x64.size inb_S8192x64_S8192x64_0_0
abbrev r6_3 : Rect S8192x64 := Rect.unit (s := S8192x64) ![0, 0] S8192x64.size inb_S8192x64_S8192x64_0_0
abbrev r6_4 : Rect S128x64 := Rect.unit (s := S128x64) ![0, 0] S128x64.size inb_S128x64_S128x64_0_0
abbrev r6_5 : Rect S128x64 := Rect.unit (s := S128x64) ![0, 0] S128x64.size inb_S128x64_S128x64_0_0
abbrev r6_6 : Rect S128x64 := Rect.unit (s := S128x64) ![0, 0] S128x64.size inb_S128x64_S128x64_0_0
abbrev r6_7 : Rect S128x64 := Rect.unit (s := S128x64) ![0, 0] S128x64.size inb_S128x64_S128x64_0_0

/-! ## What the body leaves in each output block -/

/-- Output window 6's block after the body: its one whole-block store, as a function of the input blocks. -/
def out6_6 (x0 : Vec F S128x64 .f32) (x1 : Vec F S8192x64 .f32) (x2 : Vec F S8192x64 .f32) (x3 : Vec F S8192x64 .f32) (x4 : Vec F S128x64 .f32) (x5 : Vec F S128x64 .f32) : Vec F S128x64 .f32 :=
  View.canon [⟨r6_6, k6_pay3 (View.ld x0 r6_0) (View.ld x1 r6_1) (View.ld x2 r6_2) (View.ld x4 r6_4)⟩]

/-- The one store covers the block. -/
theorem cover6_6 (p0 : Vec F S128x64 .f32) (y : S128x64.Idx) :
    ∃ pc ∈ ([⟨r6_6, p0⟩] : List (View.Piece (Elt F) S128x64 .f32)), y ∈ pc.1.set :=
  View.cover_of_tiled [⟨r6_6, p0⟩] S128x64.size (by rfl) y

/-- Output window 7's block after the body: its one whole-block store, as a function of the input blocks. -/
def out6_7 (x0 : Vec F S128x64 .f32) (x1 : Vec F S8192x64 .f32) (x2 : Vec F S8192x64 .f32) (x3 : Vec F S8192x64 .f32) (x4 : Vec F S128x64 .f32) (x5 : Vec F S128x64 .f32) : Vec F S128x64 .f32 :=
  View.canon [⟨r6_7, k6_pay1 (k6_pay4 (View.ld x0 r6_0) (View.ld x1 r6_1) (View.ld x3 r6_3)) (View.ld x5 r6_5)⟩]

/-- The one store covers the block. -/
theorem cover6_7 (p0 : Vec F S128x64 .f32) (y : S128x64.Idx) :
    ∃ pc ∈ ([⟨r6_7, p0⟩] : List (View.Piece (Elt F) S128x64 .f32)), y ∈ pc.1.set :=
  View.cover_of_tiled [⟨r6_7, p0⟩] S128x64.size (by rfl) y

/-! ## The body's triple -/

set_option maxHeartbeats 4000000 in
/-- The body run on whole staging buffers: the inputs hold `xW` and keep them, every output ends at `out6_W` of the inputs. -/
theorem sound_kernel6 (c : Dev nD) (E : Set ℕ) (i : grid6.Coords) (arg0 : Memref sig .tc .vmem S128x64 .f32) (harg0 : arg0.IsWhole) (arg1 : Memref sig .tc .vmem S8192x64 .f32) (harg1 : arg1.IsWhole) (arg2 : Memref sig .tc .vmem S8192x64 .f32) (harg2 : arg2.IsWhole) (arg3 : Memref sig .tc .vmem S8192x64 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S128x64 .f32) (harg7 : arg7.IsWhole)
    (x0 : Vec F S128x64 .f32) (x1 : Vec F S8192x64 .f32) (x2 : Vec F S8192x64 .f32) (x3 : Vec F S8192x64 .f32) (x4 : Vec F S128x64 .f32) (x5 : Vec F S128x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out6_6 x0 x1 x2 x3 x4 x5) ∗ owns (c : Thread nD τ) arg7 fullShare (out6_7 x0 x1 x2 x3 x4 x5)) -∗ K ⟨⟩))
      ⊢ wp frame (wpE (defs₀ (F := F)) Variants.none c none) E (cc6_kernel i arg0 harg0 arg1 harg1 arg2 harg2 arg3 harg3 arg4 harg4 arg5 harg5 arg6 harg6 arg7 harg7) K := by
  simp only [cc6_kernel_eq_skeleton]; unfold cc6_kernel_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover6_6 _)
  iexists _; isplitr
  swap; · iexact H7
  ipureintro
  exact View.read_writes_eq_canon _ _ _ (cover6_7 _)

/-! ## The pipeline's proof data -/

/-- Per core: the arrays are the entry contents; after the body at point `t` every input's buffer holds its block and
    every output's holds `out6_W` of the input blocks; the invariant is the untouched rest; nothing is owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
    | ⟨7, _⟩ => out6_7 (iblk6 V c 0 t) (iblk6 V c 1 t) (iblk6 V c 2 t) (iblk6 V c 3 t) (iblk6 V c 4 t) (iblk6 V c 5 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = out6_6 (iblk6 V c 0 t) (iblk6 V c 1 t) (iblk6 V c 2 t) (iblk6 V c 3 t) (iblk6 V c 4 t) (iblk6 V c 5 t) := by dsimp only [dat6]
theorem after6_7 (c : Dev nD) (t : Fin cfg6.N) : (dat6 V c).after 7 t = out6_7 (iblk6 V c 0 t) (iblk6 V c 1 t) (iblk6 V c 2 t) (iblk6 V c 3 t) (iblk6 V c 4 t) (iblk6 V c 5 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

/-! ## The body obligation at a generic point -/

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t))

set_option maxHeartbeats 2000000 in
/-- At any point the inputs' buffers hold their blocks, so the body's triple applies; the invariant and what the core
    owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel6 c Set.univ _ _ _ _ _ _ _ _ _ _ _ _ _ _ _ _ _ (iblk6 V c 0 t) (iblk6 V c 1 t) (iblk6 V c 2 t) (iblk6 V c 3 t) (iblk6 V c 4 t) (iblk6 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation6 (c : Dev nD) : BodyObligation (dat6 (F := F) V c) (defs₀ (F := F)) Variants.none () Set.univ := fun t => by
  rw [bigSep_W6, bigSep_W6]
  exact sound_body6 V c t

end Cert.Kernel.Gen

end
-- ==== Proof.BitsRegion7.lean ====
/-
  Region 7 of the program, at any float instance: what one grid point's body leaves in each output block as a
  function of the input blocks it was handed, the body's Hoare triple, the per-point proof data of the pipeline
  (every input block stays as fetched, every output block is the stored value), and the body obligation at a
  generic grid point. Everything is stated at a parameter `V`, the contents of the core's buffers when the
  region is entered.
-/
import proofs.«117133_j29008209117207_1_alg».proof.Proof.Gen.Kernel.Launch
import proofs.«117133_j29008209117207_1_alg».proof.Proof.Gen.Kernel.Skeleton
import proofs.«117133_j29008209117207_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`: the window's rectangle at that point read off its array. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds the window's block at every point, whether the pipeline fetched it there or
    the block index has not moved since the last fetch. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's staging buffer holds the window's block at every point, whether the pipeline fetched it there or
    the block index has not moved since the last fetch. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's staging buffer holds the window's block at every point, whether the pipeline fetched it there or
    the block index has not moved since the last fetch. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's staging buffer holds the window's block at every point, whether the pipeline fetched it there or
    the block index has not moved since the last fetch. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-! ## The whole-block rectangles the body loads and stores through -/

abbrev r7_0 : Rect S128x64 := Rect.unit (s := S128x64) ![0, 0] S128x64.size inb_S128x64_S128x64_0_0
abbrev r7_1 : Rect S8192x64 := Rect.unit (s := S8192x64) ![0, 0] S8192x64.size inb_S8192x64_S8192x64_0_0
abbrev r7_2 : Rect S8192x64 := Rect.unit (s := S8192x64) ![0, 0] S8192x64.size inb_S8192x64_S8192x64_0_0
abbrev r7_3 : Rect S128x64 := Rect.unit (s := S128x64) ![0, 0] S128x64.size inb_S128x64_S128x64_0_0
abbrev r7_4 : Rect S128x64 := Rect.unit (s := S128x64) ![0, 0] S128x64.size inb_S128x64_S128x64_0_0

/-! ## What the body leaves in each output block -/

/-- Output window 4's block after the body: its one whole-block store, as a function of the input blocks. -/
def out7_4 (x0 : Vec F S128x64 .f32) (x1 : Vec F S8192x64 .f32) (x2 : Vec F S8192x64 .f32) (x3 : Vec F S128x64 .f32) : Vec F S128x64 .f32 :=
  View.canon [⟨r7_4, k7_pay1 (View.ld x0 r7_0) (View.ld x1 r7_1) (View.ld x2 r7_2) (View.ld x3 r7_3)⟩]

/-- The one store covers the block. -/
theorem cover7_4 (p0 : Vec F S128x64 .f32) (y : S128x64.Idx) :
    ∃ pc ∈ ([⟨r7_4, p0⟩] : List (View.Piece (Elt F) S128x64 .f32)), y ∈ pc.1.set :=
  View.cover_of_tiled [⟨r7_4, p0⟩] S128x64.size (by rfl) y

/-! ## The body's triple -/

set_option maxHeartbeats 4000000 in
/-- The body run on whole staging buffers: the inputs hold `xW` and keep them, every output ends at `out7_W` of the inputs. -/
theorem sound_kernel7 (c : Dev nD) (E : Set ℕ) (i : grid7.Coords) (arg0 : Memref sig .tc .vmem S128x64 .f32) (harg0 : arg0.IsWhole) (arg1 : Memref sig .tc .vmem S8192x64 .f32) (harg1 : arg1.IsWhole) (arg2 : Memref sig .tc .vmem S8192x64 .f32) (harg2 : arg2.IsWhole) (arg3 : Memref sig .tc .vmem S128x64 .f32) (harg3 : arg3.IsWhole) (arg4 : Memref sig .tc .vmem S128x64 .f32) (harg4 : arg4.IsWhole)
    (x0 : Vec F S128x64 .f32) (x1 : Vec F S8192x64 .f32) (x2 : Vec F S8192x64 .f32) (x3 : Vec F S128x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out7_4 x0 x1 x2 x3)) -∗ K ⟨⟩))
      ⊢ wp frame (wpE (defs₀ (F := F)) Variants.none c none) E (cc7_kernel i arg0 harg0 arg1 harg1 arg2 harg2 arg3 harg3 arg4 harg4) K := by
  simp only [cc7_kernel_eq_skeleton]; unfold cc7_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover7_4 _)

/-! ## The pipeline's proof data -/

/-- Per core: the arrays are the entry contents; after the body at point `t` every input's buffer holds its block and
    every output's holds `out7_W` of the input blocks; the invariant is the untouched rest; nothing is owed. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out7_4 (iblk7 V c 0 t) (iblk7 V c 1 t) (iblk7 V c 2 t) (iblk7 V c 3 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = out7_4 (iblk7 V c 0 t) (iblk7 V c 1 t) (iblk7 V c 2 t) (iblk7 V c 3 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

/-! ## The body obligation at a generic point -/

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

set_option maxHeartbeats 2000000 in
/-- At any point the inputs' buffers hold their blocks, so the body's triple applies; the invariant and what the core
    owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ _ _ _ _ _ _ _ _ _ _ _ (iblk7 V c 0 t) (iblk7 V c 1 t) (iblk7 V c 2 t) (iblk7 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation7 (c : Dev nD) : BodyObligation (dat7 (F := F) V c) (defs₀ (F := F)) Variants.none () Set.univ := fun t => by
  rw [bigSep_W7, bigSep_W7]
  exact sound_body7 V c t

end Cert.Kernel.Gen

end
-- ==== Proof.LibSharedPair.lean ====
/-
  Two indices sharing one image. A separating conjunction over the IMAGE of a map `f` that sends exactly two indices
  `i₀ ≠ i₁` to one point (and is injective otherwise) is a separating conjunction over all indices, once the
  conjunct at the shared point splits into the two indices' conjuncts: the shared point is met once in the image,
  and its conjunct pays for both indices.
-/
import Idealize.SL.ProofMode.BigOp

namespace Idealize.SL.BI

open Idealize.SL Idealize.SL.RA Idealize.SL.BI
open scoped Idealize.SL.BI
open Idealize.SL.BI.BIBase Idealize.SL.BI.Laws Idealize.SL.ProofMode

variable {M : Type} [URA M]

/-- `∗` is associative, as an equation. -/
theorem sep_assoc_eq (P Q R : sProp M) : (iprop((P ∗ Q) ∗ R) : sProp M) = iprop(P ∗ (Q ∗ R)) :=
  Entails.antisymm sep_assoc sep_assoc'

/-- See the module's header: `P` over the image of `f` is `Q` over all indices, when `f i₀ = f i₁`, `f` is injective
    away from `i₀`, `Q` is `P ∘ f` at every other index, and `P (f i₁)` is `Q i₀ ∗ Q i₁`. -/
theorem bigSep_image_shared_pair {ι β : Type} [Fintype ι] [DecidableEq ι] [DecidableEq β]
    (f : ι → β) (i₀ i₁ : ι) (hne : i₀ ≠ i₁) (h01 : f i₀ = f i₁)
    (hinj : Set.InjOn f ((Finset.univ.erase i₀ : Finset ι) : Set ι))
    (P : β → sProp M) (Q : ι → sProp M)
    (hQ : ∀ i, i ≠ i₀ → i ≠ i₁ → Q i = P (f i))
    (hsplit : P (f i₁) = (iprop(Q i₀ ∗ Q i₁) : sProp M)) :
    bigSep (Finset.univ.image f) P = bigSep Finset.univ Q := by
  have himg : Finset.univ.image f = (Finset.univ.erase i₀).image f := by
    ext b
    simp only [Finset.mem_image, Finset.mem_univ, true_and, Finset.mem_erase, ne_eq, and_true]
    constructor
    · rintro ⟨i, rfl⟩
      by_cases h : i = i₀
      · exact ⟨i₁, fun e => hne e.symm, by rw [h, h01]⟩
      · exact ⟨i, h, rfl⟩
    · rintro ⟨i, -, rfl⟩; exact ⟨i, rfl⟩
  have h1 : i₁ ∈ (Finset.univ.erase i₀ : Finset ι) := Finset.mem_erase.mpr ⟨fun e => hne e.symm, Finset.mem_univ _⟩
  have hE : bigSep ((Finset.univ.erase i₀).erase i₁) (fun i => P (f i)) = bigSep ((Finset.univ.erase i₀).erase i₁) Q :=
    bigSep_congr fun i hi => (hQ i (Finset.mem_erase.mp (Finset.mem_erase.mp hi).2).1 (Finset.mem_erase.mp hi).1).symm
  rw [himg, bigSep_image_of_injOn hinj, bigSep_erase (Finset.mem_univ i₀) (Φ := Q),
    bigSep_erase h1 (Φ := fun i => P (f i)), bigSep_erase h1 (Φ := Q), hsplit, hE]
  exact sep_assoc_eq _ _ _

end Idealize.SL.BI
-- ==== Proof.BitsShared2.lean ====
/-
  Region 2 hands ONE array to its windows 0 and 1. The buffers behind the region's arrays, each held whole at the
  full share, are the region's arrays with that one buffer held twice, at the two halves of the full share; so the
  core's unscoped buffers split into the region's arrays and the rest at entry, and are put back together at exit.
-/
import proofs.«117133_j29008209117207_1_alg».proof.Proof.BitsRegion2
import proofs.«117133_j29008209117207_1_alg».proof.Proof.LibSharedPair

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Windows 0 and 1 read the same array, -/
theorem arrRef2_shared : Pipeline.arrRef spec2 0 = Pipeline.arrRef spec2 1 := by decide

/-- and no other two windows share one. -/
theorem arrRef2_injOn : Set.InjOn (Pipeline.arrRef spec2) ((Finset.univ.erase (0 : Fin 11) : Finset (Fin 11)) : Set (Fin 11)) := by
  have h : ∀ a b : Fin 11, a ≠ 0 → b ≠ 0 → Pipeline.arrRef spec2 a = Pipeline.arrRef spec2 b → a = b := by decide
  intro a ha b hb e
  exact h a b (Finset.mem_erase.mp (Finset.mem_coe.mp ha)).1 (Finset.mem_erase.mp (Finset.mem_coe.mp hb)).1 e

/-- The buffers behind the arrays at contents `V` ARE the region's arrays at any contents that agree with `V`. -/
theorem arrBufs_eq_arrays2 (c : Dev nD) (V' : (b : Ref sig .tc) → Buf (Elt F) ((c : Thread nD τ).loc b))
    (G : (w : Fin cfg2.W) → Buf (Elt F) ((cfg2.win w).arr.view.loc (c : Thread nD τ))) (hG : ∀ w, G w = V' (Pipeline.arrRef spec2 w)) :
    (Pipeline.arrBufs (Ix := Unit) (Name := ℕ) (U := UR sig nD τ) (Lvl := ℕ) spec2 c V' : sProp 𝕄) = (dat2 V c).arrays G := by
  unfold Pipeline.arrBufs Pipeline.Dat.arrays
  refine bigSep_image_shared_pair (Pipeline.arrRef spec2) 0 1 (by decide) arrRef2_shared arrRef2_injOn _ _ (fun w h0 h1 => ?_) ?_
  · rw [(arr_whole2 w).set_eq_univ, hG w]
    have hs : (dat2 V c).share w = fullShare := by
      match w, h0, h1 with
    | ⟨0, _⟩, h0, _ => exact absurd rfl h0
    | ⟨1, _⟩, _, h1 => exact absurd rfl h1
    | ⟨2, _⟩, _, _ => rfl
    | ⟨3, _⟩, _, _ => rfl
    | ⟨4, _⟩, _, _ => rfl
    | ⟨5, _⟩, _, _ => rfl
    | ⟨6, _⟩, _, _ => rfl
    | ⟨7, _⟩, _, _ => rfl
    | ⟨8, _⟩, _, _ => rfl
    | ⟨9, _⟩, _, _ => rfl
    | ⟨10, _⟩, _, _ => rfl
    rw [hs]
  · rw [(arr_whole2 0).set_eq_univ, hG 0, hG 1,
      show (dat2 V c).share 0 = fullShare.left from rfl, show (dat2 V c).share 1 = fullShare.right from rfl]
    exact BI.Entails.antisymm (pointsTo_share (PosShare.mem_left_op_right fullShare)).1 (pointsTo_share (PosShare.mem_left_op_right fullShare)).2

/-- ENTRY: the core's unscoped buffers at `V` are the region's arrays at the entry contents and the rest. -/
theorem entryArr2 (c : Dev nD) :
    (unscopedBufs c (V c) : sProp 𝕄) ⊢ iprop((dat2 V c).arrays ((dat2 V c).arrAt · 0) ∗ Pipeline.unscopedRest (Ix := Unit) (Name := ℕ) (U := UR sig nD τ) (Lvl := ℕ) spec2 c (V c)) := by
  rw [Pipeline.unscopedBufs_split₀ cfgs (2 : Fin 8) winFacts₀2.arr_unscoped c (V c)]
  exact sep_mono (Entails.of_eq (arrBufs_eq_arrays2 V c (V c) _ fun w => rfl)) .rfl

/-- EXIT: the region's arrays at contents `G` and the rest at `V` are the unscoped buffers at any contents `V'` that has
    the arrays at `G` and agrees with `V` off them. -/
theorem exitArr2 (c : Dev nD) (V' : (b : Ref sig .tc) → Buf (Elt F) ((c : Thread nD τ).loc b))
    (G : (w : Fin cfg2.W) → Buf (Elt F) ((cfg2.win w).arr.view.loc (c : Thread nD τ))) (hG : ∀ w, G w = V' (Pipeline.arrRef spec2 w))
    (hrest : ∀ b, b ∉ Finset.univ.image (Pipeline.arrRef spec2) → V' b = V c b) :
    iprop((dat2 V c).arrays G ∗ Pipeline.unscopedRest (Ix := Unit) (Name := ℕ) (U := UR sig nD τ) (Lvl := ℕ) spec2 c (V c)) ⊢ (unscopedBufs c V' : sProp 𝕄) := by
  rw [Pipeline.unscopedBufs_split₀ cfgs (2 : Fin 8) winFacts₀2.arr_unscoped c V']
  refine sep_mono (Entails.of_eq (arrBufs_eq_arrays2 V c V' G hG).symm) (Entails.of_eq ?_)
  unfold Pipeline.unscopedRest
  exact bigSep_congr fun b hb => by rw [hrest b (Finset.mem_sdiff.mp hb).2]

end Cert.Kernel.Gen

end
-- ==== Proof.BitsShared3.lean ====
/-
  Region 3 hands ONE array to its windows 0 and 1. The buffers behind the region's arrays, each held whole at the
  full share, are the region's arrays with that one buffer held twice, at the two halves of the full share; so the
  core's unscoped buffers split into the region's arrays and the rest at entry, and are put back together at exit.
-/
import proofs.«117133_j29008209117207_1_alg».proof.Proof.BitsRegion3
import proofs.«117133_j29008209117207_1_alg».proof.Proof.LibSharedPair

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Windows 0 and 1 read the same array, -/
theorem arrRef3_shared : Pipeline.arrRef spec3 0 = Pipeline.arrRef spec3 1 := by decide

/-- and no other two windows share one. -/
theorem arrRef3_injOn : Set.InjOn (Pipeline.arrRef spec3) ((Finset.univ.erase (0 : Fin 8) : Finset (Fin 8)) : Set (Fin 8)) := by
  have h : ∀ a b : Fin 8, a ≠ 0 → b ≠ 0 → Pipeline.arrRef spec3 a = Pipeline.arrRef spec3 b → a = b := by decide
  intro a ha b hb e
  exact h a b (Finset.mem_erase.mp (Finset.mem_coe.mp ha)).1 (Finset.mem_erase.mp (Finset.mem_coe.mp hb)).1 e

/-- The buffers behind the arrays at contents `V` ARE the region's arrays at any contents that agree with `V`. -/
theorem arrBufs_eq_arrays3 (c : Dev nD) (V' : (b : Ref sig .tc) → Buf (Elt F) ((c : Thread nD τ).loc b))
    (G : (w : Fin cfg3.W) → Buf (Elt F) ((cfg3.win w).arr.view.loc (c : Thread nD τ))) (hG : ∀ w, G w = V' (Pipeline.arrRef spec3 w)) :
    (Pipeline.arrBufs (Ix := Unit) (Name := ℕ) (U := UR sig nD τ) (Lvl := ℕ) spec3 c V' : sProp 𝕄) = (dat3 V c).arrays G := by
  unfold Pipeline.arrBufs Pipeline.Dat.arrays
  refine bigSep_image_shared_pair (Pipeline.arrRef spec3) 0 1 (by decide) arrRef3_shared arrRef3_injOn _ _ (fun w h0 h1 => ?_) ?_
  · rw [(arr_whole3 w).set_eq_univ, hG w]
    have hs : (dat3 V c).share w = fullShare := by
      match w, h0, h1 with
    | ⟨0, _⟩, h0, _ => exact absurd rfl h0
    | ⟨1, _⟩, _, h1 => exact absurd rfl h1
    | ⟨2, _⟩, _, _ => rfl
    | ⟨3, _⟩, _, _ => rfl
    | ⟨4, _⟩, _, _ => rfl
    | ⟨5, _⟩, _, _ => rfl
    | ⟨6, _⟩, _, _ => rfl
    | ⟨7, _⟩, _, _ => rfl
    rw [hs]
  · rw [(arr_whole3 0).set_eq_univ, hG 0, hG 1,
      show (dat3 V c).share 0 = fullShare.left from rfl, show (dat3 V c).share 1 = fullShare.right from rfl]
    exact BI.Entails.antisymm (pointsTo_share (PosShare.mem_left_op_right fullShare)).1 (pointsTo_share (PosShare.mem_left_op_right fullShare)).2

/-- ENTRY: the core's unscoped buffers at `V` are the region's arrays at the entry contents and the rest. -/
theorem entryArr3 (c : Dev nD) :
    (unscopedBufs c (V c) : sProp 𝕄) ⊢ iprop((dat3 V c).arrays ((dat3 V c).arrAt · 0) ∗ Pipeline.unscopedRest (Ix := Unit) (Name := ℕ) (U := UR sig nD τ) (Lvl := ℕ) spec3 c (V c)) := by
  rw [Pipeline.unscopedBufs_split₀ cfgs (3 : Fin 8) winFacts₀3.arr_unscoped c (V c)]
  exact sep_mono (Entails.of_eq (arrBufs_eq_arrays3 V c (V c) _ fun w => rfl)) .rfl

/-- EXIT: the region's arrays at contents `G` and the rest at `V` are the unscoped buffers at any contents `V'` that has
    the arrays at `G` and agrees with `V` off them. -/
theorem exitArr3 (c : Dev nD) (V' : (b : Ref sig .tc) → Buf (Elt F) ((c : Thread nD τ).loc b))
    (G : (w : Fin cfg3.W) → Buf (Elt F) ((cfg3.win w).arr.view.loc (c : Thread nD τ))) (hG : ∀ w, G w = V' (Pipeline.arrRef spec3 w))
    (hrest : ∀ b, b ∉ Finset.univ.image (Pipeline.arrRef spec3) → V' b = V c b) :
    iprop((dat3 V c).arrays G ∗ Pipeline.unscopedRest (Ix := Unit) (Name := ℕ) (U := UR sig nD τ) (Lvl := ℕ) spec3 c (V c)) ⊢ (unscopedBufs c V' : sProp 𝕄) := by
  rw [Pipeline.unscopedBufs_split₀ cfgs (3 : Fin 8) winFacts₀3.arr_unscoped c V']
  refine sep_mono (Entails.of_eq (arrBufs_eq_arrays3 V c V' G hG).symm) (Entails.of_eq ?_)
  unfold Pipeline.unscopedRest
  exact bigSep_congr fun b hb => by rw [hrest b (Finset.mem_sdiff.mp hb).2]

end Cert.Kernel.Gen

end
-- ==== Proof.BitsShared4.lean ====
/-
  Region 4 hands ONE array to its windows 0 and 1. The buffers behind the region's arrays, each held whole at the
  full share, are the region's arrays with that one buffer held twice, at the two halves of the full share; so the
  core's unscoped buffers split into the region's arrays and the rest at entry, and are put back together at exit.
-/
import proofs.«117133_j29008209117207_1_alg».proof.Proof.BitsRegion4
import proofs.«117133_j29008209117207_1_alg».proof.Proof.LibSharedPair

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Windows 0 and 1 read the same array, -/
theorem arrRef4_shared : Pipeline.arrRef spec4 0 = Pipeline.arrRef spec4 1 := by decide

/-- and no other two windows share one. -/
theorem arrRef4_injOn : Set.InjOn (Pipeline.arrRef spec4) ((Finset.univ.erase (0 : Fin 5) : Finset (Fin 5)) : Set (Fin 5)) := by
  have h : ∀ a b : Fin 5, a ≠ 0 → b ≠ 0 → Pipeline.arrRef spec4 a = Pipeline.arrRef spec4 b → a = b := by decide
  intro a ha b hb e
  exact h a b (Finset.mem_erase.mp (Finset.mem_coe.mp ha)).1 (Finset.mem_erase.mp (Finset.mem_coe.mp hb)).1 e

/-- The buffers behind the arrays at contents `V` ARE the region's arrays at any contents that agree with `V`. -/
theorem arrBufs_eq_arrays4 (c : Dev nD) (V' : (b : Ref sig .tc) → Buf (Elt F) ((c : Thread nD τ).loc b))
    (G : (w : Fin cfg4.W) → Buf (Elt F) ((cfg4.win w).arr.view.loc (c : Thread nD τ))) (hG : ∀ w, G w = V' (Pipeline.arrRef spec4 w)) :
    (Pipeline.arrBufs (Ix := Unit) (Name := ℕ) (U := UR sig nD τ) (Lvl := ℕ) spec4 c V' : sProp 𝕄) = (dat4 V c).arrays G := by
  unfold Pipeline.arrBufs Pipeline.Dat.arrays
  refine bigSep_image_shared_pair (Pipeline.arrRef spec4) 0 1 (by decide) arrRef4_shared arrRef4_injOn _ _ (fun w h0 h1 => ?_) ?_
  · rw [(arr_whole4 w).set_eq_univ, hG w]
    have hs : (dat4 V c).share w = fullShare := by
      match w, h0, h1 with
    | ⟨0, _⟩, h0, _ => exact absurd rfl h0
    | ⟨1, _⟩, _, h1 => exact absurd rfl h1
    | ⟨2, _⟩, _, _ => rfl
    | ⟨3, _⟩, _, _ => rfl
    | ⟨4, _⟩, _, _ => rfl
    rw [hs]
  · rw [(arr_whole4 0).set_eq_univ, hG 0, hG 1,
      show (dat4 V c).share 0 = fullShare.left from rfl, show (dat4 V c).share 1 = fullShare.right from rfl]
    exact BI.Entails.antisymm (pointsTo_share (PosShare.mem_left_op_right fullShare)).1 (pointsTo_share (PosShare.mem_left_op_right fullShare)).2

/-- ENTRY: the core's unscoped buffers at `V` are the region's arrays at the entry contents and the rest. -/
theorem entryArr4 (c : Dev nD) :
    (unscopedBufs c (V c) : sProp 𝕄) ⊢ iprop((dat4 V c).arrays ((dat4 V c).arrAt · 0) ∗ Pipeline.unscopedRest (Ix := Unit) (Name := ℕ) (U := UR sig nD τ) (Lvl := ℕ) spec4 c (V c)) := by
  rw [Pipeline.unscopedBufs_split₀ cfgs (4 : Fin 8) winFacts₀4.arr_unscoped c (V c)]
  exact sep_mono (Entails.of_eq (arrBufs_eq_arrays4 V c (V c) _ fun w => rfl)) .rfl

/-- EXIT: the region's arrays at contents `G` and the rest at `V` are the unscoped buffers at any contents `V'` that has
    the arrays at `G` and agrees with `V` off them. -/
theorem exitArr4 (c : Dev nD) (V' : (b : Ref sig .tc) → Buf (Elt F) ((c : Thread nD τ).loc b))
    (G : (w : Fin cfg4.W) → Buf (Elt F) ((cfg4.win w).arr.view.loc (c : Thread nD τ))) (hG : ∀ w, G w = V' (Pipeline.arrRef spec4 w))
    (hrest : ∀ b, b ∉ Finset.univ.image (Pipeline.arrRef spec4) → V' b = V c b) :
    iprop((dat4 V c).arrays G ∗ Pipeline.unscopedRest (Ix := Unit) (Name := ℕ) (U := UR sig nD τ) (Lvl := ℕ) spec4 c (V c)) ⊢ (unscopedBufs c V' : sProp 𝕄) := by
  rw [Pipeline.unscopedBufs_split₀ cfgs (4 : Fin 8) winFacts₀4.arr_unscoped c V']
  refine sep_mono (Entails.of_eq (arrBufs_eq_arrays4 V c V' G hG).symm) (Entails.of_eq ?_)
  unfold Pipeline.unscopedRest
  exact bigSep_congr fun b hb => by rw [hrest b (Finset.mem_sdiff.mp hb).2]

end Cert.Kernel.Gen

end
-- ==== Proof.BitsRun.lean ====
/-
  The whole program as a chain of its fifteen items (eight kernel regions among seven stretches of host operations).
  The contents of every unscoped buffer of a core are followed from the launch memory through the items: a host
  stretch applies its operations; a region leaves each of its output arrays at what the write-backs of all grid
  points leave there, and every other buffer as it found it. Every region is entered from "all unscoped buffers at the
  current contents" and left at the next contents, so the items chain, and every weakly fair execution terminates
  with every unscoped buffer at the last contents.
-/
import proofs.«117133_j29008209117207_1_alg».proof.Proof.BitsRegion0
import proofs.«117133_j29008209117207_1_alg».proof.Proof.BitsRegion1
import proofs.«117133_j29008209117207_1_alg».proof.Proof.BitsRegion2
import proofs.«117133_j29008209117207_1_alg».proof.Proof.BitsRegion3
import proofs.«117133_j29008209117207_1_alg».proof.Proof.BitsRegion4
import proofs.«117133_j29008209117207_1_alg».proof.Proof.BitsRegion5
import proofs.«117133_j29008209117207_1_alg».proof.Proof.BitsRegion6
import proofs.«117133_j29008209117207_1_alg».proof.Proof.BitsRegion7
import proofs.«117133_j29008209117207_1_alg».proof.Proof.BitsShared2
import proofs.«117133_j29008209117207_1_alg».proof.Proof.BitsShared3
import proofs.«117133_j29008209117207_1_alg».proof.Proof.BitsShared4
import proofs.«117133_j29008209117207_1_alg».proof.Proof.Gen.Kernel.Regions

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each item boundary -/

/-- Core `c`'s buffers at launch. -/
abbrev W0 : Dev nD → Valuation τ sig (Elt F) := fun c b => (s₀ m ρ).mem ((c : Dev nD), b)
abbrev Vr0 : (c : Dev nD) → (b : Ref sig .tc) → Buf (Elt F) ((c : Thread nD τ).loc b) := fun c b => W0 m ρ c b
/-- After region 0: its arrays at what its write-backs leave, every other buffer as entered. -/
def W1 (c : Dev nD) : Valuation τ sig (Elt F) :=
  Pipeline.withArrays spec0 c (W0 m ρ c) fun w => (dat0 (Vr0 m ρ) c).arrAt w cfg0.N
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
theorem W1_arr (c : Dev nD) (w : Fin cfg0.W) :
    W1 m ρ c (Proc.devRef .tc (Pipeline.arrRef spec0 w)) = (dat0 (Vr0 m ρ) c).arrAt w cfg0.N := by
  unfold W1; exact Pipeline.withArrays_arr spec0 launch0.win.arr_inj c _ _ w
abbrev Vr1 : (c : Dev nD) → (b : Ref sig .tc) → Buf (Elt F) ((c : Thread nD τ).loc b) := fun c b => W1 m ρ c b
theorem hF0 (c : Dev nD) (w : Fin cfg0.W) : (dat0 (Vr0 m ρ) c).arrAt w cfg0.N = Vr1 m ρ c (Pipeline.arrRef spec0 w) :=
  (W1_arr m ρ c w).symm
theorem hrest0 (c : Dev nD) : ∀ b, b ∉ Finset.univ.image (Pipeline.arrRef spec0) → Vr1 m ρ c b = Vr0 m ρ c b :=
  fun b hb => W1_of_ne m ρ c b fun w e => hb (Finset.mem_image.mpr ⟨w, Finset.mem_univ _, e⟩)

/-- After region 1: its arrays at what its write-backs leave, every other buffer as entered. -/
def W2 (c : Dev nD) : Valuation τ sig (Elt F) :=
  Pipeline.withArrays spec1 c (W1 m ρ c) fun w => (dat1 (Vr1 m ρ) c).arrAt w cfg1.N
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
theorem W2_arr (c : Dev nD) (w : Fin cfg1.W) :
    W2 m ρ c (Proc.devRef .tc (Pipeline.arrRef spec1 w)) = (dat1 (Vr1 m ρ) c).arrAt w cfg1.N := by
  unfold W2; exact Pipeline.withArrays_arr spec1 launch1.win.arr_inj c _ _ w
abbrev Vr2 : (c : Dev nD) → (b : Ref sig .tc) → Buf (Elt F) ((c : Thread nD τ).loc b) := fun c b => W2 m ρ c b
theorem hF1 (c : Dev nD) (w : Fin cfg1.W) : (dat1 (Vr1 m ρ) c).arrAt w cfg1.N = Vr2 m ρ c (Pipeline.arrRef spec1 w) :=
  (W2_arr m ρ c w).symm
theorem hrest1 (c : Dev nD) : ∀ b, b ∉ Finset.univ.image (Pipeline.arrRef spec1) → Vr2 m ρ c b = Vr1 m ρ c b :=
  fun b hb => W2_of_ne m ρ c b fun w e => hb (Finset.mem_image.mpr ⟨w, Finset.mem_univ _, e⟩)

/-- After the host stretch `hostOps2`. -/
abbrev W3 : Dev nD → Valuation τ sig (Elt F) := fun c => StableHlo.after hostOps2 (W2 m ρ c)
abbrev Vr3 : (c : Dev nD) → (b : Ref sig .tc) → Buf (Elt F) ((c : Thread nD τ).loc b) := fun c b => W3 m ρ c b

/-- After region 2 (windows 0 and 1 read one array): its output arrays at what its write-backs leave, every other
    buffer as entered. -/
def W4 (c : Dev nD) : Valuation τ sig (Elt F) :=
  Function.update (Function.update (Function.update (W3 m ρ c) main_v16_0 ((dat2 (Vr3 m ρ) c).arrAt 8 cfg2.N)) main_v16_1 ((dat2 (Vr3 m ρ) c).arrAt 9 cfg2.N)) main_v16_2 ((dat2 (Vr3 m ρ) c).arrAt 10 cfg2.N)
theorem W4_keep (c : Dev nD) (r : Ref sig .tc) (h : r ∉ ([main_v16_0, main_v16_1, main_v16_2] : List (Ref sig .tc))) : W4 m ρ c r = W3 m ρ c r := by
  simp only [W4, Function.update_of_ne (StableHlo.devRef_ne_of_ne (List.ne_of_not_mem_cons h) : (Proc.devRef .tc r : DevRef τ sig) ≠ Proc.devRef .tc main_v16_0), Function.update_of_ne (StableHlo.devRef_ne_of_ne (List.ne_of_not_mem_cons (List.not_mem_of_not_mem_cons h)) : (Proc.devRef .tc r : DevRef τ sig) ≠ Proc.devRef .tc main_v16_1), Function.update_of_ne (StableHlo.devRef_ne_of_ne (List.ne_of_not_mem_cons (List.not_mem_of_not_mem_cons (List.not_mem_of_not_mem_cons h))) : (Proc.devRef .tc r : DevRef τ sig) ≠ Proc.devRef .tc main_v16_2)]
theorem W4_out0 (c : Dev nD) : W4 m ρ c main_v16_0 = (dat2 (Vr3 m ρ) c).arrAt 8 cfg2.N := by
  simp only [W4, Function.update_of_ne (StableHlo.devRef_ne_of_ne (by decide : main_v16_0 ≠ main_v16_1) : (Proc.devRef .tc main_v16_0 : DevRef τ sig) ≠ Proc.devRef .tc main_v16_1), Function.update_of_ne (StableHlo.devRef_ne_of_ne (by decide : main_v16_0 ≠ main_v16_2) : (Proc.devRef .tc main_v16_0 : DevRef τ sig) ≠ Proc.devRef .tc main_v16_2), Function.update_self]
theorem W4_out1 (c : Dev nD) : W4 m ρ c main_v16_1 = (dat2 (Vr3 m ρ) c).arrAt 9 cfg2.N := by
  simp only [W4, Function.update_of_ne (StableHlo.devRef_ne_of_ne (by decide : main_v16_1 ≠ main_v16_2) : (Proc.devRef .tc main_v16_1 : DevRef τ sig) ≠ Proc.devRef .tc main_v16_2), Function.update_self]
theorem W4_out2 (c : Dev nD) : W4 m ρ c main_v16_2 = (dat2 (Vr3 m ρ) c).arrAt 10 cfg2.N := by
  simp only [W4, Function.update_self]
abbrev Vr4 : (c : Dev nD) → (b : Ref sig .tc) → Buf (Elt F) ((c : Thread nD τ).loc b) := fun c b => W4 m ρ c b
/-- An input window's array is none of the region's output arrays; a window that is no input is one of the outputs. -/
theorem inArr2 : ∀ w : Fin 11, (cfg2.win w).isOut = false → Pipeline.arrRef spec2 w ∉ ([main_v16_0, main_v16_1, main_v16_2] : List (Ref sig .tc)) := by decide
theorem outWin2 : ∀ w : Fin 11, ¬ (cfg2.win w).isOut = false → w = 8 ∨ w = 9 ∨ w = 10 := by decide
theorem hG2 (c : Dev nD) (w : Fin cfg2.W) : (dat2 (Vr3 m ρ) c).arrAt w cfg2.N = Vr4 m ρ c (Pipeline.arrRef spec2 w) := by
  by_cases hw : (cfg2.win w).isOut = false
  · rw [(dat2 (Vr3 m ρ) c).arrAt_in w hw, A_eq2]
    exact (W4_keep m ρ c _ (inArr2 w hw)).symm
  · rcases outWin2 w hw with rfl | rfl | rfl
    · exact (W4_out0 m ρ c).symm
    · exact (W4_out1 m ρ c).symm
    · exact (W4_out2 m ρ c).symm
theorem hrest2 (c : Dev nD) : ∀ b, b ∉ Finset.univ.image (Pipeline.arrRef spec2) → Vr4 m ρ c b = Vr3 m ρ c b :=
  fun b hb => W4_keep m ρ c b (by
    intro hmem
    simp only [List.mem_cons, List.not_mem_nil, or_false] at hmem
    rcases hmem with rfl | rfl | rfl
    · exact hb (Finset.mem_image.mpr ⟨8, Finset.mem_univ _, rfl⟩)
    · exact hb (Finset.mem_image.mpr ⟨9, Finset.mem_univ _, rfl⟩)
    · exact hb (Finset.mem_image.mpr ⟨10, Finset.mem_univ _, rfl⟩))

/-- After the host stretch `hostOps3`. -/
abbrev W5 : Dev nD → Valuation τ sig (Elt F) := fun c => StableHlo.after hostOps3 (W4 m ρ c)
abbrev Vr5 : (c : Dev nD) → (b : Ref sig .tc) → Buf (Elt F) ((c : Thread nD τ).loc b) := fun c b => W5 m ρ c b

/-- After region 3 (windows 0 and 1 read one array): its output arrays at what its write-backs leave, every other
    buffer as entered. -/
def W6 (c : Dev nD) : Valuation τ sig (Elt F) :=
  Function.update (Function.update (W5 m ρ c) main_v18_0 ((dat3 (Vr5 m ρ) c).arrAt 6 cfg3.N)) main_v18_1 ((dat3 (Vr5 m ρ) c).arrAt 7 cfg3.N)
theorem W6_keep (c : Dev nD) (r : Ref sig .tc) (h : r ∉ ([main_v18_0, main_v18_1] : List (Ref sig .tc))) : W6 m ρ c r = W5 m ρ c r := by
  simp only [W6, Function.update_of_ne (StableHlo.devRef_ne_of_ne (List.ne_of_not_mem_cons h) : (Proc.devRef .tc r : DevRef τ sig) ≠ Proc.devRef .tc main_v18_0), Function.update_of_ne (StableHlo.devRef_ne_of_ne (List.ne_of_not_mem_cons (List.not_mem_of_not_mem_cons h)) : (Proc.devRef .tc r : DevRef τ sig) ≠ Proc.devRef .tc main_v18_1)]
theorem W6_out0 (c : Dev nD) : W6 m ρ c main_v18_0 = (dat3 (Vr5 m ρ) c).arrAt 6 cfg3.N := by
  simp only [W6, Function.update_of_ne (StableHlo.devRef_ne_of_ne (by decide : main_v18_0 ≠ main_v18_1) : (Proc.devRef .tc main_v18_0 : DevRef τ sig) ≠ Proc.devRef .tc main_v18_1), Function.update_self]
theorem W6_out1 (c : Dev nD) : W6 m ρ c main_v18_1 = (dat3 (Vr5 m ρ) c).arrAt 7 cfg3.N := by
  simp only [W6, Function.update_self]
abbrev Vr6 : (c : Dev nD) → (b : Ref sig .tc) → Buf (Elt F) ((c : Thread nD τ).loc b) := fun c b => W6 m ρ c b
/-- An input window's array is none of the region's output arrays; a window that is no input is one of the outputs. -/
theorem inArr3 : ∀ w : Fin 8, (cfg3.win w).isOut = false → Pipeline.arrRef spec3 w ∉ ([main_v18_0, main_v18_1] : List (Ref sig .tc)) := by decide
theorem outWin3 : ∀ w : Fin 8, ¬ (cfg3.win w).isOut = false → w = 6 ∨ w = 7 := by decide
theorem hG3 (c : Dev nD) (w : Fin cfg3.W) : (dat3 (Vr5 m ρ) c).arrAt w cfg3.N = Vr6 m ρ c (Pipeline.arrRef spec3 w) := by
  by_cases hw : (cfg3.win w).isOut = false
  · rw [(dat3 (Vr5 m ρ) c).arrAt_in w hw, A_eq3]
    exact (W6_keep m ρ c _ (inArr3 w hw)).symm
  · rcases outWin3 w hw with rfl | rfl
    · exact (W6_out0 m ρ c).symm
    · exact (W6_out1 m ρ c).symm
theorem hrest3 (c : Dev nD) : ∀ b, b ∉ Finset.univ.image (Pipeline.arrRef spec3) → Vr6 m ρ c b = Vr5 m ρ c b :=
  fun b hb => W6_keep m ρ c b (by
    intro hmem
    simp only [List.mem_cons, List.not_mem_nil, or_false] at hmem
    rcases hmem with rfl | rfl
    · exact hb (Finset.mem_image.mpr ⟨6, Finset.mem_univ _, rfl⟩)
    · exact hb (Finset.mem_image.mpr ⟨7, Finset.mem_univ _, rfl⟩))

/-- After the host stretch `hostOps4`. -/
abbrev W7 : Dev nD → Valuation τ sig (Elt F) := fun c => StableHlo.after hostOps4 (W6 m ρ c)
abbrev Vr7 : (c : Dev nD) → (b : Ref sig .tc) → Buf (Elt F) ((c : Thread nD τ).loc b) := fun c b => W7 m ρ c b

/-- After region 4 (windows 0 and 1 read one array): its output arrays at what its write-backs leave, every other
    buffer as entered. -/
def W8 (c : Dev nD) : Valuation τ sig (Elt F) :=
  Function.update (W7 m ρ c) main_v20 ((dat4 (Vr7 m ρ) c).arrAt 4 cfg4.N)
theorem W8_keep (c : Dev nD) (r : Ref sig .tc) (h : r ∉ ([main_v20] : List (Ref sig .tc))) : W8 m ρ c r = W7 m ρ c r := by
  simp only [W8, Function.update_of_ne (StableHlo.devRef_ne_of_ne (List.ne_of_not_mem_cons h) : (Proc.devRef .tc r : DevRef τ sig) ≠ Proc.devRef .tc main_v20)]
theorem W8_out0 (c : Dev nD) : W8 m ρ c main_v20 = (dat4 (Vr7 m ρ) c).arrAt 4 cfg4.N := by
  simp only [W8, Function.update_self]
abbrev Vr8 : (c : Dev nD) → (b : Ref sig .tc) → Buf (Elt F) ((c : Thread nD τ).loc b) := fun c b => W8 m ρ c b
/-- An input window's array is none of the region's output arrays; a window that is no input is one of the outputs. -/
theorem inArr4 : ∀ w : Fin 5, (cfg4.win w).isOut = false → Pipeline.arrRef spec4 w ∉ ([main_v20] : List (Ref sig .tc)) := by decide
theorem outWin4 : ∀ w : Fin 5, ¬ (cfg4.win w).isOut = false → w = 4 := by decide
theorem hG4 (c : Dev nD) (w : Fin cfg4.W) : (dat4 (Vr7 m ρ) c).arrAt w cfg4.N = Vr8 m ρ c (Pipeline.arrRef spec4 w) := by
  by_cases hw : (cfg4.win w).isOut = false
  · rw [(dat4 (Vr7 m ρ) c).arrAt_in w hw, A_eq4]
    exact (W8_keep m ρ c _ (inArr4 w hw)).symm
  · rcases outWin4 w hw with rfl
    · exact (W8_out0 m ρ c).symm
theorem hrest4 (c : Dev nD) : ∀ b, b ∉ Finset.univ.image (Pipeline.arrRef spec4) → Vr8 m ρ c b = Vr7 m ρ c b :=
  fun b hb => W8_keep m ρ c b (by
    intro hmem
    simp only [List.mem_cons, List.not_mem_nil, or_false] at hmem
    rcases hmem with rfl
    · exact hb (Finset.mem_image.mpr ⟨4, Finset.mem_univ _, rfl⟩))

/-- After the host stretch `hostOps5`. -/
abbrev W9 : Dev nD → Valuation τ sig (Elt F) := fun c => StableHlo.after hostOps5 (W8 m ρ c)
abbrev Vr9 : (c : Dev nD) → (b : Ref sig .tc) → Buf (Elt F) ((c : Thread nD τ).loc b) := fun c b => W9 m ρ c b

/-- After region 5: its arrays at what its write-backs leave, every other buffer as entered. -/
def W10 (c : Dev nD) : Valuation τ sig (Elt F) :=
  Pipeline.withArrays spec5 c (W9 m ρ c) fun w => (dat5 (Vr9 m ρ) c).arrAt w cfg5.N
theorem W10_of_ne (c : Dev nD) (b : Ref sig .tc) (hb : ∀ w, Pipeline.arrRef spec5 w ≠ b) :
    W10 m ρ c (Proc.devRef .tc b) = W9 m ρ c (Proc.devRef .tc b) := by
  unfold W10; exact Pipeline.withArrays_of_ne spec5 c _ _ b hb
theorem W10_arr (c : Dev nD) (w : Fin cfg5.W) :
    W10 m ρ c (Proc.devRef .tc (Pipeline.arrRef spec5 w)) = (dat5 (Vr9 m ρ) c).arrAt w cfg5.N := by
  unfold W10; exact Pipeline.withArrays_arr spec5 launch5.win.arr_inj c _ _ w
abbrev Vr10 : (c : Dev nD) → (b : Ref sig .tc) → Buf (Elt F) ((c : Thread nD τ).loc b) := fun c b => W10 m ρ c b
theorem hF5 (c : Dev nD) (w : Fin cfg5.W) : (dat5 (Vr9 m ρ) c).arrAt w cfg5.N = Vr10 m ρ c (Pipeline.arrRef spec5 w) :=
  (W10_arr m ρ c w).symm
theorem hrest5 (c : Dev nD) : ∀ b, b ∉ Finset.univ.image (Pipeline.arrRef spec5) → Vr10 m ρ c b = Vr9 m ρ c b :=
  fun b hb => W10_of_ne m ρ c b fun w e => hb (Finset.mem_image.mpr ⟨w, Finset.mem_univ _, e⟩)

/-- After the host stretch `hostOps6`. -/
abbrev W11 : Dev nD → Valuation τ sig (Elt F) := fun c => StableHlo.after hostOps6 (W10 m ρ c)
abbrev Vr11 : (c : Dev nD) → (b : Ref sig .tc) → Buf (Elt F) ((c : Thread nD τ).loc b) := fun c b => W11 m ρ c b

/-- After region 6: its arrays at what its write-backs leave, every other buffer as entered. -/
def W12 (c : Dev nD) : Valuation τ sig (Elt F) :=
  Pipeline.withArrays spec6 c (W11 m ρ c) fun w => (dat6 (Vr11 m ρ) c).arrAt w cfg6.N
theorem W12_of_ne (c : Dev nD) (b : Ref sig .tc) (hb : ∀ w, Pipeline.arrRef spec6 w ≠ b) :
    W12 m ρ c (Proc.devRef .tc b) = W11 m ρ c (Proc.devRef .tc b) := by
  unfold W12; exact Pipeline.withArrays_of_ne spec6 c _ _ b hb
theorem W12_arr (c : Dev nD) (w : Fin cfg6.W) :
    W12 m ρ c (Proc.devRef .tc (Pipeline.arrRef spec6 w)) = (dat6 (Vr11 m ρ) c).arrAt w cfg6.N := by
  unfold W12; exact Pipeline.withArrays_arr spec6 launch6.win.arr_inj c _ _ w
abbrev Vr12 : (c : Dev nD) → (b : Ref sig .tc) → Buf (Elt F) ((c : Thread nD τ).loc b) := fun c b => W12 m ρ c b
theorem hF6 (c : Dev nD) (w : Fin cfg6.W) : (dat6 (Vr11 m ρ) c).arrAt w cfg6.N = Vr12 m ρ c (Pipeline.arrRef spec6 w) :=
  (W12_arr m ρ c w).symm
theorem hrest6 (c : Dev nD) : ∀ b, b ∉ Finset.univ.image (Pipeline.arrRef spec6) → Vr12 m ρ c b = Vr11 m ρ c b :=
  fun b hb => W12_of_ne m ρ c b fun w e => hb (Finset.mem_image.mpr ⟨w, Finset.mem_univ _, e⟩)

/-- After the host stretch `hostOps7`. -/
abbrev W13 : Dev nD → Valuation τ sig (Elt F) := fun c => StableHlo.after hostOps7 (W12 m ρ c)
abbrev Vr13 : (c : Dev nD) → (b : Ref sig .tc) → Buf (Elt F) ((c : Thread nD τ).loc b) := fun c b => W13 m ρ c b

/-- After region 7: its arrays at what its write-backs leave, every other buffer as entered. -/
def W14 (c : Dev nD) : Valuation τ sig (Elt F) :=
  Pipeline.withArrays spec7 c (W13 m ρ c) fun w => (dat7 (Vr13 m ρ) c).arrAt w cfg7.N
theorem W14_of_ne (c : Dev nD) (b : Ref sig .tc) (hb : ∀ w, Pipeline.arrRef spec7 w ≠ b) :
    W14 m ρ c (Proc.devRef .tc b) = W13 m ρ c (Proc.devRef .tc b) := by
  unfold W14; exact Pipeline.withArrays_of_ne spec7 c _ _ b hb
theorem W14_arr (c : Dev nD) (w : Fin cfg7.W) :
    W14 m ρ c (Proc.devRef .tc (Pipeline.arrRef spec7 w)) = (dat7 (Vr13 m ρ) c).arrAt w cfg7.N := by
  unfold W14; exact Pipeline.withArrays_arr spec7 launch7.win.arr_inj c _ _ w
abbrev Vr14 : (c : Dev nD) → (b : Ref sig .tc) → Buf (Elt F) ((c : Thread nD τ).loc b) := fun c b => W14 m ρ c b
theorem hF7 (c : Dev nD) (w : Fin cfg7.W) : (dat7 (Vr13 m ρ) c).arrAt w cfg7.N = Vr14 m ρ c (Pipeline.arrRef spec7 w) :=
  (W14_arr m ρ c w).symm
theorem hrest7 (c : Dev nD) : ∀ b, b ∉ Finset.univ.image (Pipeline.arrRef spec7) → Vr14 m ρ c b = Vr13 m ρ c b :=
  fun b hb => W14_of_ne m ρ c b fun w e => hb (Finset.mem_image.mpr ⟨w, Finset.mem_univ _, e⟩)

/-- After the host stretch `hostOps8`. -/
abbrev W15 : Dev nD → Valuation τ sig (Elt F) := fun c => StableHlo.after hostOps8 (W14 m ρ c)
abbrev Vr15 : (c : Dev nD) → (b : Ref sig .tc) → Buf (Elt F) ((c : Thread nD τ).loc b) := fun c b => W15 m ρ c b

/-! ## The proof data family and the thread state -/

/-- Every pipeline's proof data at its region's entry contents. -/
def pdats : (p : Fin 8) → (c : Dev nD) → Dat τ (Elt F) Unit ℕ (UR sig nD τ) ℕ (Pipeline.pin (pcfgs (F := F)) adm p) c
  | ⟨0, _⟩ => fun c => dat0 (Vr0 m ρ) c
  | ⟨1, _⟩ => fun c => dat1 (Vr1 m ρ) c
  | ⟨2, _⟩ => fun c => dat2 (Vr3 m ρ) c
  | ⟨3, _⟩ => fun c => dat3 (Vr5 m ρ) c
  | ⟨4, _⟩ => fun c => dat4 (Vr7 m ρ) c
  | ⟨5, _⟩ => fun c => dat5 (Vr9 m ρ) c
  | ⟨6, _⟩ => fun c => dat6 (Vr11 m ρ) c
  | ⟨7, _⟩ => fun c => dat7 (Vr13 m ρ) c
abbrev 𝒱₀ : Variants := Variants.none
abbrev Lz : GSem nD τ sig → Finset Unit := fun _ => ∅
abbrev lvz : GSem nD τ sig → Unit → ℕ := fun _ _ => 0
/-- What rides beside the buffers through every item: the generator register at some state and nothing owed. -/
abbrev Rr (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W15 m ρ c) ∗ ∃ r, prngReg c r)

/-! ## The regions as items of the chain -/

set_option backward.isDefEq.respectTransparency.types false in
/-- Region 0: entered from every unscoped buffer at `W0`, left at `W1`. -/
def reg0 : Pipeline.RegionSeg (pcfgs (F := F)) adm (pdats m ρ) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (Vr0 m ρ) c).loose
  hwaits := Pipeline.hwaits_of_owed_zero _ _ _ _ Lz lvz 0 fun _ _ => rfl
  pre c := iprop(StableHlo.held (c : Thread nD τ) (Pipeline.ucRefs τ sig) (W0 m ρ c) ∗ Rr c)
  post c := iprop(StableHlo.held (c : Thread nD τ) (Pipeline.ucRefs τ sig) (W1 m ρ c) ∗ Rr c)
  X c := iprop(∃ r, prngReg c r)
  Y c := iprop(∃ r, prngReg c r)
  Z c := Pipeline.unscopedRest (Ix := Unit) (Name := ℕ) (U := UR sig nD τ) (Lvl := ℕ) spec0 c (Vr0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vr0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vr0 m ρ c) (Vr1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W1`, left at `W2`. -/
def reg1 : Pipeline.RegionSeg (pcfgs (F := F)) adm (pdats m ρ) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (Vr1 m ρ) c).loose
  hwaits := Pipeline.hwaits_of_owed_zero _ _ _ _ Lz lvz 1 fun _ _ => rfl
  pre c := iprop(StableHlo.held (c : Thread nD τ) (Pipeline.ucRefs τ sig) (W1 m ρ c) ∗ Rr c)
  post c := iprop(StableHlo.held (c : Thread nD τ) (Pipeline.ucRefs τ sig) (W2 m ρ c) ∗ Rr c)
  X c := iprop(∃ r, prngReg c r)
  Y c := iprop(∃ r, prngReg c r)
  Z c := Pipeline.unscopedRest (Ix := Unit) (Name := ℕ) (U := UR sig nD τ) (Lvl := ℕ) spec1 c (Vr1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vr1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vr1 m ρ c) (Vr2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W3`, left at `W4`. -/
def reg2 : Pipeline.RegionSeg (pcfgs (F := F)) adm (pdats m ρ) () defs₀ 𝒱₀ Lz lvz 2 where
  win := winFacts₀2
  block_pos := block_pos2
  stage_whole := stage_whole2
  K := PEmpty
  osem k := k.elim
  ho := Pipeline.OwnSemFacts.none _
  hbody c := (body_obligation2 (Vr3 m ρ) c).loose
  hwaits := Pipeline.hwaits_of_owed_zero _ _ _ _ Lz lvz 2 fun _ _ => rfl
  pre c := iprop(StableHlo.held (c : Thread nD τ) (Pipeline.ucRefs τ sig) (W3 m ρ c) ∗ Rr c)
  post c := iprop(StableHlo.held (c : Thread nD τ) (Pipeline.ucRefs τ sig) (W4 m ρ c) ∗ Rr c)
  X c := iprop(∃ r, prngReg c r)
  Y c := iprop(∃ r, prngReg c r)
  Z c := Pipeline.unscopedRest (Ix := Unit) (Name := ℕ) (U := UR sig nD τ) (Lvl := ℕ) spec2 c (Vr3 m ρ c)
  hentry c := by
    rw [Pipeline.ownSems0_none]
    have hsplit : (unscopedBufs c (Vr3 m ρ c) : sProp 𝕄) ⊢ iprop((pdats m ρ 2 c).arrays ((pdats m ρ 2 c).arrAt · 0)
        ∗ Pipeline.unscopedRest (Ix := Unit) (Name := ℕ) (U := UR sig nD τ) (Lvl := ℕ) spec2 c (Vr3 m ρ c)) := entryArr2 (Vr3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m ρ 2 c).arrays ((pdats m ρ 2 c).arrAt · cfg2.N)
        ∗ Pipeline.unscopedRest (Ix := Unit) (Name := ℕ) (U := UR sig nD τ) (Lvl := ℕ) spec2 c (Vr3 m ρ c)) ⊢ (unscopedBufs c (Vr4 m ρ c) : sProp 𝕄) :=
      exitArr2 (Vr3 m ρ) c (Vr4 m ρ c) ((dat2 (Vr3 m ρ) c).arrAt · cfg2.N) (hG2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `W5`, left at `W6`. -/
def reg3 : Pipeline.RegionSeg (pcfgs (F := F)) adm (pdats m ρ) () defs₀ 𝒱₀ Lz lvz 3 where
  win := winFacts₀3
  block_pos := block_pos3
  stage_whole := stage_whole3
  K := PEmpty
  osem k := k.elim
  ho := Pipeline.OwnSemFacts.none _
  hbody c := (body_obligation3 (Vr5 m ρ) c).loose
  hwaits := Pipeline.hwaits_of_owed_zero _ _ _ _ Lz lvz 3 fun _ _ => rfl
  pre c := iprop(StableHlo.held (c : Thread nD τ) (Pipeline.ucRefs τ sig) (W5 m ρ c) ∗ Rr c)
  post c := iprop(StableHlo.held (c : Thread nD τ) (Pipeline.ucRefs τ sig) (W6 m ρ c) ∗ Rr c)
  X c := iprop(∃ r, prngReg c r)
  Y c := iprop(∃ r, prngReg c r)
  Z c := Pipeline.unscopedRest (Ix := Unit) (Name := ℕ) (U := UR sig nD τ) (Lvl := ℕ) spec3 c (Vr5 m ρ c)
  hentry c := by
    rw [Pipeline.ownSems0_none]
    have hsplit : (unscopedBufs c (Vr5 m ρ c) : sProp 𝕄) ⊢ iprop((pdats m ρ 3 c).arrays ((pdats m ρ 3 c).arrAt · 0)
        ∗ Pipeline.unscopedRest (Ix := Unit) (Name := ℕ) (U := UR sig nD τ) (Lvl := ℕ) spec3 c (Vr5 m ρ c)) := entryArr3 (Vr5 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : iprop((pdats m ρ 3 c).arrays ((pdats m ρ 3 c).arrAt · cfg3.N)
        ∗ Pipeline.unscopedRest (Ix := Unit) (Name := ℕ) (U := UR sig nD τ) (Lvl := ℕ) spec3 c (Vr5 m ρ c)) ⊢ (unscopedBufs c (Vr6 m ρ c) : sProp 𝕄) :=
      exitArr3 (Vr5 m ρ) c (Vr6 m ρ c) ((dat3 (Vr5 m ρ) c).arrAt · cfg3.N) (hG3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at `W7`, left at `W8`. -/
def reg4 : Pipeline.RegionSeg (pcfgs (F := F)) adm (pdats m ρ) () defs₀ 𝒱₀ Lz lvz 4 where
  win := winFacts₀4
  block_pos := block_pos4
  stage_whole := stage_whole4
  K := PEmpty
  osem k := k.elim
  ho := Pipeline.OwnSemFacts.none _
  hbody c := (body_obligation4 (Vr7 m ρ) c).loose
  hwaits := Pipeline.hwaits_of_owed_zero _ _ _ _ Lz lvz 4 fun _ _ => rfl
  pre c := iprop(StableHlo.held (c : Thread nD τ) (Pipeline.ucRefs τ sig) (W7 m ρ c) ∗ Rr c)
  post c := iprop(StableHlo.held (c : Thread nD τ) (Pipeline.ucRefs τ sig) (W8 m ρ c) ∗ Rr c)
  X c := iprop(∃ r, prngReg c r)
  Y c := iprop(∃ r, prngReg c r)
  Z c := Pipeline.unscopedRest (Ix := Unit) (Name := ℕ) (U := UR sig nD τ) (Lvl := ℕ) spec4 c (Vr7 m ρ c)
  hentry c := by
    rw [Pipeline.ownSems0_none]
    have hsplit : (unscopedBufs c (Vr7 m ρ c) : sProp 𝕄) ⊢ iprop((pdats m ρ 4 c).arrays ((pdats m ρ 4 c).arrAt · 0)
        ∗ Pipeline.unscopedRest (Ix := Unit) (Name := ℕ) (U := UR sig nD τ) (Lvl := ℕ) spec4 c (Vr7 m ρ c)) := entryArr4 (Vr7 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin : iprop((pdats m ρ 4 c).arrays ((pdats m ρ 4 c).arrAt · cfg4.N)
        ∗ Pipeline.unscopedRest (Ix := Unit) (Name := ℕ) (U := UR sig nD τ) (Lvl := ℕ) spec4 c (Vr7 m ρ c)) ⊢ (unscopedBufs c (Vr8 m ρ c) : sProp 𝕄) :=
      exitArr4 (Vr7 m ρ) c (Vr8 m ρ c) ((dat4 (Vr7 m ρ) c).arrAt · cfg4.N) (hG4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at `W9`, left at `W10`. -/
def reg5 : Pipeline.RegionSeg (pcfgs (F := F)) adm (pdats m ρ) () defs₀ 𝒱₀ Lz lvz 5 where
  win := launch5.win.to₀
  block_pos := launch5.block_pos
  stage_whole := launch5.stage_whole
  K := PEmpty
  osem k := k.elim
  ho := Pipeline.OwnSemFacts.none _
  hbody c := (body_obligation5 (Vr9 m ρ) c).loose
  hwaits := Pipeline.hwaits_of_owed_zero _ _ _ _ Lz lvz 5 fun _ _ => rfl
  pre c := iprop(StableHlo.held (c : Thread nD τ) (Pipeline.ucRefs τ sig) (W9 m ρ c) ∗ Rr c)
  post c := iprop(StableHlo.held (c : Thread nD τ) (Pipeline.ucRefs τ sig) (W10 m ρ c) ∗ Rr c)
  X c := iprop(∃ r, prngReg c r)
  Y c := iprop(∃ r, prngReg c r)
  Z c := Pipeline.unscopedRest (Ix := Unit) (Name := ℕ) (U := UR sig nD τ) (Lvl := ℕ) spec5 c (Vr9 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (Vr9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (Vr9 m ρ c) (Vr10 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered from every unscoped buffer at `W11`, left at `W12`. -/
def reg6 : Pipeline.RegionSeg (pcfgs (F := F)) adm (pdats m ρ) () defs₀ 𝒱₀ Lz lvz 6 where
  win := launch6.win.to₀
  block_pos := launch6.block_pos
  stage_whole := launch6.stage_whole
  K := PEmpty
  osem k := k.elim
  ho := Pipeline.OwnSemFacts.none _
  hbody c := (body_obligation6 (Vr11 m ρ) c).loose
  hwaits := Pipeline.hwaits_of_owed_zero _ _ _ _ Lz lvz 6 fun _ _ => rfl
  pre c := iprop(StableHlo.held (c : Thread nD τ) (Pipeline.ucRefs τ sig) (W11 m ρ c) ∗ Rr c)
  post c := iprop(StableHlo.held (c : Thread nD τ) (Pipeline.ucRefs τ sig) (W12 m ρ c) ∗ Rr c)
  X c := iprop(∃ r, prngReg c r)
  Y c := iprop(∃ r, prngReg c r)
  Z c := Pipeline.unscopedRest (Ix := Unit) (Name := ℕ) (U := UR sig nD τ) (Lvl := ℕ) spec6 c (Vr11 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (Vr11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (Vr11 m ρ c) (Vr12 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7: entered from every unscoped buffer at `W13`, left at `W14`. -/
def reg7 : Pipeline.RegionSeg (pcfgs (F := F)) adm (pdats m ρ) () defs₀ 𝒱₀ Lz lvz 7 where
  win := launch7.win.to₀
  block_pos := launch7.block_pos
  stage_whole := launch7.stage_whole
  K := PEmpty
  osem k := k.elim
  ho := Pipeline.OwnSemFacts.none _
  hbody c := (body_obligation7 (Vr13 m ρ) c).loose
  hwaits := Pipeline.hwaits_of_owed_zero _ _ _ _ Lz lvz 7 fun _ _ => rfl
  pre c := iprop(StableHlo.held (c : Thread nD τ) (Pipeline.ucRefs τ sig) (W13 m ρ c) ∗ Rr c)
  post c := iprop(StableHlo.held (c : Thread nD τ) (Pipeline.ucRefs τ sig) (W14 m ρ c) ∗ Rr c)
  X c := iprop(∃ r, prngReg c r)
  Y c := iprop(∃ r, prngReg c r)
  Z c := Pipeline.unscopedRest (Ix := Unit) (Name := ℕ) (U := UR sig nD τ) (Lvl := ℕ) spec7 c (Vr13 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (Vr13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (Vr13 m ρ c) (Vr14 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The chain and the run -/

abbrev items : List (Pipeline.Seg (pcfgs (F := F)) adm (pdats m ρ) () defs₀ 𝒱₀ Lz lvz) :=
  [ .region (reg0 m ρ),
    .region (reg1 m ρ),
    .host (hseg hostOps2 hostOps2_sub hostOps2_fresh (W2 m ρ)),
    .region (reg2 m ρ),
    .host (hseg hostOps3 hostOps3_sub hostOps3_fresh (W4 m ρ)),
    .region (reg3 m ρ),
    .host (hseg hostOps4 hostOps4_sub hostOps4_fresh (W6 m ρ)),
    .region (reg4 m ρ),
    .host (hseg hostOps5 hostOps5_sub hostOps5_fresh (W8 m ρ)),
    .region (reg5 m ρ),
    .host (hseg hostOps6 hostOps6_sub hostOps6_fresh (W10 m ρ)),
    .region (reg6 m ρ),
    .host (hseg hostOps7 hostOps7_sub hostOps7_fresh (W12 m ρ)),
    .region (reg7 m ρ),
    .host (hseg hostOps8 hostOps8_sub hostOps8_fresh (W14 m ρ)) ]

theorem main_run (c : Dev nD) : main (F := F) c = Pipeline.Seg.run (items m ρ) := (main_chain c).trans (by chain_rfl)

set_option backward.isDefEq.respectTransparency.types false in
/-- Every weakly fair execution from memory `m` with zero counters terminates, nothing faulting, with every unscoped
    buffer of every core at the last contents `W15`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ Lz lvz m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rr c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W15 m ρ c) ∗ Rr c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach Lz lvz fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c => h c)

end Cert.Kernel.Gen

end
-- ==== Proof.BitsArgs.lean ====
/-
  No item of the program writes an argument: a host stretch writes only its own results, a region writes only its
  output arrays and hands every input array back as it found it. So each argument's buffer, followed back through the
  fifteen items, holds its launch contents at the end — the frame claim, at any float instance.
-/
import proofs.«117133_j29008209117207_1_alg».proof.Proof.BitsRun

set_option maxRecDepth 16384

noncomputable section

namespace Cert.Kernel.Gen

open Idealize.ShloMosaic Idealize.ShloMosaic.TcCoe Idealize.ShloMosaic.Tactic
open Idealize.SL Idealize.SL.Sem
open Idealize.ShloMosaic.Pipeline (Dat)

variable {F : FTy → Type} [FloatOps F]
variable (m : (ℓ : Loc nD τ sig) → Buf (Elt F) ℓ) (ρ : Dev nD → PrngReg)

theorem W15_main_arg0 (c : Dev nD) : W15 m ρ c (Proc.devRef .tc main_arg0) = W0 m ρ c (Proc.devRef .tc main_arg0) :=
  calc W15 m ρ c (Proc.devRef .tc main_arg0)
    _ = W14 m ρ c (Proc.devRef .tc main_arg0) := StableHlo.after_of_writes_sub hostOps8 _ hostOps8_writes (by decide : main_arg0 ∉ hostOps8_W)
    _ = W13 m ρ c (Proc.devRef .tc main_arg0) := W14_of_ne m ρ c main_arg0 (by decide)
    _ = W12 m ρ c (Proc.devRef .tc main_arg0) := StableHlo.after_of_writes_sub hostOps7 _ hostOps7_writes (by decide : main_arg0 ∉ hostOps7_W)
    _ = W11 m ρ c (Proc.devRef .tc main_arg0) := W12_of_ne m ρ c main_arg0 (by decide)
    _ = W10 m ρ c (Proc.devRef .tc main_arg0) := StableHlo.after_of_writes_sub hostOps6 _ hostOps6_writes (by decide : main_arg0 ∉ hostOps6_W)
    _ = W9 m ρ c (Proc.devRef .tc main_arg0) := W10_of_ne m ρ c main_arg0 (by decide)
    _ = W8 m ρ c (Proc.devRef .tc main_arg0) := StableHlo.after_of_writes_sub hostOps5 _ hostOps5_writes (by decide : main_arg0 ∉ hostOps5_W)
    _ = W7 m ρ c (Proc.devRef .tc main_arg0) := W8_keep m ρ c main_arg0 (by decide)
    _ = W6 m ρ c (Proc.devRef .tc main_arg0) := StableHlo.after_of_writes_sub hostOps4 _ hostOps4_writes (by decide : main_arg0 ∉ hostOps4_W)
    _ = W5 m ρ c (Proc.devRef .tc main_arg0) := W6_keep m ρ c main_arg0 (by decide)
    _ = W4 m ρ c (Proc.devRef .tc main_arg0) := StableHlo.after_of_writes_sub hostOps3 _ hostOps3_writes (by decide : main_arg0 ∉ hostOps3_W)
    _ = W3 m ρ c (Proc.devRef .tc main_arg0) := W4_keep m ρ c main_arg0 (by decide)
    _ = W2 m ρ c (Proc.devRef .tc main_arg0) := StableHlo.after_of_writes_sub hostOps2 _ hostOps2_writes (by decide : main_arg0 ∉ hostOps2_W)
    _ = W1 m ρ c (Proc.devRef .tc main_arg0) := W2_of_ne m ρ c main_arg0 (by decide)
    _ = W0 m ρ c (Proc.devRef .tc main_arg0) := (W1_arr m ρ c 0).trans (((dat0 (Vr0 m ρ) c).arrAt_in 0 rfl _).trans (A_eq0 (Vr0 m ρ) c 0))

theorem W15_main_arg1 (c : Dev nD) : W15 m ρ c (Proc.devRef .tc main_arg1) = W0 m ρ c (Proc.devRef .tc main_arg1) :=
  calc W15 m ρ c (Proc.devRef .tc main_arg1)
    _ = W14 m ρ c (Proc.devRef .tc main_arg1) := StableHlo.after_of_writes_sub hostOps8 _ hostOps8_writes (by decide : main_arg1 ∉ hostOps8_W)
    _ = W13 m ρ c (Proc.devRef .tc main_arg1) := W14_of_ne m ρ c main_arg1 (by decide)
    _ = W12 m ρ c (Proc.devRef .tc main_arg1) := StableHlo.after_of_writes_sub hostOps7 _ hostOps7_writes (by decide : main_arg1 ∉ hostOps7_W)
    _ = W11 m ρ c (Proc.devRef .tc main_arg1) := W12_of_ne m ρ c main_arg1 (by decide)
    _ = W10 m ρ c (Proc.devRef .tc main_arg1) := StableHlo.after_of_writes_sub hostOps6 _ hostOps6_writes (by decide : main_arg1 ∉ hostOps6_W)
    _ = W9 m ρ c (Proc.devRef .tc main_arg1) := W10_of_ne m ρ c main_arg1 (by decide)
    _ = W8 m ρ c (Proc.devRef .tc main_arg1) := StableHlo.after_of_writes_sub hostOps5 _ hostOps5_writes (by decide : main_arg1 ∉ hostOps5_W)
    _ = W7 m ρ c (Proc.devRef .tc main_arg1) := W8_keep m ρ c main_arg1 (by decide)
    _ = W6 m ρ c (Proc.devRef .tc main_arg1) := StableHlo.after_of_writes_sub hostOps4 _ hostOps4_writes (by decide : main_arg1 ∉ hostOps4_W)
    _ = W5 m ρ c (Proc.devRef .tc main_arg1) := W6_keep m ρ c main_arg1 (by decide)
    _ = W4 m ρ c (Proc.devRef .tc main_arg1) := StableHlo.after_of_writes_sub hostOps3 _ hostOps3_writes (by decide : main_arg1 ∉ hostOps3_W)
    _ = W3 m ρ c (Proc.devRef .tc main_arg1) := W4_keep m ρ c main_arg1 (by decide)
    _ = W2 m ρ c (Proc.devRef .tc main_arg1) := StableHlo.after_of_writes_sub hostOps2 _ hostOps2_writes (by decide : main_arg1 ∉ hostOps2_W)
    _ = W1 m ρ c (Proc.devRef .tc main_arg1) := (W2_arr m ρ c 0).trans (((dat1 (Vr1 m ρ) c).arrAt_in 0 rfl _).trans (A_eq1 (Vr1 m ρ) c 0))
    _ = W0 m ρ c (Proc.devRef .tc main_arg1) := W1_of_ne m ρ c main_arg1 (by decide)

theorem W15_main_arg2 (c : Dev nD) : W15 m ρ c (Proc.devRef .tc main_arg2) = W0 m ρ c (Proc.devRef .tc main_arg2) :=
  calc W15 m ρ c (Proc.devRef .tc main_arg2)
    _ = W14 m ρ c (Proc.devRef .tc main_arg2) := StableHlo.after_of_writes_sub hostOps8 _ hostOps8_writes (by decide : main_arg2 ∉ hostOps8_W)
    _ = W13 m ρ c (Proc.devRef .tc main_arg2) := W14_of_ne m ρ c main_arg2 (by decide)
    _ = W12 m ρ c (Proc.devRef .tc main_arg2) := StableHlo.after_of_writes_sub hostOps7 _ hostOps7_writes (by decide : main_arg2 ∉ hostOps7_W)
    _ = W11 m ρ c (Proc.devRef .tc main_arg2) := W12_of_ne m ρ c main_arg2 (by decide)
    _ = W10 m ρ c (Proc.devRef .tc main_arg2) := StableHlo.after_of_writes_sub hostOps6 _ hostOps6_writes (by decide : main_arg2 ∉ hostOps6_W)
    _ = W9 m ρ c (Proc.devRef .tc main_arg2) := W10_of_ne m ρ c main_arg2 (by decide)
    _ = W8 m ρ c (Proc.devRef .tc main_arg2) := StableHlo.after_of_writes_sub hostOps5 _ hostOps5_writes (by decide : main_arg2 ∉ hostOps5_W)
    _ = W7 m ρ c (Proc.devRef .tc main_arg2) := W8_keep m ρ c main_arg2 (by decide)
    _ = W6 m ρ c (Proc.devRef .tc main_arg2) := StableHlo.after_of_writes_sub hostOps4 _ hostOps4_writes (by decide : main_arg2 ∉ hostOps4_W)
    _ = W5 m ρ c (Proc.devRef .tc main_arg2) := W6_keep m ρ c main_arg2 (by decide)
    _ = W4 m ρ c (Proc.devRef .tc main_arg2) := StableHlo.after_of_writes_sub hostOps3 _ hostOps3_writes (by decide : main_arg2 ∉ hostOps3_W)
    _ = W3 m ρ c (Proc.devRef .tc main_arg2) := W4_keep m ρ c main_arg2 (by decide)
    _ = W2 m ρ c (Proc.devRef .tc main_arg2) := StableHlo.after_of_writes_sub hostOps2 _ hostOps2_writes (by decide : main_arg2 ∉ hostOps2_W)
    _ = W1 m ρ c (Proc.devRef .tc main_arg2) := (W2_arr m ρ c 1).trans (((dat1 (Vr1 m ρ) c).arrAt_in 1 rfl _).trans (A_eq1 (Vr1 m ρ) c 1))
    _ = W0 m ρ c (Proc.devRef .tc main_arg2) := (W1_arr m ρ c 1).trans (((dat0 (Vr0 m ρ) c).arrAt_in 1 rfl _).trans (A_eq0 (Vr0 m ρ) c 1))

theorem W15_main_arg3 (c : Dev nD) : W15 m ρ c (Proc.devRef .tc main_arg3) = W0 m ρ c (Proc.devRef .tc main_arg3) :=
  calc W15 m ρ c (Proc.devRef .tc main_arg3)
    _ = W14 m ρ c (Proc.devRef .tc main_arg3) := StableHlo.after_of_writes_sub hostOps8 _ hostOps8_writes (by decide : main_arg3 ∉ hostOps8_W)
    _ = W13 m ρ c (Proc.devRef .tc main_arg3) := W14_of_ne m ρ c main_arg3 (by decide)
    _ = W12 m ρ c (Proc.devRef .tc main_arg3) := StableHlo.after_of_writes_sub hostOps7 _ hostOps7_writes (by decide : main_arg3 ∉ hostOps7_W)
    _ = W11 m ρ c (Proc.devRef .tc main_arg3) := W12_of_ne m ρ c main_arg3 (by decide)
    _ = W10 m ρ c (Proc.devRef .tc main_arg3) := StableHlo.after_of_writes_sub hostOps6 _ hostOps6_writes (by decide : main_arg3 ∉ hostOps6_W)
    _ = W9 m ρ c (Proc.devRef .tc main_arg3) := W10_of_ne m ρ c main_arg3 (by decide)
    _ = W8 m ρ c (Proc.devRef .tc main_arg3) := StableHlo.after_of_writes_sub hostOps5 _ hostOps5_writes (by decide : main_arg3 ∉ hostOps5_W)
    _ = W7 m ρ c (Proc.devRef .tc main_arg3) := W8_keep m ρ c main_arg3 (by decide)
    _ = W6 m ρ c (Proc.devRef .tc main_arg3) := StableHlo.after_of_writes_sub hostOps4 _ hostOps4_writes (by decide : main_arg3 ∉ hostOps4_W)
    _ = W5 m ρ c (Proc.devRef .tc main_arg3) := W6_keep m ρ c main_arg3 (by decide)
    _ = W4 m ρ c (Proc.devRef .tc main_arg3) := StableHlo.after_of_writes_sub hostOps3 _ hostOps3_writes (by decide : main_arg3 ∉ hostOps3_W)
    _ = W3 m ρ c (Proc.devRef .tc main_arg3) := W4_keep m ρ c main_arg3 (by decide)
    _ = W2 m ρ c (Proc.devRef .tc main_arg3) := StableHlo.after_of_writes_sub hostOps2 _ hostOps2_writes (by decide : main_arg3 ∉ hostOps2_W)
    _ = W1 m ρ c (Proc.devRef .tc main_arg3) := (W2_arr m ρ c 2).trans (((dat1 (Vr1 m ρ) c).arrAt_in 2 rfl _).trans (A_eq1 (Vr1 m ρ) c 2))
    _ = W0 m ρ c (Proc.devRef .tc main_arg3) := (W1_arr m ρ c 2).trans (((dat0 (Vr0 m ρ) c).arrAt_in 2 rfl _).trans (A_eq0 (Vr0 m ρ) c 2))

theorem W15_main_arg4 (c : Dev nD) : W15 m ρ c (Proc.devRef .tc main_arg4) = W0 m ρ c (Proc.devRef .tc main_arg4) :=
  calc W15 m ρ c (Proc.devRef .tc main_arg4)
    _ = W14 m ρ c (Proc.devRef .tc main_arg4) := StableHlo.after_of_writes_sub hostOps8 _ hostOps8_writes (by decide : main_arg4 ∉ hostOps8_W)
    _ = W13 m ρ c (Proc.devRef .tc main_arg4) := W14_of_ne m ρ c main_arg4 (by decide)
    _ = W12 m ρ c (Proc.devRef .tc main_arg4) := StableHlo.after_of_writes_sub hostOps7 _ hostOps7_writes (by decide : main_arg4 ∉ hostOps7_W)
    _ = W11 m ρ c (Proc.devRef .tc main_arg4) := W12_of_ne m ρ c main_arg4 (by decide)
    _ = W10 m ρ c (Proc.devRef .tc main_arg4) := StableHlo.after_of_writes_sub hostOps6 _ hostOps6_writes (by decide : main_arg4 ∉ hostOps6_W)
    _ = W9 m ρ c (Proc.devRef .tc main_arg4) := W10_of_ne m ρ c main_arg4 (by decide)
    _ = W8 m ρ c (Proc.devRef .tc main_arg4) := StableHlo.after_of_writes_sub hostOps5 _ hostOps5_writes (by decide : main_arg4 ∉ hostOps5_W)
    _ = W7 m ρ c (Proc.devRef .tc main_arg4) := W8_keep m ρ c main_arg4 (by decide)
    _ = W6 m ρ c (Proc.devRef .tc main_arg4) := StableHlo.after_of_writes_sub hostOps4 _ hostOps4_writes (by decide : main_arg4 ∉ hostOps4_W)
    _ = W5 m ρ c (Proc.devRef .tc main_arg4) := W6_keep m ρ c main_arg4 (by decide)
    _ = W4 m ρ c (Proc.devRef .tc main_arg4) := StableHlo.after_of_writes_sub hostOps3 _ hostOps3_writes (by decide : main_arg4 ∉ hostOps3_W)
    _ = W3 m ρ c (Proc.devRef .tc main_arg4) := W4_keep m ρ c main_arg4 (by decide)
    _ = W2 m ρ c (Proc.devRef .tc main_arg4) := StableHlo.after_of_writes_sub hostOps2 _ hostOps2_writes (by decide : main_arg4 ∉ hostOps2_W)
    _ = W1 m ρ c (Proc.devRef .tc main_arg4) := W2_of_ne m ρ c main_arg4 (by decide)
    _ = W0 m ρ c (Proc.devRef .tc main_arg4) := W1_of_ne m ρ c main_arg4 (by decide)

/-- THE FRAME: every weakly fair execution terminates, nothing faulting, with every argument array as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c _ (mem_uc main_arg0 (by decide))).trans (W15_main_arg0 m ρ c),
      (h c _ (mem_uc main_arg1 (by decide))).trans (W15_main_arg1 m ρ c),
      (h c _ (mem_uc main_arg2 (by decide))).trans (W15_main_arg2 m ρ c),
      (h c _ (mem_uc main_arg3 (by decide))).trans (W15_main_arg3 m ρ c),
      (h c _ (mem_uc main_arg4 (by decide))).trans (W15_main_arg4 m ρ c)⟩) (run_all m ρ)

end Cert.Kernel.Gen

end
-- ==== Proof.IdealRegion0.lean ====
/-
  Region 0 of the program, at any float instance: what one grid point's body leaves in each output block as a
  function of the input blocks it was handed, the body's Hoare triple, the per-point proof data of the pipeline
  (every input block stays as fetched, every output block is the stored value), and the body obligation at a
  generic grid point. Everything is stated at a parameter `V`, the contents of the core's buffers when the
  region is entered.
-/
import proofs.«117133_j29008209117207_1_alg».proof.Proof.Gen.KernelIdeal.Launch
import proofs.«117133_j29008209117207_1_alg».proof.Proof.Gen.KernelIdeal.Skeleton
import proofs.«117133_j29008209117207_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`: the window's rectangle at that point read off its array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds the window's block at every point, whether the pipeline fetched it there or
    the block index has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds the window's block at every point, whether the pipeline fetched it there or
    the block index has not moved since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds the window's block at every point, whether the pipeline fetched it there or
    the block index has not moved since the last fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The whole-block rectangles the body loads and stores through -/

abbrev r0_0 : Rect S512x256 := Rect.unit (s := S512x256) ![0, 0] S512x256.size inb_S512x256_S512x256_0_0
abbrev r0_1 : Rect S256x256 := Rect.unit (s := S256x256) ![0, 0] S256x256.size inb_S256x256_S256x256_0_0
abbrev r0_2 : Rect S256 := Rect.unit (s := S256) ![0] S256.size inb_S256_S256_0
abbrev r0_3 : Rect S512x256 := Rect.unit (s := S512x256) ![0, 0] S512x256.size inb_S512x256_S512x256_0_0

/-! ## What the body leaves in each output block -/

/-- Output window 3's block after the body: its one whole-block store, as a function of the input blocks. -/
def out0_3 (x0 : Vec F S512x256 .f32) (x1 : Vec F S256x256 .f32) (x2 : Vec F S256 .f32) : Vec F S512x256 .f32 :=
  View.canon [⟨r0_3, k0_pay1 (View.ld x0 r0_0) (View.ld x1 r0_1) (View.ld x2 r0_2)⟩]

/-- The one store covers the block. -/
theorem cover0_3 (p0 : Vec F S512x256 .f32) (y : S512x256.Idx) :
    ∃ pc ∈ ([⟨r0_3, p0⟩] : List (View.Piece (Elt F) S512x256 .f32)), y ∈ pc.1.set :=
  View.cover_of_tiled [⟨r0_3, p0⟩] S512x256.size (by rfl) y

/-! ## The body's triple -/

set_option maxHeartbeats 4000000 in
/-- The body run on whole staging buffers: the inputs hold `xW` and keep them, every output ends at `out0_W` of the inputs. -/
theorem sound_kernel0 (c : Dev nD) (E : Set ℕ) (i : grid0.Coords) (arg0 : Memref sig .tc .vmem S512x256 .f32) (harg0 : arg0.IsWhole) (arg1 : Memref sig .tc .vmem S256x256 .f32) (harg1 : arg1.IsWhole) (arg2 : Memref sig .tc .vmem S256 .f32) (harg2 : arg2.IsWhole) (arg3 : Memref sig .tc .vmem S512x256 .f32) (harg3 : arg3.IsWhole)
    (x0 : Vec F S512x256 .f32) (x1 : Vec F S256x256 .f32) (x2 : Vec F S256 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__affine_kernel i arg0 harg0 arg1 harg1 arg2 harg2 arg3 harg3) K := by
  simp only [cc0__affine_kernel_eq_skeleton]; unfold cc0__affine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- Per core: the arrays are the entry contents; after the body at point `t` every input's buffer holds its block and
    every output's holds `out0_W` of the input blocks; the invariant is the untouched rest; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 2000000 in
/-- At any point the inputs' buffers hold their blocks, so the body's triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Gen

end
-- ==== Proof.IdealRegion1.lean ====
/-
  Region 1 of the program, at any float instance: what one grid point's body leaves in each output block as a
  function of the input blocks it was handed, the body's Hoare triple, the per-point proof data of the pipeline
  (every input block stays as fetched, every output block is the stored value), and the body obligation at a
  generic grid point. Everything is stated at a parameter `V`, the contents of the core's buffers when the
  region is entered.
-/
import proofs.«117133_j29008209117207_1_alg».proof.Proof.Gen.KernelIdeal.Launch
import proofs.«117133_j29008209117207_1_alg».proof.Proof.Gen.KernelIdeal.Skeleton
import proofs.«117133_j29008209117207_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`: the window's rectangle at that point read off its array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds the window's block at every point, whether the pipeline fetched it there or
    the block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds the window's block at every point, whether the pipeline fetched it there or
    the block index has not moved since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds the window's block at every point, whether the pipeline fetched it there or
    the block index has not moved since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The whole-block rectangles the body loads and stores through -/

abbrev r1_0 : Rect S512x256 := Rect.unit (s := S512x256) ![0, 0] S512x256.size inb_S512x256_S512x256_0_0
abbrev r1_1 : Rect S256x256 := Rect.unit (s := S256x256) ![0, 0] S256x256.size inb_S256x256_S256x256_0_0
abbrev r1_2 : Rect S256 := Rect.unit (s := S256) ![0] S256.size inb_S256_S256_0
abbrev r1_3 : Rect S512x256 := Rect.unit (s := S512x256) ![0, 0] S512x256.size inb_S512x256_S512x256_0_0

/-! ## What the body leaves in each output block -/

/-- Output window 3's block after the body: its one whole-block store, as a function of the input blocks. -/
def out1_3 (x0 : Vec F S512x256 .f32) (x1 : Vec F S256x256 .f32) (x2 : Vec F S256 .f32) : Vec F S512x256 .f32 :=
  View.canon [⟨r1_3, k1_pay1 (View.ld x0 r1_0) (View.ld x1 r1_1) (View.ld x2 r1_2)⟩]

/-- The one store covers the block. -/
theorem cover1_3 (p0 : Vec F S512x256 .f32) (y : S512x256.Idx) :
    ∃ pc ∈ ([⟨r1_3, p0⟩] : List (View.Piece (Elt F) S512x256 .f32)), y ∈ pc.1.set :=
  View.cover_of_tiled [⟨r1_3, p0⟩] S512x256.size (by rfl) y

/-! ## The body's triple -/

set_option maxHeartbeats 4000000 in
/-- The body run on whole staging buffers: the inputs hold `xW` and keep them, every output ends at `out1_W` of the inputs. -/
theorem sound_kernel1 (c : Dev nD) (E : Set ℕ) (i : grid1.Coords) (arg0 : Memref sig .tc .vmem S512x256 .f32) (harg0 : arg0.IsWhole) (arg1 : Memref sig .tc .vmem S256x256 .f32) (harg1 : arg1.IsWhole) (arg2 : Memref sig .tc .vmem S256 .f32) (harg2 : arg2.IsWhole) (arg3 : Memref sig .tc .vmem S512x256 .f32) (harg3 : arg3.IsWhole)
    (x0 : Vec F S512x256 .f32) (x1 : Vec F S256x256 .f32) (x2 : Vec F S256 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__affine_kernel i arg0 harg0 arg1 harg1 arg2 harg2 arg3 harg3) K := by
  simp only [cc1__affine_kernel_eq_skeleton]; unfold cc1__affine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- Per core: the arrays are the entry contents; after the body at point `t` every input's buffer holds its block and
    every output's holds `out1_W` of the input blocks; the invariant is the untouched rest; nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 2000000 in
/-- At any point the inputs' buffers hold their blocks, so the body's triple applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Gen

end
-- ==== Proof.IdealRegion2.lean ====
/-
  Region 2 of the program, at any float instance: what one grid point's body leaves in each output block as a
  function of the input blocks it was handed, the body's Hoare triple, the per-point proof data of the pipeline
  (every input block stays as fetched, every output block is the stored value), and the body obligation at a
  generic grid point. Everything is stated at a parameter `V`, the contents of the core's buffers when the
  region is entered.
-/
import proofs.«117133_j29008209117207_1_alg».proof.Proof.Gen.KernelIdeal.Launch
import proofs.«117133_j29008209117207_1_alg».proof.Proof.Gen.KernelIdeal.Skeleton
import proofs.«117133_j29008209117207_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`: the window's rectangle at that point read off its array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds the window's block at every point, whether the pipeline fetched it there or
    the block index has not moved since the last fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds the window's block at every point, whether the pipeline fetched it there or
    the block index has not moved since the last fetch. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds the window's block at every point, whether the pipeline fetched it there or
    the block index has not moved since the last fetch. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds the window's block at every point, whether the pipeline fetched it there or
    the block index has not moved since the last fetch. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds the window's block at every point, whether the pipeline fetched it there or
    the block index has not moved since the last fetch. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's staging buffer holds the window's block at every point, whether the pipeline fetched it there or
    the block index has not moved since the last fetch. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's staging buffer holds the window's block at every point, whether the pipeline fetched it there or
    the block index has not moved since the last fetch. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's staging buffer holds the window's block at every point, whether the pipeline fetched it there or
    the block index has not moved since the last fetch. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The whole-block rectangles the body loads and stores through -/

abbrev r2_0 : Rect S128x64 := Rect.unit (s := S128x64) ![0, 0] S128x64.size inb_S128x64_S128x64_0_0
abbrev r2_1 : Rect S8192x64 := Rect.unit (s := S8192x64) ![0, 0] S8192x64.size inb_S8192x64_S8192x64_0_0
abbrev r2_2 : Rect S8192x64 := Rect.unit (s := S8192x64) ![0, 0] S8192x64.size inb_S8192x64_S8192x64_0_0
abbrev r2_3 : Rect S8192x64 := Rect.unit (s := S8192x64) ![0, 0] S8192x64.size inb_S8192x64_S8192x64_0_0
abbrev r2_4 : Rect S8192x64 := Rect.unit (s := S8192x64) ![0, 0] S8192x64.size inb_S8192x64_S8192x64_0_0
abbrev r2_5 : Rect S128x64 := Rect.unit (s := S128x64) ![0, 0] S128x64.size inb_S128x64_S128x64_0_0
abbrev r2_6 : Rect S128x64 := Rect.unit (s := S128x64) ![0, 0] S128x64.size inb_S128x64_S128x64_0_0
abbrev r2_7 : Rect S128x64 := Rect.unit (s := S128x64) ![0, 0] S128x64.size inb_S128x64_S128x64_0_0
abbrev r2_8 : Rect S128x64 := Rect.unit (s := S128x64) ![0, 0] S128x64.size inb_S128x64_S128x64_0_0
abbrev r2_9 : Rect S128x64 := Rect.unit (s := S128x64) ![0, 0] S128x64.size inb_S128x64_S128x64_0_0
abbrev r2_10 : Rect S128x64 := Rect.unit (s := S128x64) ![0, 0] S128x64.size inb_S128x64_S128x64_0_0

/-! ## What the body leaves in each output block -/

/-- Output window 8's block after the body: its one whole-block store, as a function of the input blocks. -/
def out2_8 (x0 : Vec F S128x64 .f32) (x1 : Vec F S8192x64 .f32) (x2 : Vec F S8192x64 .f32) (x3 : Vec F S8192x64 .f32) (x4 : Vec F S8192x64 .f32) (x5 : Vec F S128x64 .f32) (x6 : Vec F S128x64 .f32) (x7 : Vec F S128x64 .f32) : Vec F S128x64 .f32 :=
  View.canon [⟨r2_8, k2_pay4 (View.ld x0 r2_0) (View.ld x1 r2_1) (View.ld x2 r2_2) (View.ld x5 r2_5)⟩]

/-- The one store covers the block. -/
theorem cover2_8 (p0 : Vec F S128x64 .f32) (y : S128x64.Idx) :
    ∃ pc ∈ ([⟨r2_8, p0⟩] : List (View.Piece (Elt F) S128x64 .f32)), y ∈ pc.1.set :=
  View.cover_of_tiled [⟨r2_8, p0⟩] S128x64.size (by rfl) y

/-- Output window 9's block after the body: its one whole-block store, as a function of the input blocks. -/
def out2_9 (x0 : Vec F S128x64 .f32) (x1 : Vec F S8192x64 .f32) (x2 : Vec F S8192x64 .f32) (x3 : Vec F S8192x64 .f32) (x4 : Vec F S8192x64 .f32) (x5 : Vec F S128x64 .f32) (x6 : Vec F S128x64 .f32) (x7 : Vec F S128x64 .f32) : Vec F S128x64 .f32 :=
  View.canon [⟨r2_9, k2_pay1 (k2_pay5 (View.ld x0 r2_0) (View.ld x1 r2_1) (View.ld x3 r2_3)) (View.ld x6 r2_6)⟩]

/-- The one store covers the block. -/
theorem cover2_9 (p0 : Vec F S128x64 .f32) (y : S128x64.Idx) :
    ∃ pc ∈ ([⟨r2_9, p0⟩] : List (View.Piece (Elt F) S128x64 .f32)), y ∈ pc.1.set :=
  View.cover_of_tiled [⟨r2_9, p0⟩] S128x64.size (by rfl) y

/-- Output window 10's block after the body: its one whole-block store, as a function of the input blocks. -/
def out2_10 (x0 : Vec F S128x64 .f32) (x1 : Vec F S8192x64 .f32) (x2 : Vec F S8192x64 .f32) (x3 : Vec F S8192x64 .f32) (x4 : Vec F S8192x64 .f32) (x5 : Vec F S128x64 .f32) (x6 : Vec F S128x64 .f32) (x7 : Vec F S128x64 .f32) : Vec F S128x64 .f32 :=
  View.canon [⟨r2_10, k2_pay2 (k2_pay3 (View.ld x0 r2_0) (View.ld x1 r2_1)) (View.ld x4 r2_4) (View.ld x7 r2_7)⟩]

/-- The one store covers the block. -/
theorem cover2_10 (p0 : Vec F S128x64 .f32) (y : S128x64.Idx) :
    ∃ pc ∈ ([⟨r2_10, p0⟩] : List (View.Piece (Elt F) S128x64 .f32)), y ∈ pc.1.set :=
  View.cover_of_tiled [⟨r2_10, p0⟩] S128x64.size (by rfl) y

/-! ## The body's triple -/

set_option maxHeartbeats 4000000 in
/-- The body run on whole staging buffers: the inputs hold `xW` and keep them, every output ends at `out2_W` of the inputs. -/
theorem sound_kernel2 (c : Dev nD) (E : Set ℕ) (i : grid2.Coords) (arg0 : Memref sig .tc .vmem S128x64 .f32) (harg0 : arg0.IsWhole) (arg1 : Memref sig .tc .vmem S8192x64 .f32) (harg1 : arg1.IsWhole) (arg2 : Memref sig .tc .vmem S8192x64 .f32) (harg2 : arg2.IsWhole) (arg3 : Memref sig .tc .vmem S8192x64 .f32) (harg3 : arg3.IsWhole) (arg4 : Memref sig .tc .vmem S8192x64 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S128x64 .f32) (harg7 : arg7.IsWhole) (arg8 : Memref sig .tc .vmem S128x64 .f32) (harg8 : arg8.IsWhole) (arg9 : Memref sig .tc .vmem S128x64 .f32) (harg9 : arg9.IsWhole) (arg10 : Memref sig .tc .vmem S128x64 .f32) (harg10 : arg10.IsWhole)
    (x0 : Vec F S128x64 .f32) (x1 : Vec F S8192x64 .f32) (x2 : Vec F S8192x64 .f32) (x3 : Vec F S8192x64 .f32) (x4 : Vec F S8192x64 .f32) (x5 : Vec F S128x64 .f32) (x6 : Vec F S128x64 .f32) (x7 : Vec F S128x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out2_8 x0 x1 x2 x3 x4 x5 x6 x7) ∗ owns (c : Thread nD τ) arg9 fullShare (out2_9 x0 x1 x2 x3 x4 x5 x6 x7) ∗ owns (c : Thread nD τ) arg10 fullShare (out2_10 x0 x1 x2 x3 x4 x5 x6 x7)) -∗ K ⟨⟩))
      ⊢ wp frame (wpE (defs₀ (F := F)) Variants.none c none) E (cc2_kernel i arg0 harg0 arg1 harg1 arg2 harg2 arg3 harg3 arg4 harg4 arg5 harg5 arg6 harg6 arg7 harg7 arg8 harg8 arg9 harg9 arg10 harg10) K := by
  simp only [cc2_kernel_eq_skeleton]; unfold cc2_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover2_8 _)
  isplitl [H9]
  · iexists _; isplitr
    swap; · iexact H9
    ipureintro
    exact View.read_writes_eq_canon _ _ _ (cover2_9 _)
  iexists _; isplitr
  swap; · iexact H10
  ipureintro
  exact View.read_writes_eq_canon _ _ _ (cover2_10 _)

/-! ## The pipeline's proof data -/

/-- Per core: the arrays are the entry contents; after the body at point `t` every input's buffer holds its block and
    every output's holds `out2_W` of the input blocks; the invariant is the untouched rest; nothing is owed. Windows 0 and 1
    read ONE array: each holds it at one half of the full share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
    | ⟨9, _⟩ => out2_9 (iblk2 V c 0 t) (iblk2 V c 1 t) (iblk2 V c 2 t) (iblk2 V c 3 t) (iblk2 V c 4 t) (iblk2 V c 5 t) (iblk2 V c 6 t) (iblk2 V c 7 t)
    | ⟨10, _⟩ => out2_10 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q w := match w with
    | ⟨0, _⟩ => fullShare.left
    | ⟨1, _⟩ => fullShare.right
    | _ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) := by dsimp only [dat2]
theorem after2_10 (c : Dev nD) (t : Fin cfg2.N) : (dat2 V c).after 10 t = out2_10 (iblk2 V c 0 t) (iblk2 V c 1 t) (iblk2 V c 2 t) (iblk2 V c 3 t) (iblk2 V c 4 t) (iblk2 V c 5 t) (iblk2 V c 6 t) (iblk2 V c 7 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-! ## The body obligation at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t))

set_option maxHeartbeats 2000000 in
/-- At any point the inputs' buffers hold their blocks, so the body's triple applies; the invariant and what the core
    owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel2 c Set.univ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation2 (c : Dev nD) : BodyObligation (dat2 (F := F) V c) (defs₀ (F := F)) Variants.none () Set.univ := fun t => by
  rw [bigSep_W2, bigSep_W2]
  exact sound_body2 V c t

end Cert.KernelIdeal.Gen

end
-- ==== Proof.IdealRegion3.lean ====
/-
  Region 3 of the program, at any float instance: what one grid point's body leaves in each output block as a
  function of the input blocks it was handed, the body's Hoare triple, the per-point proof data of the pipeline
  (every input block stays as fetched, every output block is the stored value), and the body obligation at a
  generic grid point. Everything is stated at a parameter `V`, the contents of the core's buffers when the
  region is entered.
-/
import proofs.«117133_j29008209117207_1_alg».proof.Proof.Gen.KernelIdeal.Launch
import proofs.«117133_j29008209117207_1_alg».proof.Proof.Gen.KernelIdeal.Skeleton
import proofs.«117133_j29008209117207_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`: the window's rectangle at that point read off its array. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds the window's block at every point, whether the pipeline fetched it there or
    the block index has not moved since the last fetch. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds the window's block at every point, whether the pipeline fetched it there or
    the block index has not moved since the last fetch. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds the window's block at every point, whether the pipeline fetched it there or
    the block index has not moved since the last fetch. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds the window's block at every point, whether the pipeline fetched it there or
    the block index has not moved since the last fetch. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds the window's block at every point, whether the pipeline fetched it there or
    the block index has not moved since the last fetch. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's staging buffer holds the window's block at every point, whether the pipeline fetched it there or
    the block index has not moved since the last fetch. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The whole-block rectangles the body loads and stores through -/

abbrev r3_0 : Rect S128x64 := Rect.unit (s := S128x64) ![0, 0] S128x64.size inb_S128x64_S128x64_0_0
abbrev r3_1 : Rect S8192x64 := Rect.unit (s := S8192x64) ![0, 0] S8192x64.size inb_S8192x64_S8192x64_0_0
abbrev r3_2 : Rect S8192x64 := Rect.unit (s := S8192x64) ![0, 0] S8192x64.size inb_S8192x64_S8192x64_0_0
abbrev r3_3 : Rect S8192x64 := Rect.unit (s := S8192x64) ![0, 0] S8192x64.size inb_S8192x64_S8192x64_0_0
abbrev r3_4 : Rect S128x64 := Rect.unit (s := S128x64) ![0, 0] S128x64.size inb_S128x64_S128x64_0_0
abbrev r3_5 : Rect S128x64 := Rect.unit (s := S128x64) ![0, 0] S128x64.size inb_S128x64_S128x64_0_0
abbrev r3_6 : Rect S128x64 := Rect.unit (s := S128x64) ![0, 0] S128x64.size inb_S128x64_S128x64_0_0
abbrev r3_7 : Rect S128x64 := Rect.unit (s := S128x64) ![0, 0] S128x64.size inb_S128x64_S128x64_0_0

/-! ## What the body leaves in each output block -/

/-- Output window 6's block after the body: its one whole-block store, as a function of the input blocks. -/
def out3_6 (x0 : Vec F S128x64 .f32) (x1 : Vec F S8192x64 .f32) (x2 : Vec F S8192x64 .f32) (x3 : Vec F S8192x64 .f32) (x4 : Vec F S128x64 .f32) (x5 : Vec F S128x64 .f32) : Vec F S128x64 .f32 :=
  View.canon [⟨r3_6, k3_pay3 (View.ld x0 r3_0) (View.ld x1 r3_1) (View.ld x2 r3_2) (View.ld x4 r3_4)⟩]

/-- The one store covers the block. -/
theorem cover3_6 (p0 : Vec F S128x64 .f32) (y : S128x64.Idx) :
    ∃ pc ∈ ([⟨r3_6, p0⟩] : List (View.Piece (Elt F) S128x64 .f32)), y ∈ pc.1.set :=
  View.cover_of_tiled [⟨r3_6, p0⟩] S128x64.size (by rfl) y

/-- Output window 7's block after the body: its one whole-block store, as a function of the input blocks. -/
def out3_7 (x0 : Vec F S128x64 .f32) (x1 : Vec F S8192x64 .f32) (x2 : Vec F S8192x64 .f32) (x3 : Vec F S8192x64 .f32) (x4 : Vec F S128x64 .f32) (x5 : Vec F S128x64 .f32) : Vec F S128x64 .f32 :=
  View.canon [⟨r3_7, k3_pay1 (k3_pay4 (View.ld x0 r3_0) (View.ld x1 r3_1) (View.ld x3 r3_3)) (View.ld x5 r3_5)⟩]

/-- The one store covers the block. -/
theorem cover3_7 (p0 : Vec F S128x64 .f32) (y : S128x64.Idx) :
    ∃ pc ∈ ([⟨r3_7, p0⟩] : List (View.Piece (Elt F) S128x64 .f32)), y ∈ pc.1.set :=
  View.cover_of_tiled [⟨r3_7, p0⟩] S128x64.size (by rfl) y

/-! ## The body's triple -/

set_option maxHeartbeats 4000000 in
/-- The body run on whole staging buffers: the inputs hold `xW` and keep them, every output ends at `out3_W` of the inputs. -/
theorem sound_kernel3 (c : Dev nD) (E : Set ℕ) (i : grid3.Coords) (arg0 : Memref sig .tc .vmem S128x64 .f32) (harg0 : arg0.IsWhole) (arg1 : Memref sig .tc .vmem S8192x64 .f32) (harg1 : arg1.IsWhole) (arg2 : Memref sig .tc .vmem S8192x64 .f32) (harg2 : arg2.IsWhole) (arg3 : Memref sig .tc .vmem S8192x64 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S128x64 .f32) (harg7 : arg7.IsWhole)
    (x0 : Vec F S128x64 .f32) (x1 : Vec F S8192x64 .f32) (x2 : Vec F S8192x64 .f32) (x3 : Vec F S8192x64 .f32) (x4 : Vec F S128x64 .f32) (x5 : Vec F S128x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out3_6 x0 x1 x2 x3 x4 x5) ∗ owns (c : Thread nD τ) arg7 fullShare (out3_7 x0 x1 x2 x3 x4 x5)) -∗ K ⟨⟩))
      ⊢ wp frame (wpE (defs₀ (F := F)) Variants.none c none) E (cc3_kernel i arg0 harg0 arg1 harg1 arg2 harg2 arg3 harg3 arg4 harg4 arg5 harg5 arg6 harg6 arg7 harg7) K := by
  simp only [cc3_kernel_eq_skeleton]; unfold cc3_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover3_6 _)
  iexists _; isplitr
  swap; · iexact H7
  ipureintro
  exact View.read_writes_eq_canon _ _ _ (cover3_7 _)

/-! ## The pipeline's proof data -/

/-- Per core: the arrays are the entry contents; after the body at point `t` every input's buffer holds its block and
    every output's holds `out3_W` of the input blocks; the invariant is the untouched rest; nothing is owed. Windows 0 and 1
    read ONE array: each holds it at one half of the full share. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
    | ⟨7, _⟩ => out3_7 (iblk3 V c 0 t) (iblk3 V c 1 t) (iblk3 V c 2 t) (iblk3 V c 3 t) (iblk3 V c 4 t) (iblk3 V c 5 t)
  Φ _ := Pipeline.ΦA spec3 c
  q w := match w with
    | ⟨0, _⟩ => fullShare.left
    | ⟨1, _⟩ => fullShare.right
    | _ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

set_option maxHeartbeats 2000000 in
/-- At any point the inputs' buffers hold their blocks, so the body's triple applies; the invariant and what the core
    owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation3 (c : Dev nD) : BodyObligation (dat3 (F := F) V c) (defs₀ (F := F)) Variants.none () Set.univ := fun t => by
  rw [bigSep_W3, bigSep_W3]
  exact sound_body3 V c t

end Cert.KernelIdeal.Gen

end
-- ==== Proof.IdealRegion4.lean ====
/-
  Region 4 of the program, at any float instance: what one grid point's body leaves in each output block as a
  function of the input blocks it was handed, the body's Hoare triple, the per-point proof data of the pipeline
  (every input block stays as fetched, every output block is the stored value), and the body obligation at a
  generic grid point. Everything is stated at a parameter `V`, the contents of the core's buffers when the
  region is entered.
-/
import proofs.«117133_j29008209117207_1_alg».proof.Proof.Gen.KernelIdeal.Launch
import proofs.«117133_j29008209117207_1_alg».proof.Proof.Gen.KernelIdeal.Skeleton
import proofs.«117133_j29008209117207_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`: the window's rectangle at that point read off its array. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds the window's block at every point, whether the pipeline fetched it there or
    the block index has not moved since the last fetch. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds the window's block at every point, whether the pipeline fetched it there or
    the block index has not moved since the last fetch. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds the window's block at every point, whether the pipeline fetched it there or
    the block index has not moved since the last fetch. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds the window's block at every point, whether the pipeline fetched it there or
    the block index has not moved since the last fetch. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The whole-block rectangles the body loads and stores through -/

abbrev r4_0 : Rect S128x64 := Rect.unit (s := S128x64) ![0, 0] S128x64.size inb_S128x64_S128x64_0_0
abbrev r4_1 : Rect S8192x64 := Rect.unit (s := S8192x64) ![0, 0] S8192x64.size inb_S8192x64_S8192x64_0_0
abbrev r4_2 : Rect S8192x64 := Rect.unit (s := S8192x64) ![0, 0] S8192x64.size inb_S8192x64_S8192x64_0_0
abbrev r4_3 : Rect S128x64 := Rect.unit (s := S128x64) ![0, 0] S128x64.size inb_S128x64_S128x64_0_0
abbrev r4_4 : Rect S128x64 := Rect.unit (s := S128x64) ![0, 0] S128x64.size inb_S128x64_S128x64_0_0

/-! ## What the body leaves in each output block -/

/-- Output window 4's block after the body: its one whole-block store, as a function of the input blocks. -/
def out4_4 (x0 : Vec F S128x64 .f32) (x1 : Vec F S8192x64 .f32) (x2 : Vec F S8192x64 .f32) (x3 : Vec F S128x64 .f32) : Vec F S128x64 .f32 :=
  View.canon [⟨r4_4, k4_pay1 (View.ld x0 r4_0) (View.ld x1 r4_1) (View.ld x2 r4_2) (View.ld x3 r4_3)⟩]

/-- The one store covers the block. -/
theorem cover4_4 (p0 : Vec F S128x64 .f32) (y : S128x64.Idx) :
    ∃ pc ∈ ([⟨r4_4, p0⟩] : List (View.Piece (Elt F) S128x64 .f32)), y ∈ pc.1.set :=
  View.cover_of_tiled [⟨r4_4, p0⟩] S128x64.size (by rfl) y

/-! ## The body's triple -/

set_option maxHeartbeats 4000000 in
/-- The body run on whole staging buffers: the inputs hold `xW` and keep them, every output ends at `out4_W` of the inputs. -/
theorem sound_kernel4 (c : Dev nD) (E : Set ℕ) (i : grid4.Coords) (arg0 : Memref sig .tc .vmem S128x64 .f32) (harg0 : arg0.IsWhole) (arg1 : Memref sig .tc .vmem S8192x64 .f32) (harg1 : arg1.IsWhole) (arg2 : Memref sig .tc .vmem S8192x64 .f32) (harg2 : arg2.IsWhole) (arg3 : Memref sig .tc .vmem S128x64 .f32) (harg3 : arg3.IsWhole) (arg4 : Memref sig .tc .vmem S128x64 .f32) (harg4 : arg4.IsWhole)
    (x0 : Vec F S128x64 .f32) (x1 : Vec F S8192x64 .f32) (x2 : Vec F S8192x64 .f32) (x3 : Vec F S128x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out4_4 x0 x1 x2 x3)) -∗ K ⟨⟩))
      ⊢ wp frame (wpE (defs₀ (F := F)) Variants.none c none) E (cc4_kernel i arg0 harg0 arg1 harg1 arg2 harg2 arg3 harg3 arg4 harg4) K := by
  simp only [cc4_kernel_eq_skeleton]; unfold cc4_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-! ## The pipeline's proof data -/

/-- Per core: the arrays are the entry contents; after the body at point `t` every input's buffer holds its block and
    every output's holds `out4_W` of the input blocks; the invariant is the untouched rest; nothing is owed. Windows 0 and 1
    read ONE array: each holds it at one half of the full share. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q w := match w with
    | ⟨0, _⟩ => fullShare.left
    | ⟨1, _⟩ => fullShare.right
    | _ => fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

set_option maxHeartbeats 2000000 in
/-- At any point the inputs' buffers hold their blocks, so the body's triple applies; the invariant and what the core
    owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation4 (c : Dev nD) : BodyObligation (dat4 (F := F) V c) (defs₀ (F := F)) Variants.none () Set.univ := fun t => by
  rw [bigSep_W4, bigSep_W4]
  exact sound_body4 V c t

end Cert.KernelIdeal.Gen

end
-- ==== Proof.IdealRegion5.lean ====
/-
  Region 5 of the program, at any float instance: what one grid point's body leaves in each output block as a
  function of the input blocks it was handed, the body's Hoare triple, the per-point proof data of the pipeline
  (every input block stays as fetched, every output block is the stored value), and the body obligation at a
  generic grid point. Everything is stated at a parameter `V`, the contents of the core's buffers when the
  region is entered.
-/
import proofs.«117133_j29008209117207_1_alg».proof.Proof.Gen.KernelIdeal.Launch
import proofs.«117133_j29008209117207_1_alg».proof.Proof.Gen.KernelIdeal.Skeleton
import proofs.«117133_j29008209117207_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`: the window's rectangle at that point read off its array. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds the window's block at every point, whether the pipeline fetched it there or
    the block index has not moved since the last fetch. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds the window's block at every point, whether the pipeline fetched it there or
    the block index has not moved since the last fetch. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds the window's block at every point, whether the pipeline fetched it there or
    the block index has not moved since the last fetch. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds the window's block at every point, whether the pipeline fetched it there or
    the block index has not moved since the last fetch. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's staging buffer holds the window's block at every point, whether the pipeline fetched it there or
    the block index has not moved since the last fetch. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's staging buffer holds the window's block at every point, whether the pipeline fetched it there or
    the block index has not moved since the last fetch. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's staging buffer holds the window's block at every point, whether the pipeline fetched it there or
    the block index has not moved since the last fetch. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-- Input window 7's staging buffer holds the window's block at every point, whether the pipeline fetched it there or
    the block index has not moved since the last fetch. -/
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

/-! ## The whole-block rectangles the body loads and stores through -/

abbrev r5_0 : Rect S128x64 := Rect.unit (s := S128x64) ![0, 0] S128x64.size inb_S128x64_S128x64_0_0
abbrev r5_1 : Rect S8192x64 := Rect.unit (s := S8192x64) ![0, 0] S8192x64.size inb_S8192x64_S8192x64_0_0
abbrev r5_2 : Rect S8192x64 := Rect.unit (s := S8192x64) ![0, 0] S8192x64.size inb_S8192x64_S8192x64_0_0
abbrev r5_3 : Rect S8192x64 := Rect.unit (s := S8192x64) ![0, 0] S8192x64.size inb_S8192x64_S8192x64_0_0
abbrev r5_4 : Rect S8192x64 := Rect.unit (s := S8192x64) ![0, 0] S8192x64.size inb_S8192x64_S8192x64_0_0
abbrev r5_5 : Rect S128x64 := Rect.unit (s := S128x64) ![0, 0] S128x64.size inb_S128x64_S128x64_0_0
abbrev r5_6 : Rect S128x64 := Rect.unit (s := S128x64) ![0, 0] S128x64.size inb_S128x64_S128x64_0_0
abbrev r5_7 : Rect S128x64 := Rect.unit (s := S128x64) ![0, 0] S128x64.size inb_S128x64_S128x64_0_0
abbrev r5_8 : Rect S128x64 := Rect.unit (s := S128x64) ![0, 0] S128x64.size inb_S128x64_S128x64_0_0
abbrev r5_9 : Rect S128x64 := Rect.unit (s := S128x64) ![0, 0] S128x64.size inb_S128x64_S128x64_0_0
abbrev r5_10 : Rect S128x64 := Rect.unit (s := S128x64) ![0, 0] S128x64.size inb_S128x64_S128x64_0_0

/-! ## What the body leaves in each output block -/

/-- Output window 8's block after the body: its one whole-block store, as a function of the input blocks. -/
def out5_8 (x0 : Vec F S128x64 .f32) (x1 : Vec F S8192x64 .f32) (x2 : Vec F S8192x64 .f32) (x3 : Vec F S8192x64 .f32) (x4 : Vec F S8192x64 .f32) (x5 : Vec F S128x64 .f32) (x6 : Vec F S128x64 .f32) (x7 : Vec F S128x64 .f32) : Vec F S128x64 .f32 :=
  View.canon [⟨r5_8, k5_pay4 (View.ld x0 r5_0) (View.ld x1 r5_1) (View.ld x2 r5_2) (View.ld x5 r5_5)⟩]

/-- The one store covers the block. -/
theorem cover5_8 (p0 : Vec F S128x64 .f32) (y : S128x64.Idx) :
    ∃ pc ∈ ([⟨r5_8, p0⟩] : List (View.Piece (Elt F) S128x64 .f32)), y ∈ pc.1.set :=
  View.cover_of_tiled [⟨r5_8, p0⟩] S128x64.size (by rfl) y

/-- Output window 9's block after the body: its one whole-block store, as a function of the input blocks. -/
def out5_9 (x0 : Vec F S128x64 .f32) (x1 : Vec F S8192x64 .f32) (x2 : Vec F S8192x64 .f32) (x3 : Vec F S8192x64 .f32) (x4 : Vec F S8192x64 .f32) (x5 : Vec F S128x64 .f32) (x6 : Vec F S128x64 .f32) (x7 : Vec F S128x64 .f32) : Vec F S128x64 .f32 :=
  View.canon [⟨r5_9, k5_pay1 (k5_pay5 (View.ld x0 r5_0) (View.ld x1 r5_1) (View.ld x3 r5_3)) (View.ld x6 r5_6)⟩]

/-- The one store covers the block. -/
theorem cover5_9 (p0 : Vec F S128x64 .f32) (y : S128x64.Idx) :
    ∃ pc ∈ ([⟨r5_9, p0⟩] : List (View.Piece (Elt F) S128x64 .f32)), y ∈ pc.1.set :=
  View.cover_of_tiled [⟨r5_9, p0⟩] S128x64.size (by rfl) y

/-- Output window 10's block after the body: its one whole-block store, as a function of the input blocks. -/
def out5_10 (x0 : Vec F S128x64 .f32) (x1 : Vec F S8192x64 .f32) (x2 : Vec F S8192x64 .f32) (x3 : Vec F S8192x64 .f32) (x4 : Vec F S8192x64 .f32) (x5 : Vec F S128x64 .f32) (x6 : Vec F S128x64 .f32) (x7 : Vec F S128x64 .f32) : Vec F S128x64 .f32 :=
  View.canon [⟨r5_10, k5_pay2 (k5_pay3 (View.ld x0 r5_0) (View.ld x1 r5_1)) (View.ld x4 r5_4) (View.ld x7 r5_7)⟩]

/-- The one store covers the block. -/
theorem cover5_10 (p0 : Vec F S128x64 .f32) (y : S128x64.Idx) :
    ∃ pc ∈ ([⟨r5_10, p0⟩] : List (View.Piece (Elt F) S128x64 .f32)), y ∈ pc.1.set :=
  View.cover_of_tiled [⟨r5_10, p0⟩] S128x64.size (by rfl) y

/-! ## The body's triple -/

set_option maxHeartbeats 4000000 in
/-- The body run on whole staging buffers: the inputs hold `xW` and keep them, every output ends at `out5_W` of the inputs. -/
theorem sound_kernel5 (c : Dev nD) (E : Set ℕ) (i : grid5.Coords) (arg0 : Memref sig .tc .vmem S128x64 .f32) (harg0 : arg0.IsWhole) (arg1 : Memref sig .tc .vmem S8192x64 .f32) (harg1 : arg1.IsWhole) (arg2 : Memref sig .tc .vmem S8192x64 .f32) (harg2 : arg2.IsWhole) (arg3 : Memref sig .tc .vmem S8192x64 .f32) (harg3 : arg3.IsWhole) (arg4 : Memref sig .tc .vmem S8192x64 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S128x64 .f32) (harg7 : arg7.IsWhole) (arg8 : Memref sig .tc .vmem S128x64 .f32) (harg8 : arg8.IsWhole) (arg9 : Memref sig .tc .vmem S128x64 .f32) (harg9 : arg9.IsWhole) (arg10 : Memref sig .tc .vmem S128x64 .f32) (harg10 : arg10.IsWhole)
    (x0 : Vec F S128x64 .f32) (x1 : Vec F S8192x64 .f32) (x2 : Vec F S8192x64 .f32) (x3 : Vec F S8192x64 .f32) (x4 : Vec F S8192x64 .f32) (x5 : Vec F S128x64 .f32) (x6 : Vec F S128x64 .f32) (x7 : Vec F S128x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out5_8 x0 x1 x2 x3 x4 x5 x6 x7) ∗ owns (c : Thread nD τ) arg9 fullShare (out5_9 x0 x1 x2 x3 x4 x5 x6 x7) ∗ owns (c : Thread nD τ) arg10 fullShare (out5_10 x0 x1 x2 x3 x4 x5 x6 x7)) -∗ K ⟨⟩))
      ⊢ wp frame (wpE (defs₀ (F := F)) Variants.none c none) E (cc5_kernel i arg0 harg0 arg1 harg1 arg2 harg2 arg3 harg3 arg4 harg4 arg5 harg5 arg6 harg6 arg7 harg7 arg8 harg8 arg9 harg9 arg10 harg10) K := by
  simp only [cc5_kernel_eq_skeleton]; unfold cc5_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover5_8 _)
  isplitl [H9]
  · iexists _; isplitr
    swap; · iexact H9
    ipureintro
    exact View.read_writes_eq_canon _ _ _ (cover5_9 _)
  iexists _; isplitr
  swap; · iexact H10
  ipureintro
  exact View.read_writes_eq_canon _ _ _ (cover5_10 _)

/-! ## The pipeline's proof data -/

/-- Per core: the arrays are the entry contents; after the body at point `t` every input's buffer holds its block and
    every output's holds `out5_W` of the input blocks; the invariant is the untouched rest; nothing is owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => out5_8 (iblk5 V c 0 t) (iblk5 V c 1 t) (iblk5 V c 2 t) (iblk5 V c 3 t) (iblk5 V c 4 t) (iblk5 V c 5 t) (iblk5 V c 6 t) (iblk5 V c 7 t)
    | ⟨9, _⟩ => out5_9 (iblk5 V c 0 t) (iblk5 V c 1 t) (iblk5 V c 2 t) (iblk5 V c 3 t) (iblk5 V c 4 t) (iblk5 V c 5 t) (iblk5 V c 6 t) (iblk5 V c 7 t)
    | ⟨10, _⟩ => out5_10 (iblk5 V c 0 t) (iblk5 V c 1 t) (iblk5 V c 2 t) (iblk5 V c 3 t) (iblk5 V c 4 t) (iblk5 V c 5 t) (iblk5 V c 6 t) (iblk5 V c 7 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = out5_8 (iblk5 V c 0 t) (iblk5 V c 1 t) (iblk5 V c 2 t) (iblk5 V c 3 t) (iblk5 V c 4 t) (iblk5 V c 5 t) (iblk5 V c 6 t) (iblk5 V c 7 t) := by dsimp only [dat5]
theorem after5_9 (c : Dev nD) (t : Fin cfg5.N) : (dat5 V c).after 9 t = out5_9 (iblk5 V c 0 t) (iblk5 V c 1 t) (iblk5 V c 2 t) (iblk5 V c 3 t) (iblk5 V c 4 t) (iblk5 V c 5 t) (iblk5 V c 6 t) (iblk5 V c 7 t) := by dsimp only [dat5]
theorem after5_10 (c : Dev nD) (t : Fin cfg5.N) : (dat5 V c).after 10 t = out5_10 (iblk5 V c 0 t) (iblk5 V c 1 t) (iblk5 V c 2 t) (iblk5 V c 3 t) (iblk5 V c 4 t) (iblk5 V c 5 t) (iblk5 V c 6 t) (iblk5 V c 7 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d

/-! ## The body obligation at a generic point -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d))
    ∗ (∃ d, owns (c : Thread nD τ) (st5_10 t) fullShare ((dat5 V c).before 10 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t)
    ∗ owns (c : Thread nD τ) (st5_10 t) fullShare ((dat5 V c).after 10 t))

set_option maxHeartbeats 2000000 in
/-- At any point the inputs' buffers hold their blocks, so the body's triple applies; the invariant and what the core
    owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9, after5_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel5 c Set.univ _ _ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation5 (c : Dev nD) : BodyObligation (dat5 (F := F) V c) (defs₀ (F := F)) Variants.none () Set.univ := fun t => by
  rw [bigSep_W5, bigSep_W5]
  exact sound_body5 V c t

end Cert.KernelIdeal.Gen

end
-- ==== Proof.IdealRegion6.lean ====
/-
  Region 6 of the program, at any float instance: what one grid point's body leaves in each output block as a
  function of the input blocks it was handed, the body's Hoare triple, the per-point proof data of the pipeline
  (every input block stays as fetched, every output block is the stored value), and the body obligation at a
  generic grid point. Everything is stated at a parameter `V`, the contents of the core's buffers when the
  region is entered.
-/
import proofs.«117133_j29008209117207_1_alg».proof.Proof.Gen.KernelIdeal.Launch
import proofs.«117133_j29008209117207_1_alg».proof.Proof.Gen.KernelIdeal.Skeleton
import proofs.«117133_j29008209117207_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`: the window's rectangle at that point read off its array. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds the window's block at every point, whether the pipeline fetched it there or
    the block index has not moved since the last fetch. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds the window's block at every point, whether the pipeline fetched it there or
    the block index has not moved since the last fetch. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds the window's block at every point, whether the pipeline fetched it there or
    the block index has not moved since the last fetch. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's staging buffer holds the window's block at every point, whether the pipeline fetched it there or
    the block index has not moved since the last fetch. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's staging buffer holds the window's block at every point, whether the pipeline fetched it there or
    the block index has not moved since the last fetch. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5's staging buffer holds the window's block at every point, whether the pipeline fetched it there or
    the block index has not moved since the last fetch. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-! ## The whole-block rectangles the body loads and stores through -/

abbrev r6_0 : Rect S128x64 := Rect.unit (s := S128x64) ![0, 0] S128x64.size inb_S128x64_S128x64_0_0
abbrev r6_1 : Rect S8192x64 := Rect.unit (s := S8192x64) ![0, 0] S8192x64.size inb_S8192x64_S8192x64_0_0
abbrev r6_2 : Rect S8192x64 := Rect.unit (s := S8192x64) ![0, 0] S8192x64.size inb_S8192x64_S8192x64_0_0
abbrev r6_3 : Rect S8192x64 := Rect.unit (s := S8192x64) ![0, 0] S8192x64.size inb_S8192x64_S8192x64_0_0
abbrev r6_4 : Rect S128x64 := Rect.unit (s := S128x64) ![0, 0] S128x64.size inb_S128x64_S128x64_0_0
abbrev r6_5 : Rect S128x64 := Rect.unit (s := S128x64) ![0, 0] S128x64.size inb_S128x64_S128x64_0_0
abbrev r6_6 : Rect S128x64 := Rect.unit (s := S128x64) ![0, 0] S128x64.size inb_S128x64_S128x64_0_0
abbrev r6_7 : Rect S128x64 := Rect.unit (s := S128x64) ![0, 0] S128x64.size inb_S128x64_S128x64_0_0

/-! ## What the body leaves in each output block -/

/-- Output window 6's block after the body: its one whole-block store, as a function of the input blocks. -/
def out6_6 (x0 : Vec F S128x64 .f32) (x1 : Vec F S8192x64 .f32) (x2 : Vec F S8192x64 .f32) (x3 : Vec F S8192x64 .f32) (x4 : Vec F S128x64 .f32) (x5 : Vec F S128x64 .f32) : Vec F S128x64 .f32 :=
  View.canon [⟨r6_6, k6_pay3 (View.ld x0 r6_0) (View.ld x1 r6_1) (View.ld x2 r6_2) (View.ld x4 r6_4)⟩]

/-- The one store covers the block. -/
theorem cover6_6 (p0 : Vec F S128x64 .f32) (y : S128x64.Idx) :
    ∃ pc ∈ ([⟨r6_6, p0⟩] : List (View.Piece (Elt F) S128x64 .f32)), y ∈ pc.1.set :=
  View.cover_of_tiled [⟨r6_6, p0⟩] S128x64.size (by rfl) y

/-- Output window 7's block after the body: its one whole-block store, as a function of the input blocks. -/
def out6_7 (x0 : Vec F S128x64 .f32) (x1 : Vec F S8192x64 .f32) (x2 : Vec F S8192x64 .f32) (x3 : Vec F S8192x64 .f32) (x4 : Vec F S128x64 .f32) (x5 : Vec F S128x64 .f32) : Vec F S128x64 .f32 :=
  View.canon [⟨r6_7, k6_pay1 (k6_pay4 (View.ld x0 r6_0) (View.ld x1 r6_1) (View.ld x3 r6_3)) (View.ld x5 r6_5)⟩]

/-- The one store covers the block. -/
theorem cover6_7 (p0 : Vec F S128x64 .f32) (y : S128x64.Idx) :
    ∃ pc ∈ ([⟨r6_7, p0⟩] : List (View.Piece (Elt F) S128x64 .f32)), y ∈ pc.1.set :=
  View.cover_of_tiled [⟨r6_7, p0⟩] S128x64.size (by rfl) y

/-! ## The body's triple -/

set_option maxHeartbeats 4000000 in
/-- The body run on whole staging buffers: the inputs hold `xW` and keep them, every output ends at `out6_W` of the inputs. -/
theorem sound_kernel6 (c : Dev nD) (E : Set ℕ) (i : grid6.Coords) (arg0 : Memref sig .tc .vmem S128x64 .f32) (harg0 : arg0.IsWhole) (arg1 : Memref sig .tc .vmem S8192x64 .f32) (harg1 : arg1.IsWhole) (arg2 : Memref sig .tc .vmem S8192x64 .f32) (harg2 : arg2.IsWhole) (arg3 : Memref sig .tc .vmem S8192x64 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S128x64 .f32) (harg7 : arg7.IsWhole)
    (x0 : Vec F S128x64 .f32) (x1 : Vec F S8192x64 .f32) (x2 : Vec F S8192x64 .f32) (x3 : Vec F S8192x64 .f32) (x4 : Vec F S128x64 .f32) (x5 : Vec F S128x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out6_6 x0 x1 x2 x3 x4 x5) ∗ owns (c : Thread nD τ) arg7 fullShare (out6_7 x0 x1 x2 x3 x4 x5)) -∗ K ⟨⟩))
      ⊢ wp frame (wpE (defs₀ (F := F)) Variants.none c none) E (cc6_kernel i arg0 harg0 arg1 harg1 arg2 harg2 arg3 harg3 arg4 harg4 arg5 harg5 arg6 harg6 arg7 harg7) K := by
  simp only [cc6_kernel_eq_skeleton]; unfold cc6_kernel_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover6_6 _)
  iexists _; isplitr
  swap; · iexact H7
  ipureintro
  exact View.read_writes_eq_canon _ _ _ (cover6_7 _)

/-! ## The pipeline's proof data -/

/-- Per core: the arrays are the entry contents; after the body at point `t` every input's buffer holds its block and
    every output's holds `out6_W` of the input blocks; the invariant is the untouched rest; nothing is owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
    | ⟨7, _⟩ => out6_7 (iblk6 V c 0 t) (iblk6 V c 1 t) (iblk6 V c 2 t) (iblk6 V c 3 t) (iblk6 V c 4 t) (iblk6 V c 5 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = out6_6 (iblk6 V c 0 t) (iblk6 V c 1 t) (iblk6 V c 2 t) (iblk6 V c 3 t) (iblk6 V c 4 t) (iblk6 V c 5 t) := by dsimp only [dat6]
theorem after6_7 (c : Dev nD) (t : Fin cfg6.N) : (dat6 V c).after 7 t = out6_7 (iblk6 V c 0 t) (iblk6 V c 1 t) (iblk6 V c 2 t) (iblk6 V c 3 t) (iblk6 V c 4 t) (iblk6 V c 5 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

/-! ## The body obligation at a generic point -/

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t))

set_option maxHeartbeats 2000000 in
/-- At any point the inputs' buffers hold their blocks, so the body's triple applies; the invariant and what the core
    owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel6 c Set.univ _ _ _ _ _ _ _ _ _ _ _ _ _ _ _ _ _ (iblk6 V c 0 t) (iblk6 V c 1 t) (iblk6 V c 2 t) (iblk6 V c 3 t) (iblk6 V c 4 t) (iblk6 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation6 (c : Dev nD) : BodyObligation (dat6 (F := F) V c) (defs₀ (F := F)) Variants.none () Set.univ := fun t => by
  rw [bigSep_W6, bigSep_W6]
  exact sound_body6 V c t

end Cert.KernelIdeal.Gen

end
-- ==== Proof.IdealRegion7.lean ====
/-
  Region 7 of the program, at any float instance: what one grid point's body leaves in each output block as a
  function of the input blocks it was handed, the body's Hoare triple, the per-point proof data of the pipeline
  (every input block stays as fetched, every output block is the stored value), and the body obligation at a
  generic grid point. Everything is stated at a parameter `V`, the contents of the core's buffers when the
  region is entered.
-/
import proofs.«117133_j29008209117207_1_alg».proof.Proof.Gen.KernelIdeal.Launch
import proofs.«117133_j29008209117207_1_alg».proof.Proof.Gen.KernelIdeal.Skeleton
import proofs.«117133_j29008209117207_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`: the window's rectangle at that point read off its array. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds the window's block at every point, whether the pipeline fetched it there or
    the block index has not moved since the last fetch. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's staging buffer holds the window's block at every point, whether the pipeline fetched it there or
    the block index has not moved since the last fetch. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's staging buffer holds the window's block at every point, whether the pipeline fetched it there or
    the block index has not moved since the last fetch. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's staging buffer holds the window's block at every point, whether the pipeline fetched it there or
    the block index has not moved since the last fetch. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-! ## The whole-block rectangles the body loads and stores through -/

abbrev r7_0 : Rect S128x64 := Rect.unit (s := S128x64) ![0, 0] S128x64.size inb_S128x64_S128x64_0_0
abbrev r7_1 : Rect S8192x64 := Rect.unit (s := S8192x64) ![0, 0] S8192x64.size inb_S8192x64_S8192x64_0_0
abbrev r7_2 : Rect S8192x64 := Rect.unit (s := S8192x64) ![0, 0] S8192x64.size inb_S8192x64_S8192x64_0_0
abbrev r7_3 : Rect S128x64 := Rect.unit (s := S128x64) ![0, 0] S128x64.size inb_S128x64_S128x64_0_0
abbrev r7_4 : Rect S128x64 := Rect.unit (s := S128x64) ![0, 0] S128x64.size inb_S128x64_S128x64_0_0

/-! ## What the body leaves in each output block -/

/-- Output window 4's block after the body: its one whole-block store, as a function of the input blocks. -/
def out7_4 (x0 : Vec F S128x64 .f32) (x1 : Vec F S8192x64 .f32) (x2 : Vec F S8192x64 .f32) (x3 : Vec F S128x64 .f32) : Vec F S128x64 .f32 :=
  View.canon [⟨r7_4, k7_pay1 (View.ld x0 r7_0) (View.ld x1 r7_1) (View.ld x2 r7_2) (View.ld x3 r7_3)⟩]

/-- The one store covers the block. -/
theorem cover7_4 (p0 : Vec F S128x64 .f32) (y : S128x64.Idx) :
    ∃ pc ∈ ([⟨r7_4, p0⟩] : List (View.Piece (Elt F) S128x64 .f32)), y ∈ pc.1.set :=
  View.cover_of_tiled [⟨r7_4, p0⟩] S128x64.size (by rfl) y

/-! ## The body's triple -/

set_option maxHeartbeats 4000000 in
/-- The body run on whole staging buffers: the inputs hold `xW` and keep them, every output ends at `out7_W` of the inputs. -/
theorem sound_kernel7 (c : Dev nD) (E : Set ℕ) (i : grid7.Coords) (arg0 : Memref sig .tc .vmem S128x64 .f32) (harg0 : arg0.IsWhole) (arg1 : Memref sig .tc .vmem S8192x64 .f32) (harg1 : arg1.IsWhole) (arg2 : Memref sig .tc .vmem S8192x64 .f32) (harg2 : arg2.IsWhole) (arg3 : Memref sig .tc .vmem S128x64 .f32) (harg3 : arg3.IsWhole) (arg4 : Memref sig .tc .vmem S128x64 .f32) (harg4 : arg4.IsWhole)
    (x0 : Vec F S128x64 .f32) (x1 : Vec F S8192x64 .f32) (x2 : Vec F S8192x64 .f32) (x3 : Vec F S128x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out7_4 x0 x1 x2 x3)) -∗ K ⟨⟩))
      ⊢ wp frame (wpE (defs₀ (F := F)) Variants.none c none) E (cc7_kernel i arg0 harg0 arg1 harg1 arg2 harg2 arg3 harg3 arg4 harg4) K := by
  simp only [cc7_kernel_eq_skeleton]; unfold cc7_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover7_4 _)

/-! ## The pipeline's proof data -/

/-- Per core: the arrays are the entry contents; after the body at point `t` every input's buffer holds its block and
    every output's holds `out7_W` of the input blocks; the invariant is the untouched rest; nothing is owed. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out7_4 (iblk7 V c 0 t) (iblk7 V c 1 t) (iblk7 V c 2 t) (iblk7 V c 3 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = out7_4 (iblk7 V c 0 t) (iblk7 V c 1 t) (iblk7 V c 2 t) (iblk7 V c 3 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

/-! ## The body obligation at a generic point -/

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

set_option maxHeartbeats 2000000 in
/-- At any point the inputs' buffers hold their blocks, so the body's triple applies; the invariant and what the core
    owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ _ _ _ _ _ _ _ _ _ _ _ (iblk7 V c 0 t) (iblk7 V c 1 t) (iblk7 V c 2 t) (iblk7 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation7 (c : Dev nD) : BodyObligation (dat7 (F := F) V c) (defs₀ (F := F)) Variants.none () Set.univ := fun t => by
  rw [bigSep_W7, bigSep_W7]
  exact sound_body7 V c t

end Cert.KernelIdeal.Gen

end
-- ==== Proof.IdealShared2.lean ====
/-
  Region 2 hands ONE array to its windows 0 and 1. The buffers behind the region's arrays, each held whole at the
  full share, are the region's arrays with that one buffer held twice, at the two halves of the full share; so the
  core's unscoped buffers split into the region's arrays and the rest at entry, and are put back together at exit.
-/
import proofs.«117133_j29008209117207_1_alg».proof.Proof.IdealRegion2
import proofs.«117133_j29008209117207_1_alg».proof.Proof.LibSharedPair

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Windows 0 and 1 read the same array, -/
theorem arrRef2_shared : Pipeline.arrRef spec2 0 = Pipeline.arrRef spec2 1 := by decide

/-- and no other two windows share one. -/
theorem arrRef2_injOn : Set.InjOn (Pipeline.arrRef spec2) ((Finset.univ.erase (0 : Fin 11) : Finset (Fin 11)) : Set (Fin 11)) := by
  have h : ∀ a b : Fin 11, a ≠ 0 → b ≠ 0 → Pipeline.arrRef spec2 a = Pipeline.arrRef spec2 b → a = b := by decide
  intro a ha b hb e
  exact h a b (Finset.mem_erase.mp (Finset.mem_coe.mp ha)).1 (Finset.mem_erase.mp (Finset.mem_coe.mp hb)).1 e

/-- The buffers behind the arrays at contents `V` ARE the region's arrays at any contents that agree with `V`. -/
theorem arrBufs_eq_arrays2 (c : Dev nD) (V' : (b : Ref sig .tc) → Buf (Elt F) ((c : Thread nD τ).loc b))
    (G : (w : Fin cfg2.W) → Buf (Elt F) ((cfg2.win w).arr.view.loc (c : Thread nD τ))) (hG : ∀ w, G w = V' (Pipeline.arrRef spec2 w)) :
    (Pipeline.arrBufs (Ix := Unit) (Name := ℕ) (U := UR sig nD τ) (Lvl := ℕ) spec2 c V' : sProp 𝕄) = (dat2 V c).arrays G := by
  unfold Pipeline.arrBufs Pipeline.Dat.arrays
  refine bigSep_image_shared_pair (Pipeline.arrRef spec2) 0 1 (by decide) arrRef2_shared arrRef2_injOn _ _ (fun w h0 h1 => ?_) ?_
  · rw [(arr_whole2 w).set_eq_univ, hG w]
    have hs : (dat2 V c).share w = fullShare := by
      match w, h0, h1 with
    | ⟨0, _⟩, h0, _ => exact absurd rfl h0
    | ⟨1, _⟩, _, h1 => exact absurd rfl h1
    | ⟨2, _⟩, _, _ => rfl
    | ⟨3, _⟩, _, _ => rfl
    | ⟨4, _⟩, _, _ => rfl
    | ⟨5, _⟩, _, _ => rfl
    | ⟨6, _⟩, _, _ => rfl
    | ⟨7, _⟩, _, _ => rfl
    | ⟨8, _⟩, _, _ => rfl
    | ⟨9, _⟩, _, _ => rfl
    | ⟨10, _⟩, _, _ => rfl
    rw [hs]
  · rw [(arr_whole2 0).set_eq_univ, hG 0, hG 1,
      show (dat2 V c).share 0 = fullShare.left from rfl, show (dat2 V c).share 1 = fullShare.right from rfl]
    exact BI.Entails.antisymm (pointsTo_share (PosShare.mem_left_op_right fullShare)).1 (pointsTo_share (PosShare.mem_left_op_right fullShare)).2

/-- ENTRY: the core's unscoped buffers at `V` are the region's arrays at the entry contents and the rest. -/
theorem entryArr2 (c : Dev nD) :
    (unscopedBufs c (V c) : sProp 𝕄) ⊢ iprop((dat2 V c).arrays ((dat2 V c).arrAt · 0) ∗ Pipeline.unscopedRest (Ix := Unit) (Name := ℕ) (U := UR sig nD τ) (Lvl := ℕ) spec2 c (V c)) := by
  rw [Pipeline.unscopedBufs_split₀ cfgs (2 : Fin 8) winFacts₀2.arr_unscoped c (V c)]
  exact sep_mono (Entails.of_eq (arrBufs_eq_arrays2 V c (V c) _ fun w => rfl)) .rfl

/-- EXIT: the region's arrays at contents `G` and the rest at `V` are the unscoped buffers at any contents `V'` that has
    the arrays at `G` and agrees with `V` off them. -/
theorem exitArr2 (c : Dev nD) (V' : (b : Ref sig .tc) → Buf (Elt F) ((c : Thread nD τ).loc b))
    (G : (w : Fin cfg2.W) → Buf (Elt F) ((cfg2.win w).arr.view.loc (c : Thread nD τ))) (hG : ∀ w, G w = V' (Pipeline.arrRef spec2 w))
    (hrest : ∀ b, b ∉ Finset.univ.image (Pipeline.arrRef spec2) → V' b = V c b) :
    iprop((dat2 V c).arrays G ∗ Pipeline.unscopedRest (Ix := Unit) (Name := ℕ) (U := UR sig nD τ) (Lvl := ℕ) spec2 c (V c)) ⊢ (unscopedBufs c V' : sProp 𝕄) := by
  rw [Pipeline.unscopedBufs_split₀ cfgs (2 : Fin 8) winFacts₀2.arr_unscoped c V']
  refine sep_mono (Entails.of_eq (arrBufs_eq_arrays2 V c V' G hG).symm) (Entails.of_eq ?_)
  unfold Pipeline.unscopedRest
  exact bigSep_congr fun b hb => by rw [hrest b (Finset.mem_sdiff.mp hb).2]

end Cert.KernelIdeal.Gen

end
-- ==== Proof.IdealShared3.lean ====
/-
  Region 3 hands ONE array to its windows 0 and 1. The buffers behind the region's arrays, each held whole at the
  full share, are the region's arrays with that one buffer held twice, at the two halves of the full share; so the
  core's unscoped buffers split into the region's arrays and the rest at entry, and are put back together at exit.
-/
import proofs.«117133_j29008209117207_1_alg».proof.Proof.IdealRegion3
import proofs.«117133_j29008209117207_1_alg».proof.Proof.LibSharedPair

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Windows 0 and 1 read the same array, -/
theorem arrRef3_shared : Pipeline.arrRef spec3 0 = Pipeline.arrRef spec3 1 := by decide

/-- and no other two windows share one. -/
theorem arrRef3_injOn : Set.InjOn (Pipeline.arrRef spec3) ((Finset.univ.erase (0 : Fin 8) : Finset (Fin 8)) : Set (Fin 8)) := by
  have h : ∀ a b : Fin 8, a ≠ 0 → b ≠ 0 → Pipeline.arrRef spec3 a = Pipeline.arrRef spec3 b → a = b := by decide
  intro a ha b hb e
  exact h a b (Finset.mem_erase.mp (Finset.mem_coe.mp ha)).1 (Finset.mem_erase.mp (Finset.mem_coe.mp hb)).1 e

/-- The buffers behind the arrays at contents `V` ARE the region's arrays at any contents that agree with `V`. -/
theorem arrBufs_eq_arrays3 (c : Dev nD) (V' : (b : Ref sig .tc) → Buf (Elt F) ((c : Thread nD τ).loc b))
    (G : (w : Fin cfg3.W) → Buf (Elt F) ((cfg3.win w).arr.view.loc (c : Thread nD τ))) (hG : ∀ w, G w = V' (Pipeline.arrRef spec3 w)) :
    (Pipeline.arrBufs (Ix := Unit) (Name := ℕ) (U := UR sig nD τ) (Lvl := ℕ) spec3 c V' : sProp 𝕄) = (dat3 V c).arrays G := by
  unfold Pipeline.arrBufs Pipeline.Dat.arrays
  refine bigSep_image_shared_pair (Pipeline.arrRef spec3) 0 1 (by decide) arrRef3_shared arrRef3_injOn _ _ (fun w h0 h1 => ?_) ?_
  · rw [(arr_whole3 w).set_eq_univ, hG w]
    have hs : (dat3 V c).share w = fullShare := by
      match w, h0, h1 with
    | ⟨0, _⟩, h0, _ => exact absurd rfl h0
    | ⟨1, _⟩, _, h1 => exact absurd rfl h1
    | ⟨2, _⟩, _, _ => rfl
    | ⟨3, _⟩, _, _ => rfl
    | ⟨4, _⟩, _, _ => rfl
    | ⟨5, _⟩, _, _ => rfl
    | ⟨6, _⟩, _, _ => rfl
    | ⟨7, _⟩, _, _ => rfl
    rw [hs]
  · rw [(arr_whole3 0).set_eq_univ, hG 0, hG 1,
      show (dat3 V c).share 0 = fullShare.left from rfl, show (dat3 V c).share 1 = fullShare.right from rfl]
    exact BI.Entails.antisymm (pointsTo_share (PosShare.mem_left_op_right fullShare)).1 (pointsTo_share (PosShare.mem_left_op_right fullShare)).2

/-- ENTRY: the core's unscoped buffers at `V` are the region's arrays at the entry contents and the rest. -/
theorem entryArr3 (c : Dev nD) :
    (unscopedBufs c (V c) : sProp 𝕄) ⊢ iprop((dat3 V c).arrays ((dat3 V c).arrAt · 0) ∗ Pipeline.unscopedRest (Ix := Unit) (Name := ℕ) (U := UR sig nD τ) (Lvl := ℕ) spec3 c (V c)) := by
  rw [Pipeline.unscopedBufs_split₀ cfgs (3 : Fin 8) winFacts₀3.arr_unscoped c (V c)]
  exact sep_mono (Entails.of_eq (arrBufs_eq_arrays3 V c (V c) _ fun w => rfl)) .rfl

/-- EXIT: the region's arrays at contents `G` and the rest at `V` are the unscoped buffers at any contents `V'` that has
    the arrays at `G` and agrees with `V` off them. -/
theorem exitArr3 (c : Dev nD) (V' : (b : Ref sig .tc) → Buf (Elt F) ((c : Thread nD τ).loc b))
    (G : (w : Fin cfg3.W) → Buf (Elt F) ((cfg3.win w).arr.view.loc (c : Thread nD τ))) (hG : ∀ w, G w = V' (Pipeline.arrRef spec3 w))
    (hrest : ∀ b, b ∉ Finset.univ.image (Pipeline.arrRef spec3) → V' b = V c b) :
    iprop((dat3 V c).arrays G ∗ Pipeline.unscopedRest (Ix := Unit) (Name := ℕ) (U := UR sig nD τ) (Lvl := ℕ) spec3 c (V c)) ⊢ (unscopedBufs c V' : sProp 𝕄) := by
  rw [Pipeline.unscopedBufs_split₀ cfgs (3 : Fin 8) winFacts₀3.arr_unscoped c V']
  refine sep_mono (Entails.of_eq (arrBufs_eq_arrays3 V c V' G hG).symm) (Entails.of_eq ?_)
  unfold Pipeline.unscopedRest
  exact bigSep_congr fun b hb => by rw [hrest b (Finset.mem_sdiff.mp hb).2]

end Cert.KernelIdeal.Gen

end
-- ==== Proof.IdealShared4.lean ====
/-
  Region 4 hands ONE array to its windows 0 and 1. The buffers behind the region's arrays, each held whole at the
  full share, are the region's arrays with that one buffer held twice, at the two halves of the full share; so the
  core's unscoped buffers split into the region's arrays and the rest at entry, and are put back together at exit.
-/
import proofs.«117133_j29008209117207_1_alg».proof.Proof.IdealRegion4
import proofs.«117133_j29008209117207_1_alg».proof.Proof.LibSharedPair

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Windows 0 and 1 read the same array, -/
theorem arrRef4_shared : Pipeline.arrRef spec4 0 = Pipeline.arrRef spec4 1 := by decide

/-- and no other two windows share one. -/
theorem arrRef4_injOn : Set.InjOn (Pipeline.arrRef spec4) ((Finset.univ.erase (0 : Fin 5) : Finset (Fin 5)) : Set (Fin 5)) := by
  have h : ∀ a b : Fin 5, a ≠ 0 → b ≠ 0 → Pipeline.arrRef spec4 a = Pipeline.arrRef spec4 b → a = b := by decide
  intro a ha b hb e
  exact h a b (Finset.mem_erase.mp (Finset.mem_coe.mp ha)).1 (Finset.mem_erase.mp (Finset.mem_coe.mp hb)).1 e

/-- The buffers behind the arrays at contents `V` ARE the region's arrays at any contents that agree with `V`. -/
theorem arrBufs_eq_arrays4 (c : Dev nD) (V' : (b : Ref sig .tc) → Buf (Elt F) ((c : Thread nD τ).loc b))
    (G : (w : Fin cfg4.W) → Buf (Elt F) ((cfg4.win w).arr.view.loc (c : Thread nD τ))) (hG : ∀ w, G w = V' (Pipeline.arrRef spec4 w)) :
    (Pipeline.arrBufs (Ix := Unit) (Name := ℕ) (U := UR sig nD τ) (Lvl := ℕ) spec4 c V' : sProp 𝕄) = (dat4 V c).arrays G := by
  unfold Pipeline.arrBufs Pipeline.Dat.arrays
  refine bigSep_image_shared_pair (Pipeline.arrRef spec4) 0 1 (by decide) arrRef4_shared arrRef4_injOn _ _ (fun w h0 h1 => ?_) ?_
  · rw [(arr_whole4 w).set_eq_univ, hG w]
    have hs : (dat4 V c).share w = fullShare := by
      match w, h0, h1 with
    | ⟨0, _⟩, h0, _ => exact absurd rfl h0
    | ⟨1, _⟩, _, h1 => exact absurd rfl h1
    | ⟨2, _⟩, _, _ => rfl
    | ⟨3, _⟩, _, _ => rfl
    | ⟨4, _⟩, _, _ => rfl
    rw [hs]
  · rw [(arr_whole4 0).set_eq_univ, hG 0, hG 1,
      show (dat4 V c).share 0 = fullShare.left from rfl, show (dat4 V c).share 1 = fullShare.right from rfl]
    exact BI.Entails.antisymm (pointsTo_share (PosShare.mem_left_op_right fullShare)).1 (pointsTo_share (PosShare.mem_left_op_right fullShare)).2

/-- ENTRY: the core's unscoped buffers at `V` are the region's arrays at the entry contents and the rest. -/
theorem entryArr4 (c : Dev nD) :
    (unscopedBufs c (V c) : sProp 𝕄) ⊢ iprop((dat4 V c).arrays ((dat4 V c).arrAt · 0) ∗ Pipeline.unscopedRest (Ix := Unit) (Name := ℕ) (U := UR sig nD τ) (Lvl := ℕ) spec4 c (V c)) := by
  rw [Pipeline.unscopedBufs_split₀ cfgs (4 : Fin 8) winFacts₀4.arr_unscoped c (V c)]
  exact sep_mono (Entails.of_eq (arrBufs_eq_arrays4 V c (V c) _ fun w => rfl)) .rfl

/-- EXIT: the region's arrays at contents `G` and the rest at `V` are the unscoped buffers at any contents `V'` that has
    the arrays at `G` and agrees with `V` off them. -/
theorem exitArr4 (c : Dev nD) (V' : (b : Ref sig .tc) → Buf (Elt F) ((c : Thread nD τ).loc b))
    (G : (w : Fin cfg4.W) → Buf (Elt F) ((cfg4.win w).arr.view.loc (c : Thread nD τ))) (hG : ∀ w, G w = V' (Pipeline.arrRef spec4 w))
    (hrest : ∀ b, b ∉ Finset.univ.image (Pipeline.arrRef spec4) → V' b = V c b) :
    iprop((dat4 V c).arrays G ∗ Pipeline.unscopedRest (Ix := Unit) (Name := ℕ) (U := UR sig nD τ) (Lvl := ℕ) spec4 c (V c)) ⊢ (unscopedBufs c V' : sProp 𝕄) := by
  rw [Pipeline.unscopedBufs_split₀ cfgs (4 : Fin 8) winFacts₀4.arr_unscoped c V']
  refine sep_mono (Entails.of_eq (arrBufs_eq_arrays4 V c V' G hG).symm) (Entails.of_eq ?_)
  unfold Pipeline.unscopedRest
  exact bigSep_congr fun b hb => by rw [hrest b (Finset.mem_sdiff.mp hb).2]

end Cert.KernelIdeal.Gen

end
-- ==== Proof.IdealRun.lean ====
/-
  The whole program as a chain of its fifteen items (eight kernel regions among seven stretches of host operations).
  The contents of every unscoped buffer of a core are followed from the launch memory through the items: a host
  stretch applies its operations; a region leaves each of its output arrays at what the write-backs of all grid
  points leave there, and every other buffer as it found it. Every region is entered from "all unscoped buffers at the
  current contents" and left at the next contents, so the items chain, and every weakly fair execution terminates
  with every unscoped buffer at the last contents.
-/
import proofs.«117133_j29008209117207_1_alg».proof.Proof.IdealRegion0
import proofs.«117133_j29008209117207_1_alg».proof.Proof.IdealRegion1
import proofs.«117133_j29008209117207_1_alg».proof.Proof.IdealRegion2
import proofs.«117133_j29008209117207_1_alg».proof.Proof.IdealRegion3
import proofs.«117133_j29008209117207_1_alg».proof.Proof.IdealRegion4
import proofs.«117133_j29008209117207_1_alg».proof.Proof.IdealRegion5
import proofs.«117133_j29008209117207_1_alg».proof.Proof.IdealRegion6
import proofs.«117133_j29008209117207_1_alg».proof.Proof.IdealRegion7
import proofs.«117133_j29008209117207_1_alg».proof.Proof.IdealShared2
import proofs.«117133_j29008209117207_1_alg».proof.Proof.IdealShared3
import proofs.«117133_j29008209117207_1_alg».proof.Proof.IdealShared4
import proofs.«117133_j29008209117207_1_alg».proof.Proof.Gen.KernelIdeal.Regions

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each item boundary -/

/-- Core `c`'s buffers at launch. -/
abbrev W0 : Dev nD → Valuation τ sig (Elt F) := fun c b => (s₀ m ρ).mem ((c : Dev nD), b)
abbrev Vr0 : (c : Dev nD) → (b : Ref sig .tc) → Buf (Elt F) ((c : Thread nD τ).loc b) := fun c b => W0 m ρ c b
/-- After region 0: its arrays at what its write-backs leave, every other buffer as entered. -/
def W1 (c : Dev nD) : Valuation τ sig (Elt F) :=
  Pipeline.withArrays spec0 c (W0 m ρ c) fun w => (dat0 (Vr0 m ρ) c).arrAt w cfg0.N
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
theorem W1_arr (c : Dev nD) (w : Fin cfg0.W) :
    W1 m ρ c (Proc.devRef .tc (Pipeline.arrRef spec0 w)) = (dat0 (Vr0 m ρ) c).arrAt w cfg0.N := by
  unfold W1; exact Pipeline.withArrays_arr spec0 launch0.win.arr_inj c _ _ w
abbrev Vr1 : (c : Dev nD) → (b : Ref sig .tc) → Buf (Elt F) ((c : Thread nD τ).loc b) := fun c b => W1 m ρ c b
theorem hF0 (c : Dev nD) (w : Fin cfg0.W) : (dat0 (Vr0 m ρ) c).arrAt w cfg0.N = Vr1 m ρ c (Pipeline.arrRef spec0 w) :=
  (W1_arr m ρ c w).symm
theorem hrest0 (c : Dev nD) : ∀ b, b ∉ Finset.univ.image (Pipeline.arrRef spec0) → Vr1 m ρ c b = Vr0 m ρ c b :=
  fun b hb => W1_of_ne m ρ c b fun w e => hb (Finset.mem_image.mpr ⟨w, Finset.mem_univ _, e⟩)

/-- After region 1: its arrays at what its write-backs leave, every other buffer as entered. -/
def W2 (c : Dev nD) : Valuation τ sig (Elt F) :=
  Pipeline.withArrays spec1 c (W1 m ρ c) fun w => (dat1 (Vr1 m ρ) c).arrAt w cfg1.N
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
theorem W2_arr (c : Dev nD) (w : Fin cfg1.W) :
    W2 m ρ c (Proc.devRef .tc (Pipeline.arrRef spec1 w)) = (dat1 (Vr1 m ρ) c).arrAt w cfg1.N := by
  unfold W2; exact Pipeline.withArrays_arr spec1 launch1.win.arr_inj c _ _ w
abbrev Vr2 : (c : Dev nD) → (b : Ref sig .tc) → Buf (Elt F) ((c : Thread nD τ).loc b) := fun c b => W2 m ρ c b
theorem hF1 (c : Dev nD) (w : Fin cfg1.W) : (dat1 (Vr1 m ρ) c).arrAt w cfg1.N = Vr2 m ρ c (Pipeline.arrRef spec1 w) :=
  (W2_arr m ρ c w).symm
theorem hrest1 (c : Dev nD) : ∀ b, b ∉ Finset.univ.image (Pipeline.arrRef spec1) → Vr2 m ρ c b = Vr1 m ρ c b :=
  fun b hb => W2_of_ne m ρ c b fun w e => hb (Finset.mem_image.mpr ⟨w, Finset.mem_univ _, e⟩)

/-- After the host stretch `hostOps2`. -/
abbrev W3 : Dev nD → Valuation τ sig (Elt F) := fun c => StableHlo.after hostOps2 (W2 m ρ c)
abbrev Vr3 : (c : Dev nD) → (b : Ref sig .tc) → Buf (Elt F) ((c : Thread nD τ).loc b) := fun c b => W3 m ρ c b

/-- After region 2 (windows 0 and 1 read one array): its output arrays at what its write-backs leave, every other
    buffer as entered. -/
def W4 (c : Dev nD) : Valuation τ sig (Elt F) :=
  Function.update (Function.update (Function.update (W3 m ρ c) main_v16_0 ((dat2 (Vr3 m ρ) c).arrAt 8 cfg2.N)) main_v16_1 ((dat2 (Vr3 m ρ) c).arrAt 9 cfg2.N)) main_v16_2 ((dat2 (Vr3 m ρ) c).arrAt 10 cfg2.N)
theorem W4_keep (c : Dev nD) (r : Ref sig .tc) (h : r ∉ ([main_v16_0, main_v16_1, main_v16_2] : List (Ref sig .tc))) : W4 m ρ c r = W3 m ρ c r := by
  simp only [W4, Function.update_of_ne (StableHlo.devRef_ne_of_ne (List.ne_of_not_mem_cons h) : (Proc.devRef .tc r : DevRef τ sig) ≠ Proc.devRef .tc main_v16_0), Function.update_of_ne (StableHlo.devRef_ne_of_ne (List.ne_of_not_mem_cons (List.not_mem_of_not_mem_cons h)) : (Proc.devRef .tc r : DevRef τ sig) ≠ Proc.devRef .tc main_v16_1), Function.update_of_ne (StableHlo.devRef_ne_of_ne (List.ne_of_not_mem_cons (List.not_mem_of_not_mem_cons (List.not_mem_of_not_mem_cons h))) : (Proc.devRef .tc r : DevRef τ sig) ≠ Proc.devRef .tc main_v16_2)]
theorem W4_out0 (c : Dev nD) : W4 m ρ c main_v16_0 = (dat2 (Vr3 m ρ) c).arrAt 8 cfg2.N := by
  simp only [W4, Function.update_of_ne (StableHlo.devRef_ne_of_ne (by decide : main_v16_0 ≠ main_v16_1) : (Proc.devRef .tc main_v16_0 : DevRef τ sig) ≠ Proc.devRef .tc main_v16_1), Function.update_of_ne (StableHlo.devRef_ne_of_ne (by decide : main_v16_0 ≠ main_v16_2) : (Proc.devRef .tc main_v16_0 : DevRef τ sig) ≠ Proc.devRef .tc main_v16_2), Function.update_self]
theorem W4_out1 (c : Dev nD) : W4 m ρ c main_v16_1 = (dat2 (Vr3 m ρ) c).arrAt 9 cfg2.N := by
  simp only [W4, Function.update_of_ne (StableHlo.devRef_ne_of_ne (by decide : main_v16_1 ≠ main_v16_2) : (Proc.devRef .tc main_v16_1 : DevRef τ sig) ≠ Proc.devRef .tc main_v16_2), Function.update_self]
theorem W4_out2 (c : Dev nD) : W4 m ρ c main_v16_2 = (dat2 (Vr3 m ρ) c).arrAt 10 cfg2.N := by
  simp only [W4, Function.update_self]
abbrev Vr4 : (c : Dev nD) → (b : Ref sig .tc) → Buf (Elt F) ((c : Thread nD τ).loc b) := fun c b => W4 m ρ c b
/-- An input window's array is none of the region's output arrays; a window that is no input is one of the outputs. -/
theorem inArr2 : ∀ w : Fin 11, (cfg2.win w).isOut = false → Pipeline.arrRef spec2 w ∉ ([main_v16_0, main_v16_1, main_v16_2] : List (Ref sig .tc)) := by decide
theorem outWin2 : ∀ w : Fin 11, ¬ (cfg2.win w).isOut = false → w = 8 ∨ w = 9 ∨ w = 10 := by decide
theorem hG2 (c : Dev nD) (w : Fin cfg2.W) : (dat2 (Vr3 m ρ) c).arrAt w cfg2.N = Vr4 m ρ c (Pipeline.arrRef spec2 w) := by
  by_cases hw : (cfg2.win w).isOut = false
  · rw [(dat2 (Vr3 m ρ) c).arrAt_in w hw, A_eq2]
    exact (W4_keep m ρ c _ (inArr2 w hw)).symm
  · rcases outWin2 w hw with rfl | rfl | rfl
    · exact (W4_out0 m ρ c).symm
    · exact (W4_out1 m ρ c).symm
    · exact (W4_out2 m ρ c).symm
theorem hrest2 (c : Dev nD) : ∀ b, b ∉ Finset.univ.image (Pipeline.arrRef spec2) → Vr4 m ρ c b = Vr3 m ρ c b :=
  fun b hb => W4_keep m ρ c b (by
    intro hmem
    simp only [List.mem_cons, List.not_mem_nil, or_false] at hmem
    rcases hmem with rfl | rfl | rfl
    · exact hb (Finset.mem_image.mpr ⟨8, Finset.mem_univ _, rfl⟩)
    · exact hb (Finset.mem_image.mpr ⟨9, Finset.mem_univ _, rfl⟩)
    · exact hb (Finset.mem_image.mpr ⟨10, Finset.mem_univ _, rfl⟩))

/-- After the host stretch `hostOps3`. -/
abbrev W5 : Dev nD → Valuation τ sig (Elt F) := fun c => StableHlo.after hostOps3 (W4 m ρ c)
abbrev Vr5 : (c : Dev nD) → (b : Ref sig .tc) → Buf (Elt F) ((c : Thread nD τ).loc b) := fun c b => W5 m ρ c b

/-- After region 3 (windows 0 and 1 read one array): its output arrays at what its write-backs leave, every other
    buffer as entered. -/
def W6 (c : Dev nD) : Valuation τ sig (Elt F) :=
  Function.update (Function.update (W5 m ρ c) main_v18_0 ((dat3 (Vr5 m ρ) c).arrAt 6 cfg3.N)) main_v18_1 ((dat3 (Vr5 m ρ) c).arrAt 7 cfg3.N)
theorem W6_keep (c : Dev nD) (r : Ref sig .tc) (h : r ∉ ([main_v18_0, main_v18_1] : List (Ref sig .tc))) : W6 m ρ c r = W5 m ρ c r := by
  simp only [W6, Function.update_of_ne (StableHlo.devRef_ne_of_ne (List.ne_of_not_mem_cons h) : (Proc.devRef .tc r : DevRef τ sig) ≠ Proc.devRef .tc main_v18_0), Function.update_of_ne (StableHlo.devRef_ne_of_ne (List.ne_of_not_mem_cons (List.not_mem_of_not_mem_cons h)) : (Proc.devRef .tc r : DevRef τ sig) ≠ Proc.devRef .tc main_v18_1)]
theorem W6_out0 (c : Dev nD) : W6 m ρ c main_v18_0 = (dat3 (Vr5 m ρ) c).arrAt 6 cfg3.N := by
  simp only [W6, Function.update_of_ne (StableHlo.devRef_ne_of_ne (by decide : main_v18_0 ≠ main_v18_1) : (Proc.devRef .tc main_v18_0 : DevRef τ sig) ≠ Proc.devRef .tc main_v18_1), Function.update_self]
theorem W6_out1 (c : Dev nD) : W6 m ρ c main_v18_1 = (dat3 (Vr5 m ρ) c).arrAt 7 cfg3.N := by
  simp only [W6, Function.update_self]
abbrev Vr6 : (c : Dev nD) → (b : Ref sig .tc) → Buf (Elt F) ((c : Thread nD τ).loc b) := fun c b => W6 m ρ c b
/-- An input window's array is none of the region's output arrays; a window that is no input is one of the outputs. -/
theorem inArr3 : ∀ w : Fin 8, (cfg3.win w).isOut = false → Pipeline.arrRef spec3 w ∉ ([main_v18_0, main_v18_1] : List (Ref sig .tc)) := by decide
theorem outWin3 : ∀ w : Fin 8, ¬ (cfg3.win w).isOut = false → w = 6 ∨ w = 7 := by decide
theorem hG3 (c : Dev nD) (w : Fin cfg3.W) : (dat3 (Vr5 m ρ) c).arrAt w cfg3.N = Vr6 m ρ c (Pipeline.arrRef spec3 w) := by
  by_cases hw : (cfg3.win w).isOut = false
  · rw [(dat3 (Vr5 m ρ) c).arrAt_in w hw, A_eq3]
    exact (W6_keep m ρ c _ (inArr3 w hw)).symm
  · rcases outWin3 w hw with rfl | rfl
    · exact (W6_out0 m ρ c).symm
    · exact (W6_out1 m ρ c).symm
theorem hrest3 (c : Dev nD) : ∀ b, b ∉ Finset.univ.image (Pipeline.arrRef spec3) → Vr6 m ρ c b = Vr5 m ρ c b :=
  fun b hb => W6_keep m ρ c b (by
    intro hmem
    simp only [List.mem_cons, List.not_mem_nil, or_false] at hmem
    rcases hmem with rfl | rfl
    · exact hb (Finset.mem_image.mpr ⟨6, Finset.mem_univ _, rfl⟩)
    · exact hb (Finset.mem_image.mpr ⟨7, Finset.mem_univ _, rfl⟩))

/-- After the host stretch `hostOps4`. -/
abbrev W7 : Dev nD → Valuation τ sig (Elt F) := fun c => StableHlo.after hostOps4 (W6 m ρ c)
abbrev Vr7 : (c : Dev nD) → (b : Ref sig .tc) → Buf (Elt F) ((c : Thread nD τ).loc b) := fun c b => W7 m ρ c b

/-- After region 4 (windows 0 and 1 read one array): its output arrays at what its write-backs leave, every other
    buffer as entered. -/
def W8 (c : Dev nD) : Valuation τ sig (Elt F) :=
  Function.update (W7 m ρ c) main_v20 ((dat4 (Vr7 m ρ) c).arrAt 4 cfg4.N)
theorem W8_keep (c : Dev nD) (r : Ref sig .tc) (h : r ∉ ([main_v20] : List (Ref sig .tc))) : W8 m ρ c r = W7 m ρ c r := by
  simp only [W8, Function.update_of_ne (StableHlo.devRef_ne_of_ne (List.ne_of_not_mem_cons h) : (Proc.devRef .tc r : DevRef τ sig) ≠ Proc.devRef .tc main_v20)]
theorem W8_out0 (c : Dev nD) : W8 m ρ c main_v20 = (dat4 (Vr7 m ρ) c).arrAt 4 cfg4.N := by
  simp only [W8, Function.update_self]
abbrev Vr8 : (c : Dev nD) → (b : Ref sig .tc) → Buf (Elt F) ((c : Thread nD τ).loc b) := fun c b => W8 m ρ c b
/-- An input window's array is none of the region's output arrays; a window that is no input is one of the outputs. -/
theorem inArr4 : ∀ w : Fin 5, (cfg4.win w).isOut = false → Pipeline.arrRef spec4 w ∉ ([main_v20] : List (Ref sig .tc)) := by decide
theorem outWin4 : ∀ w : Fin 5, ¬ (cfg4.win w).isOut = false → w = 4 := by decide
theorem hG4 (c : Dev nD) (w : Fin cfg4.W) : (dat4 (Vr7 m ρ) c).arrAt w cfg4.N = Vr8 m ρ c (Pipeline.arrRef spec4 w) := by
  by_cases hw : (cfg4.win w).isOut = false
  · rw [(dat4 (Vr7 m ρ) c).arrAt_in w hw, A_eq4]
    exact (W8_keep m ρ c _ (inArr4 w hw)).symm
  · rcases outWin4 w hw with rfl
    · exact (W8_out0 m ρ c).symm
theorem hrest4 (c : Dev nD) : ∀ b, b ∉ Finset.univ.image (Pipeline.arrRef spec4) → Vr8 m ρ c b = Vr7 m ρ c b :=
  fun b hb => W8_keep m ρ c b (by
    intro hmem
    simp only [List.mem_cons, List.not_mem_nil, or_false] at hmem
    rcases hmem with rfl
    · exact hb (Finset.mem_image.mpr ⟨4, Finset.mem_univ _, rfl⟩))

/-- After the host stretch `hostOps5`. -/
abbrev W9 : Dev nD → Valuation τ sig (Elt F) := fun c => StableHlo.after hostOps5 (W8 m ρ c)
abbrev Vr9 : (c : Dev nD) → (b : Ref sig .tc) → Buf (Elt F) ((c : Thread nD τ).loc b) := fun c b => W9 m ρ c b

/-- After region 5: its arrays at what its write-backs leave, every other buffer as entered. -/
def W10 (c : Dev nD) : Valuation τ sig (Elt F) :=
  Pipeline.withArrays spec5 c (W9 m ρ c) fun w => (dat5 (Vr9 m ρ) c).arrAt w cfg5.N
theorem W10_of_ne (c : Dev nD) (b : Ref sig .tc) (hb : ∀ w, Pipeline.arrRef spec5 w ≠ b) :
    W10 m ρ c (Proc.devRef .tc b) = W9 m ρ c (Proc.devRef .tc b) := by
  unfold W10; exact Pipeline.withArrays_of_ne spec5 c _ _ b hb
theorem W10_arr (c : Dev nD) (w : Fin cfg5.W) :
    W10 m ρ c (Proc.devRef .tc (Pipeline.arrRef spec5 w)) = (dat5 (Vr9 m ρ) c).arrAt w cfg5.N := by
  unfold W10; exact Pipeline.withArrays_arr spec5 launch5.win.arr_inj c _ _ w
abbrev Vr10 : (c : Dev nD) → (b : Ref sig .tc) → Buf (Elt F) ((c : Thread nD τ).loc b) := fun c b => W10 m ρ c b
theorem hF5 (c : Dev nD) (w : Fin cfg5.W) : (dat5 (Vr9 m ρ) c).arrAt w cfg5.N = Vr10 m ρ c (Pipeline.arrRef spec5 w) :=
  (W10_arr m ρ c w).symm
theorem hrest5 (c : Dev nD) : ∀ b, b ∉ Finset.univ.image (Pipeline.arrRef spec5) → Vr10 m ρ c b = Vr9 m ρ c b :=
  fun b hb => W10_of_ne m ρ c b fun w e => hb (Finset.mem_image.mpr ⟨w, Finset.mem_univ _, e⟩)

/-- After the host stretch `hostOps6`. -/
abbrev W11 : Dev nD → Valuation τ sig (Elt F) := fun c => StableHlo.after hostOps6 (W10 m ρ c)
abbrev Vr11 : (c : Dev nD) → (b : Ref sig .tc) → Buf (Elt F) ((c : Thread nD τ).loc b) := fun c b => W11 m ρ c b

/-- After region 6: its arrays at what its write-backs leave, every other buffer as entered. -/
def W12 (c : Dev nD) : Valuation τ sig (Elt F) :=
  Pipeline.withArrays spec6 c (W11 m ρ c) fun w => (dat6 (Vr11 m ρ) c).arrAt w cfg6.N
theorem W12_of_ne (c : Dev nD) (b : Ref sig .tc) (hb : ∀ w, Pipeline.arrRef spec6 w ≠ b) :
    W12 m ρ c (Proc.devRef .tc b) = W11 m ρ c (Proc.devRef .tc b) := by
  unfold W12; exact Pipeline.withArrays_of_ne spec6 c _ _ b hb
theorem W12_arr (c : Dev nD) (w : Fin cfg6.W) :
    W12 m ρ c (Proc.devRef .tc (Pipeline.arrRef spec6 w)) = (dat6 (Vr11 m ρ) c).arrAt w cfg6.N := by
  unfold W12; exact Pipeline.withArrays_arr spec6 launch6.win.arr_inj c _ _ w
abbrev Vr12 : (c : Dev nD) → (b : Ref sig .tc) → Buf (Elt F) ((c : Thread nD τ).loc b) := fun c b => W12 m ρ c b
theorem hF6 (c : Dev nD) (w : Fin cfg6.W) : (dat6 (Vr11 m ρ) c).arrAt w cfg6.N = Vr12 m ρ c (Pipeline.arrRef spec6 w) :=
  (W12_arr m ρ c w).symm
theorem hrest6 (c : Dev nD) : ∀ b, b ∉ Finset.univ.image (Pipeline.arrRef spec6) → Vr12 m ρ c b = Vr11 m ρ c b :=
  fun b hb => W12_of_ne m ρ c b fun w e => hb (Finset.mem_image.mpr ⟨w, Finset.mem_univ _, e⟩)

/-- After the host stretch `hostOps7`. -/
abbrev W13 : Dev nD → Valuation τ sig (Elt F) := fun c => StableHlo.after hostOps7 (W12 m ρ c)
abbrev Vr13 : (c : Dev nD) → (b : Ref sig .tc) → Buf (Elt F) ((c : Thread nD τ).loc b) := fun c b => W13 m ρ c b

/-- After region 7: its arrays at what its write-backs leave, every other buffer as entered. -/
def W14 (c : Dev nD) : Valuation τ sig (Elt F) :=
  Pipeline.withArrays spec7 c (W13 m ρ c) fun w => (dat7 (Vr13 m ρ) c).arrAt w cfg7.N
theorem W14_of_ne (c : Dev nD) (b : Ref sig .tc) (hb : ∀ w, Pipeline.arrRef spec7 w ≠ b) :
    W14 m ρ c (Proc.devRef .tc b) = W13 m ρ c (Proc.devRef .tc b) := by
  unfold W14; exact Pipeline.withArrays_of_ne spec7 c _ _ b hb
theorem W14_arr (c : Dev nD) (w : Fin cfg7.W) :
    W14 m ρ c (Proc.devRef .tc (Pipeline.arrRef spec7 w)) = (dat7 (Vr13 m ρ) c).arrAt w cfg7.N := by
  unfold W14; exact Pipeline.withArrays_arr spec7 launch7.win.arr_inj c _ _ w
abbrev Vr14 : (c : Dev nD) → (b : Ref sig .tc) → Buf (Elt F) ((c : Thread nD τ).loc b) := fun c b => W14 m ρ c b
theorem hF7 (c : Dev nD) (w : Fin cfg7.W) : (dat7 (Vr13 m ρ) c).arrAt w cfg7.N = Vr14 m ρ c (Pipeline.arrRef spec7 w) :=
  (W14_arr m ρ c w).symm
theorem hrest7 (c : Dev nD) : ∀ b, b ∉ Finset.univ.image (Pipeline.arrRef spec7) → Vr14 m ρ c b = Vr13 m ρ c b :=
  fun b hb => W14_of_ne m ρ c b fun w e => hb (Finset.mem_image.mpr ⟨w, Finset.mem_univ _, e⟩)

/-- After the host stretch `hostOps8`. -/
abbrev W15 : Dev nD → Valuation τ sig (Elt F) := fun c => StableHlo.after hostOps8 (W14 m ρ c)
abbrev Vr15 : (c : Dev nD) → (b : Ref sig .tc) → Buf (Elt F) ((c : Thread nD τ).loc b) := fun c b => W15 m ρ c b

/-! ## The proof data family and the thread state -/

/-- Every pipeline's proof data at its region's entry contents. -/
def pdats : (p : Fin 8) → (c : Dev nD) → Dat τ (Elt F) Unit ℕ (UR sig nD τ) ℕ (Pipeline.pin (pcfgs (F := F)) adm p) c
  | ⟨0, _⟩ => fun c => dat0 (Vr0 m ρ) c
  | ⟨1, _⟩ => fun c => dat1 (Vr1 m ρ) c
  | ⟨2, _⟩ => fun c => dat2 (Vr3 m ρ) c
  | ⟨3, _⟩ => fun c => dat3 (Vr5 m ρ) c
  | ⟨4, _⟩ => fun c => dat4 (Vr7 m ρ) c
  | ⟨5, _⟩ => fun c => dat5 (Vr9 m ρ) c
  | ⟨6, _⟩ => fun c => dat6 (Vr11 m ρ) c
  | ⟨7, _⟩ => fun c => dat7 (Vr13 m ρ) c
abbrev 𝒱₀ : Variants := Variants.none
abbrev Lz : GSem nD τ sig → Finset Unit := fun _ => ∅
abbrev lvz : GSem nD τ sig → Unit → ℕ := fun _ _ => 0
/-- What rides beside the buffers through every item: the generator register at some state and nothing owed. -/
abbrev Rr (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W15 m ρ c) ∗ ∃ r, prngReg c r)

/-! ## The regions as items of the chain -/

set_option backward.isDefEq.respectTransparency.types false in
/-- Region 0: entered from every unscoped buffer at `W0`, left at `W1`. -/
def reg0 : Pipeline.RegionSeg (pcfgs (F := F)) adm (pdats m ρ) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (Vr0 m ρ) c).loose
  hwaits := Pipeline.hwaits_of_owed_zero _ _ _ _ Lz lvz 0 fun _ _ => rfl
  pre c := iprop(StableHlo.held (c : Thread nD τ) (Pipeline.ucRefs τ sig) (W0 m ρ c) ∗ Rr c)
  post c := iprop(StableHlo.held (c : Thread nD τ) (Pipeline.ucRefs τ sig) (W1 m ρ c) ∗ Rr c)
  X c := iprop(∃ r, prngReg c r)
  Y c := iprop(∃ r, prngReg c r)
  Z c := Pipeline.unscopedRest (Ix := Unit) (Name := ℕ) (U := UR sig nD τ) (Lvl := ℕ) spec0 c (Vr0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vr0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vr0 m ρ c) (Vr1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W1`, left at `W2`. -/
def reg1 : Pipeline.RegionSeg (pcfgs (F := F)) adm (pdats m ρ) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (Vr1 m ρ) c).loose
  hwaits := Pipeline.hwaits_of_owed_zero _ _ _ _ Lz lvz 1 fun _ _ => rfl
  pre c := iprop(StableHlo.held (c : Thread nD τ) (Pipeline.ucRefs τ sig) (W1 m ρ c) ∗ Rr c)
  post c := iprop(StableHlo.held (c : Thread nD τ) (Pipeline.ucRefs τ sig) (W2 m ρ c) ∗ Rr c)
  X c := iprop(∃ r, prngReg c r)
  Y c := iprop(∃ r, prngReg c r)
  Z c := Pipeline.unscopedRest (Ix := Unit) (Name := ℕ) (U := UR sig nD τ) (Lvl := ℕ) spec1 c (Vr1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vr1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vr1 m ρ c) (Vr2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W3`, left at `W4`. -/
def reg2 : Pipeline.RegionSeg (pcfgs (F := F)) adm (pdats m ρ) () defs₀ 𝒱₀ Lz lvz 2 where
  win := winFacts₀2
  block_pos := block_pos2
  stage_whole := stage_whole2
  K := PEmpty
  osem k := k.elim
  ho := Pipeline.OwnSemFacts.none _
  hbody c := (body_obligation2 (Vr3 m ρ) c).loose
  hwaits := Pipeline.hwaits_of_owed_zero _ _ _ _ Lz lvz 2 fun _ _ => rfl
  pre c := iprop(StableHlo.held (c : Thread nD τ) (Pipeline.ucRefs τ sig) (W3 m ρ c) ∗ Rr c)
  post c := iprop(StableHlo.held (c : Thread nD τ) (Pipeline.ucRefs τ sig) (W4 m ρ c) ∗ Rr c)
  X c := iprop(∃ r, prngReg c r)
  Y c := iprop(∃ r, prngReg c r)
  Z c := Pipeline.unscopedRest (Ix := Unit) (Name := ℕ) (U := UR sig nD τ) (Lvl := ℕ) spec2 c (Vr3 m ρ c)
  hentry c := by
    rw [Pipeline.ownSems0_none]
    have hsplit : (unscopedBufs c (Vr3 m ρ c) : sProp 𝕄) ⊢ iprop((pdats m ρ 2 c).arrays ((pdats m ρ 2 c).arrAt · 0)
        ∗ Pipeline.unscopedRest (Ix := Unit) (Name := ℕ) (U := UR sig nD τ) (Lvl := ℕ) spec2 c (Vr3 m ρ c)) := entryArr2 (Vr3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m ρ 2 c).arrays ((pdats m ρ 2 c).arrAt · cfg2.N)
        ∗ Pipeline.unscopedRest (Ix := Unit) (Name := ℕ) (U := UR sig nD τ) (Lvl := ℕ) spec2 c (Vr3 m ρ c)) ⊢ (unscopedBufs c (Vr4 m ρ c) : sProp 𝕄) :=
      exitArr2 (Vr3 m ρ) c (Vr4 m ρ c) ((dat2 (Vr3 m ρ) c).arrAt · cfg2.N) (hG2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `W5`, left at `W6`. -/
def reg3 : Pipeline.RegionSeg (pcfgs (F := F)) adm (pdats m ρ) () defs₀ 𝒱₀ Lz lvz 3 where
  win := winFacts₀3
  block_pos := block_pos3
  stage_whole := stage_whole3
  K := PEmpty
  osem k := k.elim
  ho := Pipeline.OwnSemFacts.none _
  hbody c := (body_obligation3 (Vr5 m ρ) c).loose
  hwaits := Pipeline.hwaits_of_owed_zero _ _ _ _ Lz lvz 3 fun _ _ => rfl
  pre c := iprop(StableHlo.held (c : Thread nD τ) (Pipeline.ucRefs τ sig) (W5 m ρ c) ∗ Rr c)
  post c := iprop(StableHlo.held (c : Thread nD τ) (Pipeline.ucRefs τ sig) (W6 m ρ c) ∗ Rr c)
  X c := iprop(∃ r, prngReg c r)
  Y c := iprop(∃ r, prngReg c r)
  Z c := Pipeline.unscopedRest (Ix := Unit) (Name := ℕ) (U := UR sig nD τ) (Lvl := ℕ) spec3 c (Vr5 m ρ c)
  hentry c := by
    rw [Pipeline.ownSems0_none]
    have hsplit : (unscopedBufs c (Vr5 m ρ c) : sProp 𝕄) ⊢ iprop((pdats m ρ 3 c).arrays ((pdats m ρ 3 c).arrAt · 0)
        ∗ Pipeline.unscopedRest (Ix := Unit) (Name := ℕ) (U := UR sig nD τ) (Lvl := ℕ) spec3 c (Vr5 m ρ c)) := entryArr3 (Vr5 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : iprop((pdats m ρ 3 c).arrays ((pdats m ρ 3 c).arrAt · cfg3.N)
        ∗ Pipeline.unscopedRest (Ix := Unit) (Name := ℕ) (U := UR sig nD τ) (Lvl := ℕ) spec3 c (Vr5 m ρ c)) ⊢ (unscopedBufs c (Vr6 m ρ c) : sProp 𝕄) :=
      exitArr3 (Vr5 m ρ) c (Vr6 m ρ c) ((dat3 (Vr5 m ρ) c).arrAt · cfg3.N) (hG3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at `W7`, left at `W8`. -/
def reg4 : Pipeline.RegionSeg (pcfgs (F := F)) adm (pdats m ρ) () defs₀ 𝒱₀ Lz lvz 4 where
  win := winFacts₀4
  block_pos := block_pos4
  stage_whole := stage_whole4
  K := PEmpty
  osem k := k.elim
  ho := Pipeline.OwnSemFacts.none _
  hbody c := (body_obligation4 (Vr7 m ρ) c).loose
  hwaits := Pipeline.hwaits_of_owed_zero _ _ _ _ Lz lvz 4 fun _ _ => rfl
  pre c := iprop(StableHlo.held (c : Thread nD τ) (Pipeline.ucRefs τ sig) (W7 m ρ c) ∗ Rr c)
  post c := iprop(StableHlo.held (c : Thread nD τ) (Pipeline.ucRefs τ sig) (W8 m ρ c) ∗ Rr c)
  X c := iprop(∃ r, prngReg c r)
  Y c := iprop(∃ r, prngReg c r)
  Z c := Pipeline.unscopedRest (Ix := Unit) (Name := ℕ) (U := UR sig nD τ) (Lvl := ℕ) spec4 c (Vr7 m ρ c)
  hentry c := by
    rw [Pipeline.ownSems0_none]
    have hsplit : (unscopedBufs c (Vr7 m ρ c) : sProp 𝕄) ⊢ iprop((pdats m ρ 4 c).arrays ((pdats m ρ 4 c).arrAt · 0)
        ∗ Pipeline.unscopedRest (Ix := Unit) (Name := ℕ) (U := UR sig nD τ) (Lvl := ℕ) spec4 c (Vr7 m ρ c)) := entryArr4 (Vr7 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin : iprop((pdats m ρ 4 c).arrays ((pdats m ρ 4 c).arrAt · cfg4.N)
        ∗ Pipeline.unscopedRest (Ix := Unit) (Name := ℕ) (U := UR sig nD τ) (Lvl := ℕ) spec4 c (Vr7 m ρ c)) ⊢ (unscopedBufs c (Vr8 m ρ c) : sProp 𝕄) :=
      exitArr4 (Vr7 m ρ) c (Vr8 m ρ c) ((dat4 (Vr7 m ρ) c).arrAt · cfg4.N) (hG4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at `W9`, left at `W10`. -/
def reg5 : Pipeline.RegionSeg (pcfgs (F := F)) adm (pdats m ρ) () defs₀ 𝒱₀ Lz lvz 5 where
  win := launch5.win.to₀
  block_pos := launch5.block_pos
  stage_whole := launch5.stage_whole
  K := PEmpty
  osem k := k.elim
  ho := Pipeline.OwnSemFacts.none _
  hbody c := (body_obligation5 (Vr9 m ρ) c).loose
  hwaits := Pipeline.hwaits_of_owed_zero _ _ _ _ Lz lvz 5 fun _ _ => rfl
  pre c := iprop(StableHlo.held (c : Thread nD τ) (Pipeline.ucRefs τ sig) (W9 m ρ c) ∗ Rr c)
  post c := iprop(StableHlo.held (c : Thread nD τ) (Pipeline.ucRefs τ sig) (W10 m ρ c) ∗ Rr c)
  X c := iprop(∃ r, prngReg c r)
  Y c := iprop(∃ r, prngReg c r)
  Z c := Pipeline.unscopedRest (Ix := Unit) (Name := ℕ) (U := UR sig nD τ) (Lvl := ℕ) spec5 c (Vr9 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (Vr9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (Vr9 m ρ c) (Vr10 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered from every unscoped buffer at `W11`, left at `W12`. -/
def reg6 : Pipeline.RegionSeg (pcfgs (F := F)) adm (pdats m ρ) () defs₀ 𝒱₀ Lz lvz 6 where
  win := launch6.win.to₀
  block_pos := launch6.block_pos
  stage_whole := launch6.stage_whole
  K := PEmpty
  osem k := k.elim
  ho := Pipeline.OwnSemFacts.none _
  hbody c := (body_obligation6 (Vr11 m ρ) c).loose
  hwaits := Pipeline.hwaits_of_owed_zero _ _ _ _ Lz lvz 6 fun _ _ => rfl
  pre c := iprop(StableHlo.held (c : Thread nD τ) (Pipeline.ucRefs τ sig) (W11 m ρ c) ∗ Rr c)
  post c := iprop(StableHlo.held (c : Thread nD τ) (Pipeline.ucRefs τ sig) (W12 m ρ c) ∗ Rr c)
  X c := iprop(∃ r, prngReg c r)
  Y c := iprop(∃ r, prngReg c r)
  Z c := Pipeline.unscopedRest (Ix := Unit) (Name := ℕ) (U := UR sig nD τ) (Lvl := ℕ) spec6 c (Vr11 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (Vr11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (Vr11 m ρ c) (Vr12 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7: entered from every unscoped buffer at `W13`, left at `W14`. -/
def reg7 : Pipeline.RegionSeg (pcfgs (F := F)) adm (pdats m ρ) () defs₀ 𝒱₀ Lz lvz 7 where
  win := launch7.win.to₀
  block_pos := launch7.block_pos
  stage_whole := launch7.stage_whole
  K := PEmpty
  osem k := k.elim
  ho := Pipeline.OwnSemFacts.none _
  hbody c := (body_obligation7 (Vr13 m ρ) c).loose
  hwaits := Pipeline.hwaits_of_owed_zero _ _ _ _ Lz lvz 7 fun _ _ => rfl
  pre c := iprop(StableHlo.held (c : Thread nD τ) (Pipeline.ucRefs τ sig) (W13 m ρ c) ∗ Rr c)
  post c := iprop(StableHlo.held (c : Thread nD τ) (Pipeline.ucRefs τ sig) (W14 m ρ c) ∗ Rr c)
  X c := iprop(∃ r, prngReg c r)
  Y c := iprop(∃ r, prngReg c r)
  Z c := Pipeline.unscopedRest (Ix := Unit) (Name := ℕ) (U := UR sig nD τ) (Lvl := ℕ) spec7 c (Vr13 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (Vr13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (Vr13 m ρ c) (Vr14 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The chain and the run -/

abbrev items : List (Pipeline.Seg (pcfgs (F := F)) adm (pdats m ρ) () defs₀ 𝒱₀ Lz lvz) :=
  [ .region (reg0 m ρ),
    .region (reg1 m ρ),
    .host (hseg hostOps2 hostOps2_sub hostOps2_fresh (W2 m ρ)),
    .region (reg2 m ρ),
    .host (hseg hostOps3 hostOps3_sub hostOps3_fresh (W4 m ρ)),
    .region (reg3 m ρ),
    .host (hseg hostOps4 hostOps4_sub hostOps4_fresh (W6 m ρ)),
    .region (reg4 m ρ),
    .host (hseg hostOps5 hostOps5_sub hostOps5_fresh (W8 m ρ)),
    .region (reg5 m ρ),
    .host (hseg hostOps6 hostOps6_sub hostOps6_fresh (W10 m ρ)),
    .region (reg6 m ρ),
    .host (hseg hostOps7 hostOps7_sub hostOps7_fresh (W12 m ρ)),
    .region (reg7 m ρ),
    .host (hseg hostOps8 hostOps8_sub hostOps8_fresh (W14 m ρ)) ]

theorem main_run (c : Dev nD) : main (F := F) c = Pipeline.Seg.run (items m ρ) := (main_chain c).trans (by chain_rfl)

set_option backward.isDefEq.respectTransparency.types false in
/-- Every weakly fair execution from memory `m` with zero counters terminates, nothing faulting, with every unscoped
    buffer of every core at the last contents `W15`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ Lz lvz m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rr c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W15 m ρ c) ∗ Rr c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach Lz lvz fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c => h c)

end Cert.KernelIdeal.Gen

end
-- ==== Proof.IdealArgs.lean ====
/-
  No item of the program writes an argument: a host stretch writes only its own results, a region writes only its
  output arrays and hands every input array back as it found it. So each argument's buffer, followed back through the
  fifteen items, holds its launch contents at the end — the frame claim, at any float instance.
-/
import proofs.«117133_j29008209117207_1_alg».proof.Proof.IdealRun

set_option maxRecDepth 16384

noncomputable section

namespace Cert.KernelIdeal.Gen

open Idealize.ShloMosaic Idealize.ShloMosaic.TcCoe Idealize.ShloMosaic.Tactic
open Idealize.SL Idealize.SL.Sem
open Idealize.ShloMosaic.Pipeline (Dat)

variable {F : FTy → Type} [FloatOps F]
variable (m : (ℓ : Loc nD τ sig) → Buf (Elt F) ℓ) (ρ : Dev nD → PrngReg)

theorem W15_main_arg0 (c : Dev nD) : W15 m ρ c (Proc.devRef .tc main_arg0) = W0 m ρ c (Proc.devRef .tc main_arg0) :=
  calc W15 m ρ c (Proc.devRef .tc main_arg0)
    _ = W14 m ρ c (Proc.devRef .tc main_arg0) := StableHlo.after_of_writes_sub hostOps8 _ hostOps8_writes (by decide : main_arg0 ∉ hostOps8_W)
    _ = W13 m ρ c (Proc.devRef .tc main_arg0) := W14_of_ne m ρ c main_arg0 (by decide)
    _ = W12 m ρ c (Proc.devRef .tc main_arg0) := StableHlo.after_of_writes_sub hostOps7 _ hostOps7_writes (by decide : main_arg0 ∉ hostOps7_W)
    _ = W11 m ρ c (Proc.devRef .tc main_arg0) := W12_of_ne m ρ c main_arg0 (by decide)
    _ = W10 m ρ c (Proc.devRef .tc main_arg0) := StableHlo.after_of_writes_sub hostOps6 _ hostOps6_writes (by decide : main_arg0 ∉ hostOps6_W)
    _ = W9 m ρ c (Proc.devRef .tc main_arg0) := W10_of_ne m ρ c main_arg0 (by decide)
    _ = W8 m ρ c (Proc.devRef .tc main_arg0) := StableHlo.after_of_writes_sub hostOps5 _ hostOps5_writes (by decide : main_arg0 ∉ hostOps5_W)
    _ = W7 m ρ c (Proc.devRef .tc main_arg0) := W8_keep m ρ c main_arg0 (by decide)
    _ = W6 m ρ c (Proc.devRef .tc main_arg0) := StableHlo.after_of_writes_sub hostOps4 _ hostOps4_writes (by decide : main_arg0 ∉ hostOps4_W)
    _ = W5 m ρ c (Proc.devRef .tc main_arg0) := W6_keep m ρ c main_arg0 (by decide)
    _ = W4 m ρ c (Proc.devRef .tc main_arg0) := StableHlo.after_of_writes_sub hostOps3 _ hostOps3_writes (by decide : main_arg0 ∉ hostOps3_W)
    _ = W3 m ρ c (Proc.devRef .tc main_arg0) := W4_keep m ρ c main_arg0 (by decide)
    _ = W2 m ρ c (Proc.devRef .tc main_arg0) := StableHlo.after_of_writes_sub hostOps2 _ hostOps2_writes (by decide : main_arg0 ∉ hostOps2_W)
    _ = W1 m ρ c (Proc.devRef .tc main_arg0) := W2_of_ne m ρ c main_arg0 (by decide)
    _ = W0 m ρ c (Proc.devRef .tc main_arg0) := (W1_arr m ρ c 0).trans (((dat0 (Vr0 m ρ) c).arrAt_in 0 rfl _).trans (A_eq0 (Vr0 m ρ) c 0))

theorem W15_main_arg1 (c : Dev nD) : W15 m ρ c (Proc.devRef .tc main_arg1) = W0 m ρ c (Proc.devRef .tc main_arg1) :=
  calc W15 m ρ c (Proc.devRef .tc main_arg1)
    _ = W14 m ρ c (Proc.devRef .tc main_arg1) := StableHlo.after_of_writes_sub hostOps8 _ hostOps8_writes (by decide : main_arg1 ∉ hostOps8_W)
    _ = W13 m ρ c (Proc.devRef .tc main_arg1) := W14_of_ne m ρ c main_arg1 (by decide)
    _ = W12 m ρ c (Proc.devRef .tc main_arg1) := StableHlo.after_of_writes_sub hostOps7 _ hostOps7_writes (by decide : main_arg1 ∉ hostOps7_W)
    _ = W11 m ρ c (Proc.devRef .tc main_arg1) := W12_of_ne m ρ c main_arg1 (by decide)
    _ = W10 m ρ c (Proc.devRef .tc main_arg1) := StableHlo.after_of_writes_sub hostOps6 _ hostOps6_writes (by decide : main_arg1 ∉ hostOps6_W)
    _ = W9 m ρ c (Proc.devRef .tc main_arg1) := W10_of_ne m ρ c main_arg1 (by decide)
    _ = W8 m ρ c (Proc.devRef .tc main_arg1) := StableHlo.after_of_writes_sub hostOps5 _ hostOps5_writes (by decide : main_arg1 ∉ hostOps5_W)
    _ = W7 m ρ c (Proc.devRef .tc main_arg1) := W8_keep m ρ c main_arg1 (by decide)
    _ = W6 m ρ c (Proc.devRef .tc main_arg1) := StableHlo.after_of_writes_sub hostOps4 _ hostOps4_writes (by decide : main_arg1 ∉ hostOps4_W)
    _ = W5 m ρ c (Proc.devRef .tc main_arg1) := W6_keep m ρ c main_arg1 (by decide)
    _ = W4 m ρ c (Proc.devRef .tc main_arg1) := StableHlo.after_of_writes_sub hostOps3 _ hostOps3_writes (by decide : main_arg1 ∉ hostOps3_W)
    _ = W3 m ρ c (Proc.devRef .tc main_arg1) := W4_keep m ρ c main_arg1 (by decide)
    _ = W2 m ρ c (Proc.devRef .tc main_arg1) := StableHlo.after_of_writes_sub hostOps2 _ hostOps2_writes (by decide : main_arg1 ∉ hostOps2_W)
    _ = W1 m ρ c (Proc.devRef .tc main_arg1) := (W2_arr m ρ c 0).trans (((dat1 (Vr1 m ρ) c).arrAt_in 0 rfl _).trans (A_eq1 (Vr1 m ρ) c 0))
    _ = W0 m ρ c (Proc.devRef .tc main_arg1) := W1_of_ne m ρ c main_arg1 (by decide)

theorem W15_main_arg2 (c : Dev nD) : W15 m ρ c (Proc.devRef .tc main_arg2) = W0 m ρ c (Proc.devRef .tc main_arg2) :=
  calc W15 m ρ c (Proc.devRef .tc main_arg2)
    _ = W14 m ρ c (Proc.devRef .tc main_arg2) := StableHlo.after_of_writes_sub hostOps8 _ hostOps8_writes (by decide : main_arg2 ∉ hostOps8_W)
    _ = W13 m ρ c (Proc.devRef .tc main_arg2) := W14_of_ne m ρ c main_arg2 (by decide)
    _ = W12 m ρ c (Proc.devRef .tc main_arg2) := StableHlo.after_of_writes_sub hostOps7 _ hostOps7_writes (by decide : main_arg2 ∉ hostOps7_W)
    _ = W11 m ρ c (Proc.devRef .tc main_arg2) := W12_of_ne m ρ c main_arg2 (by decide)
    _ = W10 m ρ c (Proc.devRef .tc main_arg2) := StableHlo.after_of_writes_sub hostOps6 _ hostOps6_writes (by decide : main_arg2 ∉ hostOps6_W)
    _ = W9 m ρ c (Proc.devRef .tc main_arg2) := W10_of_ne m ρ c main_arg2 (by decide)
    _ = W8 m ρ c (Proc.devRef .tc main_arg2) := StableHlo.after_of_writes_sub hostOps5 _ hostOps5_writes (by decide : main_arg2 ∉ hostOps5_W)
    _ = W7 m ρ c (Proc.devRef .tc main_arg2) := W8_keep m ρ c main_arg2 (by decide)
    _ = W6 m ρ c (Proc.devRef .tc main_arg2) := StableHlo.after_of_writes_sub hostOps4 _ hostOps4_writes (by decide : main_arg2 ∉ hostOps4_W)
    _ = W5 m ρ c (Proc.devRef .tc main_arg2) := W6_keep m ρ c main_arg2 (by decide)
    _ = W4 m ρ c (Proc.devRef .tc main_arg2) := StableHlo.after_of_writes_sub hostOps3 _ hostOps3_writes (by decide : main_arg2 ∉ hostOps3_W)
    _ = W3 m ρ c (Proc.devRef .tc main_arg2) := W4_keep m ρ c main_arg2 (by decide)
    _ = W2 m ρ c (Proc.devRef .tc main_arg2) := StableHlo.after_of_writes_sub hostOps2 _ hostOps2_writes (by decide : main_arg2 ∉ hostOps2_W)
    _ = W1 m ρ c (Proc.devRef .tc main_arg2) := (W2_arr m ρ c 1).trans (((dat1 (Vr1 m ρ) c).arrAt_in 1 rfl _).trans (A_eq1 (Vr1 m ρ) c 1))
    _ = W0 m ρ c (Proc.devRef .tc main_arg2) := (W1_arr m ρ c 1).trans (((dat0 (Vr0 m ρ) c).arrAt_in 1 rfl _).trans (A_eq0 (Vr0 m ρ) c 1))

theorem W15_main_arg3 (c : Dev nD) : W15 m ρ c (Proc.devRef .tc main_arg3) = W0 m ρ c (Proc.devRef .tc main_arg3) :=
  calc W15 m ρ c (Proc.devRef .tc main_arg3)
    _ = W14 m ρ c (Proc.devRef .tc main_arg3) := StableHlo.after_of_writes_sub hostOps8 _ hostOps8_writes (by decide : main_arg3 ∉ hostOps8_W)
    _ = W13 m ρ c (Proc.devRef .tc main_arg3) := W14_of_ne m ρ c main_arg3 (by decide)
    _ = W12 m ρ c (Proc.devRef .tc main_arg3) := StableHlo.after_of_writes_sub hostOps7 _ hostOps7_writes (by decide : main_arg3 ∉ hostOps7_W)
    _ = W11 m ρ c (Proc.devRef .tc main_arg3) := W12_of_ne m ρ c main_arg3 (by decide)
    _ = W10 m ρ c (Proc.devRef .tc main_arg3) := StableHlo.after_of_writes_sub hostOps6 _ hostOps6_writes (by decide : main_arg3 ∉ hostOps6_W)
    _ = W9 m ρ c (Proc.devRef .tc main_arg3) := W10_of_ne m ρ c main_arg3 (by decide)
    _ = W8 m ρ c (Proc.devRef .tc main_arg3) := StableHlo.after_of_writes_sub hostOps5 _ hostOps5_writes (by decide : main_arg3 ∉ hostOps5_W)
    _ = W7 m ρ c (Proc.devRef .tc main_arg3) := W8_keep m ρ c main_arg3 (by decide)
    _ = W6 m ρ c (Proc.devRef .tc main_arg3) := StableHlo.after_of_writes_sub hostOps4 _ hostOps4_writes (by decide : main_arg3 ∉ hostOps4_W)
    _ = W5 m ρ c (Proc.devRef .tc main_arg3) := W6_keep m ρ c main_arg3 (by decide)
    _ = W4 m ρ c (Proc.devRef .tc main_arg3) := StableHlo.after_of_writes_sub hostOps3 _ hostOps3_writes (by decide : main_arg3 ∉ hostOps3_W)
    _ = W3 m ρ c (Proc.devRef .tc main_arg3) := W4_keep m ρ c main_arg3 (by decide)
    _ = W2 m ρ c (Proc.devRef .tc main_arg3) := StableHlo.after_of_writes_sub hostOps2 _ hostOps2_writes (by decide : main_arg3 ∉ hostOps2_W)
    _ = W1 m ρ c (Proc.devRef .tc main_arg3) := (W2_arr m ρ c 2).trans (((dat1 (Vr1 m ρ) c).arrAt_in 2 rfl _).trans (A_eq1 (Vr1 m ρ) c 2))
    _ = W0 m ρ c (Proc.devRef .tc main_arg3) := (W1_arr m ρ c 2).trans (((dat0 (Vr0 m ρ) c).arrAt_in 2 rfl _).trans (A_eq0 (Vr0 m ρ) c 2))

theorem W15_main_arg4 (c : Dev nD) : W15 m ρ c (Proc.devRef .tc main_arg4) = W0 m ρ c (Proc.devRef .tc main_arg4) :=
  calc W15 m ρ c (Proc.devRef .tc main_arg4)
    _ = W14 m ρ c (Proc.devRef .tc main_arg4) := StableHlo.after_of_writes_sub hostOps8 _ hostOps8_writes (by decide : main_arg4 ∉ hostOps8_W)
    _ = W13 m ρ c (Proc.devRef .tc main_arg4) := W14_of_ne m ρ c main_arg4 (by decide)
    _ = W12 m ρ c (Proc.devRef .tc main_arg4) := StableHlo.after_of_writes_sub hostOps7 _ hostOps7_writes (by decide : main_arg4 ∉ hostOps7_W)
    _ = W11 m ρ c (Proc.devRef .tc main_arg4) := W12_of_ne m ρ c main_arg4 (by decide)
    _ = W10 m ρ c (Proc.devRef .tc main_arg4) := StableHlo.after_of_writes_sub hostOps6 _ hostOps6_writes (by decide : main_arg4 ∉ hostOps6_W)
    _ = W9 m ρ c (Proc.devRef .tc main_arg4) := W10_of_ne m ρ c main_arg4 (by decide)
    _ = W8 m ρ c (Proc.devRef .tc main_arg4) := StableHlo.after_of_writes_sub hostOps5 _ hostOps5_writes (by decide : main_arg4 ∉ hostOps5_W)
    _ = W7 m ρ c (Proc.devRef .tc main_arg4) := W8_keep m ρ c main_arg4 (by decide)
    _ = W6 m ρ c (Proc.devRef .tc main_arg4) := StableHlo.after_of_writes_sub hostOps4 _ hostOps4_writes (by decide : main_arg4 ∉ hostOps4_W)
    _ = W5 m ρ c (Proc.devRef .tc main_arg4) := W6_keep m ρ c main_arg4 (by decide)
    _ = W4 m ρ c (Proc.devRef .tc main_arg4) := StableHlo.after_of_writes_sub hostOps3 _ hostOps3_writes (by decide : main_arg4 ∉ hostOps3_W)
    _ = W3 m ρ c (Proc.devRef .tc main_arg4) := W4_keep m ρ c main_arg4 (by decide)
    _ = W2 m ρ c (Proc.devRef .tc main_arg4) := StableHlo.after_of_writes_sub hostOps2 _ hostOps2_writes (by decide : main_arg4 ∉ hostOps2_W)
    _ = W1 m ρ c (Proc.devRef .tc main_arg4) := W2_of_ne m ρ c main_arg4 (by decide)
    _ = W0 m ρ c (Proc.devRef .tc main_arg4) := W1_of_ne m ρ c main_arg4 (by decide)

/-- THE FRAME: every weakly fair execution terminates, nothing faulting, with every argument array as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c _ (mem_uc main_arg0 (by decide))).trans (W15_main_arg0 m ρ c),
      (h c _ (mem_uc main_arg1 (by decide))).trans (W15_main_arg1 m ρ c),
      (h c _ (mem_uc main_arg2 (by decide))).trans (W15_main_arg2 m ρ c),
      (h c _ (mem_uc main_arg3 (by decide))).trans (W15_main_arg3 m ρ c),
      (h c _ (mem_uc main_arg4 (by decide))).trans (W15_main_arg4 m ρ c)⟩) (run_all m ρ)

end Cert.KernelIdeal.Gen

end
-- ==== Proof.RefFrame.lean ====
/-
  The reference is a straight-line host program: its run, read back, ends with every result at the composition of
  its operations applied to the arguments, and never writes an argument. Dropping the results leaves the frame claim.
-/
import proofs.«117133_j29008209117207_1_alg».proof.Defs
import proofs.«117133_j29008209117207_1_alg».proof.Proof.Gen.ReferenceIdeal
import proofs.«117133_j29008209117207_1_alg».proof.Proof.Gen.Pre_finite_inputs
import proofs.«117133_j29008209117207_1_alg».proof.Proof.Gen.ReferenceIdeal.Run

noncomputable section

namespace Cert.ReferenceIdeal.RefValue

open Idealize.ShloMosaic Idealize.ShloMosaic.TcCoe Idealize.SL.Sem

/-- The reference runs to the end, faults nowhere, and leaves its arguments as launched. -/
theorem frame_ri : Cert.frame_ReferenceIdeal := fun m ρ _ =>
  (θ_run Cert.ReferenceIdeal.defs _ _).mono (fun _ h c => (h c).2.2) (Cert.ReferenceIdeal.Value.run (F := Ideal) m ρ)

end Cert.ReferenceIdeal.RefValue

end
-- ==== Proof.LibDot.lean ====
/-
  A product of two matrices at one entry is a sum over the one contracted axis.  Two such sums — over different
  dimension records, of different operands — are equal as soon as their factors agree position by position
  along that axis.  This is what identifies a row block's product with the matching rows of the whole product:
  the block's row r of the left operand IS row (block offset + r) of the whole left operand, the right operand
  is the same matrix, and the contracted positions correspond one to one.
-/
import Idealize.ShloMosaic.Lib.ValueIdx
import Idealize.ShloMosaic.PureOps.Ideal.Laws

noncomputable section

namespace Cert.LibDot

open Idealize.ShloMosaic Idealize.ShloMosaic.ValueIdx

/-- The sum over a one-axis contraction index, re-indexed by the axis's positions `0 … n-1`. -/
theorem sum_contr {sl sr so : Shape} (d : DotDims sl sr so) (n : Nat) (hr : d.contr.rank = 1)
    (hs : d.contr.size ⟨0, by omega⟩ = n) (f : d.contr.Idx → EReal) :
    ∑ k : d.contr.Idx, f k = ∑ k : Fin n, f ((contrEquiv1 d n hr hs).symm k) :=
  (Equiv.sum_comp (contrEquiv1 d n hr hs).symm f).symm

/-- Two one-axis contractions of the same length whose left factors agree at every position, and whose right
    factors do, are the same sum. -/
theorem dot_sum_eq {sl sr so sl' sr' so' : Shape} (d : DotDims sl sr so) (d' : DotDims sl' sr' so') (n : Nat)
    (hr : d.contr.rank = 1) (hs : d.contr.size ⟨0, by omega⟩ = n)
    (hr' : d'.contr.rank = 1) (hs' : d'.contr.size ⟨0, by omega⟩ = n)
    (A : sl.Idx → EReal) (B : sr.Idx → EReal) (A' : sl'.Idx → EReal) (B' : sr'.Idx → EReal) (j : so.Idx) (j' : so'.Idx)
    (hA : ∀ k : Fin n, A (d.lhsIdx j ((contrEquiv1 d n hr hs).symm k)) = A' (d'.lhsIdx j' ((contrEquiv1 d' n hr' hs').symm k)))
    (hB : ∀ k : Fin n, B (d.rhsIdx j ((contrEquiv1 d n hr hs).symm k)) = B' (d'.rhsIdx j' ((contrEquiv1 d' n hr' hs').symm k))) :
    ∑ k : d.contr.Idx, A (d.lhsIdx j k) * B (d.rhsIdx j k) = ∑ k : d'.contr.Idx, A' (d'.lhsIdx j' k) * B' (d'.rhsIdx j' k) := by
  rw [sum_contr d n hr hs, sum_contr d' n hr' hs']
  exact Finset.sum_congr rfl fun k _ => by rw [hA k, hB k]

/-- A block product into the zero accumulator against the host's whole product, entry against entry: equal when
    the factors agree along the contracted axis. -/
theorem matmul_eq_dotGeneral {sl sr so sl' sr' so' : Shape} {φ₁ φ₂ φ₁' φ₂' : FTy}
    (d : DotDims sl sr so) (d' : DotDims sl' sr' so') (n : Nat)
    (hr : d.contr.rank = 1) (hs : d.contr.size ⟨0, by omega⟩ = n)
    (hr' : d'.contr.rank = 1) (hs' : d'.contr.size ⟨0, by omega⟩ = n)
    (prec prec' : Option ContractPrecision) (sched : HostSchedule)
    (A : FVec Ideal sl φ₁) (B : FVec Ideal sr φ₂) (A' : FVec Ideal sl' φ₁') (B' : FVec Ideal sr' φ₂') (j : so.Idx) (j' : so'.Idx)
    (hA : ∀ k : Fin n, A (d.lhsIdx j ((contrEquiv1 d n hr hs).symm k)) = A' (d'.lhsIdx j' ((contrEquiv1 d' n hr' hs').symm k)))
    (hB : ∀ k : Fin n, B (d.rhsIdx j ((contrEquiv1 d n hr hs).symm k)) = B' (d'.rhsIdx j' ((contrEquiv1 d' n hr' hs').symm k))) :
    FloatOps.matmul d prec A B (constant so .f32 0x00000000#32) j = FloatOps.dotGeneral d' prec' sched A' B' j' := by
  rw [Ideal.matmul_constant_zero_apply, Ideal.dotGeneral_apply]
  exact dot_sum_eq d d' n hr hs hr' hs' A B A' B' j j' hA hB

end Cert.LibDot

end
-- ==== Proof.LibKeepdims.lean ====
/-
  The layout operations a keepdims reduction leaves around it, read at an index, and the two one-axis sums of a matrix.

  A column [a, 1] broadcast along its unit axis to [a, b] reads row p's one element at every (p, c); a single element
  [1, 1] broadcast to [a, b] reads that element everywhere; a column [n, 1] reshaped to a row [1, n] keeps the order of its
  elements. At the exact instance a sum of a matrix [a, b] along its second axis is, at row r, the sum of that row, and a
  sum of a column [a, 1] along its first axis is the sum of the column.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibKeepdims

open Idealize.ShloMosaic Idealize.ShloMosaic.ValueIdx

section Layout
variable {α : Type}

/-- A column [a, 1] broadcast to [a, b], read at (p, c), is the column at (p, 0). -/
theorem broadcastTo_col_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single element [1, 1] broadcast to [a, b], read anywhere, is that element. -/
theorem broadcastTo_unit_apply {a b : ℕ} (v : (⟨2, ![1, 1]⟩ : Shape).Idx → α)
    (h : (⟨2, ![1, 1]⟩ : Shape).Broadcasts ⟨2, ![a, b]⟩) (j : (⟨2, ![a, b]⟩ : Shape).Idx) :
    broadcastTo ⟨2, ![a, b]⟩ v h j = v (ix2 (0 : Fin 1) (0 : Fin 1)) := by
  refine broadcastTo_apply v h j (ix2 (0 : Fin 1) (0 : Fin 1)) fun ax => ?_
  match ax with
  | ⟨0, _⟩ => rfl
  | ⟨1, _⟩ => rfl

/-- A column [n, 1] reshaped to a row [1, n], read at (0, j), is the column at (j, 0). -/
theorem shapeCast_col_row_apply {n : ℕ} (x : (⟨2, ![n, 1]⟩ : Shape).Idx → α)
    (h : (⟨2, ![n, 1]⟩ : Shape).ShapeCasts ⟨2, ![1, n]⟩) (j : Fin n) :
    shapeCast ⟨2, ![1, n]⟩ x h (ix2 (0 : Fin 1) j) = x (ix2 j (0 : Fin 1)) := by
  refine shapeCast_apply x h _ _ ?_
  rw [Shape.rowMajor_val_two, Shape.rowMajor_val_two]
  show j.val * 1 + 0 = 0 * n + j.val
  omega

end Layout

section Sums

/-- The sum of a matrix [a, b] along its second axis, at row r: the sum of row r. -/
theorem sum_lanes_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec (FTy.f32).bits) = FKind.add.neutral .f32 hφ) (r : Fin a) :
    multiReduction .add [1] ⟨1, ![a]⟩ src 0x00000000#32 h hφ hacc (ix1 r) = ∑ c : Fin b, src (ix2 r c) := by
  refine (Ideal.multiReduction_add_single src 0x00000000#32 h hφ hacc (ix1 r)).trans ?_
  refine Finset.sum_congr rfl fun c _ => congrArg src ?_
  funext d
  apply Fin.ext
  match d with
  | ⟨0, _⟩ => rfl
  | ⟨1, _⟩ => rfl

/-- The sum of a column [a, 1] along its first axis: the sum of the column. -/
theorem sum_rows_apply {a : ℕ} (src : FVec Ideal ⟨2, ![a, 1]⟩ .f32)
    (h : (⟨2, ![a, 1]⟩ : Shape).Reduces [0] ⟨1, ![1]⟩) (hφ : FKind.Formats .f32)
    (hacc : (0x00000000#32 : BitVec (FTy.f32).bits) = FKind.add.neutral .f32 hφ) :
    multiReduction .add [0] ⟨1, ![1]⟩ src 0x00000000#32 h hφ hacc (ix1 (0 : Fin 1))
      = ∑ r : Fin a, src (ix2 r (0 : Fin 1)) := by
  refine (Ideal.multiReduction_add_single src 0x00000000#32 h hφ hacc (ix1 (0 : Fin 1))).trans ?_
  refine Finset.sum_congr rfl fun r _ => congrArg src ?_
  funext d
  apply Fin.ext
  match d with
  | ⟨0, _⟩ => rfl
  | ⟨1, _⟩ => rfl

end Sums

end Cert.LibKeepdims

end
-- ==== Proof.LibKernelSum.lean ====
/-
  Extended-real facts about a kernel matrix accumulated over passes and contracted against a coefficient matrix.

  A radial kernel entry is an exponential, hence non-negative, and on the extended reals multiplication distributes
  over a sum of NON-NEGATIVE terms whatever the other factor is. So contracting the accumulated matrix
  ((0 + a) + b) + d against c is the same as accumulating the three contractions one after the other — with no
  finiteness assumption. Also: the float words 0.5 and 2.0 denote 1/2 and 2, and halving is dividing by two, on every
  extended real.
-/
import Idealize.ShloMosaic.PureOps.Ideal

noncomputable section

namespace Cert.LibKernelSum

open Idealize.ShloMosaic

/-- The word of `+0.0` denotes 0. -/
theorem ofBits_zero : Ideal.ofBits .f32 0x00000000#32 = 0 := by
  simp [Ideal.ofBits, Ideal.ieee]

/-- The word of `0.5` denotes 1/2. -/
theorem ofBits_half : Ideal.ofBits .f32 0x3F000000#32 = ((1 / 2 : ℝ) : EReal) := by
  simp [Ideal.ofBits, Ideal.ieee, -EReal.coe_mul]; norm_num

/-- The word of `2.0` denotes 2. -/
theorem ofBits_two : Ideal.ofBits .f32 0x40000000#32 = ((2 : ℝ) : EReal) := by
  simp [Ideal.ofBits, Ideal.ieee, -EReal.coe_mul]; norm_num

/-- Dividing by the float 2.0 is multiplying by the float 0.5, on every extended real. -/
theorem div_two_eq_mul_half (x : EReal) :
    Ideal.div x (Ideal.ofBits .f32 0x40000000#32) = x * Ideal.ofBits .f32 0x3F000000#32 := by
  rw [ofBits_two, ofBits_half, Ideal.div_coe (by norm_num : (2 : ℝ) ≠ 0)]

/-- An exponential is non-negative (it is 0 at -∞ and +∞ at +∞). -/
theorem exp_nonneg (x : EReal) : 0 ≤ Ideal.exp x := by
  induction x using EReal.rec with
  | bot => simp
  | top => simp
  | coe r => rw [Ideal.exp_coe]; exact EReal.coe_nonneg.mpr (Real.exp_pos r).le

/-- The radial kernel between two rows: exp(u·v − |u|²·½ − |v|²·½), with ½ the float word 0.5. -/
def radial {d : ℕ} (u v : Fin d → EReal) : EReal :=
  Ideal.exp ((∑ j, u j * v j) - (∑ j, u j * u j) * Ideal.ofBits .f32 0x3F000000#32 - (∑ j, v j * v j) * Ideal.ofBits .f32 0x3F000000#32)

theorem radial_nonneg {d : ℕ} (u v : Fin d → EReal) : 0 ≤ radial u v := exp_nonneg _

variable {ι : Type} [Fintype ι]

/-- Contracting a sum of two non-negative families against `c` is the sum of the two contractions. -/
theorem sum_add_mul (a b c : ι → EReal) (ha : ∀ n, 0 ≤ a n) (hb : ∀ n, 0 ≤ b n) :
    ∑ n, (a n + b n) * c n = ∑ n, a n * c n + ∑ n, b n * c n := by
  rw [← Finset.sum_add_distrib]
  exact Finset.sum_congr rfl fun n _ => EReal.right_distrib_of_nonneg (ha n) (hb n)

/-- One pass: the kernel matrix started from zero. -/
theorem acc1 (a c : ι → EReal) : ∑ n, (0 + a n) * c n = 0 + ∑ n, a n * c n := by
  simp only [zero_add]

/-- Two passes. -/
theorem acc2 (a b c : ι → EReal) (ha : ∀ n, 0 ≤ a n) (hb : ∀ n, 0 ≤ b n) :
    ∑ n, ((0 + a n) + b n) * c n = (0 + ∑ n, a n * c n) + ∑ n, b n * c n := by
  simp only [zero_add]
  exact sum_add_mul a b c ha hb

/-- Three passes. -/
theorem acc3 (a b d c : ι → EReal) (ha : ∀ n, 0 ≤ a n) (hb : ∀ n, 0 ≤ b n) (hd : ∀ n, 0 ≤ d n) :
    ∑ n, (((0 + a n) + b n) + d n) * c n = ((0 + ∑ n, a n * c n) + ∑ n, b n * c n) + ∑ n, d n * c n := by
  simp only [zero_add]
  rw [sum_add_mul (fun n => a n + b n) d c (fun n => add_nonneg (ha n) (hb n)) hd, sum_add_mul a b c ha hb]

end Cert.LibKernelSum

end
-- ==== Proof.IdealPass.lean ====
/-
  One pass of the kernel at block level, at the exact instance. From a block of 128 rows `u`, the resident rows `v`
  (8192 of them), coefficients `cs` and a running block `va`:
    radBlk u v (p, n) = radial (row p of u) (row n of v)          -- the 128 × 8192 radial block
    passBlk u v cs va (p, k) = va (p, k) + Σₙ radBlk u v (p, n) · cs (n, k).
  Every payload the body stores is one of these two, whatever the region.
-/
import proofs.«117133_j29008209117207_1_alg».proof.Proof.Gen.KernelIdeal.Skeleton
import proofs.«117133_j29008209117207_1_alg».proof.Proof.LibDot
import proofs.«117133_j29008209117207_1_alg».proof.Proof.LibKeepdims
import proofs.«117133_j29008209117207_1_alg».proof.Proof.LibKernelSum
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PassValue

open Cert.KernelIdeal Cert.KernelIdeal.Gen Idealize.ShloMosaic Idealize.ShloMosaic.ValueIdx Cert.LibKernelSum

variable (u : FVec Ideal S128x64 .f32) (v cs : FVec Ideal S8192x64 .f32) (va : FVec Ideal S128x64 .f32)

/-- u·vᵀ at (p, n): the sum over the 64 columns of the two rows' products. -/
theorem dot_uv (p : Fin 128) (n : Fin 8192) :
    matmul (F := Ideal) dot_S128x64_S64x8192_S128x8192_1_0_0_1_n_n none
      (truncf .bf16 (shapeCast S128x64 u shapeCasts_S128x64_S128x64) bitsLt_bf16_f32)
      (transpose S64x8192 [1, 0] (truncf .bf16 (shapeCast S8192x64 v shapeCasts_S8192x64_S8192x64) bitsLt_bf16_f32) transposes_S8192x64_p1_0_S64x8192)
      (constant (F := Ideal) S128x8192 .f32 0x00000000#32) (ix2 p n)
    = ∑ j : Fin 64, u (ix2 p j) * v (ix2 n j) := by
  refine (Ideal.matmul_constant_zero_apply dot_S128x64_S64x8192_S128x8192_1_0_0_1_n_n none _ _ (ix2 p n)).trans ?_
  rw [LibDot.sum_contr _ 64 rfl rfl]
  refine Finset.sum_congr rfl fun j _ => ?_
  congr 1
  · rw [truncf_apply, shapeCast_self]
    refine congrArg u (funext fun a => Fin.ext ?_)
    match a with
    | ⟨0, _⟩ => rfl
    | ⟨1, _⟩ => exact (DotDims.lhsIdx_val_of_single _ rfl _ _).trans (contrEquiv1_symm_val _ 64 rfl rfl j)
  · rw [transpose_apply [1, 0] _ transposes_S8192x64_p1_0_S64x8192 _ (ix2 n j) (fun b => by
      match b with
      | ⟨0, _⟩ => exact ((DotDims.rhsIdx_val_of_single _ rfl _ _).trans (contrEquiv1_symm_val _ 64 rfl rfl j)).symm
      | ⟨1, _⟩ => rfl), truncf_apply, shapeCast_self]

/-- A vector [a] laid as a column [a, 1], read at (r, 0), is the vector at r. -/
theorem shapeCast_vec_col_apply {a : ℕ} {α : Type} (x : (⟨1, ![a]⟩ : Shape).Idx → α)
    (h : (⟨1, ![a]⟩ : Shape).ShapeCasts ⟨2, ![a, 1]⟩) (r : Fin a) :
    shapeCast ⟨2, ![a, 1]⟩ x h (ix2 r (0 : Fin 1)) = x (ix1 r) := by
  refine shapeCast_apply x h _ _ ?_
  rw [Shape.rowMajor_val_one, Shape.rowMajor_val_two]
  show r.val = r.val * 1 + 0
  omega

/-- A row [1, b] repeated down a matrix [a, b], read at (p, c), is the row at (0, c). -/
theorem broadcastTo_row_apply {a b : ℕ} {α : Type} (x : (⟨2, ![1, b]⟩ : Shape).Idx → α)
    (h : (⟨2, ![1, b]⟩ : Shape).Broadcasts ⟨2, ![a, b]⟩) (p : Fin a) (c : Fin b) :
    broadcastTo ⟨2, ![a, b]⟩ x h (ix2 p c) = x (ix2 (0 : Fin 1) c) := by
  refine broadcastTo_apply x h (ix2 p c) (ix2 (0 : Fin 1) c) fun ax => ?_
  match ax with
  | ⟨0, _⟩ => rfl
  | ⟨1, _⟩ =>
    show c.val = if b = 1 then 0 else c.val
    split
    · have := c.isLt; omega
    · rfl

/-- A column [n, 1] transposed to a row [1, n], read at (0, j), is the column at (j, 0). -/
theorem transpose_col_row_apply {n : ℕ} {α : Type} (x : (⟨2, ![n, 1]⟩ : Shape).Idx → α)
    (h : (⟨2, ![n, 1]⟩ : Shape).Transposes [1, 0] ⟨2, ![1, n]⟩) (j : Fin n) :
    transpose ⟨2, ![1, n]⟩ [1, 0] x h (ix2 (0 : Fin 1) j) = x (ix2 j (0 : Fin 1)) := by
  refine transpose_apply [1, 0] x h _ (ix2 j (0 : Fin 1)) fun b => ?_
  match b with
  | ⟨0, _⟩ => rfl
  | ⟨1, _⟩ => rfl

/-- |row p of u|²·½, laid along the 8192 columns. -/
theorem norm_u (p : Fin 128) (n : Fin 8192) :
    broadcastTo S128x8192 (mulf (F := Ideal) (shapeCast S128x1 (multiReduction (F := Ideal) .add [1] S128
        (mulf (shapeCast S128x64 u shapeCasts_S128x64_S128x64) (shapeCast S128x64 u shapeCasts_S128x64_S128x64)) 0x00000000#32 reduces_S128x64_S128 (.inl rfl) rfl) shapeCasts_S128_S128x1)
      (broadcast S128x1 (Scalar.ofBits (F := Ideal) .f32 0x3F000000#32))) broadcasts_S128x1_S128x8192 (ix2 p n)
    = (∑ j : Fin 64, u (ix2 p j) * u (ix2 p j)) * Ideal.ofBits .f32 0x3F000000#32 := by
  rw [LibKeepdims.broadcastTo_col_apply, mulf_apply, broadcast_apply, shapeCast_vec_col_apply]
  congr 1
  exact (LibKeepdims.sum_lanes_apply (a := 128) (b := 64) _ reduces_S128x64_S128 (.inl rfl) rfl p).trans
    (Finset.sum_congr rfl fun j _ => by rw [mulf_apply, shapeCast_self])

/-- |row n of v|²·½, laid down the 128 rows. -/
theorem norm_v (p : Fin 128) (n : Fin 8192) :
    broadcastTo S128x8192 (mulf (F := Ideal) (transpose S1x8192 [1, 0] (shapeCast S8192x1 (multiReduction (F := Ideal) .add [1] S8192
        (mulf (shapeCast S8192x64 v shapeCasts_S8192x64_S8192x64) (shapeCast S8192x64 v shapeCasts_S8192x64_S8192x64)) 0x00000000#32 reduces_S8192x64_S8192 (.inl rfl) rfl) shapeCasts_S8192_S8192x1)
        transposes_S8192x1_p1_0_S1x8192)
      (broadcast S1x8192 (Scalar.ofBits (F := Ideal) .f32 0x3F000000#32))) broadcasts_S1x8192_S128x8192 (ix2 p n)
    = (∑ j : Fin 64, v (ix2 n j) * v (ix2 n j)) * Ideal.ofBits .f32 0x3F000000#32 := by
  rw [broadcastTo_row_apply, mulf_apply, broadcast_apply, transpose_col_row_apply, shapeCast_vec_col_apply]
  congr 1
  exact (LibKeepdims.sum_lanes_apply (a := 8192) (b := 64) _ reduces_S8192x64_S8192 (.inl rfl) rfl n).trans
    (Finset.sum_congr rfl fun j _ => by rw [mulf_apply, shapeCast_self])

/-- THE RADIAL BLOCK at (p, n): the radial kernel between row p of the block and row n of the resident rows. -/
theorem radBlk_apply (p : Fin 128) (n : Fin 8192) :
    k2_pay3 (F := Ideal) u v (ix2 p n) = radial (fun j => u (ix2 p j)) (fun j => v (ix2 n j)) := by
  unfold radial
  rw [← dot_uv u v p n, ← norm_u u p n, ← norm_v v p n]
  rfl

/-- A [128, 8192] block contracted against the coefficients, at (p, k). -/
theorem contract_apply (A : FVec Ideal S128x8192 .bf16) (p : Fin 128) (k : Fin 64) :
    matmul (F := Ideal) dot_S128x8192_S8192x64_S128x64_1_0_0_1_n_n none A
      (truncf .bf16 (shapeCast S8192x64 cs shapeCasts_S8192x64_S8192x64) bitsLt_bf16_f32)
      (constant (F := Ideal) S128x64 .f32 0x00000000#32) (ix2 p k)
    = ∑ n : Fin 8192, A (ix2 p n) * cs (ix2 n k) := by
  refine (Ideal.matmul_constant_zero_apply dot_S128x8192_S8192x64_S128x64_1_0_0_1_n_n none A _ (ix2 p k)).trans ?_
  rw [LibDot.sum_contr _ 8192 rfl rfl]
  refine Finset.sum_congr rfl fun n _ => ?_
  congr 1
  · refine congrArg A (funext fun a => Fin.ext ?_)
    match a with
    | ⟨0, _⟩ => rfl
    | ⟨1, _⟩ => exact (DotDims.lhsIdx_val_of_single _ rfl _ _).trans (contrEquiv1_symm_val _ 8192 rfl rfl n)
  · rw [truncf_apply, shapeCast_self]
    refine congrArg cs (funext fun a => Fin.ext ?_)
    match a with
    | ⟨0, _⟩ => exact (DotDims.rhsIdx_val_of_single _ rfl _ _).trans (contrEquiv1_symm_val _ 8192 rfl rfl n)
    | ⟨1, _⟩ => rfl

/-- ONE PASS at (p, k): the running block plus the radial block contracted against the coefficients. -/
theorem passBlk_apply (p : Fin 128) (k : Fin 64) :
    k2_pay4 (F := Ideal) u v cs va (ix2 p k)
      = va (ix2 p k) + ∑ n : Fin 8192, radial (fun j => u (ix2 p j)) (fun j => v (ix2 n j)) * cs (ix2 n k) := by
  unfold k2_pay4
  rw [addf_apply, shapeCast_self, contract_apply]
  exact congrArg (va (ix2 p k) + ·) (Finset.sum_congr rfl fun n _ => by rw [radBlk_apply])

/-- THE WHOLE-ARRAY PASS: row r of the result is row r of the running array plus the radial kernel between row r of `U`
    and every row n of `Vv`, contracted against the coefficients. -/
def passArr {M : ℕ} (U : (⟨2, ![M, 64]⟩ : Shape).Idx → EReal) (Vv CS : (⟨2, ![8192, 64]⟩ : Shape).Idx → EReal)
    (VA : (⟨2, ![M, 64]⟩ : Shape).Idx → EReal) : (⟨2, ![M, 64]⟩ : Shape).Idx → EReal :=
  fun i => VA i + ∑ n : Fin 8192, radial (fun j => U (ix2 (⟨(i 0).val, idx2_lt0 i⟩ : Fin M) j)) (fun j => Vv (ix2 n j))
    * CS (ix2 n (⟨(i 1).val, idx2_lt1 i⟩ : Fin 64))

theorem hz2 : (![0, 0] : Fin 2 → Nat) = fun _ => 0 := funext fun a => by fin_cases a <;> rfl

/-! ## Every stored payload is one pass

The second and third outputs of a region are written as "running block + (radial block contracted)" with the pieces
named differently, and the other regions' bodies repeat region 2's text: all are the same term. -/

variable {F : FTy → Type} [FloatOps F]

theorem pay2_second (u : Vec F S128x64 .f32) (v cs : Vec F S8192x64 .f32) (va : Vec F S128x64 .f32) : k2_pay1 (k2_pay5 u v cs) va = k2_pay4 u v cs va := rfl
theorem pay2_third (u : Vec F S128x64 .f32) (v cs : Vec F S8192x64 .f32) (va : Vec F S128x64 .f32) : k2_pay2 (k2_pay3 u v) cs va = k2_pay4 u v cs va := rfl
theorem pay3_first (u : Vec F S128x64 .f32) (v cs : Vec F S8192x64 .f32) (va : Vec F S128x64 .f32) : k3_pay3 u v cs va = k2_pay4 u v cs va := rfl
theorem pay3_second (u : Vec F S128x64 .f32) (v cs : Vec F S8192x64 .f32) (va : Vec F S128x64 .f32) : k3_pay1 (k3_pay4 u v cs) va = k2_pay4 u v cs va := rfl
theorem pay4_first (u : Vec F S128x64 .f32) (v cs : Vec F S8192x64 .f32) (va : Vec F S128x64 .f32) : k4_pay1 u v cs va = k2_pay4 u v cs va := rfl
theorem pay5_first (u : Vec F S128x64 .f32) (v cs : Vec F S8192x64 .f32) (va : Vec F S128x64 .f32) : k5_pay4 u v cs va = k2_pay4 u v cs va := rfl
theorem pay5_second (u : Vec F S128x64 .f32) (v cs : Vec F S8192x64 .f32) (va : Vec F S128x64 .f32) : k5_pay1 (k5_pay5 u v cs) va = k2_pay4 u v cs va := rfl
theorem pay5_third (u : Vec F S128x64 .f32) (v cs : Vec F S8192x64 .f32) (va : Vec F S128x64 .f32) : k5_pay2 (k5_pay3 u v) cs va = k2_pay4 u v cs va := rfl
theorem pay6_first (u : Vec F S128x64 .f32) (v cs : Vec F S8192x64 .f32) (va : Vec F S128x64 .f32) : k6_pay3 u v cs va = k2_pay4 u v cs va := rfl
theorem pay6_second (u : Vec F S128x64 .f32) (v cs : Vec F S8192x64 .f32) (va : Vec F S128x64 .f32) : k6_pay1 (k6_pay4 u v cs) va = k2_pay4 u v cs va := rfl
theorem pay7_first (u : Vec F S128x64 .f32) (v cs : Vec F S8192x64 .f32) (va : Vec F S128x64 .f32) : k7_pay1 u v cs va = k2_pay4 u v cs va := rfl

end Cert.KernelIdeal.PassValue

end
-- ==== Proof.IdealAffine.lean ====
/-
  The affine projection at block level, at the exact instance: from a block of 512 rows `x`, the weight matrix `w`
  (256 × 256) and the bias `b`, the stored block is  x·wᵀ + b :  entry (p, k) is Σⱼ x(p, j)·w(k, j) + b(k).
-/
import proofs.«117133_j29008209117207_1_alg».proof.Proof.Gen.KernelIdeal.Skeleton
import proofs.«117133_j29008209117207_1_alg».proof.Proof.LibDot
import proofs.«117133_j29008209117207_1_alg».proof.Proof.IdealPass
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.AffineValue

open Cert.KernelIdeal Cert.KernelIdeal.Gen Idealize.ShloMosaic Idealize.ShloMosaic.ValueIdx Cert.KernelIdeal.PassValue

variable (x : FVec Ideal S512x256 .f32) (w : FVec Ideal S256x256 .f32) (b : FVec Ideal S256 .f32)

/-- A vector [n] laid as a row [1, n], read at (0, j), is the vector at j. -/
theorem shapeCast_vec_row_apply {n : ℕ} {α : Type} (v : (⟨1, ![n]⟩ : Shape).Idx → α)
    (h : (⟨1, ![n]⟩ : Shape).ShapeCasts ⟨2, ![1, n]⟩) (j : Fin n) :
    shapeCast ⟨2, ![1, n]⟩ v h (ix2 (0 : Fin 1) j) = v (ix1 j) := by
  refine shapeCast_apply v h _ _ ?_
  rw [Shape.rowMajor_val_one, Shape.rowMajor_val_two]
  show j.val = 0 * n + j.val
  omega

/-- x·wᵀ at (p, k). -/
theorem dot_xw (p : Fin 512) (k : Fin 256) :
    matmul (F := Ideal) dot_S512x256_S256x256_S512x256_1_0_0_1_n_n none
      (truncf .bf16 x bitsLt_bf16_f32)
      (transpose S256x256 [1, 0] (truncf .bf16 w bitsLt_bf16_f32) transposes_S256x256_p1_0_S256x256)
      (constant (F := Ideal) S512x256 .f32 0x00000000#32) (ix2 p k)
    = ∑ j : Fin 256, x (ix2 p j) * w (ix2 k j) := by
  refine (Ideal.matmul_constant_zero_apply dot_S512x256_S256x256_S512x256_1_0_0_1_n_n none _ _ (ix2 p k)).trans ?_
  rw [LibDot.sum_contr _ 256 rfl rfl]
  refine Finset.sum_congr rfl fun j _ => ?_
  congr 1
  · rw [truncf_apply]
    refine congrArg x (funext fun a => Fin.ext ?_)
    match a with
    | ⟨0, _⟩ => rfl
    | ⟨1, _⟩ => exact (DotDims.lhsIdx_val_of_single _ rfl _ _).trans (contrEquiv1_symm_val _ 256 rfl rfl j)
  · rw [transpose_apply [1, 0] _ transposes_S256x256_p1_0_S256x256 _ (ix2 k j) (fun a => by
      match a with
      | ⟨0, _⟩ => exact ((DotDims.rhsIdx_val_of_single _ rfl _ _).trans (contrEquiv1_symm_val _ 256 rfl rfl j)).symm
      | ⟨1, _⟩ => rfl), truncf_apply]

/-- THE AFFINE BLOCK at (p, k). -/
theorem affBlk_apply (p : Fin 512) (k : Fin 256) :
    k0_pay1 (F := Ideal) x w b (ix2 p k) = (∑ j : Fin 256, x (ix2 p j) * w (ix2 k j)) + b (ix1 k) := by
  unfold k0_pay1
  rw [addf_apply, dot_xw, broadcastTo_row_apply, shapeCast_vec_row_apply]

/-- THE WHOLE-ARRAY AFFINE MAP: row r of the result is row r of `X` times the transposed weights, plus the bias. -/
def affArr {M : ℕ} (X : (⟨2, ![M, 256]⟩ : Shape).Idx → EReal) (Wt : (⟨2, ![256, 256]⟩ : Shape).Idx → EReal)
    (bb : (⟨1, ![256]⟩ : Shape).Idx → EReal) : (⟨2, ![M, 256]⟩ : Shape).Idx → EReal :=
  fun i => (∑ j : Fin 256, X (ix2 (⟨(i 0).val, idx2_lt0 i⟩ : Fin M) j) * Wt (ix2 (⟨(i 1).val, idx2_lt1 i⟩ : Fin 256) j))
    + bb (ix1 (⟨(i 1).val, idx2_lt1 i⟩ : Fin 256))

theorem hz1 : (![0] : Fin 1 → Nat) = fun _ => 0 := funext fun a => by fin_cases a; rfl

variable {F : FTy → Type} [FloatOps F]

/-- The second projection's body repeats the first's text. -/
theorem pay1_eq (x : Vec F S512x256 .f32) (w : Vec F S256x256 .f32) (b : Vec F S256 .f32) : k1_pay1 x w b = k0_pay1 x w b := rfl

end Cert.KernelIdeal.AffineValue

end
-- ==== Proof.IdealValue0.lean ====
/-
  Region 0's output array as a whole-array function of the arrays it was entered with: point t writes back rows
  512·t … 512·t+511, the affine map applied to the matching rows of the input; the blocks tile the array.
-/
import proofs.«117133_j29008209117207_1_alg».proof.Proof.IdealRegion0
import proofs.«117133_j29008209117207_1_alg».proof.Proof.IdealAffine

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat)
open Cert.KernelIdeal.PassValue Cert.KernelIdeal.AffineValue

variable (V : (c : Dev nD) → (b : Ref sig .tc) → Buf (Elt Ideal) ((c : Thread nD τ).loc b))

/-- The printed index maps, decided over the grid: the input block moves with the output block, weights and bias stay
    at block 0. -/
theorem idx0_3 : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = 0 ∧ win0_2.index t (0 : Fin 1) = 0
    ∧ win0_3.index t (1 : Fin 2) = 0 ∧ win0_3.index t (0 : Fin 2) ≤ 15 :=
  (by decide +kernel : ∀ t : Fin grid0.N, _)

theorem onto0_3 : ∀ q : Fin 16, ∃ t : Fin cfg0.N, win0_3.index t = ![q.val, 0] :=
  (by decide +kernel : ∀ q : Fin 16, ∃ t : Fin grid0.N, win0_3.index t = ![q.val, 0])

/-- WHAT POINT `t` WRITES BACK is block `t` of the whole-array affine map of the entry arrays. -/
theorem flushed0_3 (c : Dev nD) (t : Fin cfg0.N) :
    (dat0 V c).flushed 3 t = ((cfg0.win 3).blk t).view.read (Elt Ideal) (affArr (M := 8192) (V c main_arg0) (V c main_arg2) (V c main_arg3)) := by
  show (cfg0.win 3).cut (grid0.coords t) ((dat0 V c).after 3 t) = _
  rw [after0_3]
  unfold out0_3
  rw [View.canon_unit_zero hz2]
  simp only [View.ld_unit_zero (S := S512x256) hz2, View.ld_unit_zero (S := S256x256) hz2, View.ld_unit_zero (S := S256) hz1]
  obtain ⟨e0, e1, e2, e3, e4, e5, e6⟩ := idx0_3 t
  funext y
  obtain ⟨p, k, rfl⟩ : ∃ (p : Fin 512) (k : Fin 256), y = ix2 p k := ⟨y 0, y 1, eq_ix2 y⟩
  refine (affBlk_apply (iblk0 V c 0 t) (iblk0 V c 1 t) (iblk0 V c 2 t) p k).trans ?_
  show _ = (affArr (M := 8192) (V c main_arg0) (V c main_arg2) (V c main_arg3)) (((cfg0.win 3).blk t).view.emb (ix2 p k))
  unfold affArr
  have hp : p.val < 512 := p.isLt
  have hk : k.val < 256 := k.isLt
  have hx : ∀ j : Fin 256, iblk0 V c 0 t (ix2 p j) = V c main_arg0 (ix2 (⟨((((cfg0.win 3).blk t).view.emb (ix2 p k)) 0).val, idx2_lt0 _⟩ : Fin 8192) j) := fun j => by
    have hj : j.val < 256 := j.isLt
    show V c main_arg0 (((cfg0.win 0).blk t).view.emb (ix2 p j)) = V c main_arg0 _
    refine congrArg (V c main_arg0) (funext fun a => Fin.ext ?_)
    match a with
    | ⟨0, _⟩ => show win0_0.index t (0 : Fin 2) * 512 + 1 * p.val = win0_3.index t (0 : Fin 2) * 512 + 1 * p.val; omega
    | ⟨1, _⟩ => show win0_0.index t (1 : Fin 2) * 256 + 1 * j.val = j.val; omega
  have hw : ∀ j : Fin 256, iblk0 V c 1 t (ix2 k j) = V c main_arg2 (ix2 (⟨((((cfg0.win 3).blk t).view.emb (ix2 p k)) 1).val, idx2_lt1 _⟩ : Fin 256) j) := fun j => by
    have hj : j.val < 256 := j.isLt
    show V c main_arg2 (((cfg0.win 1).blk t).view.emb (ix2 k j)) = V c main_arg2 _
    refine congrArg (V c main_arg2) (funext fun a => Fin.ext ?_)
    match a with
    | ⟨0, _⟩ => show win0_1.index t (0 : Fin 2) * 256 + 1 * k.val = win0_3.index t (1 : Fin 2) * 256 + 1 * k.val; omega
    | ⟨1, _⟩ => show win0_1.index t (1 : Fin 2) * 256 + 1 * j.val = j.val; omega
  have hb : iblk0 V c 2 t (ix1 k) = V c main_arg3 (ix1 (⟨((((cfg0.win 3).blk t).view.emb (ix2 p k)) 1).val, idx2_lt1 _⟩ : Fin 256)) := by
    show V c main_arg3 (((cfg0.win 2).blk t).view.emb (ix1 k)) = V c main_arg3 _
    refine congrArg (V c main_arg3) (funext fun a => Fin.ext ?_)
    match a with
    | ⟨0, _⟩ => show win0_2.index t (0 : Fin 1) * 256 + 1 * k.val = win0_3.index t (1 : Fin 2) * 256 + 1 * k.val; omega
  rw [hb]
  simp only [hx, hw]

theorem mem_blk0_3 (t : Fin cfg0.N) (i : S8192x256.Idx) :
    i ∈ ((cfg0.win 3).blk t).view.set ↔ ∀ a : Fin 2, win0_3.index t a * S512x256.size a ≤ (i a).val ∧ (i a).val < win0_3.index t a * S512x256.size a + S512x256.size a := by
  show i ∈ ((View.whole main_v0).slice (win0_3.rect t)).set ↔ _
  rw [View.set_slice_whole, Rect.mem_set_unit]
  exact Iff.rfl

theorem cover0w3 (i : S8192x256.Idx) : ∃ t : Fin cfg0.N, (cfg0.win 3).flush t = true ∧ i ∈ ((cfg0.win 3).blk t).view.set := by
  have hi0 : (i 0).val < 8192 := (i 0).isLt
  have hi1 : (i 1).val < 256 := (i 1).isLt
  obtain ⟨t, ht⟩ := onto0_3 ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk0_3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 256 ≤ (i 1).val ∧ (i 1).val < win0_3.index t (1 : Fin 2) * 256 + 256; omega

/-- THE ARRAY after the run. -/
theorem final0_3 (c : Dev nD) : (dat0 V c).arrAt 3 cfg0.N = (affArr (M := 8192) (V c main_arg0) (V c main_arg2) (V c main_arg3)) :=
  (dat0 V c).arrAt_eq_of_cover 3 _ (fun t _ => flushed0_3 V c t) (cover0w3)

end Cert.KernelIdeal.Gen

end
-- ==== Proof.IdealValue1.lean ====
/-
  Region 1's output array as a whole-array function of the arrays it was entered with: point t writes back rows
  512·t … 512·t+511, the affine map applied to the matching rows of the input; the blocks tile the array.
-/
import proofs.«117133_j29008209117207_1_alg».proof.Proof.IdealRegion1
import proofs.«117133_j29008209117207_1_alg».proof.Proof.IdealAffine

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat)
open Cert.KernelIdeal.PassValue Cert.KernelIdeal.AffineValue

variable (V : (c : Dev nD) → (b : Ref sig .tc) → Buf (Elt Ideal) ((c : Thread nD τ).loc b))

/-- The printed index maps, decided over the grid: the input block moves with the output block, weights and bias stay
    at block 0. -/
theorem idx1_3 : ∀ t : Fin cfg1.N, win1_0.index t (0 : Fin 2) = win1_3.index t (0 : Fin 2) ∧ win1_0.index t (1 : Fin 2) = 0
    ∧ win1_1.index t (0 : Fin 2) = 0 ∧ win1_1.index t (1 : Fin 2) = 0 ∧ win1_2.index t (0 : Fin 1) = 0
    ∧ win1_3.index t (1 : Fin 2) = 0 ∧ win1_3.index t (0 : Fin 2) ≤ 3 :=
  (by decide +kernel : ∀ t : Fin grid1.N, _)

theorem onto1_3 : ∀ q : Fin 4, ∃ t : Fin cfg1.N, win1_3.index t = ![q.val, 0] :=
  (by decide +kernel : ∀ q : Fin 4, ∃ t : Fin grid1.N, win1_3.index t = ![q.val, 0])

/-- WHAT POINT `t` WRITES BACK is block `t` of the whole-array affine map of the entry arrays. -/
theorem flushed1_3 (c : Dev nD) (t : Fin cfg1.N) :
    (dat1 V c).flushed 3 t = ((cfg1.win 3).blk t).view.read (Elt Ideal) (affArr (M := 2048) (V c main_arg1) (V c main_arg2) (V c main_arg3)) := by
  show (cfg1.win 3).cut (grid1.coords t) ((dat1 V c).after 3 t) = _
  rw [after1_3]
  unfold out1_3
  rw [View.canon_unit_zero hz2]
  simp only [View.ld_unit_zero (S := S512x256) hz2, View.ld_unit_zero (S := S256x256) hz2, View.ld_unit_zero (S := S256) hz1]
  rw [pay1_eq]
  obtain ⟨e0, e1, e2, e3, e4, e5, e6⟩ := idx1_3 t
  funext y
  obtain ⟨p, k, rfl⟩ : ∃ (p : Fin 512) (k : Fin 256), y = ix2 p k := ⟨y 0, y 1, eq_ix2 y⟩
  refine (affBlk_apply (iblk1 V c 0 t) (iblk1 V c 1 t) (iblk1 V c 2 t) p k).trans ?_
  show _ = (affArr (M := 2048) (V c main_arg1) (V c main_arg2) (V c main_arg3)) (((cfg1.win 3).blk t).view.emb (ix2 p k))
  unfold affArr
  have hp : p.val < 512 := p.isLt
  have hk : k.val < 256 := k.isLt
  have hx : ∀ j : Fin 256, iblk1 V c 0 t (ix2 p j) = V c main_arg1 (ix2 (⟨((((cfg1.win 3).blk t).view.emb (ix2 p k)) 0).val, idx2_lt0 _⟩ : Fin 2048) j) := fun j => by
    have hj : j.val < 256 := j.isLt
    show V c main_arg1 (((cfg1.win 0).blk t).view.emb (ix2 p j)) = V c main_arg1 _
    refine congrArg (V c main_arg1) (funext fun a => Fin.ext ?_)
    match a with
    | ⟨0, _⟩ => show win1_0.index t (0 : Fin 2) * 512 + 1 * p.val = win1_3.index t (0 : Fin 2) * 512 + 1 * p.val; omega
    | ⟨1, _⟩ => show win1_0.index t (1 : Fin 2) * 256 + 1 * j.val = j.val; omega
  have hw : ∀ j : Fin 256, iblk1 V c 1 t (ix2 k j) = V c main_arg2 (ix2 (⟨((((cfg1.win 3).blk t).view.emb (ix2 p k)) 1).val, idx2_lt1 _⟩ : Fin 256) j) := fun j => by
    have hj : j.val < 256 := j.isLt
    show V c main_arg2 (((cfg1.win 1).blk t).view.emb (ix2 k j)) = V c main_arg2 _
    refine congrArg (V c main_arg2) (funext fun a => Fin.ext ?_)
    match a with
    | ⟨0, _⟩ => show win1_1.index t (0 : Fin 2) * 256 + 1 * k.val = win1_3.index t (1 : Fin 2) * 256 + 1 * k.val; omega
    | ⟨1, _⟩ => show win1_1.index t (1 : Fin 2) * 256 + 1 * j.val = j.val; omega
  have hb : iblk1 V c 2 t (ix1 k) = V c main_arg3 (ix1 (⟨((((cfg1.win 3).blk t).view.emb (ix2 p k)) 1).val, idx2_lt1 _⟩ : Fin 256)) := by
    show V c main_arg3 (((cfg1.win 2).blk t).view.emb (ix1 k)) = V c main_arg3 _
    refine congrArg (V c main_arg3) (funext fun a => Fin.ext ?_)
    match a with
    | ⟨0, _⟩ => show win1_2.index t (0 : Fin 1) * 256 + 1 * k.val = win1_3.index t (1 : Fin 2) * 256 + 1 * k.val; omega
  rw [hb]
  simp only [hx, hw]

theorem mem_blk1_3 (t : Fin cfg1.N) (i : S2048x256.Idx) :
    i ∈ ((cfg1.win 3).blk t).view.set ↔ ∀ a : Fin 2, win1_3.index t a * S512x256.size a ≤ (i a).val ∧ (i a).val < win1_3.index t a * S512x256.size a + S512x256.size a := by
  show i ∈ ((View.whole main_v1).slice (win1_3.rect t)).set ↔ _
  rw [View.set_slice_whole, Rect.mem_set_unit]
  exact Iff.rfl

theorem cover1w3 (i : S2048x256.Idx) : ∃ t : Fin cfg1.N, (cfg1.win 3).flush t = true ∧ i ∈ ((cfg1.win 3).blk t).view.set := by
  have hi0 : (i 0).val < 2048 := (i 0).isLt
  have hi1 : (i 1).val < 256 := (i 1).isLt
  obtain ⟨t, ht⟩ := onto1_3 ⟨(i 0).val / 512, by omega⟩
  have q0 : win1_3.index t (0 : Fin 2) = (i 0).val / 512 := congrFun ht 0
  have q1 : win1_3.index t (1 : Fin 2) = 0 := congrFun ht 1
  refine ⟨t, flush1_3 t, ?_⟩
  rw [mem_blk1_3]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 256 ≤ (i 1).val ∧ (i 1).val < win1_3.index t (1 : Fin 2) * 256 + 256; omega

/-- THE ARRAY after the run. -/
theorem final1_3 (c : Dev nD) : (dat1 V c).arrAt 3 cfg1.N = (affArr (M := 2048) (V c main_arg1) (V c main_arg2) (V c main_arg3)) :=
  (dat1 V c).arrAt_eq_of_cover 3 _ (fun t _ => flushed1_3 V c t) (cover1w3)

end Cert.KernelIdeal.Gen

end
-- ==== Proof.IdealValue2.lean ====
/-
  Region 2's output arrays as whole-array functions of the arrays it was entered with. Point t writes back rows
  128·t … 128·t+127 of each output; the block it writes is one pass applied to the matching rows of the row block
  `u` and of the running block, with the resident rows `v` and coefficients whole. The blocks tile the array, so after the
  run every output array IS the whole-array pass of the entry arrays.
-/
import proofs.«117133_j29008209117207_1_alg».proof.Proof.IdealRegion2
import proofs.«117133_j29008209117207_1_alg».proof.Proof.IdealPass

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat)
open Cert.KernelIdeal.PassValue Cert.LibKernelSum

variable (V : (c : Dev nD) → (b : Ref sig .tc) → Buf (Elt Ideal) ((c : Thread nD τ).loc b))

/-! ## Output window 8 -/

/-- The printed index maps, decided over the grid: the row block and the running block move with the output block, the
    resident operands stay at block (0, 0). -/
theorem idx2_8 : ∀ t : Fin cfg2.N, win2_0.index t (0 : Fin 2) = win2_8.index t (0 : Fin 2) ∧ win2_0.index t (1 : Fin 2) = 0
    ∧ win2_5.index t (0 : Fin 2) = win2_8.index t (0 : Fin 2) ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_8.index t (1 : Fin 2) = 0 ∧ win2_8.index t (0 : Fin 2) ≤ 63 :=
  (by decide +kernel : ∀ t : Fin grid2.N, _)

/-- Every row block is some point's. -/
theorem onto2_8 : ∀ q : Fin 64, ∃ t : Fin cfg2.N, win2_8.index t = ![q.val, 0] :=
  (by decide +kernel : ∀ q : Fin 64, ∃ t : Fin grid2.N, win2_8.index t = ![q.val, 0])

/-- WHAT POINT `t` WRITES BACK is block `t` of the whole-array pass of the entry arrays. -/
theorem flushed2_8 (c : Dev nD) (t : Fin cfg2.N) :
    (dat2 V c).flushed 8 t = ((cfg2.win 8).blk t).view.read (Elt Ideal) (passArr (M := 8192) (V c main_v2) (V c main_v2) (V c main_v10) (V c main_v13)) := by
  show (cfg2.win 8).cut (grid2.coords t) ((dat2 V c).after 8 t) = _
  rw [after2_8]
  unfold out2_8
  rw [View.canon_unit_zero hz2]
  simp only [View.ld_unit_zero (S := S128x64) hz2, View.ld_unit_zero (S := S8192x64) hz2]
  obtain ⟨e0, e1, e2, e3, e4, e5, e6, e7, e8, e9⟩ := idx2_8 t
  funext y
  obtain ⟨p, k, rfl⟩ : ∃ (p : Fin 128) (k : Fin 64), y = ix2 p k := ⟨y 0, y 1, eq_ix2 y⟩
  refine (passBlk_apply (iblk2 V c 0 t) (iblk2 V c 1 t) (iblk2 V c 2 t) (iblk2 V c 5 t) p k).trans ?_
  have hp : p.val < 128 := p.isLt
  have hk : k.val < 64 := k.isLt
  have ha : iblk2 V c 5 t (ix2 p k) = V c main_v13 (((cfg2.win 8).blk t).view.emb (ix2 p k)) := by
    show V c main_v13 (((cfg2.win 5).blk t).view.emb (ix2 p k)) = V c main_v13 (((cfg2.win 8).blk t).view.emb (ix2 p k))
    refine congrArg (V c main_v13) (funext fun a => Fin.ext ?_)
    match a with
    | ⟨0, _⟩ => show win2_5.index t (0 : Fin 2) * 128 + 1 * p.val = win2_8.index t (0 : Fin 2) * 128 + 1 * p.val; omega
    | ⟨1, _⟩ => show win2_5.index t (1 : Fin 2) * 64 + 1 * k.val = win2_8.index t (1 : Fin 2) * 64 + 1 * k.val; omega
  have h0 : ∀ j : Fin 64, iblk2 V c 0 t (ix2 p j) = V c main_v2 (ix2 (⟨((((cfg2.win 8).blk t).view.emb (ix2 p k)) 0).val, idx2_lt0 _⟩ : Fin 8192) j) := fun j => by
    have hj : j.val < 64 := j.isLt
    show V c main_v2 (((cfg2.win 0).blk t).view.emb (ix2 p j)) = V c main_v2 _
    refine congrArg (V c main_v2) (funext fun a => Fin.ext ?_)
    match a with
    | ⟨0, _⟩ => show win2_0.index t (0 : Fin 2) * 128 + 1 * p.val = win2_8.index t (0 : Fin 2) * 128 + 1 * p.val; omega
    | ⟨1, _⟩ => show win2_0.index t (1 : Fin 2) * 64 + 1 * j.val = j.val; omega
  have h1 : ∀ (n : Fin 8192) (j : Fin 64), iblk2 V c 1 t (ix2 n j) = V c main_v2 (ix2 n j) := fun n j => by
    have hn : n.val < 8192 := n.isLt
    have hj : j.val < 64 := j.isLt
    show V c main_v2 (((cfg2.win 1).blk t).view.emb (ix2 n j)) = V c main_v2 _
    refine congrArg (V c main_v2) (funext fun a => Fin.ext ?_)
    match a with
    | ⟨0, _⟩ => show win2_1.index t (0 : Fin 2) * 8192 + 1 * n.val = n.val; omega
    | ⟨1, _⟩ => show win2_1.index t (1 : Fin 2) * 64 + 1 * j.val = j.val; omega
  have hc : ∀ n : Fin 8192, iblk2 V c 2 t (ix2 n k) = V c main_v10 (ix2 n (⟨((((cfg2.win 8).blk t).view.emb (ix2 p k)) 1).val, idx2_lt1 _⟩ : Fin 64)) := fun n => by
    have hn : n.val < 8192 := n.isLt
    show V c main_v10 (((cfg2.win 2).blk t).view.emb (ix2 n k)) = V c main_v10 _
    refine congrArg (V c main_v10) (funext fun a => Fin.ext ?_)
    match a with
    | ⟨0, _⟩ => show win2_2.index t (0 : Fin 2) * 8192 + 1 * n.val = n.val; omega
    | ⟨1, _⟩ => show win2_2.index t (1 : Fin 2) * 64 + 1 * k.val = win2_8.index t (1 : Fin 2) * 64 + 1 * k.val; omega
  rw [ha]
  simp only [h0, h1, hc]
  rfl

/-- An index of the array is in point `t`'s block iff each coordinate is in the block's range on its axis. -/
theorem mem_blk2_8 (t : Fin cfg2.N) (i : S8192x64.Idx) :
    i ∈ ((cfg2.win 8).blk t).view.set ↔ ∀ a : Fin 2, win2_8.index t a * S128x64.size a ≤ (i a).val ∧ (i a).val < win2_8.index t a * S128x64.size a + S128x64.size a := by
  show i ∈ ((View.whole main_v16_0).slice (win2_8.rect t)).set ↔ _
  rw [View.set_slice_whole, Rect.mem_set_unit]
  exact Iff.rfl

/-- The blocks tile the array: every index is in some point's block. -/
theorem cover2w8 (i : S8192x64.Idx) : ∃ t : Fin cfg2.N, (cfg2.win 8).flush t = true ∧ i ∈ ((cfg2.win 8).blk t).view.set := by
  have hi0 : (i 0).val < 8192 := (i 0).isLt
  have hi1 : (i 1).val < 64 := (i 1).isLt
  obtain ⟨t, ht⟩ := onto2_8 ⟨(i 0).val / 128, by omega⟩
  have q0 : win2_8.index t (0 : Fin 2) = (i 0).val / 128 := congrFun ht 0
  have q1 : win2_8.index t (1 : Fin 2) = 0 := congrFun ht 1
  refine ⟨t, flush2_8 t, ?_⟩
  rw [mem_blk2_8]
  intro a
  match a with
  | ⟨0, _⟩ => show win2_8.index t (0 : Fin 2) * 128 ≤ (i 0).val ∧ (i 0).val < win2_8.index t (0 : Fin 2) * 128 + 128; omega
  | ⟨1, _⟩ => show win2_8.index t (1 : Fin 2) * 64 ≤ (i 1).val ∧ (i 1).val < win2_8.index t (1 : Fin 2) * 64 + 64; omega

/-- THE ARRAY after the run. -/
theorem final2_8 (c : Dev nD) : (dat2 V c).arrAt 8 cfg2.N = (passArr (M := 8192) (V c main_v2) (V c main_v2) (V c main_v10) (V c main_v13)) :=
  (dat2 V c).arrAt_eq_of_cover 8 _ (fun t _ => flushed2_8 V c t) (cover2w8)

/-! ## Output window 9 -/

/-- The printed index maps, decided over the grid: the row block and the running block move with the output block, the
    resident operands stay at block (0, 0). -/
theorem idx2_9 : ∀ t : Fin cfg2.N, win2_0.index t (0 : Fin 2) = win2_9.index t (0 : Fin 2) ∧ win2_0.index t (1 : Fin 2) = 0
    ∧ win2_6.index t (0 : Fin 2) = win2_9.index t (0 : Fin 2) ∧ win2_6.index t (1 : Fin 2) = 0
    ∧ win2_1.index t (0 : Fin 2) = 0 ∧ win2_1.index t (1 : Fin 2) = 0
    ∧ win2_3.index t (0 : Fin 2) = 0 ∧ win2_3.index t (1 : Fin 2) = 0
    ∧ win2_9.index t (1 : Fin 2) = 0 ∧ win2_9.index t (0 : Fin 2) ≤ 63 :=
  (by decide +kernel : ∀ t : Fin grid2.N, _)

/-- Every row block is some point's. -/
theorem onto2_9 : ∀ q : Fin 64, ∃ t : Fin cfg2.N, win2_9.index t = ![q.val, 0] :=
  (by decide +kernel : ∀ q : Fin 64, ∃ t : Fin grid2.N, win2_9.index t = ![q.val, 0])

/-- WHAT POINT `t` WRITES BACK is block `t` of the whole-array pass of the entry arrays. -/
theorem flushed2_9 (c : Dev nD) (t : Fin cfg2.N) :
    (dat2 V c).flushed 9 t = ((cfg2.win 9).blk t).view.read (Elt Ideal) (passArr (M := 8192) (V c main_v2) (V c main_v2) (V c main_v11) (V c main_v14)) := by
  show (cfg2.win 9).cut (grid2.coords t) ((dat2 V c).after 9 t) = _
  rw [after2_9]
  unfold out2_9
  rw [View.canon_unit_zero hz2]
  simp only [View.ld_unit_zero (S := S128x64) hz2, View.ld_unit_zero (S := S8192x64) hz2]
  rw [pay2_second]
  obtain ⟨e0, e1, e2, e3, e4, e5, e6, e7, e8, e9⟩ := idx2_9 t
  funext y
  obtain ⟨p, k, rfl⟩ : ∃ (p : Fin 128) (k : Fin 64), y = ix2 p k := ⟨y 0, y 1, eq_ix2 y⟩
  refine (passBlk_apply (iblk2 V c 0 t) (iblk2 V c 1 t) (iblk2 V c 3 t) (iblk2 V c 6 t) p k).trans ?_
  have hp : p.val < 128 := p.isLt
  have hk : k.val < 64 := k.isLt
  have ha : iblk2 V c 6 t (ix2 p k) = V c main_v14 (((cfg2.win 9).blk t).view.emb (ix2 p k)) := by
    show V c main_v14 (((cfg2.win 6).blk t).view.emb (ix2 p k)) = V c main_v14 (((cfg2.win 9).blk t).view.emb (ix2 p k))
    refine congrArg (V c main_v14) (funext fun a => Fin.ext ?_)
    match a with
    | ⟨0, _⟩ => show win2_6.index t (0 : Fin 2) * 128 + 1 * p.val = win2_9.index t (0 : Fin 2) * 128 + 1 * p.val; omega
    | ⟨1, _⟩ => show win2_6.index t (1 : Fin 2) * 64 + 1 * k.val = win2_9.index t (1 : Fin 2) * 64 + 1 * k.val; omega
  have h0 : ∀ j : Fin 64, iblk2 V c 0 t (ix2 p j) = V c main_v2 (ix2 (⟨((((cfg2.win 9).blk t).view.emb (ix2 p k)) 0).val, idx2_lt0 _⟩ : Fin 8192) j) := fun j => by
    have hj : j.val < 64 := j.isLt
    show V c main_v2 (((cfg2.win 0).blk t).view.emb (ix2 p j)) = V c main_v2 _
    refine congrArg (V c main_v2) (funext fun a => Fin.ext ?_)
    match a with
    | ⟨0, _⟩ => show win2_0.index t (0 : Fin 2) * 128 + 1 * p.val = win2_9.index t (0 : Fin 2) * 128 + 1 * p.val; omega
    | ⟨1, _⟩ => show win2_0.index t (1 : Fin 2) * 64 + 1 * j.val = j.val; omega
  have h1 : ∀ (n : Fin 8192) (j : Fin 64), iblk2 V c 1 t (ix2 n j) = V c main_v2 (ix2 n j) := fun n j => by
    have hn : n.val < 8192 := n.isLt
    have hj : j.val < 64 := j.isLt
    show V c main_v2 (((cfg2.win 1).blk t).view.emb (ix2 n j)) = V c main_v2 _
    refine congrArg (V c main_v2) (funext fun a => Fin.ext ?_)
    match a with
    | ⟨0, _⟩ => show win2_1.index t (0 : Fin 2) * 8192 + 1 * n.val = n.val; omega
    | ⟨1, _⟩ => show win2_1.index t (1 : Fin 2) * 64 + 1 * j.val = j.val; omega
  have hc : ∀ n : Fin 8192, iblk2 V c 3 t (ix2 n k) = V c main_v11 (ix2 n (⟨((((cfg2.win 9).blk t).view.emb (ix2 p k)) 1).val, idx2_lt1 _⟩ : Fin 64)) := fun n => by
    have hn : n.val < 8192 := n.isLt
    show V c main_v11 (((cfg2.win 3).blk t).view.emb (ix2 n k)) = V c main_v11 _
    refine congrArg (V c main_v11) (funext fun a => Fin.ext ?_)
    match a with
    | ⟨0, _⟩ => show win2_3.index t (0 : Fin 2) * 8192 + 1 * n.val = n.val; omega
    | ⟨1, _⟩ => show win2_3.index t (1 : Fin 2) * 64 + 1 * k.val = win2_9.index t (1 : Fin 2) * 64 + 1 * k.val; omega
  rw [ha]
  simp only [h0, h1, hc]
  rfl

/-- An index of the array is in point `t`'s block iff each coordinate is in the block's range on its axis. -/
theorem mem_blk2_9 (t : Fin cfg2.N) (i : S8192x64.Idx) :
    i ∈ ((cfg2.win 9).blk t).view.set ↔ ∀ a : Fin 2, win2_9.index t a * S128x64.size a ≤ (i a).val ∧ (i a).val < win2_9.index t a * S128x64.size a + S128x64.size a := by
  show i ∈ ((View.whole main_v16_1).slice (win2_9.rect t)).set ↔ _
  rw [View.set_slice_whole, Rect.mem_set_unit]
  exact Iff.rfl

/-- The blocks tile the array: every index is in some point's block. -/
theorem cover2w9 (i : S8192x64.Idx) : ∃ t : Fin cfg2.N, (cfg2.win 9).flush t = true ∧ i ∈ ((cfg2.win 9).blk t).view.set := by
  have hi0 : (i 0).val < 8192 := (i 0).isLt
  have hi1 : (i 1).val < 64 := (i 1).isLt
  obtain ⟨t, ht⟩ := onto2_9 ⟨(i 0).val / 128, by omega⟩
  have q0 : win2_9.index t (0 : Fin 2) = (i 0).val / 128 := congrFun ht 0
  have q1 : win2_9.index t (1 : Fin 2) = 0 := congrFun ht 1
  refine ⟨t, flush2_9 t, ?_⟩
  rw [mem_blk2_9]
  intro a
  match a with
  | ⟨0, _⟩ => show win2_9.index t (0 : Fin 2) * 128 ≤ (i 0).val ∧ (i 0).val < win2_9.index t (0 : Fin 2) * 128 + 128; omega
  | ⟨1, _⟩ => show win2_9.index t (1 : Fin 2) * 64 ≤ (i 1).val ∧ (i 1).val < win2_9.index t (1 : Fin 2) * 64 + 64; omega

/-- THE ARRAY after the run. -/
theorem final2_9 (c : Dev nD) : (dat2 V c).arrAt 9 cfg2.N = (passArr (M := 8192) (V c main_v2) (V c main_v2) (V c main_v11) (V c main_v14)) :=
  (dat2 V c).arrAt_eq_of_cover 9 _ (fun t _ => flushed2_9 V c t) (cover2w9)

/-! ## Output window 10 -/

/-- The printed index maps, decided over the grid: the row block and the running block move with the output block, the
    resident operands stay at block (0, 0). -/
theorem idx2_10 : ∀ t : Fin cfg2.N, win2_0.index t (0 : Fin 2) = win2_10.index t (0 : Fin 2) ∧ win2_0.index t (1 : Fin 2) = 0
    ∧ win2_7.index t (0 : Fin 2) = win2_10.index t (0 : Fin 2) ∧ win2_7.index t (1 : Fin 2) = 0
    ∧ win2_1.index t (0 : Fin 2) = 0 ∧ win2_1.index t (1 : Fin 2) = 0
    ∧ win2_4.index t (0 : Fin 2) = 0 ∧ win2_4.index t (1 : Fin 2) = 0
    ∧ win2_10.index t (1 : Fin 2) = 0 ∧ win2_10.index t (0 : Fin 2) ≤ 63 :=
  (by decide +kernel : ∀ t : Fin grid2.N, _)

/-- Every row block is some point's. -/
theorem onto2_10 : ∀ q : Fin 64, ∃ t : Fin cfg2.N, win2_10.index t = ![q.val, 0] :=
  (by decide +kernel : ∀ q : Fin 64, ∃ t : Fin grid2.N, win2_10.index t = ![q.val, 0])

/-- WHAT POINT `t` WRITES BACK is block `t` of the whole-array pass of the entry arrays. -/
theorem flushed2_10 (c : Dev nD) (t : Fin cfg2.N) :
    (dat2 V c).flushed 10 t = ((cfg2.win 10).blk t).view.read (Elt Ideal) (passArr (M := 8192) (V c main_v2) (V c main_v2) (V c main_v12) (V c main_v15)) := by
  show (cfg2.win 10).cut (grid2.coords t) ((dat2 V c).after 10 t) = _
  rw [after2_10]
  unfold out2_10
  rw [View.canon_unit_zero hz2]
  simp only [View.ld_unit_zero (S := S128x64) hz2, View.ld_unit_zero (S := S8192x64) hz2]
  rw [pay2_third]
  obtain ⟨e0, e1, e2, e3, e4, e5, e6, e7, e8, e9⟩ := idx2_10 t
  funext y
  obtain ⟨p, k, rfl⟩ : ∃ (p : Fin 128) (k : Fin 64), y = ix2 p k := ⟨y 0, y 1, eq_ix2 y⟩
  refine (passBlk_apply (iblk2 V c 0 t) (iblk2 V c 1 t) (iblk2 V c 4 t) (iblk2 V c 7 t) p k).trans ?_
  have hp : p.val < 128 := p.isLt
  have hk : k.val < 64 := k.isLt
  have ha : iblk2 V c 7 t (ix2 p k) = V c main_v15 (((cfg2.win 10).blk t).view.emb (ix2 p k)) := by
    show V c main_v15 (((cfg2.win 7).blk t).view.emb (ix2 p k)) = V c main_v15 (((cfg2.win 10).blk t).view.emb (ix2 p k))
    refine congrArg (V c main_v15) (funext fun a => Fin.ext ?_)
    match a with
    | ⟨0, _⟩ => show win2_7.index t (0 : Fin 2) * 128 + 1 * p.val = win2_10.index t (0 : Fin 2) * 128 + 1 * p.val; omega
    | ⟨1, _⟩ => show win2_7.index t (1 : Fin 2) * 64 + 1 * k.val = win2_10.index t (1 : Fin 2) * 64 + 1 * k.val; omega
  have h0 : ∀ j : Fin 64, iblk2 V c 0 t (ix2 p j) = V c main_v2 (ix2 (⟨((((cfg2.win 10).blk t).view.emb (ix2 p k)) 0).val, idx2_lt0 _⟩ : Fin 8192) j) := fun j => by
    have hj : j.val < 64 := j.isLt
    show V c main_v2 (((cfg2.win 0).blk t).view.emb (ix2 p j)) = V c main_v2 _
    refine congrArg (V c main_v2) (funext fun a => Fin.ext ?_)
    match a with
    | ⟨0, _⟩ => show win2_0.index t (0 : Fin 2) * 128 + 1 * p.val = win2_10.index t (0 : Fin 2) * 128 + 1 * p.val; omega
    | ⟨1, _⟩ => show win2_0.index t (1 : Fin 2) * 64 + 1 * j.val = j.val; omega
  have h1 : ∀ (n : Fin 8192) (j : Fin 64), iblk2 V c 1 t (ix2 n j) = V c main_v2 (ix2 n j) := fun n j => by
    have hn : n.val < 8192 := n.isLt
    have hj : j.val < 64 := j.isLt
    show V c main_v2 (((cfg2.win 1).blk t).view.emb (ix2 n j)) = V c main_v2 _
    refine congrArg (V c main_v2) (funext fun a => Fin.ext ?_)
    match a with
    | ⟨0, _⟩ => show win2_1.index t (0 : Fin 2) * 8192 + 1 * n.val = n.val; omega
    | ⟨1, _⟩ => show win2_1.index t (1 : Fin 2) * 64 + 1 * j.val = j.val; omega
  have hc : ∀ n : Fin 8192, iblk2 V c 4 t (ix2 n k) = V c main_v12 (ix2 n (⟨((((cfg2.win 10).blk t).view.emb (ix2 p k)) 1).val, idx2_lt1 _⟩ : Fin 64)) := fun n => by
    have hn : n.val < 8192 := n.isLt
    show V c main_v12 (((cfg2.win 4).blk t).view.emb (ix2 n k)) = V c main_v12 _
    refine congrArg (V c main_v12) (funext fun a => Fin.ext ?_)
    match a with
    | ⟨0, _⟩ => show win2_4.index t (0 : Fin 2) * 8192 + 1 * n.val = n.val; omega
    | ⟨1, _⟩ => show win2_4.index t (1 : Fin 2) * 64 + 1 * k.val = win2_10.index t (1 : Fin 2) * 64 + 1 * k.val; omega
  rw [ha]
  simp only [h0, h1, hc]
  rfl

/-- An index of the array is in point `t`'s block iff each coordinate is in the block's range on its axis. -/
theorem mem_blk2_10 (t : Fin cfg2.N) (i : S8192x64.Idx) :
    i ∈ ((cfg2.win 10).blk t).view.set ↔ ∀ a : Fin 2, win2_10.index t a * S128x64.size a ≤ (i a).val ∧ (i a).val < win2_10.index t a * S128x64.size a + S128x64.size a := by
  show i ∈ ((View.whole main_v16_2).slice (win2_10.rect t)).set ↔ _
  rw [View.set_slice_whole, Rect.mem_set_unit]
  exact Iff.rfl

/-- The blocks tile the array: every index is in some point's block. -/
theorem cover2w10 (i : S8192x64.Idx) : ∃ t : Fin cfg2.N, (cfg2.win 10).flush t = true ∧ i ∈ ((cfg2.win 10).blk t).view.set := by
  have hi0 : (i 0).val < 8192 := (i 0).isLt
  have hi1 : (i 1).val < 64 := (i 1).isLt
  obtain ⟨t, ht⟩ := onto2_10 ⟨(i 0).val / 128, by omega⟩
  have q0 : win2_10.index t (0 : Fin 2) = (i 0).val / 128 := congrFun ht 0
  have q1 : win2_10.index t (1 : Fin 2) = 0 := congrFun ht 1
  refine ⟨t, flush2_10 t, ?_⟩
  rw [mem_blk2_10]
  intro a
  match a with
  | ⟨0, _⟩ => show win2_10.index t (0 : Fin 2) * 128 ≤ (i 0).val ∧ (i 0).val < win2_10.index t (0 : Fin 2) * 128 + 128; omega
  | ⟨1, _⟩ => show win2_10.index t (1 : Fin 2) * 64 ≤ (i 1).val ∧ (i 1).val < win2_10.index t (1 : Fin 2) * 64 + 64; omega

/-- THE ARRAY after the run. -/
theorem final2_10 (c : Dev nD) : (dat2 V c).arrAt 10 cfg2.N = (passArr (M := 8192) (V c main_v2) (V c main_v2) (V c main_v12) (V c main_v15)) :=
  (dat2 V c).arrAt_eq_of_cover 10 _ (fun t _ => flushed2_10 V c t) (cover2w10)

end Cert.KernelIdeal.Gen

end
-- ==== Proof.IdealValue3.lean ====
/-
  Region 3's output arrays as whole-array functions of the arrays it was entered with. Point t writes back rows
  128·t … 128·t+127 of each output; the block it writes is one pass applied to the matching rows of the row block
  `u` and of the running block, with the resident rows `v` and coefficients whole. The blocks tile the array, so after the
  run every output array IS the whole-array pass of the entry arrays.
-/
import proofs.«117133_j29008209117207_1_alg».proof.Proof.IdealRegion3
import proofs.«117133_j29008209117207_1_alg».proof.Proof.IdealPass

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat)
open Cert.KernelIdeal.PassValue Cert.LibKernelSum

variable (V : (c : Dev nD) → (b : Ref sig .tc) → Buf (Elt Ideal) ((c : Thread nD τ).loc b))

/-! ## Output window 6 -/

/-- The printed index maps, decided over the grid: the row block and the running block move with the output block, the
    resident operands stay at block (0, 0). -/
theorem idx3_6 : ∀ t : Fin cfg3.N, win3_0.index t (0 : Fin 2) = win3_6.index t (0 : Fin 2) ∧ win3_0.index t (1 : Fin 2) = 0
    ∧ win3_4.index t (0 : Fin 2) = win3_6.index t (0 : Fin 2) ∧ win3_4.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_6.index t (1 : Fin 2) = 0 ∧ win3_6.index t (0 : Fin 2) ≤ 63 :=
  (by decide +kernel : ∀ t : Fin grid3.N, _)

/-- Every row block is some point's. -/
theorem onto3_6 : ∀ q : Fin 64, ∃ t : Fin cfg3.N, win3_6.index t = ![q.val, 0] :=
  (by decide +kernel : ∀ q : Fin 64, ∃ t : Fin grid3.N, win3_6.index t = ![q.val, 0])

/-- WHAT POINT `t` WRITES BACK is block `t` of the whole-array pass of the entry arrays. -/
theorem flushed3_6 (c : Dev nD) (t : Fin cfg3.N) :
    (dat3 V c).flushed 6 t = ((cfg3.win 6).blk t).view.read (Elt Ideal) (passArr (M := 8192) (V c main_v17) (V c main_v17) (V c main_v11) (V c main_v16_1)) := by
  show (cfg3.win 6).cut (grid3.coords t) ((dat3 V c).after 6 t) = _
  rw [after3_6]
  unfold out3_6
  rw [View.canon_unit_zero hz2]
  simp only [View.ld_unit_zero (S := S128x64) hz2, View.ld_unit_zero (S := S8192x64) hz2]
  rw [pay3_first]
  obtain ⟨e0, e1, e2, e3, e4, e5, e6, e7, e8, e9⟩ := idx3_6 t
  funext y
  obtain ⟨p, k, rfl⟩ : ∃ (p : Fin 128) (k : Fin 64), y = ix2 p k := ⟨y 0, y 1, eq_ix2 y⟩
  refine (passBlk_apply (iblk3 V c 0 t) (iblk3 V c 1 t) (iblk3 V c 2 t) (iblk3 V c 4 t) p k).trans ?_
  have hp : p.val < 128 := p.isLt
  have hk : k.val < 64 := k.isLt
  have ha : iblk3 V c 4 t (ix2 p k) = V c main_v16_1 (((cfg3.win 6).blk t).view.emb (ix2 p k)) := by
    show V c main_v16_1 (((cfg3.win 4).blk t).view.emb (ix2 p k)) = V c main_v16_1 (((cfg3.win 6).blk t).view.emb (ix2 p k))
    refine congrArg (V c main_v16_1) (funext fun a => Fin.ext ?_)
    match a with
    | ⟨0, _⟩ => show win3_4.index t (0 : Fin 2) * 128 + 1 * p.val = win3_6.index t (0 : Fin 2) * 128 + 1 * p.val; omega
    | ⟨1, _⟩ => show win3_4.index t (1 : Fin 2) * 64 + 1 * k.val = win3_6.index t (1 : Fin 2) * 64 + 1 * k.val; omega
  have h0 : ∀ j : Fin 64, iblk3 V c 0 t (ix2 p j) = V c main_v17 (ix2 (⟨((((cfg3.win 6).blk t).view.emb (ix2 p k)) 0).val, idx2_lt0 _⟩ : Fin 8192) j) := fun j => by
    have hj : j.val < 64 := j.isLt
    show V c main_v17 (((cfg3.win 0).blk t).view.emb (ix2 p j)) = V c main_v17 _
    refine congrArg (V c main_v17) (funext fun a => Fin.ext ?_)
    match a with
    | ⟨0, _⟩ => show win3_0.index t (0 : Fin 2) * 128 + 1 * p.val = win3_6.index t (0 : Fin 2) * 128 + 1 * p.val; omega
    | ⟨1, _⟩ => show win3_0.index t (1 : Fin 2) * 64 + 1 * j.val = j.val; omega
  have h1 : ∀ (n : Fin 8192) (j : Fin 64), iblk3 V c 1 t (ix2 n j) = V c main_v17 (ix2 n j) := fun n j => by
    have hn : n.val < 8192 := n.isLt
    have hj : j.val < 64 := j.isLt
    show V c main_v17 (((cfg3.win 1).blk t).view.emb (ix2 n j)) = V c main_v17 _
    refine congrArg (V c main_v17) (funext fun a => Fin.ext ?_)
    match a with
    | ⟨0, _⟩ => show win3_1.index t (0 : Fin 2) * 8192 + 1 * n.val = n.val; omega
    | ⟨1, _⟩ => show win3_1.index t (1 : Fin 2) * 64 + 1 * j.val = j.val; omega
  have hc : ∀ n : Fin 8192, iblk3 V c 2 t (ix2 n k) = V c main_v11 (ix2 n (⟨((((cfg3.win 6).blk t).view.emb (ix2 p k)) 1).val, idx2_lt1 _⟩ : Fin 64)) := fun n => by
    have hn : n.val < 8192 := n.isLt
    show V c main_v11 (((cfg3.win 2).blk t).view.emb (ix2 n k)) = V c main_v11 _
    refine congrArg (V c main_v11) (funext fun a => Fin.ext ?_)
    match a with
    | ⟨0, _⟩ => show win3_2.index t (0 : Fin 2) * 8192 + 1 * n.val = n.val; omega
    | ⟨1, _⟩ => show win3_2.index t (1 : Fin 2) * 64 + 1 * k.val = win3_6.index t (1 : Fin 2) * 64 + 1 * k.val; omega
  rw [ha]
  simp only [h0, h1, hc]
  rfl

/-- An index of the array is in point `t`'s block iff each coordinate is in the block's range on its axis. -/
theorem mem_blk3_6 (t : Fin cfg3.N) (i : S8192x64.Idx) :
    i ∈ ((cfg3.win 6).blk t).view.set ↔ ∀ a : Fin 2, win3_6.index t a * S128x64.size a ≤ (i a).val ∧ (i a).val < win3_6.index t a * S128x64.size a + S128x64.size a := by
  show i ∈ ((View.whole main_v18_0).slice (win3_6.rect t)).set ↔ _
  rw [View.set_slice_whole, Rect.mem_set_unit]
  exact Iff.rfl

/-- The blocks tile the array: every index is in some point's block. -/
theorem cover3w6 (i : S8192x64.Idx) : ∃ t : Fin cfg3.N, (cfg3.win 6).flush t = true ∧ i ∈ ((cfg3.win 6).blk t).view.set := by
  have hi0 : (i 0).val < 8192 := (i 0).isLt
  have hi1 : (i 1).val < 64 := (i 1).isLt
  obtain ⟨t, ht⟩ := onto3_6 ⟨(i 0).val / 128, by omega⟩
  have q0 : win3_6.index t (0 : Fin 2) = (i 0).val / 128 := congrFun ht 0
  have q1 : win3_6.index t (1 : Fin 2) = 0 := congrFun ht 1
  refine ⟨t, flush3_6 t, ?_⟩
  rw [mem_blk3_6]
  intro a
  match a with
  | ⟨0, _⟩ => show win3_6.index t (0 : Fin 2) * 128 ≤ (i 0).val ∧ (i 0).val < win3_6.index t (0 : Fin 2) * 128 + 128; omega
  | ⟨1, _⟩ => show win3_6.index t (1 : Fin 2) * 64 ≤ (i 1).val ∧ (i 1).val < win3_6.index t (1 : Fin 2) * 64 + 64; omega

/-- THE ARRAY after the run. -/
theorem final3_6 (c : Dev nD) : (dat3 V c).arrAt 6 cfg3.N = (passArr (M := 8192) (V c main_v17) (V c main_v17) (V c main_v11) (V c main_v16_1)) :=
  (dat3 V c).arrAt_eq_of_cover 6 _ (fun t _ => flushed3_6 V c t) (cover3w6)

/-! ## Output window 7 -/

/-- The printed index maps, decided over the grid: the row block and the running block move with the output block, the
    resident operands stay at block (0, 0). -/
theorem idx3_7 : ∀ t : Fin cfg3.N, win3_0.index t (0 : Fin 2) = win3_7.index t (0 : Fin 2) ∧ win3_0.index t (1 : Fin 2) = 0
    ∧ win3_5.index t (0 : Fin 2) = win3_7.index t (0 : Fin 2) ∧ win3_5.index t (1 : Fin 2) = 0
    ∧ win3_1.index t (0 : Fin 2) = 0 ∧ win3_1.index t (1 : Fin 2) = 0
    ∧ win3_3.index t (0 : Fin 2) = 0 ∧ win3_3.index t (1 : Fin 2) = 0
    ∧ win3_7.index t (1 : Fin 2) = 0 ∧ win3_7.index t (0 : Fin 2) ≤ 63 :=
  (by decide +kernel : ∀ t : Fin grid3.N, _)

/-- Every row block is some point's. -/
theorem onto3_7 : ∀ q : Fin 64, ∃ t : Fin cfg3.N, win3_7.index t = ![q.val, 0] :=
  (by decide +kernel : ∀ q : Fin 64, ∃ t : Fin grid3.N, win3_7.index t = ![q.val, 0])

/-- WHAT POINT `t` WRITES BACK is block `t` of the whole-array pass of the entry arrays. -/
theorem flushed3_7 (c : Dev nD) (t : Fin cfg3.N) :
    (dat3 V c).flushed 7 t = ((cfg3.win 7).blk t).view.read (Elt Ideal) (passArr (M := 8192) (V c main_v17) (V c main_v17) (V c main_v12) (V c main_v16_2)) := by
  show (cfg3.win 7).cut (grid3.coords t) ((dat3 V c).after 7 t) = _
  rw [after3_7]
  unfold out3_7
  rw [View.canon_unit_zero hz2]
  simp only [View.ld_unit_zero (S := S128x64) hz2, View.ld_unit_zero (S := S8192x64) hz2]
  rw [pay3_second]
  obtain ⟨e0, e1, e2, e3, e4, e5, e6, e7, e8, e9⟩ := idx3_7 t
  funext y
  obtain ⟨p, k, rfl⟩ : ∃ (p : Fin 128) (k : Fin 64), y = ix2 p k := ⟨y 0, y 1, eq_ix2 y⟩
  refine (passBlk_apply (iblk3 V c 0 t) (iblk3 V c 1 t) (iblk3 V c 3 t) (iblk3 V c 5 t) p k).trans ?_
  have hp : p.val < 128 := p.isLt
  have hk : k.val < 64 := k.isLt
  have ha : iblk3 V c 5 t (ix2 p k) = V c main_v16_2 (((cfg3.win 7).blk t).view.emb (ix2 p k)) := by
    show V c main_v16_2 (((cfg3.win 5).blk t).view.emb (ix2 p k)) = V c main_v16_2 (((cfg3.win 7).blk t).view.emb (ix2 p k))
    refine congrArg (V c main_v16_2) (funext fun a => Fin.ext ?_)
    match a with
    | ⟨0, _⟩ => show win3_5.index t (0 : Fin 2) * 128 + 1 * p.val = win3_7.index t (0 : Fin 2) * 128 + 1 * p.val; omega
    | ⟨1, _⟩ => show win3_5.index t (1 : Fin 2) * 64 + 1 * k.val = win3_7.index t (1 : Fin 2) * 64 + 1 * k.val; omega
  have h0 : ∀ j : Fin 64, iblk3 V c 0 t (ix2 p j) = V c main_v17 (ix2 (⟨((((cfg3.win 7).blk t).view.emb (ix2 p k)) 0).val, idx2_lt0 _⟩ : Fin 8192) j) := fun j => by
    have hj : j.val < 64 := j.isLt
    show V c main_v17 (((cfg3.win 0).blk t).view.emb (ix2 p j)) = V c main_v17 _
    refine congrArg (V c main_v17) (funext fun a => Fin.ext ?_)
    match a with
    | ⟨0, _⟩ => show win3_0.index t (0 : Fin 2) * 128 + 1 * p.val = win3_7.index t (0 : Fin 2) * 128 + 1 * p.val; omega
    | ⟨1, _⟩ => show win3_0.index t (1 : Fin 2) * 64 + 1 * j.val = j.val; omega
  have h1 : ∀ (n : Fin 8192) (j : Fin 64), iblk3 V c 1 t (ix2 n j) = V c main_v17 (ix2 n j) := fun n j => by
    have hn : n.val < 8192 := n.isLt
    have hj : j.val < 64 := j.isLt
    show V c main_v17 (((cfg3.win 1).blk t).view.emb (ix2 n j)) = V c main_v17 _
    refine congrArg (V c main_v17) (funext fun a => Fin.ext ?_)
    match a with
    | ⟨0, _⟩ => show win3_1.index t (0 : Fin 2) * 8192 + 1 * n.val = n.val; omega
    | ⟨1, _⟩ => show win3_1.index t (1 : Fin 2) * 64 + 1 * j.val = j.val; omega
  have hc : ∀ n : Fin 8192, iblk3 V c 3 t (ix2 n k) = V c main_v12 (ix2 n (⟨((((cfg3.win 7).blk t).view.emb (ix2 p k)) 1).val, idx2_lt1 _⟩ : Fin 64)) := fun n => by
    have hn : n.val < 8192 := n.isLt
    show V c main_v12 (((cfg3.win 3).blk t).view.emb (ix2 n k)) = V c main_v12 _
    refine congrArg (V c main_v12) (funext fun a => Fin.ext ?_)
    match a with
    | ⟨0, _⟩ => show win3_3.index t (0 : Fin 2) * 8192 + 1 * n.val = n.val; omega
    | ⟨1, _⟩ => show win3_3.index t (1 : Fin 2) * 64 + 1 * k.val = win3_7.index t (1 : Fin 2) * 64 + 1 * k.val; omega
  rw [ha]
  simp only [h0, h1, hc]
  rfl

/-- An index of the array is in point `t`'s block iff each coordinate is in the block's range on its axis. -/
theorem mem_blk3_7 (t : Fin cfg3.N) (i : S8192x64.Idx) :
    i ∈ ((cfg3.win 7).blk t).view.set ↔ ∀ a : Fin 2, win3_7.index t a * S128x64.size a ≤ (i a).val ∧ (i a).val < win3_7.index t a * S128x64.size a + S128x64.size a := by
  show i ∈ ((View.whole main_v18_1).slice (win3_7.rect t)).set ↔ _
  rw [View.set_slice_whole, Rect.mem_set_unit]
  exact Iff.rfl

/-- The blocks tile the array: every index is in some point's block. -/
theorem cover3w7 (i : S8192x64.Idx) : ∃ t : Fin cfg3.N, (cfg3.win 7).flush t = true ∧ i ∈ ((cfg3.win 7).blk t).view.set := by
  have hi0 : (i 0).val < 8192 := (i 0).isLt
  have hi1 : (i 1).val < 64 := (i 1).isLt
  obtain ⟨t, ht⟩ := onto3_7 ⟨(i 0).val / 128, by omega⟩
  have q0 : win3_7.index t (0 : Fin 2) = (i 0).val / 128 := congrFun ht 0
  have q1 : win3_7.index t (1 : Fin 2) = 0 := congrFun ht 1
  refine ⟨t, flush3_7 t, ?_⟩
  rw [mem_blk3_7]
  intro a
  match a with
  | ⟨0, _⟩ => show win3_7.index t (0 : Fin 2) * 128 ≤ (i 0).val ∧ (i 0).val < win3_7.index t (0 : Fin 2) * 128 + 128; omega
  | ⟨1, _⟩ => show win3_7.index t (1 : Fin 2) * 64 ≤ (i 1).val ∧ (i 1).val < win3_7.index t (1 : Fin 2) * 64 + 64; omega

/-- THE ARRAY after the run. -/
theorem final3_7 (c : Dev nD) : (dat3 V c).arrAt 7 cfg3.N = (passArr (M := 8192) (V c main_v17) (V c main_v17) (V c main_v12) (V c main_v16_2)) :=
  (dat3 V c).arrAt_eq_of_cover 7 _ (fun t _ => flushed3_7 V c t) (cover3w7)

end Cert.KernelIdeal.Gen

end
-- ==== Proof.IdealValue4.lean ====
/-
  Region 4's output arrays as whole-array functions of the arrays it was entered with. Point t writes back rows
  128·t … 128·t+127 of each output; the block it writes is one pass applied to the matching rows of the row block
  `u` and of the running block, with the resident rows `v` and coefficients whole. The blocks tile the array, so after the
  run every output array IS the whole-array pass of the entry arrays.
-/
import proofs.«117133_j29008209117207_1_alg».proof.Proof.IdealRegion4
import proofs.«117133_j29008209117207_1_alg».proof.Proof.IdealPass

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat)
open Cert.KernelIdeal.PassValue Cert.LibKernelSum

variable (V : (c : Dev nD) → (b : Ref sig .tc) → Buf (Elt Ideal) ((c : Thread nD τ).loc b))

/-! ## Output window 4 -/

/-- The printed index maps, decided over the grid: the row block and the running block move with the output block, the
    resident operands stay at block (0, 0). -/
theorem idx4_4 : ∀ t : Fin cfg4.N, win4_0.index t (0 : Fin 2) = win4_4.index t (0 : Fin 2) ∧ win4_0.index t (1 : Fin 2) = 0
    ∧ win4_3.index t (0 : Fin 2) = win4_4.index t (0 : Fin 2) ∧ win4_3.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_4.index t (1 : Fin 2) = 0 ∧ win4_4.index t (0 : Fin 2) ≤ 63 :=
  (by decide +kernel : ∀ t : Fin grid4.N, _)

/-- Every row block is some point's. -/
theorem onto4_4 : ∀ q : Fin 64, ∃ t : Fin cfg4.N, win4_4.index t = ![q.val, 0] :=
  (by decide +kernel : ∀ q : Fin 64, ∃ t : Fin grid4.N, win4_4.index t = ![q.val, 0])

/-- WHAT POINT `t` WRITES BACK is block `t` of the whole-array pass of the entry arrays. -/
theorem flushed4_4 (c : Dev nD) (t : Fin cfg4.N) :
    (dat4 V c).flushed 4 t = ((cfg4.win 4).blk t).view.read (Elt Ideal) (passArr (M := 8192) (V c main_v19) (V c main_v19) (V c main_v12) (V c main_v18_1)) := by
  show (cfg4.win 4).cut (grid4.coords t) ((dat4 V c).after 4 t) = _
  rw [after4_4]
  unfold out4_4
  rw [View.canon_unit_zero hz2]
  simp only [View.ld_unit_zero (S := S128x64) hz2, View.ld_unit_zero (S := S8192x64) hz2]
  rw [pay4_first]
  obtain ⟨e0, e1, e2, e3, e4, e5, e6, e7, e8, e9⟩ := idx4_4 t
  funext y
  obtain ⟨p, k, rfl⟩ : ∃ (p : Fin 128) (k : Fin 64), y = ix2 p k := ⟨y 0, y 1, eq_ix2 y⟩
  refine (passBlk_apply (iblk4 V c 0 t) (iblk4 V c 1 t) (iblk4 V c 2 t) (iblk4 V c 3 t) p k).trans ?_
  have hp : p.val < 128 := p.isLt
  have hk : k.val < 64 := k.isLt
  have ha : iblk4 V c 3 t (ix2 p k) = V c main_v18_1 (((cfg4.win 4).blk t).view.emb (ix2 p k)) := by
    show V c main_v18_1 (((cfg4.win 3).blk t).view.emb (ix2 p k)) = V c main_v18_1 (((cfg4.win 4).blk t).view.emb (ix2 p k))
    refine congrArg (V c main_v18_1) (funext fun a => Fin.ext ?_)
    match a with
    | ⟨0, _⟩ => show win4_3.index t (0 : Fin 2) * 128 + 1 * p.val = win4_4.index t (0 : Fin 2) * 128 + 1 * p.val; omega
    | ⟨1, _⟩ => show win4_3.index t (1 : Fin 2) * 64 + 1 * k.val = win4_4.index t (1 : Fin 2) * 64 + 1 * k.val; omega
  have h0 : ∀ j : Fin 64, iblk4 V c 0 t (ix2 p j) = V c main_v19 (ix2 (⟨((((cfg4.win 4).blk t).view.emb (ix2 p k)) 0).val, idx2_lt0 _⟩ : Fin 8192) j) := fun j => by
    have hj : j.val < 64 := j.isLt
    show V c main_v19 (((cfg4.win 0).blk t).view.emb (ix2 p j)) = V c main_v19 _
    refine congrArg (V c main_v19) (funext fun a => Fin.ext ?_)
    match a with
    | ⟨0, _⟩ => show win4_0.index t (0 : Fin 2) * 128 + 1 * p.val = win4_4.index t (0 : Fin 2) * 128 + 1 * p.val; omega
    | ⟨1, _⟩ => show win4_0.index t (1 : Fin 2) * 64 + 1 * j.val = j.val; omega
  have h1 : ∀ (n : Fin 8192) (j : Fin 64), iblk4 V c 1 t (ix2 n j) = V c main_v19 (ix2 n j) := fun n j => by
    have hn : n.val < 8192 := n.isLt
    have hj : j.val < 64 := j.isLt
    show V c main_v19 (((cfg4.win 1).blk t).view.emb (ix2 n j)) = V c main_v19 _
    refine congrArg (V c main_v19) (funext fun a => Fin.ext ?_)
    match a with
    | ⟨0, _⟩ => show win4_1.index t (0 : Fin 2) * 8192 + 1 * n.val = n.val; omega
    | ⟨1, _⟩ => show win4_1.index t (1 : Fin 2) * 64 + 1 * j.val = j.val; omega
  have hc : ∀ n : Fin 8192, iblk4 V c 2 t (ix2 n k) = V c main_v12 (ix2 n (⟨((((cfg4.win 4).blk t).view.emb (ix2 p k)) 1).val, idx2_lt1 _⟩ : Fin 64)) := fun n => by
    have hn : n.val < 8192 := n.isLt
    show V c main_v12 (((cfg4.win 2).blk t).view.emb (ix2 n k)) = V c main_v12 _
    refine congrArg (V c main_v12) (funext fun a => Fin.ext ?_)
    match a with
    | ⟨0, _⟩ => show win4_2.index t (0 : Fin 2) * 8192 + 1 * n.val = n.val; omega
    | ⟨1, _⟩ => show win4_2.index t (1 : Fin 2) * 64 + 1 * k.val = win4_4.index t (1 : Fin 2) * 64 + 1 * k.val; omega
  rw [ha]
  simp only [h0, h1, hc]
  rfl

/-- An index of the array is in point `t`'s block iff each coordinate is in the block's range on its axis. -/
theorem mem_blk4_4 (t : Fin cfg4.N) (i : S8192x64.Idx) :
    i ∈ ((cfg4.win 4).blk t).view.set ↔ ∀ a : Fin 2, win4_4.index t a * S128x64.size a ≤ (i a).val ∧ (i a).val < win4_4.index t a * S128x64.size a + S128x64.size a := by
  show i ∈ ((View.whole main_v20).slice (win4_4.rect t)).set ↔ _
  rw [View.set_slice_whole, Rect.mem_set_unit]
  exact Iff.rfl

/-- The blocks tile the array: every index is in some point's block. -/
theorem cover4w4 (i : S8192x64.Idx) : ∃ t : Fin cfg4.N, (cfg4.win 4).flush t = true ∧ i ∈ ((cfg4.win 4).blk t).view.set := by
  have hi0 : (i 0).val < 8192 := (i 0).isLt
  have hi1 : (i 1).val < 64 := (i 1).isLt
  obtain ⟨t, ht⟩ := onto4_4 ⟨(i 0).val / 128, by omega⟩
  have q0 : win4_4.index t (0 : Fin 2) = (i 0).val / 128 := congrFun ht 0
  have q1 : win4_4.index t (1 : Fin 2) = 0 := congrFun ht 1
  refine ⟨t, flush4_4 t, ?_⟩
  rw [mem_blk4_4]
  intro a
  match a with
  | ⟨0, _⟩ => show win4_4.index t (0 : Fin 2) * 128 ≤ (i 0).val ∧ (i 0).val < win4_4.index t (0 : Fin 2) * 128 + 128; omega
  | ⟨1, _⟩ => show win4_4.index t (1 : Fin 2) * 64 ≤ (i 1).val ∧ (i 1).val < win4_4.index t (1 : Fin 2) * 64 + 64; omega

/-- THE ARRAY after the run. -/
theorem final4_4 (c : Dev nD) : (dat4 V c).arrAt 4 cfg4.N = (passArr (M := 8192) (V c main_v19) (V c main_v19) (V c main_v12) (V c main_v18_1)) :=
  (dat4 V c).arrAt_eq_of_cover 4 _ (fun t _ => flushed4_4 V c t) (cover4w4)

end Cert.KernelIdeal.Gen

end
-- ==== Proof.IdealValue5.lean ====
/-
  Region 5's output arrays as whole-array functions of the arrays it was entered with. Point t writes back rows
  128·t … 128·t+127 of each output; the block it writes is one pass applied to the matching rows of the row block
  `u` and of the running block, with the resident rows `v` and coefficients whole. The blocks tile the array, so after the
  run every output array IS the whole-array pass of the entry arrays.
-/
import proofs.«117133_j29008209117207_1_alg».proof.Proof.IdealRegion5
import proofs.«117133_j29008209117207_1_alg».proof.Proof.IdealPass

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat)
open Cert.KernelIdeal.PassValue Cert.LibKernelSum

variable (V : (c : Dev nD) → (b : Ref sig .tc) → Buf (Elt Ideal) ((c : Thread nD τ).loc b))

/-! ## Output window 8 -/

/-- The printed index maps, decided over the grid: the row block and the running block move with the output block, the
    resident operands stay at block (0, 0). -/
theorem idx5_8 : ∀ t : Fin cfg5.N, win5_0.index t (0 : Fin 2) = win5_8.index t (0 : Fin 2) ∧ win5_0.index t (1 : Fin 2) = 0
    ∧ win5_5.index t (0 : Fin 2) = win5_8.index t (0 : Fin 2) ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_8.index t (1 : Fin 2) = 0 ∧ win5_8.index t (0 : Fin 2) ≤ 15 :=
  (by decide +kernel : ∀ t : Fin grid5.N, _)

/-- Every row block is some point's. -/
theorem onto5_8 : ∀ q : Fin 16, ∃ t : Fin cfg5.N, win5_8.index t = ![q.val, 0] :=
  (by decide +kernel : ∀ q : Fin 16, ∃ t : Fin grid5.N, win5_8.index t = ![q.val, 0])

/-- WHAT POINT `t` WRITES BACK is block `t` of the whole-array pass of the entry arrays. -/
theorem flushed5_8 (c : Dev nD) (t : Fin cfg5.N) :
    (dat5 V c).flushed 8 t = ((cfg5.win 8).blk t).view.read (Elt Ideal) (passArr (M := 2048) (V c main_v6) (V c main_v2) (V c main_v10) (V c main_v36)) := by
  show (cfg5.win 8).cut (grid5.coords t) ((dat5 V c).after 8 t) = _
  rw [after5_8]
  unfold out5_8
  rw [View.canon_unit_zero hz2]
  simp only [View.ld_unit_zero (S := S128x64) hz2, View.ld_unit_zero (S := S8192x64) hz2]
  rw [pay5_first]
  obtain ⟨e0, e1, e2, e3, e4, e5, e6, e7, e8, e9⟩ := idx5_8 t
  funext y
  obtain ⟨p, k, rfl⟩ : ∃ (p : Fin 128) (k : Fin 64), y = ix2 p k := ⟨y 0, y 1, eq_ix2 y⟩
  refine (passBlk_apply (iblk5 V c 0 t) (iblk5 V c 1 t) (iblk5 V c 2 t) (iblk5 V c 5 t) p k).trans ?_
  have hp : p.val < 128 := p.isLt
  have hk : k.val < 64 := k.isLt
  have ha : iblk5 V c 5 t (ix2 p k) = V c main_v36 (((cfg5.win 8).blk t).view.emb (ix2 p k)) := by
    show V c main_v36 (((cfg5.win 5).blk t).view.emb (ix2 p k)) = V c main_v36 (((cfg5.win 8).blk t).view.emb (ix2 p k))
    refine congrArg (V c main_v36) (funext fun a => Fin.ext ?_)
    match a with
    | ⟨0, _⟩ => show win5_5.index t (0 : Fin 2) * 128 + 1 * p.val = win5_8.index t (0 : Fin 2) * 128 + 1 * p.val; omega
    | ⟨1, _⟩ => show win5_5.index t (1 : Fin 2) * 64 + 1 * k.val = win5_8.index t (1 : Fin 2) * 64 + 1 * k.val; omega
  have h0 : ∀ j : Fin 64, iblk5 V c 0 t (ix2 p j) = V c main_v6 (ix2 (⟨((((cfg5.win 8).blk t).view.emb (ix2 p k)) 0).val, idx2_lt0 _⟩ : Fin 2048) j) := fun j => by
    have hj : j.val < 64 := j.isLt
    show V c main_v6 (((cfg5.win 0).blk t).view.emb (ix2 p j)) = V c main_v6 _
    refine congrArg (V c main_v6) (funext fun a => Fin.ext ?_)
    match a with
    | ⟨0, _⟩ => show win5_0.index t (0 : Fin 2) * 128 + 1 * p.val = win5_8.index t (0 : Fin 2) * 128 + 1 * p.val; omega
    | ⟨1, _⟩ => show win5_0.index t (1 : Fin 2) * 64 + 1 * j.val = j.val; omega
  have h1 : ∀ (n : Fin 8192) (j : Fin 64), iblk5 V c 1 t (ix2 n j) = V c main_v2 (ix2 n j) := fun n j => by
    have hn : n.val < 8192 := n.isLt
    have hj : j.val < 64 := j.isLt
    show V c main_v2 (((cfg5.win 1).blk t).view.emb (ix2 n j)) = V c main_v2 _
    refine congrArg (V c main_v2) (funext fun a => Fin.ext ?_)
    match a with
    | ⟨0, _⟩ => show win5_1.index t (0 : Fin 2) * 8192 + 1 * n.val = n.val; omega
    | ⟨1, _⟩ => show win5_1.index t (1 : Fin 2) * 64 + 1 * j.val = j.val; omega
  have hc : ∀ n : Fin 8192, iblk5 V c 2 t (ix2 n k) = V c main_v10 (ix2 n (⟨((((cfg5.win 8).blk t).view.emb (ix2 p k)) 1).val, idx2_lt1 _⟩ : Fin 64)) := fun n => by
    have hn : n.val < 8192 := n.isLt
    show V c main_v10 (((cfg5.win 2).blk t).view.emb (ix2 n k)) = V c main_v10 _
    refine congrArg (V c main_v10) (funext fun a => Fin.ext ?_)
    match a with
    | ⟨0, _⟩ => show win5_2.index t (0 : Fin 2) * 8192 + 1 * n.val = n.val; omega
    | ⟨1, _⟩ => show win5_2.index t (1 : Fin 2) * 64 + 1 * k.val = win5_8.index t (1 : Fin 2) * 64 + 1 * k.val; omega
  rw [ha]
  simp only [h0, h1, hc]
  rfl

/-- An index of the array is in point `t`'s block iff each coordinate is in the block's range on its axis. -/
theorem mem_blk5_8 (t : Fin cfg5.N) (i : S2048x64.Idx) :
    i ∈ ((cfg5.win 8).blk t).view.set ↔ ∀ a : Fin 2, win5_8.index t a * S128x64.size a ≤ (i a).val ∧ (i a).val < win5_8.index t a * S128x64.size a + S128x64.size a := by
  show i ∈ ((View.whole main_v39_0).slice (win5_8.rect t)).set ↔ _
  rw [View.set_slice_whole, Rect.mem_set_unit]
  exact Iff.rfl

/-- The blocks tile the array: every index is in some point's block. -/
theorem cover5w8 (i : S2048x64.Idx) : ∃ t : Fin cfg5.N, (cfg5.win 8).flush t = true ∧ i ∈ ((cfg5.win 8).blk t).view.set := by
  have hi0 : (i 0).val < 2048 := (i 0).isLt
  have hi1 : (i 1).val < 64 := (i 1).isLt
  obtain ⟨t, ht⟩ := onto5_8 ⟨(i 0).val / 128, by omega⟩
  have q0 : win5_8.index t (0 : Fin 2) = (i 0).val / 128 := congrFun ht 0
  have q1 : win5_8.index t (1 : Fin 2) = 0 := congrFun ht 1
  refine ⟨t, flush5_8 t, ?_⟩
  rw [mem_blk5_8]
  intro a
  match a with
  | ⟨0, _⟩ => show win5_8.index t (0 : Fin 2) * 128 ≤ (i 0).val ∧ (i 0).val < win5_8.index t (0 : Fin 2) * 128 + 128; omega
  | ⟨1, _⟩ => show win5_8.index t (1 : Fin 2) * 64 ≤ (i 1).val ∧ (i 1).val < win5_8.index t (1 : Fin 2) * 64 + 64; omega

/-- THE ARRAY after the run. -/
theorem final5_8 (c : Dev nD) : (dat5 V c).arrAt 8 cfg5.N = (passArr (M := 2048) (V c main_v6) (V c main_v2) (V c main_v10) (V c main_v36)) :=
  (dat5 V c).arrAt_eq_of_cover 8 _ (fun t _ => flushed5_8 V c t) (cover5w8)

/-! ## Output window 9 -/

/-- The printed index maps, decided over the grid: the row block and the running block move with the output block, the
    resident operands stay at block (0, 0). -/
theorem idx5_9 : ∀ t : Fin cfg5.N, win5_0.index t (0 : Fin 2) = win5_9.index t (0 : Fin 2) ∧ win5_0.index t (1 : Fin 2) = 0
    ∧ win5_6.index t (0 : Fin 2) = win5_9.index t (0 : Fin 2) ∧ win5_6.index t (1 : Fin 2) = 0
    ∧ win5_1.index t (0 : Fin 2) = 0 ∧ win5_1.index t (1 : Fin 2) = 0
    ∧ win5_3.index t (0 : Fin 2) = 0 ∧ win5_3.index t (1 : Fin 2) = 0
    ∧ win5_9.index t (1 : Fin 2) = 0 ∧ win5_9.index t (0 : Fin 2) ≤ 15 :=
  (by decide +kernel : ∀ t : Fin grid5.N, _)

/-- Every row block is some point's. -/
theorem onto5_9 : ∀ q : Fin 16, ∃ t : Fin cfg5.N, win5_9.index t = ![q.val, 0] :=
  (by decide +kernel : ∀ q : Fin 16, ∃ t : Fin grid5.N, win5_9.index t = ![q.val, 0])

/-- WHAT POINT `t` WRITES BACK is block `t` of the whole-array pass of the entry arrays. -/
theorem flushed5_9 (c : Dev nD) (t : Fin cfg5.N) :
    (dat5 V c).flushed 9 t = ((cfg5.win 9).blk t).view.read (Elt Ideal) (passArr (M := 2048) (V c main_v6) (V c main_v2) (V c main_v11) (V c main_v37)) := by
  show (cfg5.win 9).cut (grid5.coords t) ((dat5 V c).after 9 t) = _
  rw [after5_9]
  unfold out5_9
  rw [View.canon_unit_zero hz2]
  simp only [View.ld_unit_zero (S := S128x64) hz2, View.ld_unit_zero (S := S8192x64) hz2]
  rw [pay5_second]
  obtain ⟨e0, e1, e2, e3, e4, e5, e6, e7, e8, e9⟩ := idx5_9 t
  funext y
  obtain ⟨p, k, rfl⟩ : ∃ (p : Fin 128) (k : Fin 64), y = ix2 p k := ⟨y 0, y 1, eq_ix2 y⟩
  refine (passBlk_apply (iblk5 V c 0 t) (iblk5 V c 1 t) (iblk5 V c 3 t) (iblk5 V c 6 t) p k).trans ?_
  have hp : p.val < 128 := p.isLt
  have hk : k.val < 64 := k.isLt
  have ha : iblk5 V c 6 t (ix2 p k) = V c main_v37 (((cfg5.win 9).blk t).view.emb (ix2 p k)) := by
    show V c main_v37 (((cfg5.win 6).blk t).view.emb (ix2 p k)) = V c main_v37 (((cfg5.win 9).blk t).view.emb (ix2 p k))
    refine congrArg (V c main_v37) (funext fun a => Fin.ext ?_)
    match a with
    | ⟨0, _⟩ => show win5_6.index t (0 : Fin 2) * 128 + 1 * p.val = win5_9.index t (0 : Fin 2) * 128 + 1 * p.val; omega
    | ⟨1, _⟩ => show win5_6.index t (1 : Fin 2) * 64 + 1 * k.val = win5_9.index t (1 : Fin 2) * 64 + 1 * k.val; omega
  have h0 : ∀ j : Fin 64, iblk5 V c 0 t (ix2 p j) = V c main_v6 (ix2 (⟨((((cfg5.win 9).blk t).view.emb (ix2 p k)) 0).val, idx2_lt0 _⟩ : Fin 2048) j) := fun j => by
    have hj : j.val < 64 := j.isLt
    show V c main_v6 (((cfg5.win 0).blk t).view.emb (ix2 p j)) = V c main_v6 _
    refine congrArg (V c main_v6) (funext fun a => Fin.ext ?_)
    match a with
    | ⟨0, _⟩ => show win5_0.index t (0 : Fin 2) * 128 + 1 * p.val = win5_9.index t (0 : Fin 2) * 128 + 1 * p.val; omega
    | ⟨1, _⟩ => show win5_0.index t (1 : Fin 2) * 64 + 1 * j.val = j.val; omega
  have h1 : ∀ (n : Fin 8192) (j : Fin 64), iblk5 V c 1 t (ix2 n j) = V c main_v2 (ix2 n j) := fun n j => by
    have hn : n.val < 8192 := n.isLt
    have hj : j.val < 64 := j.isLt
    show V c main_v2 (((cfg5.win 1).blk t).view.emb (ix2 n j)) = V c main_v2 _
    refine congrArg (V c main_v2) (funext fun a => Fin.ext ?_)
    match a with
    | ⟨0, _⟩ => show win5_1.index t (0 : Fin 2) * 8192 + 1 * n.val = n.val; omega
    | ⟨1, _⟩ => show win5_1.index t (1 : Fin 2) * 64 + 1 * j.val = j.val; omega
  have hc : ∀ n : Fin 8192, iblk5 V c 3 t (ix2 n k) = V c main_v11 (ix2 n (⟨((((cfg5.win 9).blk t).view.emb (ix2 p k)) 1).val, idx2_lt1 _⟩ : Fin 64)) := fun n => by
    have hn : n.val < 8192 := n.isLt
    show V c main_v11 (((cfg5.win 3).blk t).view.emb (ix2 n k)) = V c main_v11 _
    refine congrArg (V c main_v11) (funext fun a => Fin.ext ?_)
    match a with
    | ⟨0, _⟩ => show win5_3.index t (0 : Fin 2) * 8192 + 1 * n.val = n.val; omega
    | ⟨1, _⟩ => show win5_3.index t (1 : Fin 2) * 64 + 1 * k.val = win5_9.index t (1 : Fin 2) * 64 + 1 * k.val; omega
  rw [ha]
  simp only [h0, h1, hc]
  rfl

/-- An index of the array is in point `t`'s block iff each coordinate is in the block's range on its axis. -/
theorem mem_blk5_9 (t : Fin cfg5.N) (i : S2048x64.Idx) :
    i ∈ ((cfg5.win 9).blk t).view.set ↔ ∀ a : Fin 2, win5_9.index t a * S128x64.size a ≤ (i a).val ∧ (i a).val < win5_9.index t a * S128x64.size a + S128x64.size a := by
  show i ∈ ((View.whole main_v39_1).slice (win5_9.rect t)).set ↔ _
  rw [View.set_slice_whole, Rect.mem_set_unit]
  exact Iff.rfl

/-- The blocks tile the array: every index is in some point's block. -/
theorem cover5w9 (i : S2048x64.Idx) : ∃ t : Fin cfg5.N, (cfg5.win 9).flush t = true ∧ i ∈ ((cfg5.win 9).blk t).view.set := by
  have hi0 : (i 0).val < 2048 := (i 0).isLt
  have hi1 : (i 1).val < 64 := (i 1).isLt
  obtain ⟨t, ht⟩ := onto5_9 ⟨(i 0).val / 128, by omega⟩
  have q0 : win5_9.index t (0 : Fin 2) = (i 0).val / 128 := congrFun ht 0
  have q1 : win5_9.index t (1 : Fin 2) = 0 := congrFun ht 1
  refine ⟨t, flush5_9 t, ?_⟩
  rw [mem_blk5_9]
  intro a
  match a with
  | ⟨0, _⟩ => show win5_9.index t (0 : Fin 2) * 128 ≤ (i 0).val ∧ (i 0).val < win5_9.index t (0 : Fin 2) * 128 + 128; omega
  | ⟨1, _⟩ => show win5_9.index t (1 : Fin 2) * 64 ≤ (i 1).val ∧ (i 1).val < win5_9.index t (1 : Fin 2) * 64 + 64; omega

/-- THE ARRAY after the run. -/
theorem final5_9 (c : Dev nD) : (dat5 V c).arrAt 9 cfg5.N = (passArr (M := 2048) (V c main_v6) (V c main_v2) (V c main_v11) (V c main_v37)) :=
  (dat5 V c).arrAt_eq_of_cover 9 _ (fun t _ => flushed5_9 V c t) (cover5w9)

/-! ## Output window 10 -/

/-- The printed index maps, decided over the grid: the row block and the running block move with the output block, the
    resident operands stay at block (0, 0). -/
theorem idx5_10 : ∀ t : Fin cfg5.N, win5_0.index t (0 : Fin 2) = win5_10.index t (0 : Fin 2) ∧ win5_0.index t (1 : Fin 2) = 0
    ∧ win5_7.index t (0 : Fin 2) = win5_10.index t (0 : Fin 2) ∧ win5_7.index t (1 : Fin 2) = 0
    ∧ win5_1.index t (0 : Fin 2) = 0 ∧ win5_1.index t (1 : Fin 2) = 0
    ∧ win5_4.index t (0 : Fin 2) = 0 ∧ win5_4.index t (1 : Fin 2) = 0
    ∧ win5_10.index t (1 : Fin 2) = 0 ∧ win5_10.index t (0 : Fin 2) ≤ 15 :=
  (by decide +kernel : ∀ t : Fin grid5.N, _)

/-- Every row block is some point's. -/
theorem onto5_10 : ∀ q : Fin 16, ∃ t : Fin cfg5.N, win5_10.index t = ![q.val, 0] :=
  (by decide +kernel : ∀ q : Fin 16, ∃ t : Fin grid5.N, win5_10.index t = ![q.val, 0])

/-- WHAT POINT `t` WRITES BACK is block `t` of the whole-array pass of the entry arrays. -/
theorem flushed5_10 (c : Dev nD) (t : Fin cfg5.N) :
    (dat5 V c).flushed 10 t = ((cfg5.win 10).blk t).view.read (Elt Ideal) (passArr (M := 2048) (V c main_v6) (V c main_v2) (V c main_v12) (V c main_v38)) := by
  show (cfg5.win 10).cut (grid5.coords t) ((dat5 V c).after 10 t) = _
  rw [after5_10]
  unfold out5_10
  rw [View.canon_unit_zero hz2]
  simp only [View.ld_unit_zero (S := S128x64) hz2, View.ld_unit_zero (S := S8192x64) hz2]
  rw [pay5_third]
  obtain ⟨e0, e1, e2, e3, e4, e5, e6, e7, e8, e9⟩ := idx5_10 t
  funext y
  obtain ⟨p, k, rfl⟩ : ∃ (p : Fin 128) (k : Fin 64), y = ix2 p k := ⟨y 0, y 1, eq_ix2 y⟩
  refine (passBlk_apply (iblk5 V c 0 t) (iblk5 V c 1 t) (iblk5 V c 4 t) (iblk5 V c 7 t) p k).trans ?_
  have hp : p.val < 128 := p.isLt
  have hk : k.val < 64 := k.isLt
  have ha : iblk5 V c 7 t (ix2 p k) = V c main_v38 (((cfg5.win 10).blk t).view.emb (ix2 p k)) := by
    show V c main_v38 (((cfg5.win 7).blk t).view.emb (ix2 p k)) = V c main_v38 (((cfg5.win 10).blk t).view.emb (ix2 p k))
    refine congrArg (V c main_v38) (funext fun a => Fin.ext ?_)
    match a with
    | ⟨0, _⟩ => show win5_7.index t (0 : Fin 2) * 128 + 1 * p.val = win5_10.index t (0 : Fin 2) * 128 + 1 * p.val; omega
    | ⟨1, _⟩ => show win5_7.index t (1 : Fin 2) * 64 + 1 * k.val = win5_10.index t (1 : Fin 2) * 64 + 1 * k.val; omega
  have h0 : ∀ j : Fin 64, iblk5 V c 0 t (ix2 p j) = V c main_v6 (ix2 (⟨((((cfg5.win 10).blk t).view.emb (ix2 p k)) 0).val, idx2_lt0 _⟩ : Fin 2048) j) := fun j => by
    have hj : j.val < 64 := j.isLt
    show V c main_v6 (((cfg5.win 0).blk t).view.emb (ix2 p j)) = V c main_v6 _
    refine congrArg (V c main_v6) (funext fun a => Fin.ext ?_)
    match a with
    | ⟨0, _⟩ => show win5_0.index t (0 : Fin 2) * 128 + 1 * p.val = win5_10.index t (0 : Fin 2) * 128 + 1 * p.val; omega
    | ⟨1, _⟩ => show win5_0.index t (1 : Fin 2) * 64 + 1 * j.val = j.val; omega
  have h1 : ∀ (n : Fin 8192) (j : Fin 64), iblk5 V c 1 t (ix2 n j) = V c main_v2 (ix2 n j) := fun n j => by
    have hn : n.val < 8192 := n.isLt
    have hj : j.val < 64 := j.isLt
    show V c main_v2 (((cfg5.win 1).blk t).view.emb (ix2 n j)) = V c main_v2 _
    refine congrArg (V c main_v2) (funext fun a => Fin.ext ?_)
    match a with
    | ⟨0, _⟩ => show win5_1.index t (0 : Fin 2) * 8192 + 1 * n.val = n.val; omega
    | ⟨1, _⟩ => show win5_1.index t (1 : Fin 2) * 64 + 1 * j.val = j.val; omega
  have hc : ∀ n : Fin 8192, iblk5 V c 4 t (ix2 n k) = V c main_v12 (ix2 n (⟨((((cfg5.win 10).blk t).view.emb (ix2 p k)) 1).val, idx2_lt1 _⟩ : Fin 64)) := fun n => by
    have hn : n.val < 8192 := n.isLt
    show V c main_v12 (((cfg5.win 4).blk t).view.emb (ix2 n k)) = V c main_v12 _
    refine congrArg (V c main_v12) (funext fun a => Fin.ext ?_)
    match a with
    | ⟨0, _⟩ => show win5_4.index t (0 : Fin 2) * 8192 + 1 * n.val = n.val; omega
    | ⟨1, _⟩ => show win5_4.index t (1 : Fin 2) * 64 + 1 * k.val = win5_10.index t (1 : Fin 2) * 64 + 1 * k.val; omega
  rw [ha]
  simp only [h0, h1, hc]
  rfl

/-- An index of the array is in point `t`'s block iff each coordinate is in the block's range on its axis. -/
theorem mem_blk5_10 (t : Fin cfg5.N) (i : S2048x64.Idx) :
    i ∈ ((cfg5.win 10).blk t).view.set ↔ ∀ a : Fin 2, win5_10.index t a * S128x64.size a ≤ (i a).val ∧ (i a).val < win5_10.index t a * S128x64.size a + S128x64.size a := by
  show i ∈ ((View.whole main_v39_2).slice (win5_10.rect t)).set ↔ _
  rw [View.set_slice_whole, Rect.mem_set_unit]
  exact Iff.rfl

/-- The blocks tile the array: every index is in some point's block. -/
theorem cover5w10 (i : S2048x64.Idx) : ∃ t : Fin cfg5.N, (cfg5.win 10).flush t = true ∧ i ∈ ((cfg5.win 10).blk t).view.set := by
  have hi0 : (i 0).val < 2048 := (i 0).isLt
  have hi1 : (i 1).val < 64 := (i 1).isLt
  obtain ⟨t, ht⟩ := onto5_10 ⟨(i 0).val / 128, by omega⟩
  have q0 : win5_10.index t (0 : Fin 2) = (i 0).val / 128 := congrFun ht 0
  have q1 : win5_10.index t (1 : Fin 2) = 0 := congrFun ht 1
  refine ⟨t, flush5_10 t, ?_⟩
  rw [mem_blk5_10]
  intro a
  match a with
  | ⟨0, _⟩ => show win5_10.index t (0 : Fin 2) * 128 ≤ (i 0).val ∧ (i 0).val < win5_10.index t (0 : Fin 2) * 128 + 128; omega
  | ⟨1, _⟩ => show win5_10.index t (1 : Fin 2) * 64 ≤ (i 1).val ∧ (i 1).val < win5_10.index t (1 : Fin 2) * 64 + 64; omega

/-- THE ARRAY after the run. -/
theorem final5_10 (c : Dev nD) : (dat5 V c).arrAt 10 cfg5.N = (passArr (M := 2048) (V c main_v6) (V c main_v2) (V c main_v12) (V c main_v38)) :=
  (dat5 V c).arrAt_eq_of_cover 10 _ (fun t _ => flushed5_10 V c t) (cover5w10)

end Cert.KernelIdeal.Gen

end
-- ==== Proof.IdealValue6.lean ====
/-
  Region 6's output arrays as whole-array functions of the arrays it was entered with. Point t writes back rows
  128·t … 128·t+127 of each output; the block it writes is one pass applied to the matching rows of the row block
  `u` and of the running block, with the resident rows `v` and coefficients whole. The blocks tile the array, so after the
  run every output array IS the whole-array pass of the entry arrays.
-/
import proofs.«117133_j29008209117207_1_alg».proof.Proof.IdealRegion6
import proofs.«117133_j29008209117207_1_alg».proof.Proof.IdealPass

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat)
open Cert.KernelIdeal.PassValue Cert.LibKernelSum

variable (V : (c : Dev nD) → (b : Ref sig .tc) → Buf (Elt Ideal) ((c : Thread nD τ).loc b))

/-! ## Output window 6 -/

/-- The printed index maps, decided over the grid: the row block and the running block move with the output block, the
    resident operands stay at block (0, 0). -/
theorem idx6_6 : ∀ t : Fin cfg6.N, win6_0.index t (0 : Fin 2) = win6_6.index t (0 : Fin 2) ∧ win6_0.index t (1 : Fin 2) = 0
    ∧ win6_4.index t (0 : Fin 2) = win6_6.index t (0 : Fin 2) ∧ win6_4.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_6.index t (1 : Fin 2) = 0 ∧ win6_6.index t (0 : Fin 2) ≤ 15 :=
  (by decide +kernel : ∀ t : Fin grid6.N, _)

/-- Every row block is some point's. -/
theorem onto6_6 : ∀ q : Fin 16, ∃ t : Fin cfg6.N, win6_6.index t = ![q.val, 0] :=
  (by decide +kernel : ∀ q : Fin 16, ∃ t : Fin grid6.N, win6_6.index t = ![q.val, 0])

/-- WHAT POINT `t` WRITES BACK is block `t` of the whole-array pass of the entry arrays. -/
theorem flushed6_6 (c : Dev nD) (t : Fin cfg6.N) :
    (dat6 V c).flushed 6 t = ((cfg6.win 6).blk t).view.read (Elt Ideal) (passArr (M := 2048) (V c main_v40) (V c main_v17) (V c main_v11) (V c main_v39_1)) := by
  show (cfg6.win 6).cut (grid6.coords t) ((dat6 V c).after 6 t) = _
  rw [after6_6]
  unfold out6_6
  rw [View.canon_unit_zero hz2]
  simp only [View.ld_unit_zero (S := S128x64) hz2, View.ld_unit_zero (S := S8192x64) hz2]
  rw [pay6_first]
  obtain ⟨e0, e1, e2, e3, e4, e5, e6, e7, e8, e9⟩ := idx6_6 t
  funext y
  obtain ⟨p, k, rfl⟩ : ∃ (p : Fin 128) (k : Fin 64), y = ix2 p k := ⟨y 0, y 1, eq_ix2 y⟩
  refine (passBlk_apply (iblk6 V c 0 t) (iblk6 V c 1 t) (iblk6 V c 2 t) (iblk6 V c 4 t) p k).trans ?_
  have hp : p.val < 128 := p.isLt
  have hk : k.val < 64 := k.isLt
  have ha : iblk6 V c 4 t (ix2 p k) = V c main_v39_1 (((cfg6.win 6).blk t).view.emb (ix2 p k)) := by
    show V c main_v39_1 (((cfg6.win 4).blk t).view.emb (ix2 p k)) = V c main_v39_1 (((cfg6.win 6).blk t).view.emb (ix2 p k))
    refine congrArg (V c main_v39_1) (funext fun a => Fin.ext ?_)
    match a with
    | ⟨0, _⟩ => show win6_4.index t (0 : Fin 2) * 128 + 1 * p.val = win6_6.index t (0 : Fin 2) * 128 + 1 * p.val; omega
    | ⟨1, _⟩ => show win6_4.index t (1 : Fin 2) * 64 + 1 * k.val = win6_6.index t (1 : Fin 2) * 64 + 1 * k.val; omega
  have h0 : ∀ j : Fin 64, iblk6 V c 0 t (ix2 p j) = V c main_v40 (ix2 (⟨((((cfg6.win 6).blk t).view.emb (ix2 p k)) 0).val, idx2_lt0 _⟩ : Fin 2048) j) := fun j => by
    have hj : j.val < 64 := j.isLt
    show V c main_v40 (((cfg6.win 0).blk t).view.emb (ix2 p j)) = V c main_v40 _
    refine congrArg (V c main_v40) (funext fun a => Fin.ext ?_)
    match a with
    | ⟨0, _⟩ => show win6_0.index t (0 : Fin 2) * 128 + 1 * p.val = win6_6.index t (0 : Fin 2) * 128 + 1 * p.val; omega
    | ⟨1, _⟩ => show win6_0.index t (1 : Fin 2) * 64 + 1 * j.val = j.val; omega
  have h1 : ∀ (n : Fin 8192) (j : Fin 64), iblk6 V c 1 t (ix2 n j) = V c main_v17 (ix2 n j) := fun n j => by
    have hn : n.val < 8192 := n.isLt
    have hj : j.val < 64 := j.isLt
    show V c main_v17 (((cfg6.win 1).blk t).view.emb (ix2 n j)) = V c main_v17 _
    refine congrArg (V c main_v17) (funext fun a => Fin.ext ?_)
    match a with
    | ⟨0, _⟩ => show win6_1.index t (0 : Fin 2) * 8192 + 1 * n.val = n.val; omega
    | ⟨1, _⟩ => show win6_1.index t (1 : Fin 2) * 64 + 1 * j.val = j.val; omega
  have hc : ∀ n : Fin 8192, iblk6 V c 2 t (ix2 n k) = V c main_v11 (ix2 n (⟨((((cfg6.win 6).blk t).view.emb (ix2 p k)) 1).val, idx2_lt1 _⟩ : Fin 64)) := fun n => by
    have hn : n.val < 8192 := n.isLt
    show V c main_v11 (((cfg6.win 2).blk t).view.emb (ix2 n k)) = V c main_v11 _
    refine congrArg (V c main_v11) (funext fun a => Fin.ext ?_)
    match a with
    | ⟨0, _⟩ => show win6_2.index t (0 : Fin 2) * 8192 + 1 * n.val = n.val; omega
    | ⟨1, _⟩ => show win6_2.index t (1 : Fin 2) * 64 + 1 * k.val = win6_6.index t (1 : Fin 2) * 64 + 1 * k.val; omega
  rw [ha]
  simp only [h0, h1, hc]
  rfl

/-- An index of the array is in point `t`'s block iff each coordinate is in the block's range on its axis. -/
theorem mem_blk6_6 (t : Fin cfg6.N) (i : S2048x64.Idx) :
    i ∈ ((cfg6.win 6).blk t).view.set ↔ ∀ a : Fin 2, win6_6.index t a * S128x64.size a ≤ (i a).val ∧ (i a).val < win6_6.index t a * S128x64.size a + S128x64.size a := by
  show i ∈ ((View.whole main_v41_0).slice (win6_6.rect t)).set ↔ _
  rw [View.set_slice_whole, Rect.mem_set_unit]
  exact Iff.rfl

/-- The blocks tile the array: every index is in some point's block. -/
theorem cover6w6 (i : S2048x64.Idx) : ∃ t : Fin cfg6.N, (cfg6.win 6).flush t = true ∧ i ∈ ((cfg6.win 6).blk t).view.set := by
  have hi0 : (i 0).val < 2048 := (i 0).isLt
  have hi1 : (i 1).val < 64 := (i 1).isLt
  obtain ⟨t, ht⟩ := onto6_6 ⟨(i 0).val / 128, by omega⟩
  have q0 : win6_6.index t (0 : Fin 2) = (i 0).val / 128 := congrFun ht 0
  have q1 : win6_6.index t (1 : Fin 2) = 0 := congrFun ht 1
  refine ⟨t, flush6_6 t, ?_⟩
  rw [mem_blk6_6]
  intro a
  match a with
  | ⟨0, _⟩ => show win6_6.index t (0 : Fin 2) * 128 ≤ (i 0).val ∧ (i 0).val < win6_6.index t (0 : Fin 2) * 128 + 128; omega
  | ⟨1, _⟩ => show win6_6.index t (1 : Fin 2) * 64 ≤ (i 1).val ∧ (i 1).val < win6_6.index t (1 : Fin 2) * 64 + 64; omega

/-- THE ARRAY after the run. -/
theorem final6_6 (c : Dev nD) : (dat6 V c).arrAt 6 cfg6.N = (passArr (M := 2048) (V c main_v40) (V c main_v17) (V c main_v11) (V c main_v39_1)) :=
  (dat6 V c).arrAt_eq_of_cover 6 _ (fun t _ => flushed6_6 V c t) (cover6w6)

/-! ## Output window 7 -/

/-- The printed index maps, decided over the grid: the row block and the running block move with the output block, the
    resident operands stay at block (0, 0). -/
theorem idx6_7 : ∀ t : Fin cfg6.N, win6_0.index t (0 : Fin 2) = win6_7.index t (0 : Fin 2) ∧ win6_0.index t (1 : Fin 2) = 0
    ∧ win6_5.index t (0 : Fin 2) = win6_7.index t (0 : Fin 2) ∧ win6_5.index t (1 : Fin 2) = 0
    ∧ win6_1.index t (0 : Fin 2) = 0 ∧ win6_1.index t (1 : Fin 2) = 0
    ∧ win6_3.index t (0 : Fin 2) = 0 ∧ win6_3.index t (1 : Fin 2) = 0
    ∧ win6_7.index t (1 : Fin 2) = 0 ∧ win6_7.index t (0 : Fin 2) ≤ 15 :=
  (by decide +kernel : ∀ t : Fin grid6.N, _)

/-- Every row block is some point's. -/
theorem onto6_7 : ∀ q : Fin 16, ∃ t : Fin cfg6.N, win6_7.index t = ![q.val, 0] :=
  (by decide +kernel : ∀ q : Fin 16, ∃ t : Fin grid6.N, win6_7.index t = ![q.val, 0])

/-- WHAT POINT `t` WRITES BACK is block `t` of the whole-array pass of the entry arrays. -/
theorem flushed6_7 (c : Dev nD) (t : Fin cfg6.N) :
    (dat6 V c).flushed 7 t = ((cfg6.win 7).blk t).view.read (Elt Ideal) (passArr (M := 2048) (V c main_v40) (V c main_v17) (V c main_v12) (V c main_v39_2)) := by
  show (cfg6.win 7).cut (grid6.coords t) ((dat6 V c).after 7 t) = _
  rw [after6_7]
  unfold out6_7
  rw [View.canon_unit_zero hz2]
  simp only [View.ld_unit_zero (S := S128x64) hz2, View.ld_unit_zero (S := S8192x64) hz2]
  rw [pay6_second]
  obtain ⟨e0, e1, e2, e3, e4, e5, e6, e7, e8, e9⟩ := idx6_7 t
  funext y
  obtain ⟨p, k, rfl⟩ : ∃ (p : Fin 128) (k : Fin 64), y = ix2 p k := ⟨y 0, y 1, eq_ix2 y⟩
  refine (passBlk_apply (iblk6 V c 0 t) (iblk6 V c 1 t) (iblk6 V c 3 t) (iblk6 V c 5 t) p k).trans ?_
  have hp : p.val < 128 := p.isLt
  have hk : k.val < 64 := k.isLt
  have ha : iblk6 V c 5 t (ix2 p k) = V c main_v39_2 (((cfg6.win 7).blk t).view.emb (ix2 p k)) := by
    show V c main_v39_2 (((cfg6.win 5).blk t).view.emb (ix2 p k)) = V c main_v39_2 (((cfg6.win 7).blk t).view.emb (ix2 p k))
    refine congrArg (V c main_v39_2) (funext fun a => Fin.ext ?_)
    match a with
    | ⟨0, _⟩ => show win6_5.index t (0 : Fin 2) * 128 + 1 * p.val = win6_7.index t (0 : Fin 2) * 128 + 1 * p.val; omega
    | ⟨1, _⟩ => show win6_5.index t (1 : Fin 2) * 64 + 1 * k.val = win6_7.index t (1 : Fin 2) * 64 + 1 * k.val; omega
  have h0 : ∀ j : Fin 64, iblk6 V c 0 t (ix2 p j) = V c main_v40 (ix2 (⟨((((cfg6.win 7).blk t).view.emb (ix2 p k)) 0).val, idx2_lt0 _⟩ : Fin 2048) j) := fun j => by
    have hj : j.val < 64 := j.isLt
    show V c main_v40 (((cfg6.win 0).blk t).view.emb (ix2 p j)) = V c main_v40 _
    refine congrArg (V c main_v40) (funext fun a => Fin.ext ?_)
    match a with
    | ⟨0, _⟩ => show win6_0.index t (0 : Fin 2) * 128 + 1 * p.val = win6_7.index t (0 : Fin 2) * 128 + 1 * p.val; omega
    | ⟨1, _⟩ => show win6_0.index t (1 : Fin 2) * 64 + 1 * j.val = j.val; omega
  have h1 : ∀ (n : Fin 8192) (j : Fin 64), iblk6 V c 1 t (ix2 n j) = V c main_v17 (ix2 n j) := fun n j => by
    have hn : n.val < 8192 := n.isLt
    have hj : j.val < 64 := j.isLt
    show V c main_v17 (((cfg6.win 1).blk t).view.emb (ix2 n j)) = V c main_v17 _
    refine congrArg (V c main_v17) (funext fun a => Fin.ext ?_)
    match a with
    | ⟨0, _⟩ => show win6_1.index t (0 : Fin 2) * 8192 + 1 * n.val = n.val; omega
    | ⟨1, _⟩ => show win6_1.index t (1 : Fin 2) * 64 + 1 * j.val = j.val; omega
  have hc : ∀ n : Fin 8192, iblk6 V c 3 t (ix2 n k) = V c main_v12 (ix2 n (⟨((((cfg6.win 7).blk t).view.emb (ix2 p k)) 1).val, idx2_lt1 _⟩ : Fin 64)) := fun n => by
    have hn : n.val < 8192 := n.isLt
    show V c main_v12 (((cfg6.win 3).blk t).view.emb (ix2 n k)) = V c main_v12 _
    refine congrArg (V c main_v12) (funext fun a => Fin.ext ?_)
    match a with
    | ⟨0, _⟩ => show win6_3.index t (0 : Fin 2) * 8192 + 1 * n.val = n.val; omega
    | ⟨1, _⟩ => show win6_3.index t (1 : Fin 2) * 64 + 1 * k.val = win6_7.index t (1 : Fin 2) * 64 + 1 * k.val; omega
  rw [ha]
  simp only [h0, h1, hc]
  rfl

/-- An index of the array is in point `t`'s block iff each coordinate is in the block's range on its axis. -/
theorem mem_blk6_7 (t : Fin cfg6.N) (i : S2048x64.Idx) :
    i ∈ ((cfg6.win 7).blk t).view.set ↔ ∀ a : Fin 2, win6_7.index t a * S128x64.size a ≤ (i a).val ∧ (i a).val < win6_7.index t a * S128x64.size a + S128x64.size a := by
  show i ∈ ((View.whole main_v41_1).slice (win6_7.rect t)).set ↔ _
  rw [View.set_slice_whole, Rect.mem_set_unit]
  exact Iff.rfl

/-- The blocks tile the array: every index is in some point's block. -/
theorem cover6w7 (i : S2048x64.Idx) : ∃ t : Fin cfg6.N, (cfg6.win 7).flush t = true ∧ i ∈ ((cfg6.win 7).blk t).view.set := by
  have hi0 : (i 0).val < 2048 := (i 0).isLt
  have hi1 : (i 1).val < 64 := (i 1).isLt
  obtain ⟨t, ht⟩ := onto6_7 ⟨(i 0).val / 128, by omega⟩
  have q0 : win6_7.index t (0 : Fin 2) = (i 0).val / 128 := congrFun ht 0
  have q1 : win6_7.index t (1 : Fin 2) = 0 := congrFun ht 1
  refine ⟨t, flush6_7 t, ?_⟩
  rw [mem_blk6_7]
  intro a
  match a with
  | ⟨0, _⟩ => show win6_7.index t (0 : Fin 2) * 128 ≤ (i 0).val ∧ (i 0).val < win6_7.index t (0 : Fin 2) * 128 + 128; omega
  | ⟨1, _⟩ => show win6_7.index t (1 : Fin 2) * 64 ≤ (i 1).val ∧ (i 1).val < win6_7.index t (1 : Fin 2) * 64 + 64; omega

/-- THE ARRAY after the run. -/
theorem final6_7 (c : Dev nD) : (dat6 V c).arrAt 7 cfg6.N = (passArr (M := 2048) (V c main_v40) (V c main_v17) (V c main_v12) (V c main_v39_2)) :=
  (dat6 V c).arrAt_eq_of_cover 7 _ (fun t _ => flushed6_7 V c t) (cover6w7)

end Cert.KernelIdeal.Gen

end
-- ==== Proof.IdealValue7.lean ====
/-
  Region 7's output arrays as whole-array functions of the arrays it was entered with. Point t writes back rows
  128·t … 128·t+127 of each output; the block it writes is one pass applied to the matching rows of the row block
  `u` and of the running block, with the resident rows `v` and coefficients whole. The blocks tile the array, so after the
  run every output array IS the whole-array pass of the entry arrays.
-/
import proofs.«117133_j29008209117207_1_alg».proof.Proof.IdealRegion7
import proofs.«117133_j29008209117207_1_alg».proof.Proof.IdealPass

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat)
open Cert.KernelIdeal.PassValue Cert.LibKernelSum

variable (V : (c : Dev nD) → (b : Ref sig .tc) → Buf (Elt Ideal) ((c : Thread nD τ).loc b))

/-! ## Output window 4 -/

/-- The printed index maps, decided over the grid: the row block and the running block move with the output block, the
    resident operands stay at block (0, 0). -/
theorem idx7_4 : ∀ t : Fin cfg7.N, win7_0.index t (0 : Fin 2) = win7_4.index t (0 : Fin 2) ∧ win7_0.index t (1 : Fin 2) = 0
    ∧ win7_3.index t (0 : Fin 2) = win7_4.index t (0 : Fin 2) ∧ win7_3.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_4.index t (1 : Fin 2) = 0 ∧ win7_4.index t (0 : Fin 2) ≤ 15 :=
  (by decide +kernel : ∀ t : Fin grid7.N, _)

/-- Every row block is some point's. -/
theorem onto7_4 : ∀ q : Fin 16, ∃ t : Fin cfg7.N, win7_4.index t = ![q.val, 0] :=
  (by decide +kernel : ∀ q : Fin 16, ∃ t : Fin grid7.N, win7_4.index t = ![q.val, 0])

/-- WHAT POINT `t` WRITES BACK is block `t` of the whole-array pass of the entry arrays. -/
theorem flushed7_4 (c : Dev nD) (t : Fin cfg7.N) :
    (dat7 V c).flushed 4 t = ((cfg7.win 4).blk t).view.read (Elt Ideal) (passArr (M := 2048) (V c main_v42) (V c main_v19) (V c main_v12) (V c main_v41_1)) := by
  show (cfg7.win 4).cut (grid7.coords t) ((dat7 V c).after 4 t) = _
  rw [after7_4]
  unfold out7_4
  rw [View.canon_unit_zero hz2]
  simp only [View.ld_unit_zero (S := S128x64) hz2, View.ld_unit_zero (S := S8192x64) hz2]
  rw [pay7_first]
  obtain ⟨e0, e1, e2, e3, e4, e5, e6, e7, e8, e9⟩ := idx7_4 t
  funext y
  obtain ⟨p, k, rfl⟩ : ∃ (p : Fin 128) (k : Fin 64), y = ix2 p k := ⟨y 0, y 1, eq_ix2 y⟩
  refine (passBlk_apply (iblk7 V c 0 t) (iblk7 V c 1 t) (iblk7 V c 2 t) (iblk7 V c 3 t) p k).trans ?_
  have hp : p.val < 128 := p.isLt
  have hk : k.val < 64 := k.isLt
  have ha : iblk7 V c 3 t (ix2 p k) = V c main_v41_1 (((cfg7.win 4).blk t).view.emb (ix2 p k)) := by
    show V c main_v41_1 (((cfg7.win 3).blk t).view.emb (ix2 p k)) = V c main_v41_1 (((cfg7.win 4).blk t).view.emb (ix2 p k))
    refine congrArg (V c main_v41_1) (funext fun a => Fin.ext ?_)
    match a with
    | ⟨0, _⟩ => show win7_3.index t (0 : Fin 2) * 128 + 1 * p.val = win7_4.index t (0 : Fin 2) * 128 + 1 * p.val; omega
    | ⟨1, _⟩ => show win7_3.index t (1 : Fin 2) * 64 + 1 * k.val = win7_4.index t (1 : Fin 2) * 64 + 1 * k.val; omega
  have h0 : ∀ j : Fin 64, iblk7 V c 0 t (ix2 p j) = V c main_v42 (ix2 (⟨((((cfg7.win 4).blk t).view.emb (ix2 p k)) 0).val, idx2_lt0 _⟩ : Fin 2048) j) := fun j => by
    have hj : j.val < 64 := j.isLt
    show V c main_v42 (((cfg7.win 0).blk t).view.emb (ix2 p j)) = V c main_v42 _
    refine congrArg (V c main_v42) (funext fun a => Fin.ext ?_)
    match a with
    | ⟨0, _⟩ => show win7_0.index t (0 : Fin 2) * 128 + 1 * p.val = win7_4.index t (0 : Fin 2) * 128 + 1 * p.val; omega
    | ⟨1, _⟩ => show win7_0.index t (1 : Fin 2) * 64 + 1 * j.val = j.val; omega
  have h1 : ∀ (n : Fin 8192) (j : Fin 64), iblk7 V c 1 t (ix2 n j) = V c main_v19 (ix2 n j) := fun n j => by
    have hn : n.val < 8192 := n.isLt
    have hj : j.val < 64 := j.isLt
    show V c main_v19 (((cfg7.win 1).blk t).view.emb (ix2 n j)) = V c main_v19 _
    refine congrArg (V c main_v19) (funext fun a => Fin.ext ?_)
    match a with
    | ⟨0, _⟩ => show win7_1.index t (0 : Fin 2) * 8192 + 1 * n.val = n.val; omega
    | ⟨1, _⟩ => show win7_1.index t (1 : Fin 2) * 64 + 1 * j.val = j.val; omega
  have hc : ∀ n : Fin 8192, iblk7 V c 2 t (ix2 n k) = V c main_v12 (ix2 n (⟨((((cfg7.win 4).blk t).view.emb (ix2 p k)) 1).val, idx2_lt1 _⟩ : Fin 64)) := fun n => by
    have hn : n.val < 8192 := n.isLt
    show V c main_v12 (((cfg7.win 2).blk t).view.emb (ix2 n k)) = V c main_v12 _
    refine congrArg (V c main_v12) (funext fun a => Fin.ext ?_)
    match a with
    | ⟨0, _⟩ => show win7_2.index t (0 : Fin 2) * 8192 + 1 * n.val = n.val; omega
    | ⟨1, _⟩ => show win7_2.index t (1 : Fin 2) * 64 + 1 * k.val = win7_4.index t (1 : Fin 2) * 64 + 1 * k.val; omega
  rw [ha]
  simp only [h0, h1, hc]
  rfl

/-- An index of the array is in point `t`'s block iff each coordinate is in the block's range on its axis. -/
theorem mem_blk7_4 (t : Fin cfg7.N) (i : S2048x64.Idx) :
    i ∈ ((cfg7.win 4).blk t).view.set ↔ ∀ a : Fin 2, win7_4.index t a * S128x64.size a ≤ (i a).val ∧ (i a).val < win7_4.index t a * S128x64.size a + S128x64.size a := by
  show i ∈ ((View.whole main_v43).slice (win7_4.rect t)).set ↔ _
  rw [View.set_slice_whole, Rect.mem_set_unit]
  exact Iff.rfl

/-- The blocks tile the array: every index is in some point's block. -/
theorem cover7w4 (i : S2048x64.Idx) : ∃ t : Fin cfg7.N, (cfg7.win 4).flush t = true ∧ i ∈ ((cfg7.win 4).blk t).view.set := by
  have hi0 : (i 0).val < 2048 := (i 0).isLt
  have hi1 : (i 1).val < 64 := (i 1).isLt
  obtain ⟨t, ht⟩ := onto7_4 ⟨(i 0).val / 128, by omega⟩
  have q0 : win7_4.index t (0 : Fin 2) = (i 0).val / 128 := congrFun ht 0
  have q1 : win7_4.index t (1 : Fin 2) = 0 := congrFun ht 1
  refine ⟨t, flush7_4 t, ?_⟩
  rw [mem_blk7_4]
  intro a
  match a with
  | ⟨0, _⟩ => show win7_4.index t (0 : Fin 2) * 128 ≤ (i 0).val ∧ (i 0).val < win7_4.index t (0 : Fin 2) * 128 + 128; omega
  | ⟨1, _⟩ => show win7_4.index t (1 : Fin 2) * 64 ≤ (i 1).val ∧ (i 1).val < win7_4.index t (1 : Fin 2) * 64 + 64; omega

/-- THE ARRAY after the run. -/
theorem final7_4 (c : Dev nD) : (dat7 V c).arrAt 4 cfg7.N = (passArr (M := 2048) (V c main_v42) (V c main_v19) (V c main_v12) (V c main_v41_1)) :=
  (dat7 V c).arrAt_eq_of_cover 4 _ (fun t _ => flushed7_4 V c t) (cover7w4)

end Cert.KernelIdeal.Gen

end
-- ==== Proof.IdealChain.lean ====
/-
  The kernel's intermediate arrays, named, and where the chain of items holds them. Following the program: the two
  affine projections; their four column blocks and the three coefficient blocks; three passes over the data rows, each
  entered with the previous checkpoint (a column block of the projection plus the finished running sum); the
  regulariser; three passes over the input rows against the data checkpoints; the output. For every buffer an item
  reads, the contents the chain holds there are the named array: a region's output by its whole-array value, a host
  operation's result by unfolding the stretch, anything older by walking back over the items that do not write it.
-/
import proofs.«117133_j29008209117207_1_alg».proof.Proof.IdealArgs
import proofs.«117133_j29008209117207_1_alg».proof.Proof.IdealValue0
import proofs.«117133_j29008209117207_1_alg».proof.Proof.IdealValue1
import proofs.«117133_j29008209117207_1_alg».proof.Proof.IdealValue2
import proofs.«117133_j29008209117207_1_alg».proof.Proof.IdealValue3
import proofs.«117133_j29008209117207_1_alg».proof.Proof.IdealValue4
import proofs.«117133_j29008209117207_1_alg».proof.Proof.IdealValue5
import proofs.«117133_j29008209117207_1_alg».proof.Proof.IdealValue6
import proofs.«117133_j29008209117207_1_alg».proof.Proof.IdealValue7
import Idealize.ShloMosaic.Lib.StableHlo.Run

set_option maxRecDepth 16384

noncomputable section

namespace Cert.KernelIdeal.Gen

open Idealize.ShloMosaic Idealize.ShloMosaic.TcCoe Idealize.ShloMosaic.ValueIdx Idealize.ShloMosaic.StableHlo
open Idealize.SL Idealize.SL.Sem
open Idealize.ShloMosaic.Pipeline (Dat)
open Cert.KernelIdeal.PassValue Cert.KernelIdeal.AffineValue

variable (m : (ℓ : Loc nD τ sig) → Buf (Elt Ideal) ℓ) (ρ : Dev nD → PrngReg)

/-! ## The named arrays -/

/-- Argument `main_arg0` as launched. -/
def karg0 (c : Dev nD) : S8192x256.Idx → EReal := W0 m ρ c (Proc.devRef .tc main_arg0)
/-- Argument `main_arg1` as launched. -/
def karg1 (c : Dev nD) : S2048x256.Idx → EReal := W0 m ρ c (Proc.devRef .tc main_arg1)
/-- Argument `main_arg2` as launched. -/
def karg2 (c : Dev nD) : S256x256.Idx → EReal := W0 m ρ c (Proc.devRef .tc main_arg2)
/-- Argument `main_arg3` as launched. -/
def karg3 (c : Dev nD) : S256.Idx → EReal := W0 m ρ c (Proc.devRef .tc main_arg3)
/-- Argument `main_arg4` as launched. -/
def karg4 (c : Dev nD) : S8192x192.Idx → EReal := W0 m ρ c (Proc.devRef .tc main_arg4)
def kv0 (c : Dev nD) : S8192x256.Idx → EReal := affArr (M := 8192) (karg0 m ρ c) (karg2 m ρ c) (karg3 m ρ c)
def kv1 (c : Dev nD) : S2048x256.Idx → EReal := affArr (M := 2048) (karg1 m ρ c) (karg2 m ρ c) (karg3 m ρ c)
def kv2 (c : Dev nD) : S8192x64.Idx → EReal := extractStridedSlice S8192x64 ![0, 0] (kv0 m ρ c) slices_S8192x256_S8192x64_0_0
def kv3 (c : Dev nD) : S8192x64.Idx → EReal := extractStridedSlice S8192x64 ![0, 64] (kv0 m ρ c) slices_S8192x256_S8192x64_0_64
def kv4 (c : Dev nD) : S8192x64.Idx → EReal := extractStridedSlice S8192x64 ![0, 128] (kv0 m ρ c) slices_S8192x256_S8192x64_0_128
def kv6 (c : Dev nD) : S2048x64.Idx → EReal := extractStridedSlice S2048x64 ![0, 0] (kv1 m ρ c) slices_S2048x256_S2048x64_0_0
def kv7 (c : Dev nD) : S2048x64.Idx → EReal := extractStridedSlice S2048x64 ![0, 64] (kv1 m ρ c) slices_S2048x256_S2048x64_0_64
def kv8 (c : Dev nD) : S2048x64.Idx → EReal := extractStridedSlice S2048x64 ![0, 128] (kv1 m ρ c) slices_S2048x256_S2048x64_0_128
def kv9 (c : Dev nD) : S2048x64.Idx → EReal := extractStridedSlice S2048x64 ![0, 192] (kv1 m ρ c) slices_S2048x256_S2048x64_0_192
def kv10 (c : Dev nD) : S8192x64.Idx → EReal := extractStridedSlice S8192x64 ![0, 0] (karg4 m ρ c) slices_S8192x192_S8192x64_0_0
def kv11 (c : Dev nD) : S8192x64.Idx → EReal := extractStridedSlice S8192x64 ![0, 64] (karg4 m ρ c) slices_S8192x192_S8192x64_0_64
def kv12 (c : Dev nD) : S8192x64.Idx → EReal := extractStridedSlice S8192x64 ![0, 128] (karg4 m ρ c) slices_S8192x192_S8192x64_0_128
def kv13 (c : Dev nD) : S8192x64.Idx → EReal := broadcastInDim S8192x64 ![] bcast_S_S8192x64 (constant (F := Ideal) S_ .f32 0x00000000#32)
def kv14 (c : Dev nD) : S8192x64.Idx → EReal := broadcastInDim S8192x64 ![] bcast_S_S8192x64 (constant (F := Ideal) S_ .f32 0x00000000#32)
def kv15 (c : Dev nD) : S8192x64.Idx → EReal := broadcastInDim S8192x64 ![] bcast_S_S8192x64 (constant (F := Ideal) S_ .f32 0x00000000#32)
def kv16_0 (c : Dev nD) : S8192x64.Idx → EReal := passArr (M := 8192) (kv2 m ρ c) (kv2 m ρ c) (kv10 m ρ c) (kv13 c)
def kv16_1 (c : Dev nD) : S8192x64.Idx → EReal := passArr (M := 8192) (kv2 m ρ c) (kv2 m ρ c) (kv11 m ρ c) (kv14 c)
def kv16_2 (c : Dev nD) : S8192x64.Idx → EReal := passArr (M := 8192) (kv2 m ρ c) (kv2 m ρ c) (kv12 m ρ c) (kv15 c)
def kv17 (c : Dev nD) : S8192x64.Idx → EReal := addf (F := Ideal) (φ := .f32) (kv3 m ρ c) (kv16_0 m ρ c)
def kv18_0 (c : Dev nD) : S8192x64.Idx → EReal := passArr (M := 8192) (kv17 m ρ c) (kv17 m ρ c) (kv11 m ρ c) (kv16_1 m ρ c)
def kv18_1 (c : Dev nD) : S8192x64.Idx → EReal := passArr (M := 8192) (kv17 m ρ c) (kv17 m ρ c) (kv12 m ρ c) (kv16_2 m ρ c)
def kv19 (c : Dev nD) : S8192x64.Idx → EReal := addf (F := Ideal) (φ := .f32) (kv4 m ρ c) (kv18_0 m ρ c)
def kv20 (c : Dev nD) : S8192x64.Idx → EReal := passArr (M := 8192) (kv19 m ρ c) (kv19 m ρ c) (kv12 m ρ c) (kv18_1 m ρ c)
def kv35 (c : Dev nD) : S_.Idx → EReal := addf (F := Ideal) (φ := .f32) (addf (F := Ideal) (φ := .f32) (addf (F := Ideal) (φ := .f32) (addf (F := Ideal) (φ := .f32) (Host.reduceAdd (F := Ideal) (φ := .f32) (mulf (F := Ideal) (φ := .f32) (karg2 m ρ c) (karg2 m ρ c)) (constant (F := Ideal) S_ .f32 0x00000000#32) reducesTo_S256x256_S_d0_1 h_S_) (Host.reduceAdd (F := Ideal) (φ := .f32) (mulf (F := Ideal) (φ := .f32) (karg3 m ρ c) (karg3 m ρ c)) (constant (F := Ideal) S_ .f32 0x00000000#32) reducesTo_S256_S_d0 h_S_)) (Host.reduceAdd (F := Ideal) (φ := .f32) (mulf (F := Ideal) (φ := .f32) (kv10 m ρ c) (kv16_0 m ρ c)) (constant (F := Ideal) S_ .f32 0x00000000#32) reducesTo_S8192x64_S_d0_1 h_S_)) (Host.reduceAdd (F := Ideal) (φ := .f32) (mulf (F := Ideal) (φ := .f32) (kv11 m ρ c) (kv18_0 m ρ c)) (constant (F := Ideal) S_ .f32 0x00000000#32) reducesTo_S8192x64_S_d0_1 h_S_)) (Host.reduceAdd (F := Ideal) (φ := .f32) (mulf (F := Ideal) (φ := .f32) (kv12 m ρ c) (kv20 m ρ c)) (constant (F := Ideal) S_ .f32 0x00000000#32) reducesTo_S8192x64_S_d0_1 h_S_)
def kv36 (c : Dev nD) : S2048x64.Idx → EReal := broadcastInDim S2048x64 ![] bcast_S_S2048x64 (constant (F := Ideal) S_ .f32 0x00000000#32)
def kv37 (c : Dev nD) : S2048x64.Idx → EReal := broadcastInDim S2048x64 ![] bcast_S_S2048x64 (constant (F := Ideal) S_ .f32 0x00000000#32)
def kv38 (c : Dev nD) : S2048x64.Idx → EReal := broadcastInDim S2048x64 ![] bcast_S_S2048x64 (constant (F := Ideal) S_ .f32 0x00000000#32)
def kv39_0 (c : Dev nD) : S2048x64.Idx → EReal := passArr (M := 2048) (kv6 m ρ c) (kv2 m ρ c) (kv10 m ρ c) (kv36 c)
def kv39_1 (c : Dev nD) : S2048x64.Idx → EReal := passArr (M := 2048) (kv6 m ρ c) (kv2 m ρ c) (kv11 m ρ c) (kv37 c)
def kv39_2 (c : Dev nD) : S2048x64.Idx → EReal := passArr (M := 2048) (kv6 m ρ c) (kv2 m ρ c) (kv12 m ρ c) (kv38 c)
def kv40 (c : Dev nD) : S2048x64.Idx → EReal := addf (F := Ideal) (φ := .f32) (kv7 m ρ c) (kv39_0 m ρ c)
def kv41_0 (c : Dev nD) : S2048x64.Idx → EReal := passArr (M := 2048) (kv40 m ρ c) (kv17 m ρ c) (kv11 m ρ c) (kv39_1 m ρ c)
def kv41_1 (c : Dev nD) : S2048x64.Idx → EReal := passArr (M := 2048) (kv40 m ρ c) (kv17 m ρ c) (kv12 m ρ c) (kv39_2 m ρ c)
def kv42 (c : Dev nD) : S2048x64.Idx → EReal := addf (F := Ideal) (φ := .f32) (kv8 m ρ c) (kv41_0 m ρ c)
def kv43 (c : Dev nD) : S2048x64.Idx → EReal := passArr (M := 2048) (kv42 m ρ c) (kv19 m ρ c) (kv12 m ρ c) (kv41_1 m ρ c)
def kv44 (c : Dev nD) : S2048x64.Idx → EReal := addf (F := Ideal) (φ := .f32) (kv9 m ρ c) (kv43 m ρ c)

/-! ## Where the chain holds them -/

theorem at_arg0_0 (c : Dev nD) : W0 m ρ c (Proc.devRef .tc main_arg0) = karg0 m ρ c :=
  calc W0 m ρ c (Proc.devRef .tc main_arg0)
    _ = karg0 m ρ c := rfl

theorem at_arg2_0 (c : Dev nD) : W0 m ρ c (Proc.devRef .tc main_arg2) = karg2 m ρ c :=
  calc W0 m ρ c (Proc.devRef .tc main_arg2)
    _ = karg2 m ρ c := rfl

theorem at_arg3_0 (c : Dev nD) : W0 m ρ c (Proc.devRef .tc main_arg3) = karg3 m ρ c :=
  calc W0 m ρ c (Proc.devRef .tc main_arg3)
    _ = karg3 m ρ c := rfl

theorem val_v0 (c : Dev nD) : W1 m ρ c (Proc.devRef .tc main_v0) = kv0 m ρ c := by
  refine (W1_arr m ρ c 3).trans ((final0_3 (Vr0 m ρ) c).trans ?_)
  show affArr (M := 8192) (W0 m ρ c (Proc.devRef .tc main_arg0)) (W0 m ρ c (Proc.devRef .tc main_arg2)) (W0 m ρ c (Proc.devRef .tc main_arg3)) = _
  rw [at_arg0_0 m ρ c, at_arg2_0 m ρ c, at_arg3_0 m ρ c]
  rfl

theorem at_arg1_1 (c : Dev nD) : W1 m ρ c (Proc.devRef .tc main_arg1) = karg1 m ρ c :=
  calc W1 m ρ c (Proc.devRef .tc main_arg1)
    _ = W0 m ρ c (Proc.devRef .tc main_arg1) := W1_of_ne m ρ c main_arg1 (by decide)
    _ = karg1 m ρ c := rfl

theorem at_arg2_1 (c : Dev nD) : W1 m ρ c (Proc.devRef .tc main_arg2) = karg2 m ρ c :=
  calc W1 m ρ c (Proc.devRef .tc main_arg2)
    _ = W0 m ρ c (Proc.devRef .tc main_arg2) := (W1_arr m ρ c 1).trans (((dat0 (Vr0 m ρ) c).arrAt_in 1 rfl _).trans (A_eq0 (Vr0 m ρ) c 1))
    _ = karg2 m ρ c := rfl

theorem at_arg3_1 (c : Dev nD) : W1 m ρ c (Proc.devRef .tc main_arg3) = karg3 m ρ c :=
  calc W1 m ρ c (Proc.devRef .tc main_arg3)
    _ = W0 m ρ c (Proc.devRef .tc main_arg3) := (W1_arr m ρ c 2).trans (((dat0 (Vr0 m ρ) c).arrAt_in 2 rfl _).trans (A_eq0 (Vr0 m ρ) c 2))
    _ = karg3 m ρ c := rfl

theorem val_v1 (c : Dev nD) : W2 m ρ c (Proc.devRef .tc main_v1) = kv1 m ρ c := by
  refine (W2_arr m ρ c 3).trans ((final1_3 (Vr1 m ρ) c).trans ?_)
  show affArr (M := 2048) (W1 m ρ c (Proc.devRef .tc main_arg1)) (W1 m ρ c (Proc.devRef .tc main_arg2)) (W1 m ρ c (Proc.devRef .tc main_arg3)) = _
  rw [at_arg1_1 m ρ c, at_arg2_1 m ρ c, at_arg3_1 m ρ c]
  rfl

theorem at_v0_2 (c : Dev nD) : W2 m ρ c (Proc.devRef .tc main_v0) = kv0 m ρ c :=
  calc W2 m ρ c (Proc.devRef .tc main_v0)
    _ = W1 m ρ c (Proc.devRef .tc main_v0) := W2_of_ne m ρ c main_v0 (by decide)
    _ = kv0 m ρ c := val_v0 m ρ c

theorem val_v2 (c : Dev nD) : W3 m ρ c (Proc.devRef .tc main_v2) = kv2 m ρ c := by
  have e : W3 m ρ c (Proc.devRef .tc main_v2) = extractStridedSlice S8192x64 ![0, 0] (W2 m ρ c (Proc.devRef .tc main_v0)) slices_S8192x256_S8192x64_0_0 := by
    show StableHlo.after hostOps2 (W2 m ρ c) (Proc.devRef .tc main_v2) = _
    after_results
    try rfl
  rw [e, at_v0_2 m ρ c]
  rfl

theorem val_v3 (c : Dev nD) : W3 m ρ c (Proc.devRef .tc main_v3) = kv3 m ρ c := by
  have e : W3 m ρ c (Proc.devRef .tc main_v3) = extractStridedSlice S8192x64 ![0, 64] (W2 m ρ c (Proc.devRef .tc main_v0)) slices_S8192x256_S8192x64_0_64 := by
    show StableHlo.after hostOps2 (W2 m ρ c) (Proc.devRef .tc main_v3) = _
    after_results
    try rfl
  rw [e, at_v0_2 m ρ c]
  rfl

theorem val_v4 (c : Dev nD) : W3 m ρ c (Proc.devRef .tc main_v4) = kv4 m ρ c := by
  have e : W3 m ρ c (Proc.devRef .tc main_v4) = extractStridedSlice S8192x64 ![0, 128] (W2 m ρ c (Proc.devRef .tc main_v0)) slices_S8192x256_S8192x64_0_128 := by
    show StableHlo.after hostOps2 (W2 m ρ c) (Proc.devRef .tc main_v4) = _
    after_results
    try rfl
  rw [e, at_v0_2 m ρ c]
  rfl

theorem val_v6 (c : Dev nD) : W3 m ρ c (Proc.devRef .tc main_v6) = kv6 m ρ c := by
  have e : W3 m ρ c (Proc.devRef .tc main_v6) = extractStridedSlice S2048x64 ![0, 0] (W2 m ρ c (Proc.devRef .tc main_v1)) slices_S2048x256_S2048x64_0_0 := by
    show StableHlo.after hostOps2 (W2 m ρ c) (Proc.devRef .tc main_v6) = _
    after_results
    try rfl
  rw [e, val_v1 m ρ c]
  rfl

theorem val_v7 (c : Dev nD) : W3 m ρ c (Proc.devRef .tc main_v7) = kv7 m ρ c := by
  have e : W3 m ρ c (Proc.devRef .tc main_v7) = extractStridedSlice S2048x64 ![0, 64] (W2 m ρ c (Proc.devRef .tc main_v1)) slices_S2048x256_S2048x64_0_64 := by
    show StableHlo.after hostOps2 (W2 m ρ c) (Proc.devRef .tc main_v7) = _
    after_results
    try rfl
  rw [e, val_v1 m ρ c]
  rfl

theorem val_v8 (c : Dev nD) : W3 m ρ c (Proc.devRef .tc main_v8) = kv8 m ρ c := by
  have e : W3 m ρ c (Proc.devRef .tc main_v8) = extractStridedSlice S2048x64 ![0, 128] (W2 m ρ c (Proc.devRef .tc main_v1)) slices_S2048x256_S2048x64_0_128 := by
    show StableHlo.after hostOps2 (W2 m ρ c) (Proc.devRef .tc main_v8) = _
    after_results
    try rfl
  rw [e, val_v1 m ρ c]
  rfl

theorem val_v9 (c : Dev nD) : W3 m ρ c (Proc.devRef .tc main_v9) = kv9 m ρ c := by
  have e : W3 m ρ c (Proc.devRef .tc main_v9) = extractStridedSlice S2048x64 ![0, 192] (W2 m ρ c (Proc.devRef .tc main_v1)) slices_S2048x256_S2048x64_0_192 := by
    show StableHlo.after hostOps2 (W2 m ρ c) (Proc.devRef .tc main_v9) = _
    after_results
    try rfl
  rw [e, val_v1 m ρ c]
  rfl

theorem at_arg4_2 (c : Dev nD) : W2 m ρ c (Proc.devRef .tc main_arg4) = karg4 m ρ c :=
  calc W2 m ρ c (Proc.devRef .tc main_arg4)
    _ = W1 m ρ c (Proc.devRef .tc main_arg4) := W2_of_ne m ρ c main_arg4 (by decide)
    _ = W0 m ρ c (Proc.devRef .tc main_arg4) := W1_of_ne m ρ c main_arg4 (by decide)
    _ = karg4 m ρ c := rfl

theorem val_v10 (c : Dev nD) : W3 m ρ c (Proc.devRef .tc main_v10) = kv10 m ρ c := by
  have e : W3 m ρ c (Proc.devRef .tc main_v10) = extractStridedSlice S8192x64 ![0, 0] (W2 m ρ c (Proc.devRef .tc main_arg4)) slices_S8192x192_S8192x64_0_0 := by
    show StableHlo.after hostOps2 (W2 m ρ c) (Proc.devRef .tc main_v10) = _
    after_results
    try rfl
  rw [e, at_arg4_2 m ρ c]
  rfl

theorem val_v11 (c : Dev nD) : W3 m ρ c (Proc.devRef .tc main_v11) = kv11 m ρ c := by
  have e : W3 m ρ c (Proc.devRef .tc main_v11) = extractStridedSlice S8192x64 ![0, 64] (W2 m ρ c (Proc.devRef .tc main_arg4)) slices_S8192x192_S8192x64_0_64 := by
    show StableHlo.after hostOps2 (W2 m ρ c) (Proc.devRef .tc main_v11) = _
    after_results
    try rfl
  rw [e, at_arg4_2 m ρ c]
  rfl

theorem val_v12 (c : Dev nD) : W3 m ρ c (Proc.devRef .tc main_v12) = kv12 m ρ c := by
  have e : W3 m ρ c (Proc.devRef .tc main_v12) = extractStridedSlice S8192x64 ![0, 128] (W2 m ρ c (Proc.devRef .tc main_arg4)) slices_S8192x192_S8192x64_0_128 := by
    show StableHlo.after hostOps2 (W2 m ρ c) (Proc.devRef .tc main_v12) = _
    after_results
    try rfl
  rw [e, at_arg4_2 m ρ c]
  rfl

theorem val_v13 (c : Dev nD) : W3 m ρ c (Proc.devRef .tc main_v13) = kv13 c := by
  have e : W3 m ρ c (Proc.devRef .tc main_v13) = broadcastInDim S8192x64 ![] bcast_S_S8192x64 (constant (F := Ideal) S_ .f32 0x00000000#32) := by
    show StableHlo.after hostOps2 (W2 m ρ c) (Proc.devRef .tc main_v13) = _
    after_results
    try rfl
  rw [e]
  rfl

theorem val_v14 (c : Dev nD) : W3 m ρ c (Proc.devRef .tc main_v14) = kv14 c := by
  have e : W3 m ρ c (Proc.devRef .tc main_v14) = broadcastInDim S8192x64 ![] bcast_S_S8192x64 (constant (F := Ideal) S_ .f32 0x00000000#32) := by
    show StableHlo.after hostOps2 (W2 m ρ c) (Proc.devRef .tc main_v14) = _
    after_results
    try rfl
  rw [e]
  rfl

theorem val_v15 (c : Dev nD) : W3 m ρ c (Proc.devRef .tc main_v15) = kv15 c := by
  have e : W3 m ρ c (Proc.devRef .tc main_v15) = broadcastInDim S8192x64 ![] bcast_S_S8192x64 (constant (F := Ideal) S_ .f32 0x00000000#32) := by
    show StableHlo.after hostOps2 (W2 m ρ c) (Proc.devRef .tc main_v15) = _
    after_results
    try rfl
  rw [e]
  rfl

theorem val_v16_0 (c : Dev nD) : W4 m ρ c (Proc.devRef .tc main_v16_0) = kv16_0 m ρ c := by
  refine (W4_out0 m ρ c).trans ((final2_8 (Vr3 m ρ) c).trans ?_)
  show passArr (M := 8192) (W3 m ρ c (Proc.devRef .tc main_v2)) (W3 m ρ c (Proc.devRef .tc main_v2)) (W3 m ρ c (Proc.devRef .tc main_v10)) (W3 m ρ c (Proc.devRef .tc main_v13)) = _
  rw [val_v2 m ρ c, val_v10 m ρ c, val_v13 m ρ c]
  rfl

theorem val_v16_1 (c : Dev nD) : W4 m ρ c (Proc.devRef .tc main_v16_1) = kv16_1 m ρ c := by
  refine (W4_out1 m ρ c).trans ((final2_9 (Vr3 m ρ) c).trans ?_)
  show passArr (M := 8192) (W3 m ρ c (Proc.devRef .tc main_v2)) (W3 m ρ c (Proc.devRef .tc main_v2)) (W3 m ρ c (Proc.devRef .tc main_v11)) (W3 m ρ c (Proc.devRef .tc main_v14)) = _
  rw [val_v2 m ρ c, val_v11 m ρ c, val_v14 m ρ c]
  rfl

theorem val_v16_2 (c : Dev nD) : W4 m ρ c (Proc.devRef .tc main_v16_2) = kv16_2 m ρ c := by
  refine (W4_out2 m ρ c).trans ((final2_10 (Vr3 m ρ) c).trans ?_)
  show passArr (M := 8192) (W3 m ρ c (Proc.devRef .tc main_v2)) (W3 m ρ c (Proc.devRef .tc main_v2)) (W3 m ρ c (Proc.devRef .tc main_v12)) (W3 m ρ c (Proc.devRef .tc main_v15)) = _
  rw [val_v2 m ρ c, val_v12 m ρ c, val_v15 m ρ c]
  rfl

theorem at_v3_4 (c : Dev nD) : W4 m ρ c (Proc.devRef .tc main_v3) = kv3 m ρ c :=
  calc W4 m ρ c (Proc.devRef .tc main_v3)
    _ = W3 m ρ c (Proc.devRef .tc main_v3) := W4_keep m ρ c main_v3 (by decide)
    _ = kv3 m ρ c := val_v3 m ρ c

theorem val_v17 (c : Dev nD) : W5 m ρ c (Proc.devRef .tc main_v17) = kv17 m ρ c := by
  have e : W5 m ρ c (Proc.devRef .tc main_v17) = addf (F := Ideal) (φ := .f32) (W4 m ρ c (Proc.devRef .tc main_v3)) (W4 m ρ c (Proc.devRef .tc main_v16_0)) := by
    show StableHlo.after hostOps3 (W4 m ρ c) (Proc.devRef .tc main_v17) = _
    after_results
    try rfl
  rw [e, at_v3_4 m ρ c, val_v16_0 m ρ c]
  rfl

theorem at_v11_5 (c : Dev nD) : W5 m ρ c (Proc.devRef .tc main_v11) = kv11 m ρ c :=
  calc W5 m ρ c (Proc.devRef .tc main_v11)
    _ = W4 m ρ c (Proc.devRef .tc main_v11) := StableHlo.after_of_writes_sub hostOps3 _ hostOps3_writes (by decide : main_v11 ∉ hostOps3_W)
    _ = W3 m ρ c (Proc.devRef .tc main_v11) := W4_keep m ρ c main_v11 (by decide)
    _ = kv11 m ρ c := val_v11 m ρ c

theorem at_v16_1_5 (c : Dev nD) : W5 m ρ c (Proc.devRef .tc main_v16_1) = kv16_1 m ρ c :=
  calc W5 m ρ c (Proc.devRef .tc main_v16_1)
    _ = W4 m ρ c (Proc.devRef .tc main_v16_1) := StableHlo.after_of_writes_sub hostOps3 _ hostOps3_writes (by decide : main_v16_1 ∉ hostOps3_W)
    _ = kv16_1 m ρ c := val_v16_1 m ρ c

theorem val_v18_0 (c : Dev nD) : W6 m ρ c (Proc.devRef .tc main_v18_0) = kv18_0 m ρ c := by
  refine (W6_out0 m ρ c).trans ((final3_6 (Vr5 m ρ) c).trans ?_)
  show passArr (M := 8192) (W5 m ρ c (Proc.devRef .tc main_v17)) (W5 m ρ c (Proc.devRef .tc main_v17)) (W5 m ρ c (Proc.devRef .tc main_v11)) (W5 m ρ c (Proc.devRef .tc main_v16_1)) = _
  rw [val_v17 m ρ c, at_v11_5 m ρ c, at_v16_1_5 m ρ c]
  rfl

theorem at_v12_5 (c : Dev nD) : W5 m ρ c (Proc.devRef .tc main_v12) = kv12 m ρ c :=
  calc W5 m ρ c (Proc.devRef .tc main_v12)
    _ = W4 m ρ c (Proc.devRef .tc main_v12) := StableHlo.after_of_writes_sub hostOps3 _ hostOps3_writes (by decide : main_v12 ∉ hostOps3_W)
    _ = W3 m ρ c (Proc.devRef .tc main_v12) := W4_keep m ρ c main_v12 (by decide)
    _ = kv12 m ρ c := val_v12 m ρ c

theorem at_v16_2_5 (c : Dev nD) : W5 m ρ c (Proc.devRef .tc main_v16_2) = kv16_2 m ρ c :=
  calc W5 m ρ c (Proc.devRef .tc main_v16_2)
    _ = W4 m ρ c (Proc.devRef .tc main_v16_2) := StableHlo.after_of_writes_sub hostOps3 _ hostOps3_writes (by decide : main_v16_2 ∉ hostOps3_W)
    _ = kv16_2 m ρ c := val_v16_2 m ρ c

theorem val_v18_1 (c : Dev nD) : W6 m ρ c (Proc.devRef .tc main_v18_1) = kv18_1 m ρ c := by
  refine (W6_out1 m ρ c).trans ((final3_7 (Vr5 m ρ) c).trans ?_)
  show passArr (M := 8192) (W5 m ρ c (Proc.devRef .tc main_v17)) (W5 m ρ c (Proc.devRef .tc main_v17)) (W5 m ρ c (Proc.devRef .tc main_v12)) (W5 m ρ c (Proc.devRef .tc main_v16_2)) = _
  rw [val_v17 m ρ c, at_v12_5 m ρ c, at_v16_2_5 m ρ c]
  rfl

theorem at_v4_6 (c : Dev nD) : W6 m ρ c (Proc.devRef .tc main_v4) = kv4 m ρ c :=
  calc W6 m ρ c (Proc.devRef .tc main_v4)
    _ = W5 m ρ c (Proc.devRef .tc main_v4) := W6_keep m ρ c main_v4 (by decide)
    _ = W4 m ρ c (Proc.devRef .tc main_v4) := StableHlo.after_of_writes_sub hostOps3 _ hostOps3_writes (by decide : main_v4 ∉ hostOps3_W)
    _ = W3 m ρ c (Proc.devRef .tc main_v4) := W4_keep m ρ c main_v4 (by decide)
    _ = kv4 m ρ c := val_v4 m ρ c

theorem val_v19 (c : Dev nD) : W7 m ρ c (Proc.devRef .tc main_v19) = kv19 m ρ c := by
  have e : W7 m ρ c (Proc.devRef .tc main_v19) = addf (F := Ideal) (φ := .f32) (W6 m ρ c (Proc.devRef .tc main_v4)) (W6 m ρ c (Proc.devRef .tc main_v18_0)) := by
    show StableHlo.after hostOps4 (W6 m ρ c) (Proc.devRef .tc main_v19) = _
    after_results
    try rfl
  rw [e, at_v4_6 m ρ c, val_v18_0 m ρ c]
  rfl

theorem at_v12_7 (c : Dev nD) : W7 m ρ c (Proc.devRef .tc main_v12) = kv12 m ρ c :=
  calc W7 m ρ c (Proc.devRef .tc main_v12)
    _ = W6 m ρ c (Proc.devRef .tc main_v12) := StableHlo.after_of_writes_sub hostOps4 _ hostOps4_writes (by decide : main_v12 ∉ hostOps4_W)
    _ = W5 m ρ c (Proc.devRef .tc main_v12) := W6_keep m ρ c main_v12 (by decide)
    _ = W4 m ρ c (Proc.devRef .tc main_v12) := StableHlo.after_of_writes_sub hostOps3 _ hostOps3_writes (by decide : main_v12 ∉ hostOps3_W)
    _ = W3 m ρ c (Proc.devRef .tc main_v12) := W4_keep m ρ c main_v12 (by decide)
    _ = kv12 m ρ c := val_v12 m ρ c

theorem at_v18_1_7 (c : Dev nD) : W7 m ρ c (Proc.devRef .tc main_v18_1) = kv18_1 m ρ c :=
  calc W7 m ρ c (Proc.devRef .tc main_v18_1)
    _ = W6 m ρ c (Proc.devRef .tc main_v18_1) := StableHlo.after_of_writes_sub hostOps4 _ hostOps4_writes (by decide : main_v18_1 ∉ hostOps4_W)
    _ = kv18_1 m ρ c := val_v18_1 m ρ c

theorem val_v20 (c : Dev nD) : W8 m ρ c (Proc.devRef .tc main_v20) = kv20 m ρ c := by
  refine (W8_out0 m ρ c).trans ((final4_4 (Vr7 m ρ) c).trans ?_)
  show passArr (M := 8192) (W7 m ρ c (Proc.devRef .tc main_v19)) (W7 m ρ c (Proc.devRef .tc main_v19)) (W7 m ρ c (Proc.devRef .tc main_v12)) (W7 m ρ c (Proc.devRef .tc main_v18_1)) = _
  rw [val_v19 m ρ c, at_v12_7 m ρ c, at_v18_1_7 m ρ c]
  rfl

theorem at_arg2_8 (c : Dev nD) : W8 m ρ c (Proc.devRef .tc main_arg2) = karg2 m ρ c :=
  calc W8 m ρ c (Proc.devRef .tc main_arg2)
    _ = W7 m ρ c (Proc.devRef .tc main_arg2) := W8_keep m ρ c main_arg2 (by decide)
    _ = W6 m ρ c (Proc.devRef .tc main_arg2) := StableHlo.after_of_writes_sub hostOps4 _ hostOps4_writes (by decide : main_arg2 ∉ hostOps4_W)
    _ = W5 m ρ c (Proc.devRef .tc main_arg2) := W6_keep m ρ c main_arg2 (by decide)
    _ = W4 m ρ c (Proc.devRef .tc main_arg2) := StableHlo.after_of_writes_sub hostOps3 _ hostOps3_writes (by decide : main_arg2 ∉ hostOps3_W)
    _ = W3 m ρ c (Proc.devRef .tc main_arg2) := W4_keep m ρ c main_arg2 (by decide)
    _ = W2 m ρ c (Proc.devRef .tc main_arg2) := StableHlo.after_of_writes_sub hostOps2 _ hostOps2_writes (by decide : main_arg2 ∉ hostOps2_W)
    _ = W1 m ρ c (Proc.devRef .tc main_arg2) := (W2_arr m ρ c 1).trans (((dat1 (Vr1 m ρ) c).arrAt_in 1 rfl _).trans (A_eq1 (Vr1 m ρ) c 1))
    _ = W0 m ρ c (Proc.devRef .tc main_arg2) := (W1_arr m ρ c 1).trans (((dat0 (Vr0 m ρ) c).arrAt_in 1 rfl _).trans (A_eq0 (Vr0 m ρ) c 1))
    _ = karg2 m ρ c := rfl

theorem at_arg3_8 (c : Dev nD) : W8 m ρ c (Proc.devRef .tc main_arg3) = karg3 m ρ c :=
  calc W8 m ρ c (Proc.devRef .tc main_arg3)
    _ = W7 m ρ c (Proc.devRef .tc main_arg3) := W8_keep m ρ c main_arg3 (by decide)
    _ = W6 m ρ c (Proc.devRef .tc main_arg3) := StableHlo.after_of_writes_sub hostOps4 _ hostOps4_writes (by decide : main_arg3 ∉ hostOps4_W)
    _ = W5 m ρ c (Proc.devRef .tc main_arg3) := W6_keep m ρ c main_arg3 (by decide)
    _ = W4 m ρ c (Proc.devRef .tc main_arg3) := StableHlo.after_of_writes_sub hostOps3 _ hostOps3_writes (by decide : main_arg3 ∉ hostOps3_W)
    _ = W3 m ρ c (Proc.devRef .tc main_arg3) := W4_keep m ρ c main_arg3 (by decide)
    _ = W2 m ρ c (Proc.devRef .tc main_arg3) := StableHlo.after_of_writes_sub hostOps2 _ hostOps2_writes (by decide : main_arg3 ∉ hostOps2_W)
    _ = W1 m ρ c (Proc.devRef .tc main_arg3) := (W2_arr m ρ c 2).trans (((dat1 (Vr1 m ρ) c).arrAt_in 2 rfl _).trans (A_eq1 (Vr1 m ρ) c 2))
    _ = W0 m ρ c (Proc.devRef .tc main_arg3) := (W1_arr m ρ c 2).trans (((dat0 (Vr0 m ρ) c).arrAt_in 2 rfl _).trans (A_eq0 (Vr0 m ρ) c 2))
    _ = karg3 m ρ c := rfl

theorem at_v10_8 (c : Dev nD) : W8 m ρ c (Proc.devRef .tc main_v10) = kv10 m ρ c :=
  calc W8 m ρ c (Proc.devRef .tc main_v10)
    _ = W7 m ρ c (Proc.devRef .tc main_v10) := W8_keep m ρ c main_v10 (by decide)
    _ = W6 m ρ c (Proc.devRef .tc main_v10) := StableHlo.after_of_writes_sub hostOps4 _ hostOps4_writes (by decide : main_v10 ∉ hostOps4_W)
    _ = W5 m ρ c (Proc.devRef .tc main_v10) := W6_keep m ρ c main_v10 (by decide)
    _ = W4 m ρ c (Proc.devRef .tc main_v10) := StableHlo.after_of_writes_sub hostOps3 _ hostOps3_writes (by decide : main_v10 ∉ hostOps3_W)
    _ = W3 m ρ c (Proc.devRef .tc main_v10) := W4_keep m ρ c main_v10 (by decide)
    _ = kv10 m ρ c := val_v10 m ρ c

theorem at_v16_0_8 (c : Dev nD) : W8 m ρ c (Proc.devRef .tc main_v16_0) = kv16_0 m ρ c :=
  calc W8 m ρ c (Proc.devRef .tc main_v16_0)
    _ = W7 m ρ c (Proc.devRef .tc main_v16_0) := W8_keep m ρ c main_v16_0 (by decide)
    _ = W6 m ρ c (Proc.devRef .tc main_v16_0) := StableHlo.after_of_writes_sub hostOps4 _ hostOps4_writes (by decide : main_v16_0 ∉ hostOps4_W)
    _ = W5 m ρ c (Proc.devRef .tc main_v16_0) := W6_keep m ρ c main_v16_0 (by decide)
    _ = W4 m ρ c (Proc.devRef .tc main_v16_0) := StableHlo.after_of_writes_sub hostOps3 _ hostOps3_writes (by decide : main_v16_0 ∉ hostOps3_W)
    _ = kv16_0 m ρ c := val_v16_0 m ρ c

theorem at_v11_8 (c : Dev nD) : W8 m ρ c (Proc.devRef .tc main_v11) = kv11 m ρ c :=
  calc W8 m ρ c (Proc.devRef .tc main_v11)
    _ = W7 m ρ c (Proc.devRef .tc main_v11) := W8_keep m ρ c main_v11 (by decide)
    _ = W6 m ρ c (Proc.devRef .tc main_v11) := StableHlo.after_of_writes_sub hostOps4 _ hostOps4_writes (by decide : main_v11 ∉ hostOps4_W)
    _ = W5 m ρ c (Proc.devRef .tc main_v11) := W6_keep m ρ c main_v11 (by decide)
    _ = W4 m ρ c (Proc.devRef .tc main_v11) := StableHlo.after_of_writes_sub hostOps3 _ hostOps3_writes (by decide : main_v11 ∉ hostOps3_W)
    _ = W3 m ρ c (Proc.devRef .tc main_v11) := W4_keep m ρ c main_v11 (by decide)
    _ = kv11 m ρ c := val_v11 m ρ c

theorem at_v18_0_8 (c : Dev nD) : W8 m ρ c (Proc.devRef .tc main_v18_0) = kv18_0 m ρ c :=
  calc W8 m ρ c (Proc.devRef .tc main_v18_0)
    _ = W7 m ρ c (Proc.devRef .tc main_v18_0) := W8_keep m ρ c main_v18_0 (by decide)
    _ = W6 m ρ c (Proc.devRef .tc main_v18_0) := StableHlo.after_of_writes_sub hostOps4 _ hostOps4_writes (by decide : main_v18_0 ∉ hostOps4_W)
    _ = kv18_0 m ρ c := val_v18_0 m ρ c

theorem at_v12_8 (c : Dev nD) : W8 m ρ c (Proc.devRef .tc main_v12) = kv12 m ρ c :=
  calc W8 m ρ c (Proc.devRef .tc main_v12)
    _ = W7 m ρ c (Proc.devRef .tc main_v12) := W8_keep m ρ c main_v12 (by decide)
    _ = W6 m ρ c (Proc.devRef .tc main_v12) := StableHlo.after_of_writes_sub hostOps4 _ hostOps4_writes (by decide : main_v12 ∉ hostOps4_W)
    _ = W5 m ρ c (Proc.devRef .tc main_v12) := W6_keep m ρ c main_v12 (by decide)
    _ = W4 m ρ c (Proc.devRef .tc main_v12) := StableHlo.after_of_writes_sub hostOps3 _ hostOps3_writes (by decide : main_v12 ∉ hostOps3_W)
    _ = W3 m ρ c (Proc.devRef .tc main_v12) := W4_keep m ρ c main_v12 (by decide)
    _ = kv12 m ρ c := val_v12 m ρ c

set_option maxHeartbeats 8000000 in
theorem val_v35 (c : Dev nD) : W9 m ρ c (Proc.devRef .tc main_v35) = kv35 m ρ c := by
  have e : W9 m ρ c (Proc.devRef .tc main_v35) = addf (F := Ideal) (φ := .f32) (addf (F := Ideal) (φ := .f32) (addf (F := Ideal) (φ := .f32) (addf (F := Ideal) (φ := .f32) (Host.reduceAdd (F := Ideal) (φ := .f32) (mulf (F := Ideal) (φ := .f32) (W8 m ρ c (Proc.devRef .tc main_arg2)) (W8 m ρ c (Proc.devRef .tc main_arg2))) (constant (F := Ideal) S_ .f32 0x00000000#32) reducesTo_S256x256_S_d0_1 h_S_) (Host.reduceAdd (F := Ideal) (φ := .f32) (mulf (F := Ideal) (φ := .f32) (W8 m ρ c (Proc.devRef .tc main_arg3)) (W8 m ρ c (Proc.devRef .tc main_arg3))) (constant (F := Ideal) S_ .f32 0x00000000#32) reducesTo_S256_S_d0 h_S_)) (Host.reduceAdd (F := Ideal) (φ := .f32) (mulf (F := Ideal) (φ := .f32) (W8 m ρ c (Proc.devRef .tc main_v10)) (W8 m ρ c (Proc.devRef .tc main_v16_0))) (constant (F := Ideal) S_ .f32 0x00000000#32) reducesTo_S8192x64_S_d0_1 h_S_)) (Host.reduceAdd (F := Ideal) (φ := .f32) (mulf (F := Ideal) (φ := .f32) (W8 m ρ c (Proc.devRef .tc main_v11)) (W8 m ρ c (Proc.devRef .tc main_v18_0))) (constant (F := Ideal) S_ .f32 0x00000000#32) reducesTo_S8192x64_S_d0_1 h_S_)) (Host.reduceAdd (F := Ideal) (φ := .f32) (mulf (F := Ideal) (φ := .f32) (W8 m ρ c (Proc.devRef .tc main_v12)) (W8 m ρ c (Proc.devRef .tc main_v20))) (constant (F := Ideal) S_ .f32 0x00000000#32) reducesTo_S8192x64_S_d0_1 h_S_) := by
    show StableHlo.after hostOps5 (W8 m ρ c) (Proc.devRef .tc main_v35) = _
    after_results_simp
    try rfl
  rw [e, at_arg2_8 m ρ c, at_arg3_8 m ρ c, at_v10_8 m ρ c, at_v16_0_8 m ρ c, at_v11_8 m ρ c, at_v18_0_8 m ρ c, at_v12_8 m ρ c, val_v20 m ρ c]
  rfl

theorem val_v36 (c : Dev nD) : W9 m ρ c (Proc.devRef .tc main_v36) = kv36 c := by
  have e : W9 m ρ c (Proc.devRef .tc main_v36) = broadcastInDim S2048x64 ![] bcast_S_S2048x64 (constant (F := Ideal) S_ .f32 0x00000000#32) := by
    show StableHlo.after hostOps5 (W8 m ρ c) (Proc.devRef .tc main_v36) = _
    after_results
    try rfl
  rw [e]
  rfl

theorem val_v37 (c : Dev nD) : W9 m ρ c (Proc.devRef .tc main_v37) = kv37 c := by
  have e : W9 m ρ c (Proc.devRef .tc main_v37) = broadcastInDim S2048x64 ![] bcast_S_S2048x64 (constant (F := Ideal) S_ .f32 0x00000000#32) := by
    show StableHlo.after hostOps5 (W8 m ρ c) (Proc.devRef .tc main_v37) = _
    after_results
    try rfl
  rw [e]
  rfl

theorem val_v38 (c : Dev nD) : W9 m ρ c (Proc.devRef .tc main_v38) = kv38 c := by
  have e : W9 m ρ c (Proc.devRef .tc main_v38) = broadcastInDim S2048x64 ![] bcast_S_S2048x64 (constant (F := Ideal) S_ .f32 0x00000000#32) := by
    show StableHlo.after hostOps5 (W8 m ρ c) (Proc.devRef .tc main_v38) = _
    after_results
    try rfl
  rw [e]
  rfl

theorem at_v6_9 (c : Dev nD) : W9 m ρ c (Proc.devRef .tc main_v6) = kv6 m ρ c :=
  calc W9 m ρ c (Proc.devRef .tc main_v6)
    _ = W8 m ρ c (Proc.devRef .tc main_v6) := StableHlo.after_of_writes_sub hostOps5 _ hostOps5_writes (by decide : main_v6 ∉ hostOps5_W)
    _ = W7 m ρ c (Proc.devRef .tc main_v6) := W8_keep m ρ c main_v6 (by decide)
    _ = W6 m ρ c (Proc.devRef .tc main_v6) := StableHlo.after_of_writes_sub hostOps4 _ hostOps4_writes (by decide : main_v6 ∉ hostOps4_W)
    _ = W5 m ρ c (Proc.devRef .tc main_v6) := W6_keep m ρ c main_v6 (by decide)
    _ = W4 m ρ c (Proc.devRef .tc main_v6) := StableHlo.after_of_writes_sub hostOps3 _ hostOps3_writes (by decide : main_v6 ∉ hostOps3_W)
    _ = W3 m ρ c (Proc.devRef .tc main_v6) := W4_keep m ρ c main_v6 (by decide)
    _ = kv6 m ρ c := val_v6 m ρ c

theorem at_v2_9 (c : Dev nD) : W9 m ρ c (Proc.devRef .tc main_v2) = kv2 m ρ c :=
  calc W9 m ρ c (Proc.devRef .tc main_v2)
    _ = W8 m ρ c (Proc.devRef .tc main_v2) := StableHlo.after_of_writes_sub hostOps5 _ hostOps5_writes (by decide : main_v2 ∉ hostOps5_W)
    _ = W7 m ρ c (Proc.devRef .tc main_v2) := W8_keep m ρ c main_v2 (by decide)
    _ = W6 m ρ c (Proc.devRef .tc main_v2) := StableHlo.after_of_writes_sub hostOps4 _ hostOps4_writes (by decide : main_v2 ∉ hostOps4_W)
    _ = W5 m ρ c (Proc.devRef .tc main_v2) := W6_keep m ρ c main_v2 (by decide)
    _ = W4 m ρ c (Proc.devRef .tc main_v2) := StableHlo.after_of_writes_sub hostOps3 _ hostOps3_writes (by decide : main_v2 ∉ hostOps3_W)
    _ = W3 m ρ c (Proc.devRef .tc main_v2) := W4_keep m ρ c main_v2 (by decide)
    _ = kv2 m ρ c := val_v2 m ρ c

theorem at_v10_9 (c : Dev nD) : W9 m ρ c (Proc.devRef .tc main_v10) = kv10 m ρ c :=
  calc W9 m ρ c (Proc.devRef .tc main_v10)
    _ = W8 m ρ c (Proc.devRef .tc main_v10) := StableHlo.after_of_writes_sub hostOps5 _ hostOps5_writes (by decide : main_v10 ∉ hostOps5_W)
    _ = W7 m ρ c (Proc.devRef .tc main_v10) := W8_keep m ρ c main_v10 (by decide)
    _ = W6 m ρ c (Proc.devRef .tc main_v10) := StableHlo.after_of_writes_sub hostOps4 _ hostOps4_writes (by decide : main_v10 ∉ hostOps4_W)
    _ = W5 m ρ c (Proc.devRef .tc main_v10) := W6_keep m ρ c main_v10 (by decide)
    _ = W4 m ρ c (Proc.devRef .tc main_v10) := StableHlo.after_of_writes_sub hostOps3 _ hostOps3_writes (by decide : main_v10 ∉ hostOps3_W)
    _ = W3 m ρ c (Proc.devRef .tc main_v10) := W4_keep m ρ c main_v10 (by decide)
    _ = kv10 m ρ c := val_v10 m ρ c

theorem val_v39_0 (c : Dev nD) : W10 m ρ c (Proc.devRef .tc main_v39_0) = kv39_0 m ρ c := by
  refine (W10_arr m ρ c 8).trans ((final5_8 (Vr9 m ρ) c).trans ?_)
  show passArr (M := 2048) (W9 m ρ c (Proc.devRef .tc main_v6)) (W9 m ρ c (Proc.devRef .tc main_v2)) (W9 m ρ c (Proc.devRef .tc main_v10)) (W9 m ρ c (Proc.devRef .tc main_v36)) = _
  rw [at_v6_9 m ρ c, at_v2_9 m ρ c, at_v10_9 m ρ c, val_v36 m ρ c]
  rfl

theorem at_v11_9 (c : Dev nD) : W9 m ρ c (Proc.devRef .tc main_v11) = kv11 m ρ c :=
  calc W9 m ρ c (Proc.devRef .tc main_v11)
    _ = W8 m ρ c (Proc.devRef .tc main_v11) := StableHlo.after_of_writes_sub hostOps5 _ hostOps5_writes (by decide : main_v11 ∉ hostOps5_W)
    _ = W7 m ρ c (Proc.devRef .tc main_v11) := W8_keep m ρ c main_v11 (by decide)
    _ = W6 m ρ c (Proc.devRef .tc main_v11) := StableHlo.after_of_writes_sub hostOps4 _ hostOps4_writes (by decide : main_v11 ∉ hostOps4_W)
    _ = W5 m ρ c (Proc.devRef .tc main_v11) := W6_keep m ρ c main_v11 (by decide)
    _ = W4 m ρ c (Proc.devRef .tc main_v11) := StableHlo.after_of_writes_sub hostOps3 _ hostOps3_writes (by decide : main_v11 ∉ hostOps3_W)
    _ = W3 m ρ c (Proc.devRef .tc main_v11) := W4_keep m ρ c main_v11 (by decide)
    _ = kv11 m ρ c := val_v11 m ρ c

theorem val_v39_1 (c : Dev nD) : W10 m ρ c (Proc.devRef .tc main_v39_1) = kv39_1 m ρ c := by
  refine (W10_arr m ρ c 9).trans ((final5_9 (Vr9 m ρ) c).trans ?_)
  show passArr (M := 2048) (W9 m ρ c (Proc.devRef .tc main_v6)) (W9 m ρ c (Proc.devRef .tc main_v2)) (W9 m ρ c (Proc.devRef .tc main_v11)) (W9 m ρ c (Proc.devRef .tc main_v37)) = _
  rw [at_v6_9 m ρ c, at_v2_9 m ρ c, at_v11_9 m ρ c, val_v37 m ρ c]
  rfl

theorem at_v12_9 (c : Dev nD) : W9 m ρ c (Proc.devRef .tc main_v12) = kv12 m ρ c :=
  calc W9 m ρ c (Proc.devRef .tc main_v12)
    _ = W8 m ρ c (Proc.devRef .tc main_v12) := StableHlo.after_of_writes_sub hostOps5 _ hostOps5_writes (by decide : main_v12 ∉ hostOps5_W)
    _ = W7 m ρ c (Proc.devRef .tc main_v12) := W8_keep m ρ c main_v12 (by decide)
    _ = W6 m ρ c (Proc.devRef .tc main_v12) := StableHlo.after_of_writes_sub hostOps4 _ hostOps4_writes (by decide : main_v12 ∉ hostOps4_W)
    _ = W5 m ρ c (Proc.devRef .tc main_v12) := W6_keep m ρ c main_v12 (by decide)
    _ = W4 m ρ c (Proc.devRef .tc main_v12) := StableHlo.after_of_writes_sub hostOps3 _ hostOps3_writes (by decide : main_v12 ∉ hostOps3_W)
    _ = W3 m ρ c (Proc.devRef .tc main_v12) := W4_keep m ρ c main_v12 (by decide)
    _ = kv12 m ρ c := val_v12 m ρ c

theorem val_v39_2 (c : Dev nD) : W10 m ρ c (Proc.devRef .tc main_v39_2) = kv39_2 m ρ c := by
  refine (W10_arr m ρ c 10).trans ((final5_10 (Vr9 m ρ) c).trans ?_)
  show passArr (M := 2048) (W9 m ρ c (Proc.devRef .tc main_v6)) (W9 m ρ c (Proc.devRef .tc main_v2)) (W9 m ρ c (Proc.devRef .tc main_v12)) (W9 m ρ c (Proc.devRef .tc main_v38)) = _
  rw [at_v6_9 m ρ c, at_v2_9 m ρ c, at_v12_9 m ρ c, val_v38 m ρ c]
  rfl

theorem at_v7_10 (c : Dev nD) : W10 m ρ c (Proc.devRef .tc main_v7) = kv7 m ρ c :=
  calc W10 m ρ c (Proc.devRef .tc main_v7)
    _ = W9 m ρ c (Proc.devRef .tc main_v7) := W10_of_ne m ρ c main_v7 (by decide)
    _ = W8 m ρ c (Proc.devRef .tc main_v7) := StableHlo.after_of_writes_sub hostOps5 _ hostOps5_writes (by decide : main_v7 ∉ hostOps5_W)
    _ = W7 m ρ c (Proc.devRef .tc main_v7) := W8_keep m ρ c main_v7 (by decide)
    _ = W6 m ρ c (Proc.devRef .tc main_v7) := StableHlo.after_of_writes_sub hostOps4 _ hostOps4_writes (by decide : main_v7 ∉ hostOps4_W)
    _ = W5 m ρ c (Proc.devRef .tc main_v7) := W6_keep m ρ c main_v7 (by decide)
    _ = W4 m ρ c (Proc.devRef .tc main_v7) := StableHlo.after_of_writes_sub hostOps3 _ hostOps3_writes (by decide : main_v7 ∉ hostOps3_W)
    _ = W3 m ρ c (Proc.devRef .tc main_v7) := W4_keep m ρ c main_v7 (by decide)
    _ = kv7 m ρ c := val_v7 m ρ c

theorem val_v40 (c : Dev nD) : W11 m ρ c (Proc.devRef .tc main_v40) = kv40 m ρ c := by
  have e : W11 m ρ c (Proc.devRef .tc main_v40) = addf (F := Ideal) (φ := .f32) (W10 m ρ c (Proc.devRef .tc main_v7)) (W10 m ρ c (Proc.devRef .tc main_v39_0)) := by
    show StableHlo.after hostOps6 (W10 m ρ c) (Proc.devRef .tc main_v40) = _
    after_results
    try rfl
  rw [e, at_v7_10 m ρ c, val_v39_0 m ρ c]
  rfl

theorem at_v17_11 (c : Dev nD) : W11 m ρ c (Proc.devRef .tc main_v17) = kv17 m ρ c :=
  calc W11 m ρ c (Proc.devRef .tc main_v17)
    _ = W10 m ρ c (Proc.devRef .tc main_v17) := StableHlo.after_of_writes_sub hostOps6 _ hostOps6_writes (by decide : main_v17 ∉ hostOps6_W)
    _ = W9 m ρ c (Proc.devRef .tc main_v17) := W10_of_ne m ρ c main_v17 (by decide)
    _ = W8 m ρ c (Proc.devRef .tc main_v17) := StableHlo.after_of_writes_sub hostOps5 _ hostOps5_writes (by decide : main_v17 ∉ hostOps5_W)
    _ = W7 m ρ c (Proc.devRef .tc main_v17) := W8_keep m ρ c main_v17 (by decide)
    _ = W6 m ρ c (Proc.devRef .tc main_v17) := StableHlo.after_of_writes_sub hostOps4 _ hostOps4_writes (by decide : main_v17 ∉ hostOps4_W)
    _ = W5 m ρ c (Proc.devRef .tc main_v17) := W6_keep m ρ c main_v17 (by decide)
    _ = kv17 m ρ c := val_v17 m ρ c

theorem at_v11_11 (c : Dev nD) : W11 m ρ c (Proc.devRef .tc main_v11) = kv11 m ρ c :=
  calc W11 m ρ c (Proc.devRef .tc main_v11)
    _ = W10 m ρ c (Proc.devRef .tc main_v11) := StableHlo.after_of_writes_sub hostOps6 _ hostOps6_writes (by decide : main_v11 ∉ hostOps6_W)
    _ = W9 m ρ c (Proc.devRef .tc main_v11) := (W10_arr m ρ c 3).trans (((dat5 (Vr9 m ρ) c).arrAt_in 3 rfl _).trans (A_eq5 (Vr9 m ρ) c 3))
    _ = W8 m ρ c (Proc.devRef .tc main_v11) := StableHlo.after_of_writes_sub hostOps5 _ hostOps5_writes (by decide : main_v11 ∉ hostOps5_W)
    _ = W7 m ρ c (Proc.devRef .tc main_v11) := W8_keep m ρ c main_v11 (by decide)
    _ = W6 m ρ c (Proc.devRef .tc main_v11) := StableHlo.after_of_writes_sub hostOps4 _ hostOps4_writes (by decide : main_v11 ∉ hostOps4_W)
    _ = W5 m ρ c (Proc.devRef .tc main_v11) := W6_keep m ρ c main_v11 (by decide)
    _ = W4 m ρ c (Proc.devRef .tc main_v11) := StableHlo.after_of_writes_sub hostOps3 _ hostOps3_writes (by decide : main_v11 ∉ hostOps3_W)
    _ = W3 m ρ c (Proc.devRef .tc main_v11) := W4_keep m ρ c main_v11 (by decide)
    _ = kv11 m ρ c := val_v11 m ρ c

theorem at_v39_1_11 (c : Dev nD) : W11 m ρ c (Proc.devRef .tc main_v39_1) = kv39_1 m ρ c :=
  calc W11 m ρ c (Proc.devRef .tc main_v39_1)
    _ = W10 m ρ c (Proc.devRef .tc main_v39_1) := StableHlo.after_of_writes_sub hostOps6 _ hostOps6_writes (by decide : main_v39_1 ∉ hostOps6_W)
    _ = kv39_1 m ρ c := val_v39_1 m ρ c

theorem val_v41_0 (c : Dev nD) : W12 m ρ c (Proc.devRef .tc main_v41_0) = kv41_0 m ρ c := by
  refine (W12_arr m ρ c 6).trans ((final6_6 (Vr11 m ρ) c).trans ?_)
  show passArr (M := 2048) (W11 m ρ c (Proc.devRef .tc main_v40)) (W11 m ρ c (Proc.devRef .tc main_v17)) (W11 m ρ c (Proc.devRef .tc main_v11)) (W11 m ρ c (Proc.devRef .tc main_v39_1)) = _
  rw [val_v40 m ρ c, at_v17_11 m ρ c, at_v11_11 m ρ c, at_v39_1_11 m ρ c]
  rfl

theorem at_v12_11 (c : Dev nD) : W11 m ρ c (Proc.devRef .tc main_v12) = kv12 m ρ c :=
  calc W11 m ρ c (Proc.devRef .tc main_v12)
    _ = W10 m ρ c (Proc.devRef .tc main_v12) := StableHlo.after_of_writes_sub hostOps6 _ hostOps6_writes (by decide : main_v12 ∉ hostOps6_W)
    _ = W9 m ρ c (Proc.devRef .tc main_v12) := (W10_arr m ρ c 4).trans (((dat5 (Vr9 m ρ) c).arrAt_in 4 rfl _).trans (A_eq5 (Vr9 m ρ) c 4))
    _ = W8 m ρ c (Proc.devRef .tc main_v12) := StableHlo.after_of_writes_sub hostOps5 _ hostOps5_writes (by decide : main_v12 ∉ hostOps5_W)
    _ = W7 m ρ c (Proc.devRef .tc main_v12) := W8_keep m ρ c main_v12 (by decide)
    _ = W6 m ρ c (Proc.devRef .tc main_v12) := StableHlo.after_of_writes_sub hostOps4 _ hostOps4_writes (by decide : main_v12 ∉ hostOps4_W)
    _ = W5 m ρ c (Proc.devRef .tc main_v12) := W6_keep m ρ c main_v12 (by decide)
    _ = W4 m ρ c (Proc.devRef .tc main_v12) := StableHlo.after_of_writes_sub hostOps3 _ hostOps3_writes (by decide : main_v12 ∉ hostOps3_W)
    _ = W3 m ρ c (Proc.devRef .tc main_v12) := W4_keep m ρ c main_v12 (by decide)
    _ = kv12 m ρ c := val_v12 m ρ c

theorem at_v39_2_11 (c : Dev nD) : W11 m ρ c (Proc.devRef .tc main_v39_2) = kv39_2 m ρ c :=
  calc W11 m ρ c (Proc.devRef .tc main_v39_2)
    _ = W10 m ρ c (Proc.devRef .tc main_v39_2) := StableHlo.after_of_writes_sub hostOps6 _ hostOps6_writes (by decide : main_v39_2 ∉ hostOps6_W)
    _ = kv39_2 m ρ c := val_v39_2 m ρ c

theorem val_v41_1 (c : Dev nD) : W12 m ρ c (Proc.devRef .tc main_v41_1) = kv41_1 m ρ c := by
  refine (W12_arr m ρ c 7).trans ((final6_7 (Vr11 m ρ) c).trans ?_)
  show passArr (M := 2048) (W11 m ρ c (Proc.devRef .tc main_v40)) (W11 m ρ c (Proc.devRef .tc main_v17)) (W11 m ρ c (Proc.devRef .tc main_v12)) (W11 m ρ c (Proc.devRef .tc main_v39_2)) = _
  rw [val_v40 m ρ c, at_v17_11 m ρ c, at_v12_11 m ρ c, at_v39_2_11 m ρ c]
  rfl

theorem at_v8_12 (c : Dev nD) : W12 m ρ c (Proc.devRef .tc main_v8) = kv8 m ρ c :=
  calc W12 m ρ c (Proc.devRef .tc main_v8)
    _ = W11 m ρ c (Proc.devRef .tc main_v8) := W12_of_ne m ρ c main_v8 (by decide)
    _ = W10 m ρ c (Proc.devRef .tc main_v8) := StableHlo.after_of_writes_sub hostOps6 _ hostOps6_writes (by decide : main_v8 ∉ hostOps6_W)
    _ = W9 m ρ c (Proc.devRef .tc main_v8) := W10_of_ne m ρ c main_v8 (by decide)
    _ = W8 m ρ c (Proc.devRef .tc main_v8) := StableHlo.after_of_writes_sub hostOps5 _ hostOps5_writes (by decide : main_v8 ∉ hostOps5_W)
    _ = W7 m ρ c (Proc.devRef .tc main_v8) := W8_keep m ρ c main_v8 (by decide)
    _ = W6 m ρ c (Proc.devRef .tc main_v8) := StableHlo.after_of_writes_sub hostOps4 _ hostOps4_writes (by decide : main_v8 ∉ hostOps4_W)
    _ = W5 m ρ c (Proc.devRef .tc main_v8) := W6_keep m ρ c main_v8 (by decide)
    _ = W4 m ρ c (Proc.devRef .tc main_v8) := StableHlo.after_of_writes_sub hostOps3 _ hostOps3_writes (by decide : main_v8 ∉ hostOps3_W)
    _ = W3 m ρ c (Proc.devRef .tc main_v8) := W4_keep m ρ c main_v8 (by decide)
    _ = kv8 m ρ c := val_v8 m ρ c

theorem val_v42 (c : Dev nD) : W13 m ρ c (Proc.devRef .tc main_v42) = kv42 m ρ c := by
  have e : W13 m ρ c (Proc.devRef .tc main_v42) = addf (F := Ideal) (φ := .f32) (W12 m ρ c (Proc.devRef .tc main_v8)) (W12 m ρ c (Proc.devRef .tc main_v41_0)) := by
    show StableHlo.after hostOps7 (W12 m ρ c) (Proc.devRef .tc main_v42) = _
    after_results
    try rfl
  rw [e, at_v8_12 m ρ c, val_v41_0 m ρ c]
  rfl

theorem at_v19_13 (c : Dev nD) : W13 m ρ c (Proc.devRef .tc main_v19) = kv19 m ρ c :=
  calc W13 m ρ c (Proc.devRef .tc main_v19)
    _ = W12 m ρ c (Proc.devRef .tc main_v19) := StableHlo.after_of_writes_sub hostOps7 _ hostOps7_writes (by decide : main_v19 ∉ hostOps7_W)
    _ = W11 m ρ c (Proc.devRef .tc main_v19) := W12_of_ne m ρ c main_v19 (by decide)
    _ = W10 m ρ c (Proc.devRef .tc main_v19) := StableHlo.after_of_writes_sub hostOps6 _ hostOps6_writes (by decide : main_v19 ∉ hostOps6_W)
    _ = W9 m ρ c (Proc.devRef .tc main_v19) := W10_of_ne m ρ c main_v19 (by decide)
    _ = W8 m ρ c (Proc.devRef .tc main_v19) := StableHlo.after_of_writes_sub hostOps5 _ hostOps5_writes (by decide : main_v19 ∉ hostOps5_W)
    _ = W7 m ρ c (Proc.devRef .tc main_v19) := W8_keep m ρ c main_v19 (by decide)
    _ = kv19 m ρ c := val_v19 m ρ c

theorem at_v12_13 (c : Dev nD) : W13 m ρ c (Proc.devRef .tc main_v12) = kv12 m ρ c :=
  calc W13 m ρ c (Proc.devRef .tc main_v12)
    _ = W12 m ρ c (Proc.devRef .tc main_v12) := StableHlo.after_of_writes_sub hostOps7 _ hostOps7_writes (by decide : main_v12 ∉ hostOps7_W)
    _ = W11 m ρ c (Proc.devRef .tc main_v12) := (W12_arr m ρ c 3).trans (((dat6 (Vr11 m ρ) c).arrAt_in 3 rfl _).trans (A_eq6 (Vr11 m ρ) c 3))
    _ = W10 m ρ c (Proc.devRef .tc main_v12) := StableHlo.after_of_writes_sub hostOps6 _ hostOps6_writes (by decide : main_v12 ∉ hostOps6_W)
    _ = W9 m ρ c (Proc.devRef .tc main_v12) := (W10_arr m ρ c 4).trans (((dat5 (Vr9 m ρ) c).arrAt_in 4 rfl _).trans (A_eq5 (Vr9 m ρ) c 4))
    _ = W8 m ρ c (Proc.devRef .tc main_v12) := StableHlo.after_of_writes_sub hostOps5 _ hostOps5_writes (by decide : main_v12 ∉ hostOps5_W)
    _ = W7 m ρ c (Proc.devRef .tc main_v12) := W8_keep m ρ c main_v12 (by decide)
    _ = W6 m ρ c (Proc.devRef .tc main_v12) := StableHlo.after_of_writes_sub hostOps4 _ hostOps4_writes (by decide : main_v12 ∉ hostOps4_W)
    _ = W5 m ρ c (Proc.devRef .tc main_v12) := W6_keep m ρ c main_v12 (by decide)
    _ = W4 m ρ c (Proc.devRef .tc main_v12) := StableHlo.after_of_writes_sub hostOps3 _ hostOps3_writes (by decide : main_v12 ∉ hostOps3_W)
    _ = W3 m ρ c (Proc.devRef .tc main_v12) := W4_keep m ρ c main_v12 (by decide)
    _ = kv12 m ρ c := val_v12 m ρ c

theorem at_v41_1_13 (c : Dev nD) : W13 m ρ c (Proc.devRef .tc main_v41_1) = kv41_1 m ρ c :=
  calc W13 m ρ c (Proc.devRef .tc main_v41_1)
    _ = W12 m ρ c (Proc.devRef .tc main_v41_1) := StableHlo.after_of_writes_sub hostOps7 _ hostOps7_writes (by decide : main_v41_1 ∉ hostOps7_W)
    _ = kv41_1 m ρ c := val_v41_1 m ρ c

theorem val_v43 (c : Dev nD) : W14 m ρ c (Proc.devRef .tc main_v43) = kv43 m ρ c := by
  refine (W14_arr m ρ c 4).trans ((final7_4 (Vr13 m ρ) c).trans ?_)
  show passArr (M := 2048) (W13 m ρ c (Proc.devRef .tc main_v42)) (W13 m ρ c (Proc.devRef .tc main_v19)) (W13 m ρ c (Proc.devRef .tc main_v12)) (W13 m ρ c (Proc.devRef .tc main_v41_1)) = _
  rw [val_v42 m ρ c, at_v19_13 m ρ c, at_v12_13 m ρ c, at_v41_1_13 m ρ c]
  rfl

theorem at_v9_14 (c : Dev nD) : W14 m ρ c (Proc.devRef .tc main_v9) = kv9 m ρ c :=
  calc W14 m ρ c (Proc.devRef .tc main_v9)
    _ = W13 m ρ c (Proc.devRef .tc main_v9) := W14_of_ne m ρ c main_v9 (by decide)
    _ = W12 m ρ c (Proc.devRef .tc main_v9) := StableHlo.after_of_writes_sub hostOps7 _ hostOps7_writes (by decide : main_v9 ∉ hostOps7_W)
    _ = W11 m ρ c (Proc.devRef .tc main_v9) := W12_of_ne m ρ c main_v9 (by decide)
    _ = W10 m ρ c (Proc.devRef .tc main_v9) := StableHlo.after_of_writes_sub hostOps6 _ hostOps6_writes (by decide : main_v9 ∉ hostOps6_W)
    _ = W9 m ρ c (Proc.devRef .tc main_v9) := W10_of_ne m ρ c main_v9 (by decide)
    _ = W8 m ρ c (Proc.devRef .tc main_v9) := StableHlo.after_of_writes_sub hostOps5 _ hostOps5_writes (by decide : main_v9 ∉ hostOps5_W)
    _ = W7 m ρ c (Proc.devRef .tc main_v9) := W8_keep m ρ c main_v9 (by decide)
    _ = W6 m ρ c (Proc.devRef .tc main_v9) := StableHlo.after_of_writes_sub hostOps4 _ hostOps4_writes (by decide : main_v9 ∉ hostOps4_W)
    _ = W5 m ρ c (Proc.devRef .tc main_v9) := W6_keep m ρ c main_v9 (by decide)
    _ = W4 m ρ c (Proc.devRef .tc main_v9) := StableHlo.after_of_writes_sub hostOps3 _ hostOps3_writes (by decide : main_v9 ∉ hostOps3_W)
    _ = W3 m ρ c (Proc.devRef .tc main_v9) := W4_keep m ρ c main_v9 (by decide)
    _ = kv9 m ρ c := val_v9 m ρ c

theorem val_v44 (c : Dev nD) : W15 m ρ c (Proc.devRef .tc main_v44) = kv44 m ρ c := by
  have e : W15 m ρ c (Proc.devRef .tc main_v44) = addf (F := Ideal) (φ := .f32) (W14 m ρ c (Proc.devRef .tc main_v9)) (W14 m ρ c (Proc.devRef .tc main_v43)) := by
    show StableHlo.after hostOps8 (W14 m ρ c) (Proc.devRef .tc main_v44) = _
    after_results
    try rfl
  rw [e, at_v9_14 m ρ c, val_v43 m ρ c]
  rfl

theorem at_v35_15 (c : Dev nD) : W15 m ρ c (Proc.devRef .tc main_v35) = kv35 m ρ c :=
  calc W15 m ρ c (Proc.devRef .tc main_v35)
    _ = W14 m ρ c (Proc.devRef .tc main_v35) := StableHlo.after_of_writes_sub hostOps8 _ hostOps8_writes (by decide : main_v35 ∉ hostOps8_W)
    _ = W13 m ρ c (Proc.devRef .tc main_v35) := W14_of_ne m ρ c main_v35 (by decide)
    _ = W12 m ρ c (Proc.devRef .tc main_v35) := StableHlo.after_of_writes_sub hostOps7 _ hostOps7_writes (by decide : main_v35 ∉ hostOps7_W)
    _ = W11 m ρ c (Proc.devRef .tc main_v35) := W12_of_ne m ρ c main_v35 (by decide)
    _ = W10 m ρ c (Proc.devRef .tc main_v35) := StableHlo.after_of_writes_sub hostOps6 _ hostOps6_writes (by decide : main_v35 ∉ hostOps6_W)
    _ = W9 m ρ c (Proc.devRef .tc main_v35) := W10_of_ne m ρ c main_v35 (by decide)
    _ = kv35 m ρ c := val_v35 m ρ c

end Cert.KernelIdeal.Gen

end
-- ==== Proof.RefStage.lean ====
/-
  One radial stage of the reference, at the exact instance, read at an index. From a row array `x` (10240 rows) and the
  data rows `xs` (8192 of them), the reference forms  exp(x·xsᵀ − |x|²/2 − |xs|²ᵀ/2);  its entry (r, n) is the radial
  kernel between row r of `x` and row n of `xs` (halving is dividing by two, on every extended real). And the
  accumulated kernel matrix contracted against a coefficient block, at (r, k), is the sum over n.
-/
import proofs.«117133_j29008209117207_1_alg».proof.Proof.Gen.ReferenceIdeal.Run
import proofs.«117133_j29008209117207_1_alg».proof.Proof.LibDot
import proofs.«117133_j29008209117207_1_alg».proof.Proof.LibKernelSum
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Gen Idealize.ShloMosaic Idealize.ShloMosaic.ValueIdx Cert.LibKernelSum

/-- The host's sum of a matrix [a, b] along its second axis, from the zero word, at row r: the sum of row r. -/
theorem hostRowSum_apply {a b : ℕ} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd (F := Ideal) x (constant (F := Ideal) ⟨0, ![]⟩ .f32 0x00000000#32) h' hu (ix1 r) = ∑ c : Fin b, x (ix2 r c) := by
  unfold Host.reduceAdd
  refine (Ideal.hostReduceAdd_single h' h x _ (ix1 r)).trans ?_
  rw [constant_apply, ofBits_zero, zero_add]
  refine Finset.sum_congr rfl fun c _ => congrArg x ?_
  funext d
  apply Fin.ext
  match d with
  | ⟨0, _⟩ => rfl
  | ⟨1, _⟩ => rfl

variable (x : FVec Ideal S10240x64 .f32) (xs : FVec Ideal S8192x64 .f32)

/-- x·xsᵀ at (r, n). -/
theorem dot_x_xs (r : Fin 10240) (n : Fin 8192) :
    Host.dotGeneral (F := Ideal) dot_S10240x64_S64x8192_S10240x8192_1_0_0_1_n_n none x
      (transpose S64x8192 [1, 0] xs transposes_S8192x64_S64x8192_1_0) (ix2 r n)
    = ∑ j : Fin 64, x (ix2 r j) * xs (ix2 n j) := by
  unfold Host.dotGeneral
  refine (Ideal.dotGeneral_apply dot_S10240x64_S64x8192_S10240x8192_1_0_0_1_n_n none _ x _ (ix2 r n)).trans ?_
  rw [LibDot.sum_contr _ 64 rfl rfl]
  refine Finset.sum_congr rfl fun j _ => ?_
  congr 1
  · refine congrArg x (funext fun a => Fin.ext ?_)
    match a with
    | ⟨0, _⟩ => rfl
    | ⟨1, _⟩ => exact (DotDims.lhsIdx_val_of_single _ rfl _ _).trans (contrEquiv1_symm_val _ 64 rfl rfl j)
  · exact transpose_apply [1, 0] xs transposes_S8192x64_S64x8192_1_0 _ (ix2 n j) (fun b => by
      match b with
      | ⟨0, _⟩ => exact ((DotDims.rhsIdx_val_of_single _ rfl _ _).trans (contrEquiv1_symm_val _ 64 rfl rfl j)).symm
      | ⟨1, _⟩ => rfl)

/-! ## `broadcast_in_dim` forms read at an index -/

section Bcast
variable {α : Type}

/-- A column [a, 1] laid along b columns, read at (r, n), is the column at (r, 0). -/
theorem bcastCol_apply {a b : ℕ} (v : (⟨2, ![a, 1]⟩ : Shape).Idx → α)
    (h : (⟨2, ![a, 1]⟩ : Shape).BroadcastsInDim ⟨2, ![a, b]⟩ ![0, 1]) (r : Fin a) (n : Fin b) :
    broadcastInDim ⟨2, ![a, b]⟩ ![0, 1] h v (ix2 r n) = v (ix2 r (0 : Fin 1)) := by
  refine broadcastInDim_apply ![0, 1] h v (ix2 r n) (ix2 r (0 : Fin 1)) fun ax => ?_
  match ax with
  | ⟨0, _⟩ =>
    show r.val = if a = 1 then 0 else r.val
    split
    · have := r.isLt; omega
    · rfl
  | ⟨1, _⟩ => rfl

/-- A row [1, b] laid down a rows, read at (r, n), is the row at (0, n). -/
theorem bcastRow_apply {a b : ℕ} (v : (⟨2, ![1, b]⟩ : Shape).Idx → α)
    (h : (⟨2, ![1, b]⟩ : Shape).BroadcastsInDim ⟨2, ![a, b]⟩ ![0, 1]) (r : Fin a) (n : Fin b) :
    broadcastInDim ⟨2, ![a, b]⟩ ![0, 1] h v (ix2 r n) = v (ix2 (0 : Fin 1) n) := by
  refine broadcastInDim_apply ![0, 1] h v (ix2 r n) (ix2 (0 : Fin 1) n) fun ax => ?_
  match ax with
  | ⟨0, _⟩ => rfl
  | ⟨1, _⟩ =>
    show n.val = if b = 1 then 0 else n.val
    split
    · have := n.isLt; omega
    · rfl

/-- A vector [a] laid as a column [a, 1], read at (r, 0), is the vector at r. -/
theorem bcastVecCol_apply {a : ℕ} (v : (⟨1, ![a]⟩ : Shape).Idx → α)
    (h : (⟨1, ![a]⟩ : Shape).BroadcastsInDim ⟨2, ![a, 1]⟩ ![0]) (r : Fin a) :
    broadcastInDim ⟨2, ![a, 1]⟩ ![0] h v (ix2 r (0 : Fin 1)) = v (ix1 r) := by
  refine broadcastInDim_apply ![0] h v (ix2 r (0 : Fin 1)) (ix1 r) fun ax => ?_
  match ax with
  | ⟨0, _⟩ =>
    show r.val = if a = 1 then 0 else r.val
    split
    · have := r.isLt; omega
    · rfl

/-- A vector [b] laid as a row [1, b], read at (0, n), is the vector at n. -/
theorem bcastVecRow_apply {b : ℕ} (v : (⟨1, ![b]⟩ : Shape).Idx → α)
    (h : (⟨1, ![b]⟩ : Shape).BroadcastsInDim ⟨2, ![1, b]⟩ ![1]) (n : Fin b) :
    broadcastInDim ⟨2, ![1, b]⟩ ![1] h v (ix2 (0 : Fin 1) n) = v (ix1 n) := by
  refine broadcastInDim_apply ![1] h v (ix2 (0 : Fin 1) n) (ix1 n) fun ax => ?_
  match ax with
  | ⟨0, _⟩ =>
    show n.val = if b = 1 then 0 else n.val
    split
    · have := n.isLt; omega
    · rfl

/-- A scalar laid over any shape, read anywhere, is the scalar. -/
theorem bcastScalar_apply {t : Shape} (v : (⟨0, ![]⟩ : Shape).Idx → α)
    (h : (⟨0, ![]⟩ : Shape).BroadcastsInDim t ![]) (j : t.Idx) :
    broadcastInDim t ![] h v j = v ix0 :=
  broadcastInDim_apply ![] h v j ix0 fun ax => ax.elim0

/-- A column [n, 1] transposed to a row [1, n], read at (0, j), is the column at (j, 0). -/
theorem transposeColRow_apply {n : ℕ} (x : (⟨2, ![n, 1]⟩ : Shape).Idx → α)
    (h : (⟨2, ![n, 1]⟩ : Shape).Transposes [1, 0] ⟨2, ![1, n]⟩) (j : Fin n) :
    transpose ⟨2, ![1, n]⟩ [1, 0] x h (ix2 (0 : Fin 1) j) = x (ix2 j (0 : Fin 1)) := by
  refine transpose_apply [1, 0] x h _ (ix2 j (0 : Fin 1)) fun b => ?_
  match b with
  | ⟨0, _⟩ => rfl
  | ⟨1, _⟩ => rfl

end Bcast

/-! ## The stage -/

/-- |row r of x|²/2, laid along the 8192 columns. -/
theorem norm_x (r : Fin 10240) (n : Fin 8192) :
    broadcastInDim S10240x8192 ![0, 1] bcast_S10240x1_S10240x8192_0_1 (Host.divf (F := Ideal)
      (broadcastInDim S10240x1 ![0] bcast_S10240_S10240x1_0 (Host.reduceAdd (F := Ideal) (mulf (F := Ideal) x x) (constant (F := Ideal) S_ .f32 0x00000000#32) reducesTo_S10240x64_S10240_d1 h_S_))
      (broadcastInDim S10240x1 ![] bcast_S_S10240x1 (constant (F := Ideal) S_ .f32 0x40000000#32))) (ix2 r n)
    = (∑ j : Fin 64, x (ix2 r j) * x (ix2 r j)) * Ideal.ofBits .f32 0x3F000000#32 := by
  rw [bcastCol_apply]
  show Ideal.div _ _ = _
  rw [bcastVecCol_apply, bcastScalar_apply, constant_apply, div_two_eq_mul_half]
  congr 1
  exact (hostRowSum_apply (a := 10240) (b := 64) _ reducesTo_S10240x64_S10240_d1 (by decide) h_S_ r).trans
    (Finset.sum_congr rfl fun j _ => by rw [mulf_apply])

/-- |row n of xs|²/2, laid down the 10240 rows. -/
theorem norm_xs (r : Fin 10240) (n : Fin 8192) :
    broadcastInDim S10240x8192 ![0, 1] bcast_S1x8192_S10240x8192_0_1 (Host.divf (F := Ideal)
      (transpose S1x8192 [1, 0] (broadcastInDim S8192x1 ![0] bcast_S8192_S8192x1_0 (Host.reduceAdd (F := Ideal) (mulf (F := Ideal) xs xs) (constant (F := Ideal) S_ .f32 0x00000000#32) reducesTo_S8192x64_S8192_d1 h_S_)) transposes_S8192x1_S1x8192_1_0)
      (broadcastInDim S1x8192 ![] bcast_S_S1x8192 (constant (F := Ideal) S_ .f32 0x40000000#32))) (ix2 r n)
    = (∑ j : Fin 64, xs (ix2 n j) * xs (ix2 n j)) * Ideal.ofBits .f32 0x3F000000#32 := by
  rw [bcastRow_apply]
  show Ideal.div _ _ = _
  rw [transposeColRow_apply, bcastVecCol_apply, bcastScalar_apply, constant_apply, div_two_eq_mul_half]
  congr 1
  exact (hostRowSum_apply (a := 8192) (b := 64) _ reducesTo_S8192x64_S8192_d1 (by decide) h_S_ n).trans
    (Finset.sum_congr rfl fun j _ => by rw [mulf_apply])

/-- ONE RADIAL STAGE of the reference, as a function of the row array and the data rows. -/
def radStage : FVec Ideal S10240x8192 .f32 :=
  Host.exp (F := Ideal) (subf (F := Ideal) (subf (F := Ideal)
    (Host.dotGeneral (F := Ideal) dot_S10240x64_S64x8192_S10240x8192_1_0_0_1_n_n none x (transpose S64x8192 [1, 0] xs transposes_S8192x64_S64x8192_1_0))
    (broadcastInDim S10240x8192 ![0, 1] bcast_S10240x1_S10240x8192_0_1 (Host.divf (F := Ideal)
      (broadcastInDim S10240x1 ![0] bcast_S10240_S10240x1_0 (Host.reduceAdd (F := Ideal) (mulf (F := Ideal) x x) (constant (F := Ideal) S_ .f32 0x00000000#32) reducesTo_S10240x64_S10240_d1 h_S_))
      (broadcastInDim S10240x1 ![] bcast_S_S10240x1 (constant (F := Ideal) S_ .f32 0x40000000#32)))))
    (broadcastInDim S10240x8192 ![0, 1] bcast_S1x8192_S10240x8192_0_1 (Host.divf (F := Ideal)
      (transpose S1x8192 [1, 0] (broadcastInDim S8192x1 ![0] bcast_S8192_S8192x1_0 (Host.reduceAdd (F := Ideal) (mulf (F := Ideal) xs xs) (constant (F := Ideal) S_ .f32 0x00000000#32) reducesTo_S8192x64_S8192_d1 h_S_)) transposes_S8192x1_S1x8192_1_0)
      (broadcastInDim S1x8192 ![] bcast_S_S1x8192 (constant (F := Ideal) S_ .f32 0x40000000#32)))))

/-- Its entry (r, n) is the radial kernel between row r of `x` and row n of `xs`. -/
theorem radStage_apply (r : Fin 10240) (n : Fin 8192) :
    radStage x xs (ix2 r n) = radial (fun j => x (ix2 r j)) (fun j => xs (ix2 n j)) := by
  unfold radial
  rw [← dot_x_xs x xs r n, ← norm_x x r n, ← norm_xs xs r n]
  rfl

/-- The accumulated kernel matrix contracted against a coefficient block, at (r, k). -/
theorem contract_apply (ker : FVec Ideal S10240x8192 .f32) (cs : FVec Ideal S8192x64 .f32) (r : Fin 10240) (k : Fin 64) :
    Host.dotGeneral (F := Ideal) dot_S10240x8192_S8192x64_S10240x64_1_0_0_1_n_n none ker cs (ix2 r k)
    = ∑ n : Fin 8192, ker (ix2 r n) * cs (ix2 n k) := by
  unfold Host.dotGeneral
  refine (Ideal.dotGeneral_apply dot_S10240x8192_S8192x64_S10240x64_1_0_0_1_n_n none _ ker cs (ix2 r k)).trans ?_
  rw [LibDot.sum_contr _ 8192 rfl rfl]
  refine Finset.sum_congr rfl fun n _ => ?_
  congr 1
  · refine congrArg ker (funext fun a => Fin.ext ?_)
    match a with
    | ⟨0, _⟩ => rfl
    | ⟨1, _⟩ => exact (DotDims.lhsIdx_val_of_single _ rfl _ _).trans (contrEquiv1_symm_val _ 8192 rfl rfl n)
  · refine congrArg cs (funext fun a => Fin.ext ?_)
    match a with
    | ⟨0, _⟩ => exact (DotDims.rhsIdx_val_of_single _ rfl _ _).trans (contrEquiv1_symm_val _ 8192 rfl rfl n)
    | ⟨1, _⟩ => rfl

/-! ## The accumulated kernel matrix contracted against a coefficient block

The reference adds each stage's kernel matrix to the matrix accumulated so far (from the zero matrix) and contracts
the SUM against the stage's coefficients. A kernel entry is non-negative, so the contraction of the sum is the
running sum of the contractions. -/

/-- The zero matrix the accumulation starts from. -/
abbrev zeroKer : FVec Ideal S10240x8192 .f32 := broadcastInDim S10240x8192 ![] bcast_S_S10240x8192 (constant (F := Ideal) S_ .f32 0x00000000#32)

theorem zeroKer_apply (i : S10240x8192.Idx) : zeroKer i = 0 := by
  show broadcastInDim S10240x8192 ![] bcast_S_S10240x8192 (constant (F := Ideal) S_ .f32 0x00000000#32) i = 0
  rw [bcastScalar_apply, constant_apply, ofBits_zero]

variable (x0 x1 x2 : FVec Ideal S10240x64 .f32) (xs0 xs1 xs2 cs : FVec Ideal S8192x64 .f32)

theorem stage1 (r : Fin 10240) (k : Fin 64) :
    Host.dotGeneral (F := Ideal) dot_S10240x8192_S8192x64_S10240x64_1_0_0_1_n_n none (addf (F := Ideal) zeroKer (radStage x0 xs0)) cs (ix2 r k)
    = 0 + ∑ n : Fin 8192, radial (fun j => x0 (ix2 r j)) (fun j => xs0 (ix2 n j)) * cs (ix2 n k) := by
  rw [contract_apply]
  simp only [addf_apply, zeroKer_apply, radStage_apply]
  exact acc1 _ _

theorem stage2 (r : Fin 10240) (k : Fin 64) :
    Host.dotGeneral (F := Ideal) dot_S10240x8192_S8192x64_S10240x64_1_0_0_1_n_n none
      (addf (F := Ideal) (addf (F := Ideal) zeroKer (radStage x0 xs0)) (radStage x1 xs1)) cs (ix2 r k)
    = (0 + ∑ n : Fin 8192, radial (fun j => x0 (ix2 r j)) (fun j => xs0 (ix2 n j)) * cs (ix2 n k))
      + ∑ n : Fin 8192, radial (fun j => x1 (ix2 r j)) (fun j => xs1 (ix2 n j)) * cs (ix2 n k) := by
  rw [contract_apply]
  simp only [addf_apply, zeroKer_apply, radStage_apply]
  exact acc2 _ _ _ (fun n => radial_nonneg _ _) (fun n => radial_nonneg _ _)

theorem stage3 (r : Fin 10240) (k : Fin 64) :
    Host.dotGeneral (F := Ideal) dot_S10240x8192_S8192x64_S10240x64_1_0_0_1_n_n none
      (addf (F := Ideal) (addf (F := Ideal) (addf (F := Ideal) zeroKer (radStage x0 xs0)) (radStage x1 xs1)) (radStage x2 xs2)) cs (ix2 r k)
    = ((0 + ∑ n : Fin 8192, radial (fun j => x0 (ix2 r j)) (fun j => xs0 (ix2 n j)) * cs (ix2 n k))
      + ∑ n : Fin 8192, radial (fun j => x1 (ix2 r j)) (fun j => xs1 (ix2 n j)) * cs (ix2 n k))
      + ∑ n : Fin 8192, radial (fun j => x2 (ix2 r j)) (fun j => xs2 (ix2 n j)) * cs (ix2 n k) := by
  rw [contract_apply]
  simp only [addf_apply, zeroKer_apply, radStage_apply]
  exact acc3 _ _ _ _ (fun n => radial_nonneg _ _) (fun n => radial_nonneg _ _) (fun n => radial_nonneg _ _)

/-! ## The affine map of the concatenated rows -/

variable (a0 : FVec Ideal S8192x256 .f32) (a1 : FVec Ideal S2048x256 .f32) (a2 : FVec Ideal S256x256 .f32) (a3 : FVec Ideal S256 .f32)

/-- The projection of the 10240 concatenated rows, as a function of the arguments. -/
def proj : FVec Ideal S10240x256 .f32 :=
  addf (F := Ideal) (Host.dotGeneral (F := Ideal) dot_S10240x256_S256x256_S10240x256_1_0_0_1_n_n none
      (concatenate S10240x256 0 [⟨S8192x256, a0⟩, ⟨S2048x256, a1⟩] concatenates_S8192x256_S2048x256_S10240x256_d0)
      (transpose S256x256 [1, 0] a2 transposes_S256x256_S256x256_1_0))
    (broadcastInDim S10240x256 ![0, 1] bcast_S1x256_S10240x256_0_1 (broadcastInDim S1x256 ![1] bcast_S256_S1x256_1 a3))

/-- At (r, k), for any row array `X` the concatenation reads as at row r: Σⱼ X(j)·w(k, j) + b(k). -/
theorem proj_apply (r : Fin 10240) (k : Fin 256) (X : Fin 256 → EReal)
    (hX : ∀ j : Fin 256, concatenate S10240x256 0 [⟨S8192x256, a0⟩, ⟨S2048x256, a1⟩] concatenates_S8192x256_S2048x256_S10240x256_d0 (ix2 r j) = X j) :
    proj a0 a1 a2 a3 (ix2 r k) = (∑ j : Fin 256, X j * a2 (ix2 k j)) + a3 (ix1 k) := by
  unfold proj
  rw [addf_apply, bcastRow_apply, bcastVecRow_apply]
  congr 1
  unfold Host.dotGeneral
  refine (Ideal.dotGeneral_apply dot_S10240x256_S256x256_S10240x256_1_0_0_1_n_n none _ _ _ (ix2 r k)).trans ?_
  rw [LibDot.sum_contr _ 256 rfl rfl]
  refine Finset.sum_congr rfl fun j _ => ?_
  congr 1
  · refine Eq.trans (congrArg _ (funext fun a => Fin.ext ?_)) (hX j)
    match a with
    | ⟨0, _⟩ => rfl
    | ⟨1, _⟩ => exact (DotDims.lhsIdx_val_of_single _ rfl _ _).trans (contrEquiv1_symm_val _ 256 rfl rfl j)
  · exact transpose_apply [1, 0] a2 transposes_S256x256_S256x256_1_0 _ (ix2 k j) (fun b => by
      match b with
      | ⟨0, _⟩ => exact ((DotDims.rhsIdx_val_of_single _ rfl _ _).trans (contrEquiv1_symm_val _ 256 rfl rfl j)).symm
      | ⟨1, _⟩ => rfl)

/-- The first 8192 concatenated rows are the data rows, -/
theorem cat_low (r : Fin 8192) (j : Fin 256) :
    concatenate S10240x256 0 [⟨S8192x256, a0⟩, ⟨S2048x256, a1⟩] concatenates_S8192x256_S2048x256_S10240x256_d0
      (ix2 (⟨r.val, by have := r.isLt; omega⟩ : Fin 10240) j) = a0 (ix2 r j) :=
  concatenate_pair_apply_left (t := S10240x256) (s₁ := S8192x256) (s₂ := S2048x256) 0 a0 a1
    concatenates_S8192x256_S2048x256_S10240x256_d0 (ix2 (⟨r.val, by have := r.isLt; omega⟩ : Fin 10240) j) rfl (ix2 r j) fun b => by
    match b with
    | ⟨0, _⟩ => rfl
    | ⟨1, _⟩ => rfl

/-- and the last 2048 are the input rows. -/
theorem cat_high (r : Fin 2048) (j : Fin 256) :
    concatenate S10240x256 0 [⟨S8192x256, a0⟩, ⟨S2048x256, a1⟩] concatenates_S8192x256_S2048x256_S10240x256_d0
      (ix2 (⟨r.val + 8192, by have := r.isLt; omega⟩ : Fin 10240) j) = a1 (ix2 r j) :=
  concatenate_pair_apply_right (t := S10240x256) (s₁ := S8192x256) (s₂ := S2048x256) 0 a0 a1
    concatenates_S8192x256_S2048x256_S10240x256_d0 (ix2 (⟨r.val + 8192, by have := r.isLt; omega⟩ : Fin 10240) j) rfl rfl (ix2 r j) (fun b hb => by
    match b, hb with
    | ⟨0, _⟩, hb => exact absurd rfl hb
    | ⟨1, _⟩, _ => rfl) rfl

end Cert.ReferenceIdeal.RefValue

end
-- ==== Proof.Bridge.lean ====
/-
  The bridge: the kernel's named arrays against the reference's stage terms, index by index, at the exact instance.
  Rows 0 … 8191 of the reference's 10240-row arrays are the kernel's data-row arrays, rows 8192 … 10239 its
  input-row arrays.
-/
import proofs.«117133_j29008209117207_1_alg».proof.Proof.IdealChain
import proofs.«117133_j29008209117207_1_alg».proof.Proof.RefStage

set_option maxRecDepth 16384

noncomputable section

namespace Cert.Bridge

open Idealize.ShloMosaic Idealize.ShloMosaic.TcCoe Idealize.ShloMosaic.ValueIdx Idealize.SL.Sem
open Cert.LibKernelSum Cert.KernelIdeal.PassValue Cert.KernelIdeal.AffineValue
open Cert.KernelIdeal.Gen (karg0 karg1 karg2 karg3 karg4 kv0 kv1 kv2 kv3 kv4 kv6 kv7 kv8 kv9 kv10 kv11 kv12 kv13 kv14 kv15 kv16_0 kv16_1 kv16_2 kv17 kv18_0 kv18_1 kv19 kv20 kv35 kv36 kv37 kv38 kv39_0 kv39_1 kv39_2 kv40 kv41_0 kv41_1 kv42 kv43 kv44)
open Cert.ReferenceIdeal.Value (res_main_v5 res_main_v11 res_main_v15 res_main_v16 res_main_v17 res_main_v19 res_main_v38 res_main_v39 res_main_v40 res_main_v45 res_main_v64 res_main_v65 res_main_v66 res_main_v71 res_main_v91)
open Cert.ReferenceIdeal.RefValue (proj proj_apply cat_low cat_high radStage radStage_apply zeroKer stage1 stage2 stage3)

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD)
variable (L : Valuation Cert.ReferenceIdeal.τ Cert.ReferenceIdeal.sig (Elt Ideal))

/-- The two programs were launched on the same arguments. -/
structure Agree : Prop where
  h0 : L (Proc.devRef .tc Cert.ReferenceIdeal.main_arg0) = karg0 m ρ c
  h1 : L (Proc.devRef .tc Cert.ReferenceIdeal.main_arg1) = karg1 m ρ c
  h2 : L (Proc.devRef .tc Cert.ReferenceIdeal.main_arg2) = karg2 m ρ c
  h3 : L (Proc.devRef .tc Cert.ReferenceIdeal.main_arg3) = karg3 m ρ c
  h4 : L (Proc.devRef .tc Cert.ReferenceIdeal.main_arg4) = karg4 m ρ c

variable {m ρ c L} (hag : Agree m ρ c L)
include hag

/-- Row r < 8192 of the concatenated rows, and row r of the 2048 input rows placed after them. -/
abbrev lo (r : Fin 8192) : Fin 10240 := ⟨r.val, by have := r.isLt; omega⟩
abbrev hi (r : Fin 2048) : Fin 10240 := ⟨r.val + 8192, by have := r.isLt; omega⟩

/-! ## The projections -/

theorem ref5 : res_main_v5 L = proj (karg0 m ρ c) (karg1 m ρ c) (karg2 m ρ c) (karg3 m ρ c) := by
  unfold res_main_v5 proj
  rw [hag.h0, hag.h1, hag.h2, hag.h3]

theorem P_lo (r : Fin 8192) (k : Fin 256) : res_main_v5 L (ix2 (lo r) k) = kv0 m ρ c (ix2 r k) := by
  rw [ref5 hag, proj_apply _ _ _ _ (lo r) k (fun j => karg0 m ρ c (ix2 r j)) (fun j => cat_low _ _ r j)]
  rfl

theorem P_hi (r : Fin 2048) (k : Fin 256) : res_main_v5 L (ix2 (hi r) k) = kv1 m ρ c (ix2 r k) := by
  rw [ref5 hag, proj_apply _ _ _ _ (hi r) k (fun j => karg1 m ρ c (ix2 r j)) (fun j => cat_high _ _ r j)]
  rfl

/-! ## Slices and zero arrays read at an index -/

section Layout
omit hag
variable {α : Type}

/-- Columns o … o+b'-1 of a matrix, read at (r, j), are the matrix at (r, o + j). -/
theorem slice_cols_apply {a b b' : ℕ} (o : ℕ) (x : (⟨2, ![a, b]⟩ : Shape).Idx → α)
    (h : (⟨2, ![a, b]⟩ : Shape).Slices ![0, o] ⟨2, ![a, b']⟩) (r : Fin a) (j : Fin b') (hj : o + j.val < b) :
    extractStridedSlice ⟨2, ![a, b']⟩ ![0, o] x h (ix2 r j) = x (ix2 r (⟨o + j.val, hj⟩ : Fin b)) := by
  refine extractStridedSlice_apply ![0, o] x h (ix2 r j) _ fun ax => ?_
  match ax with
  | ⟨0, _⟩ => show r.val = 0 + r.val; omega
  | ⟨1, _⟩ => rfl

/-- Rows o … o+a'-1 of a matrix, read at (r, j), are the matrix at (o + r, j). -/
theorem slice_rows_apply {a a' b : ℕ} (o : ℕ) (x : (⟨2, ![a, b]⟩ : Shape).Idx → α)
    (h : (⟨2, ![a, b]⟩ : Shape).Slices ![o, 0] ⟨2, ![a', b]⟩) (r : Fin a') (j : Fin b) (hr : o + r.val < a) :
    extractStridedSlice ⟨2, ![a', b]⟩ ![o, 0] x h (ix2 r j) = x (ix2 (⟨o + r.val, hr⟩ : Fin a) j) := by
  refine extractStridedSlice_apply ![o, 0] x h (ix2 r j) _ fun ax => ?_
  match ax with
  | ⟨0, _⟩ => rfl
  | ⟨1, _⟩ => show j.val = 0 + j.val; omega

theorem lo_eq (r : Fin 8192) (h : 0 + r.val < 10240) : (⟨0 + r.val, h⟩ : Fin 10240) = lo r := Fin.ext (by show 0 + r.val = r.val; omega)
theorem hi_eq (r : Fin 2048) (h : 8192 + r.val < 10240) : (⟨8192 + r.val, h⟩ : Fin 10240) = hi r := Fin.ext (by show 8192 + r.val = r.val + 8192; omega)

end Layout

section Kernel
omit hag
variable (m ρ c)

theorem kv2_apply (r : Fin 8192) (j : Fin 64) : kv2 m ρ c (ix2 r j) = kv0 m ρ c (ix2 r (⟨0 + j.val, by have := j.isLt; omega⟩ : Fin 256)) := by
  unfold kv2
  exact slice_cols_apply 0 _ _ r j _
theorem kv3_apply (r : Fin 8192) (j : Fin 64) : kv3 m ρ c (ix2 r j) = kv0 m ρ c (ix2 r (⟨64 + j.val, by have := j.isLt; omega⟩ : Fin 256)) := by
  unfold kv3
  exact slice_cols_apply 64 _ _ r j _
theorem kv4_apply (r : Fin 8192) (j : Fin 64) : kv4 m ρ c (ix2 r j) = kv0 m ρ c (ix2 r (⟨128 + j.val, by have := j.isLt; omega⟩ : Fin 256)) := by
  unfold kv4
  exact slice_cols_apply 128 _ _ r j _
theorem kv6_apply (r : Fin 2048) (j : Fin 64) : kv6 m ρ c (ix2 r j) = kv1 m ρ c (ix2 r (⟨0 + j.val, by have := j.isLt; omega⟩ : Fin 256)) := by
  unfold kv6
  exact slice_cols_apply 0 _ _ r j _
theorem kv7_apply (r : Fin 2048) (j : Fin 64) : kv7 m ρ c (ix2 r j) = kv1 m ρ c (ix2 r (⟨64 + j.val, by have := j.isLt; omega⟩ : Fin 256)) := by
  unfold kv7
  exact slice_cols_apply 64 _ _ r j _
theorem kv8_apply (r : Fin 2048) (j : Fin 64) : kv8 m ρ c (ix2 r j) = kv1 m ρ c (ix2 r (⟨128 + j.val, by have := j.isLt; omega⟩ : Fin 256)) := by
  unfold kv8
  exact slice_cols_apply 128 _ _ r j _
theorem kv9_apply (r : Fin 2048) (j : Fin 64) : kv9 m ρ c (ix2 r j) = kv1 m ρ c (ix2 r (⟨192 + j.val, by have := j.isLt; omega⟩ : Fin 256)) := by
  unfold kv9
  exact slice_cols_apply 192 _ _ r j _
theorem kv10_apply (r : Fin 8192) (j : Fin 64) : kv10 m ρ c (ix2 r j) = karg4 m ρ c (ix2 r (⟨0 + j.val, by have := j.isLt; omega⟩ : Fin 192)) := by
  unfold kv10
  exact slice_cols_apply 0 _ _ r j _
theorem kv11_apply (r : Fin 8192) (j : Fin 64) : kv11 m ρ c (ix2 r j) = karg4 m ρ c (ix2 r (⟨64 + j.val, by have := j.isLt; omega⟩ : Fin 192)) := by
  unfold kv11
  exact slice_cols_apply 64 _ _ r j _
theorem kv12_apply (r : Fin 8192) (j : Fin 64) : kv12 m ρ c (ix2 r j) = karg4 m ρ c (ix2 r (⟨128 + j.val, by have := j.isLt; omega⟩ : Fin 192)) := by
  unfold kv12
  exact slice_cols_apply 128 _ _ r j _

theorem kv13_apply (i : Cert.KernelIdeal.S8192x64.Idx) : kv13 c i = 0 := by
  unfold kv13
  rw [Cert.ReferenceIdeal.RefValue.bcastScalar_apply, constant_apply, ofBits_zero]
theorem kv14_apply (i : Cert.KernelIdeal.S8192x64.Idx) : kv14 c i = 0 := by
  unfold kv14
  rw [Cert.ReferenceIdeal.RefValue.bcastScalar_apply, constant_apply, ofBits_zero]
theorem kv15_apply (i : Cert.KernelIdeal.S8192x64.Idx) : kv15 c i = 0 := by
  unfold kv15
  rw [Cert.ReferenceIdeal.RefValue.bcastScalar_apply, constant_apply, ofBits_zero]
theorem kv36_apply (i : Cert.KernelIdeal.S2048x64.Idx) : kv36 c i = 0 := by
  unfold kv36
  rw [Cert.ReferenceIdeal.RefValue.bcastScalar_apply, constant_apply, ofBits_zero]
theorem kv37_apply (i : Cert.KernelIdeal.S2048x64.Idx) : kv37 c i = 0 := by
  unfold kv37
  rw [Cert.ReferenceIdeal.RefValue.bcastScalar_apply, constant_apply, ofBits_zero]
theorem kv38_apply (i : Cert.KernelIdeal.S2048x64.Idx) : kv38 c i = 0 := by
  unfold kv38
  rw [Cert.ReferenceIdeal.RefValue.bcastScalar_apply, constant_apply, ofBits_zero]

/-- The whole-array pass at (r, k). -/
theorem passArr_apply {M : ℕ} (U : (⟨2, ![M, 64]⟩ : Shape).Idx → EReal) (Vv CS : (⟨2, ![8192, 64]⟩ : Shape).Idx → EReal)
    (VA : (⟨2, ![M, 64]⟩ : Shape).Idx → EReal) (r : Fin M) (k : Fin 64) :
    passArr U Vv CS VA (ix2 r k) = VA (ix2 r k) + ∑ n : Fin 8192, radial (fun j => U (ix2 r j)) (fun j => Vv (ix2 n j)) * CS (ix2 n k) := rfl

end Kernel

/-! ## The coefficient blocks -/

theorem ref15 : res_main_v15 L = kv10 m ρ c := by unfold res_main_v15 kv10; rw [hag.h4]
theorem ref16 : res_main_v16 L = kv11 m ρ c := by unfold res_main_v16 kv11; rw [hag.h4]
theorem ref17 : res_main_v17 L = kv12 m ρ c := by unfold res_main_v17 kv12; rw [hag.h4]

/-! ## Stage 0: the first checkpoint is the first column block of the projection -/

theorem X0_lo (r : Fin 8192) (j : Fin 64) : res_main_v11 L (ix2 (lo r) j) = kv2 m ρ c (ix2 r j) := by
  unfold res_main_v11
  rw [slice_cols_apply 0 _ _ (lo r) j (by have := j.isLt; omega), P_lo hag, kv2_apply]

theorem X0_hi (r : Fin 2048) (j : Fin 64) : res_main_v11 L (ix2 (hi r) j) = kv6 m ρ c (ix2 r j) := by
  unfold res_main_v11
  rw [slice_cols_apply 0 _ _ (hi r) j (by have := j.isLt; omega), P_hi hag, kv6_apply]

theorem X0_d (n : Fin 8192) (j : Fin 64) : res_main_v19 L (ix2 n j) = kv2 m ρ c (ix2 n j) := by
  unfold res_main_v19
  rw [slice_rows_apply 0 _ _ n j (by have := n.isLt; omega), lo_eq, X0_lo hag]

theorem V0_lo (r : Fin 8192) (k : Fin 64) : res_main_v39 L (ix2 (lo r) k) = kv16_0 m ρ c (ix2 r k) := by
  refine (stage1 (res_main_v11 L) (res_main_v19 L) (res_main_v15 L) (lo r) k).trans ?_
  rw [ref15 hag]
  unfold kv16_0
  rw [passArr_apply, kv13_apply]
  simp only [X0_lo hag, X0_d hag]

theorem V0_hi (r : Fin 2048) (k : Fin 64) : res_main_v39 L (ix2 (hi r) k) = kv39_0 m ρ c (ix2 r k) := by
  refine (stage1 (res_main_v11 L) (res_main_v19 L) (res_main_v15 L) (hi r) k).trans ?_
  rw [ref15 hag]
  unfold kv39_0
  rw [passArr_apply, kv36_apply]
  simp only [X0_hi hag, X0_d hag]

/-! ## Stage 1 -/

theorem X1_lo (r : Fin 8192) (j : Fin 64) : res_main_v40 L (ix2 (lo r) j) = kv17 m ρ c (ix2 r j) := by
  unfold res_main_v40
  rw [addf_apply, slice_cols_apply 64 _ _ (lo r) j (by have := j.isLt; omega), P_lo hag, V0_lo hag]
  unfold kv17
  rw [addf_apply, kv3_apply]

theorem X1_hi (r : Fin 2048) (j : Fin 64) : res_main_v40 L (ix2 (hi r) j) = kv40 m ρ c (ix2 r j) := by
  unfold res_main_v40
  rw [addf_apply, slice_cols_apply 64 _ _ (hi r) j (by have := j.isLt; omega), P_hi hag, V0_hi hag]
  unfold kv40
  rw [addf_apply, kv7_apply]

theorem X1_d (n : Fin 8192) (j : Fin 64) : res_main_v45 L (ix2 n j) = kv17 m ρ c (ix2 n j) := by
  unfold res_main_v45
  rw [slice_rows_apply 0 _ _ n j (by have := n.isLt; omega), lo_eq, X1_lo hag]

theorem V1_lo (r : Fin 8192) (k : Fin 64) : res_main_v65 L (ix2 (lo r) k) = kv18_0 m ρ c (ix2 r k) := by
  refine (stage2 (res_main_v11 L) (res_main_v40 L) (res_main_v19 L) (res_main_v45 L) (res_main_v16 L) (lo r) k).trans ?_
  rw [ref16 hag]
  unfold kv18_0
  rw [passArr_apply]
  unfold kv16_1
  rw [passArr_apply, kv14_apply]
  simp only [X0_lo hag, X0_d hag, X1_lo hag, X1_d hag]

theorem V1_hi (r : Fin 2048) (k : Fin 64) : res_main_v65 L (ix2 (hi r) k) = kv41_0 m ρ c (ix2 r k) := by
  refine (stage2 (res_main_v11 L) (res_main_v40 L) (res_main_v19 L) (res_main_v45 L) (res_main_v16 L) (hi r) k).trans ?_
  rw [ref16 hag]
  unfold kv41_0
  rw [passArr_apply]
  unfold kv39_1
  rw [passArr_apply, kv37_apply]
  simp only [X0_hi hag, X0_d hag, X1_hi hag, X1_d hag]

/-! ## Stage 2 -/

theorem X2_lo (r : Fin 8192) (j : Fin 64) : res_main_v66 L (ix2 (lo r) j) = kv19 m ρ c (ix2 r j) := by
  unfold res_main_v66
  rw [addf_apply, slice_cols_apply 128 _ _ (lo r) j (by have := j.isLt; omega), P_lo hag, V1_lo hag]
  unfold kv19
  rw [addf_apply, kv4_apply]

theorem X2_hi (r : Fin 2048) (j : Fin 64) : res_main_v66 L (ix2 (hi r) j) = kv42 m ρ c (ix2 r j) := by
  unfold res_main_v66
  rw [addf_apply, slice_cols_apply 128 _ _ (hi r) j (by have := j.isLt; omega), P_hi hag, V1_hi hag]
  unfold kv42
  rw [addf_apply, kv8_apply]

theorem X2_d (n : Fin 8192) (j : Fin 64) : res_main_v71 L (ix2 n j) = kv19 m ρ c (ix2 n j) := by
  unfold res_main_v71
  rw [slice_rows_apply 0 _ _ n j (by have := n.isLt; omega), lo_eq, X2_lo hag]

theorem V2_lo (r : Fin 8192) (k : Fin 64) : res_main_v91 L (ix2 (lo r) k) = kv20 m ρ c (ix2 r k) := by
  refine (stage3 (res_main_v11 L) (res_main_v40 L) (res_main_v66 L) (res_main_v19 L) (res_main_v45 L) (res_main_v71 L) (res_main_v17 L) (lo r) k).trans ?_
  rw [ref17 hag]
  unfold kv20
  rw [passArr_apply]
  unfold kv18_1
  rw [passArr_apply]
  unfold kv16_2
  rw [passArr_apply, kv15_apply]
  simp only [X0_lo hag, X0_d hag, X1_lo hag, X1_d hag, X2_lo hag, X2_d hag]

theorem V2_hi (r : Fin 2048) (k : Fin 64) : res_main_v91 L (ix2 (hi r) k) = kv43 m ρ c (ix2 r k) := by
  refine (stage3 (res_main_v11 L) (res_main_v40 L) (res_main_v66 L) (res_main_v19 L) (res_main_v45 L) (res_main_v71 L) (res_main_v17 L) (hi r) k).trans ?_
  rw [ref17 hag]
  unfold kv43
  rw [passArr_apply]
  unfold kv41_1
  rw [passArr_apply]
  unfold kv39_2
  rw [passArr_apply, kv38_apply]
  simp only [X0_hi hag, X0_d hag, X1_hi hag, X1_d hag, X2_hi hag, X2_d hag]

/-! ## The two results' operands -/

section Results
open Cert.ReferenceIdeal Cert.ReferenceIdeal.Gen

/-- THE OUTPUT: rows 8192 … 10239 of the last checkpoint are the kernel's output array. -/
theorem out_eq : extractStridedSlice S2048x64 ![8192, 0] (addf (F := Ideal) (φ := .f32)
      (extractStridedSlice S10240x64 ![0, 192] (res_main_v5 L) slices_S10240x256_S10240x64_0_192) (res_main_v91 L))
      slices_S10240x64_S2048x64_8192_0 = kv44 m ρ c := by
  funext i
  obtain ⟨r, k, rfl⟩ : ∃ (r : Fin 2048) (k : Fin 64), i = ix2 r k := ⟨i 0, i 1, eq_ix2 i⟩
  rw [slice_rows_apply 8192 _ _ r k (by have := r.isLt; omega), hi_eq, addf_apply,
    slice_cols_apply 192 _ _ (hi r) k (by have := k.isLt; omega), P_hi hag, V2_hi hag]
  unfold kv44
  rw [addf_apply, kv9_apply]

/-- The data rows of each stage's contraction are the kernel's finished running sums. -/
theorem val0_eq : extractStridedSlice S8192x64 ![0, 0] (res_main_v39 L) slices_S10240x64_S8192x64_0_0 = kv16_0 m ρ c := by
  funext i
  obtain ⟨r, k, rfl⟩ : ∃ (r : Fin 8192) (k : Fin 64), i = ix2 r k := ⟨i 0, i 1, eq_ix2 i⟩
  rw [slice_rows_apply 0 _ _ r k (by have := r.isLt; omega), lo_eq, V0_lo hag]

theorem val1_eq : extractStridedSlice S8192x64 ![0, 0] (res_main_v65 L) slices_S10240x64_S8192x64_0_0 = kv18_0 m ρ c := by
  funext i
  obtain ⟨r, k, rfl⟩ : ∃ (r : Fin 8192) (k : Fin 64), i = ix2 r k := ⟨i 0, i 1, eq_ix2 i⟩
  rw [slice_rows_apply 0 _ _ r k (by have := r.isLt; omega), lo_eq, V1_lo hag]

theorem val2_eq : extractStridedSlice S8192x64 ![0, 0] (res_main_v91 L) slices_S10240x64_S8192x64_0_0 = kv20 m ρ c := by
  funext i
  obtain ⟨r, k, rfl⟩ : ∃ (r : Fin 8192) (k : Fin 64), i = ix2 r k := ⟨i 0, i 1, eq_ix2 i⟩
  rw [slice_rows_apply 0 _ _ r k (by have := r.isLt; omega), lo_eq, V2_lo hag]

end Results

end Cert.Bridge

end
-- ==== Proof.Algebraic.lean ====
/-
  The value claim. At the exact instance the kernel's run ends with its two results at the named arrays the chain
  of items holds at the end; the reference's run ends with its two results at the composition of its operations; and
  on equal arguments those are the same arrays: the output index by index through the three stages, the regulariser
  because its five summands are the same sums of the same arrays.
-/
import proofs.«117133_j29008209117207_1_alg».proof.Defs
import proofs.«117133_j29008209117207_1_alg».proof.Proof.Gen.Pre_finite_inputs
import proofs.«117133_j29008209117207_1_alg».proof.Proof.Bridge

set_option maxRecDepth 16384

noncomputable section

namespace Cert.Bridge

open Idealize.ShloMosaic Idealize.ShloMosaic.TcCoe Idealize.SL.Sem
open Cert.KernelIdeal.Gen (kv44 kv35)

theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => kv44 m ρ c, fun c => kv35 m ρ c, ?_, ?_⟩
  · refine (θ_run Cert.KernelIdeal.defs _ _).mono (fun r h c => ?_) (Cert.KernelIdeal.Gen.run_all (F := Ideal) m ρ)
    exact ⟨(h c _ (Cert.KernelIdeal.Gen.mem_uc Cert.KernelIdeal.main_v44 (by decide))).trans (Cert.KernelIdeal.Gen.val_v44 m ρ c),
      (h c _ (Cert.KernelIdeal.Gen.mem_uc Cert.KernelIdeal.main_v35 (by decide))).trans (Cert.KernelIdeal.Gen.at_v35_15 m ρ c),
      (h c _ (Cert.KernelIdeal.Gen.mem_uc Cert.KernelIdeal.main_arg0 (by decide))).trans (Cert.KernelIdeal.Gen.W15_main_arg0 m ρ c),
      (h c _ (Cert.KernelIdeal.Gen.mem_uc Cert.KernelIdeal.main_arg1 (by decide))).trans (Cert.KernelIdeal.Gen.W15_main_arg1 m ρ c),
      (h c _ (Cert.KernelIdeal.Gen.mem_uc Cert.KernelIdeal.main_arg2 (by decide))).trans (Cert.KernelIdeal.Gen.W15_main_arg2 m ρ c),
      (h c _ (Cert.KernelIdeal.Gen.mem_uc Cert.KernelIdeal.main_arg3 (by decide))).trans (Cert.KernelIdeal.Gen.W15_main_arg3 m ρ c),
      (h c _ (Cert.KernelIdeal.Gen.mem_uc Cert.KernelIdeal.main_arg4 (by decide))).trans (Cert.KernelIdeal.Gen.W15_main_arg4 m ρ c)⟩
  · refine (θ_run Cert.ReferenceIdeal.defs _ _).mono (fun r h c => ?_) (Cert.ReferenceIdeal.Value.run (F := Ideal) m' ρ')
    have hag : Agree m ρ c (StableHlo.launchContents m' c) :=
      ⟨(hagree c).1, (hagree c).2.1, (hagree c).2.2.1, (hagree c).2.2.2.1, (hagree c).2.2.2.2⟩
    refine ⟨(h c).1.trans (out_eq hag), (h c).2.1.trans ?_, (h c).2.2⟩
    rw [val0_eq hag, val1_eq hag, val2_eq hag, ref15 hag, ref16 hag, ref17 hag, hag.h2, hag.h3]
    rfl

end Cert.Bridge

end
-- ==== Proof.lean ====
/-
  The certificate: the kernel (eight regions among host stretches) and its jnp reference compute the same two
  results on the extended reals.

  Frames. Each kernel instance runs as a chain of fifteen items; every region hands its input arrays back as found and
  no host stretch writes an argument, so the arguments end as launched (Proof/BitsArgs.lean at the word level,
  Proof/IdealArgs.lean at the exact instance). The reference is a straight-line host program (Proof/RefFrame.lean).

  Values (Proof/Algebraic.lean). Both programs project the rows by the same affine map, then run three radial-kernel
  passes. The reference accumulates the kernel matrix over the passes and contracts the accumulated matrix against each
  coefficient block; the kernel contracts each pass's matrix at once into running sums, block of rows by block of rows.
  The two agree because a radial kernel entry is an exponential, hence non-negative, and multiplication distributes over
  sums of non-negative extended reals; halving is dividing by two on every extended real. No finiteness is used.
-/
import proofs.«117133_j29008209117207_1_alg».proof.Defs
import proofs.«117133_j29008209117207_1_alg».proof.Proof.Gen.Kernel
import proofs.«117133_j29008209117207_1_alg».proof.Proof.Gen.KernelIdeal
import proofs.«117133_j29008209117207_1_alg».proof.Proof.Gen.ReferenceIdeal
import proofs.«117133_j29008209117207_1_alg».proof.Proof.Gen.Pre_finite_inputs
import proofs.«117133_j29008209117207_1_alg».proof.Proof.BitsArgs
import proofs.«117133_j29008209117207_1_alg».proof.Proof.IdealArgs
import proofs.«117133_j29008209117207_1_alg».proof.Proof.RefFrame
import proofs.«117133_j29008209117207_1_alg».proof.Proof.Algebraic
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame_all (F := Bits) m ρ

theorem frame_ki : @Cert.frame_KernelIdeal Cert.KernelIdeal.Gen.facts Cert.Pre_finite_inputs.Gen.facts :=
  fun m ρ _ => Cert.KernelIdeal.Gen.frame_all (F := Ideal) m ρ

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefValue.frame_ri, trivial, Cert.Bridge.algebraic⟩

end Cert.Proof

end
